-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S768x768 : Shape := ⟨2, ![768, 768]⟩
abbrev S768 : Shape := ⟨1, ![768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S4096x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S4096x768 : Shape := ⟨2, ![4096, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S768x2304 : Shape := ⟨2, ![768, 2304]⟩
abbrev S1x2304 : Shape := ⟨2, ![1, 2304]⟩
abbrev S4096x2304 : Shape := ⟨2, ![4096, 2304]⟩
abbrev S512x768 : Shape := ⟨2, ![512, 768]⟩
abbrev S512x2304 : Shape := ⟨2, ![512, 2304]⟩
abbrev S1x768 : Shape := ⟨2, ![1, 768]⟩
abbrev S256x768 : Shape := ⟨2, ![256, 768]⟩
abbrev S12x512x256 : Shape := ⟨3, ![12, 512, 256]⟩
abbrev S512x256 : Shape := ⟨2, ![512, 256]⟩
abbrev S512x64 : Shape := ⟨2, ![512, 64]⟩
abbrev S256x64 : Shape := ⟨2, ![256, 64]⟩
abbrev S1x512x256 : Shape := ⟨3, ![1, 512, 256]⟩

abbrev nBuf : Space → Nat
  | .hbm => 19
  | .vmem => 20
  | .smem => 0
  | _ => 0

abbrev bufTy : (tb : Table) → Fin (tcTables nBuf tb) → BufTy
  | .hbm, ⟨0, _⟩ => ⟨S4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2304x768, .f32⟩
  | .hbm, ⟨10, _⟩ => ⟨S2304, .f32⟩
  | .hbm, ⟨11, _⟩ => ⟨S768x2304, .f32⟩
  | .hbm, ⟨12, _⟩ => ⟨S768x2304, .bf16⟩
  | .hbm, ⟨13, _⟩ => ⟨S768x768, .f32⟩
  | .hbm, ⟨14, _⟩ => ⟨S768x768, .bf16⟩
  | .hbm, ⟨15, _⟩ => ⟨S1x2304, .f32⟩
  | .hbm, ⟨16, _⟩ => ⟨S4096x2304, .bf16⟩
  | .hbm, ⟨17, _⟩ => ⟨S1x768, .f32⟩
  | .hbm, ⟨18, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S1x2304, .f32⟩
  | .local _ .vmem, ⟨4, _⟩ => ⟨S512x2304, .bf16⟩
  | .local _ .vmem, ⟨5, _⟩ => ⟨S512x2304, .bf16⟩
  | .local _ .vmem, ⟨6, _⟩ => ⟨S512x768, .bf16⟩
  | .local _ .vmem, ⟨7, _⟩ => ⟨S512x768, .bf16⟩
  | .local _ .vmem, ⟨8, _⟩ => ⟨S256x768, .bf16⟩
  | .local _ .vmem, ⟨9, _⟩ => ⟨S256x768, .bf16⟩
  | .local _ .vmem, ⟨10, _⟩ => ⟨S256x768, .bf16⟩
  | .local _ .vmem, ⟨11, _⟩ => ⟨S256x768, .bf16⟩
  | .local _ .vmem, ⟨12, _⟩ => ⟨S768x768, .bf16⟩
  | .local _ .vmem, ⟨13, _⟩ => ⟨S1x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S12x512x256, .f32⟩
  | .local _ .vmem, ⟨18, _⟩ => ⟨S512x256, .f32⟩
  | .local _ .vmem, ⟨19, _⟩ => ⟨S512x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v464 : BitVec 1 := Scalar.cmpi .eq arg1 c15_i32
  let v465 : BitVec 32 := Scalar.extui v464
  let c0_i32_340 : BitVec 32 := 0#32
  let v466 : BitVec 1 := Scalar.cmpi .ne v465 c0_i32_340
  v466

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  concatenates_S768x768_S768x768_S768x768_S2304x768_d0 : Shape.Concatenates [S768x768, S768x768, S768x768] S2304x768 0
  concatenates_S768_S768_S768_S2304_d0 : Shape.Concatenates [S768, S768, S768] S2304 0
  transposes_S2304x768_S768x2304_1_0 : S2304x768.Transposes [1, 0] S768x2304
  bitsLt_bf16_f32 : FTy.bits .bf16 < FTy.bits .f32
  transposes_S768x768_S768x768_1_0 : S768x768.Transposes [1, 0] S768x768
  shapeCasts_S2304_S1x2304 : S2304.ShapeCasts S1x2304
  inb_S512x768_S512x768_0_0 : ∀ a, (![0, 0] : Fin 2 → Nat) a + S512x768.size a ≤ S512x768.size a
  h_S512x768 : 0 < S512x768.numel
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S768_S1x768 : S768.ShapeCasts S1x768
  shapeCasts_S512x768_S512x768 : S512x768.ShapeCasts S512x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S512x768_o0_0_S512x64 : S512x768.Slices ![0, 0] S512x64
  slices_S256x768_o0_0_S256x64 : S256x768.Slices ![0, 0] S256x64
  inb_S12x512x256_S1x512x256_0_0_0 : ∀ a, (![0, 0, 0] : Fin 3 → Nat) a + S1x512x256.size a ≤ S12x512x256.size a
  h_S1x512x256 : 0 < S1x512x256.numel
  shapeCasts_S1x512x256_S512x256 : S1x512x256.ShapeCasts S512x256
  shapeCasts_S512x256_S1x512x256 : S512x256.ShapeCasts S1x512x256
  slices_S512x768_o0_64_S512x64 : S512x768.Slices ![0, 64] S512x64
  slices_S256x768_o0_64_S256x64 : S256x768.Slices ![0, 64] S256x64
  inb_S12x512x256_S1x512x256_1_0_0 : ∀ a, (![1, 0, 0] : Fin 3 → Nat) a + S1x512x256.size a ≤ S12x512x256.size a
  slices_S512x768_o0_128_S512x64 : S512x768.Slices ![0, 128] S512x64
  slices_S256x768_o0_128_S256x64 : S256x768.Slices ![0, 128] S256x64
  inb_S12x512x256_S1x512x256_2_0_0 : ∀ a, (![2, 0, 0] : Fin 3 → Nat) a + S1x512x256.size a ≤ S12x512x256.size a
  slices_S512x768_o0_192_S512x64 : S512x768.Slices ![0, 192] S512x64
  slices_S256x768_o0_192_S256x64 : S256x768.Slices ![0, 192] S256x64
  inb_S12x512x256_S1x512x256_3_0_0 : ∀ a, (![3, 0, 0] : Fin 3 → Nat) a + S1x512x256.size a ≤ S12x512x256.size a
  slices_S512x768_o0_256_S512x64 : S512x768.Slices ![0, 256] S512x64
  slices_S256x768_o0_256_S256x64 : S256x768.Slices ![0, 256] S256x64
  inb_S12x512x256_S1x512x256_4_0_0 : ∀ a, (![4, 0, 0] : Fin 3 → Nat) a + S1x512x256.size a ≤ S12x512x256.size a
  slices_S512x768_o0_320_S512x64 : S512x768.Slices ![0, 320] S512x64
  slices_S256x768_o0_320_S256x64 : S256x768.Slices ![0, 320] S256x64
  inb_S12x512x256_S1x512x256_5_0_0 : ∀ a, (![5, 0, 0] : Fin 3 → Nat) a + S1x512x256.size a ≤ S12x512x256.size a
  slices_S512x768_o0_384_S512x64 : S512x768.Slices ![0, 384] S512x64
  slices_S256x768_o0_384_S256x64 : S256x768.Slices ![0, 384] S256x64
  inb_S12x512x256_S1x512x256_6_0_0 : ∀ a, (![6, 0, 0] : Fin 3 → Nat) a + S1x512x256.size a ≤ S12x512x256.size a
  slices_S512x768_o0_448_S512x64 : S512x768.Slices ![0, 448] S512x64
  slices_S256x768_o0_448_S256x64 : S256x768.Slices ![0, 448] S256x64
  inb_S12x512x256_S1x512x256_7_0_0 : ∀ a, (![7, 0, 0] : Fin 3 → Nat) a + S1x512x256.size a ≤ S12x512x256.size a
  slices_S512x768_o0_512_S512x64 : S512x768.Slices ![0, 512] S512x64
  slices_S256x768_o0_512_S256x64 : S256x768.Slices ![0, 512] S256x64
  inb_S12x512x256_S1x512x256_8_0_0 : ∀ a, (![8, 0, 0] : Fin 3 → Nat) a + S1x512x256.size a ≤ S12x512x256.size a
  slices_S512x768_o0_576_S512x64 : S512x768.Slices ![0, 576] S512x64
  slices_S256x768_o0_576_S256x64 : S256x768.Slices ![0, 576] S256x64
  inb_S12x512x256_S1x512x256_9_0_0 : ∀ a, (![9, 0, 0] : Fin 3 → Nat) a + S1x512x256.size a ≤ S12x512x256.size a
  slices_S512x768_o0_640_S512x64 : S512x768.Slices ![0, 640] S512x64
  slices_S256x768_o0_640_S256x64 : S256x768.Slices ![0, 640] S256x64
  inb_S12x512x256_S1x512x256_10_0_0 : ∀ a, (![10, 0, 0] : Fin 3 → Nat) a + S1x512x256.size a ≤ S12x512x256.size a
  slices_S512x768_o0_704_S512x64 : S512x768.Slices ![0, 704] S512x64
  slices_S256x768_o0_704_S256x64 : S256x768.Slices ![0, 704] S256x64
  inb_S12x512x256_S1x512x256_11_0_0 : ∀ a, (![11, 0, 0] : Fin 3 → Nat) a + S1x512x256.size a ≤ S12x512x256.size a
  inb_S512x768_S512x64_0_0 : ∀ a, (![0, 0] : Fin 2 → Nat) a + S512x64.size a ≤ S512x768.size a
  h_S512x64 : 0 < S512x64.numel
  shapeCasts_S512x64_S512x64 : S512x64.ShapeCasts S512x64
  inb_S512x768_S512x64_0_64 : ∀ a, (![0, 64] : Fin 2 → Nat) a + S512x64.size a ≤ S512x768.size a
  inb_S512x768_S512x64_0_128 : ∀ a, (![0, 128] : Fin 2 → Nat) a + S512x64.size a ≤ S512x768.size a
  inb_S512x768_S512x64_0_192 : ∀ a, (![0, 192] : Fin 2 → Nat) a + S512x64.size a ≤ S512x768.size a
  inb_S512x768_S512x64_0_256 : ∀ a, (![0, 256] : Fin 2 → Nat) a + S512x64.size a ≤ S512x768.size a
  inb_S512x768_S512x64_0_320 : ∀ a, (![0, 320] : Fin 2 → Nat) a + S512x64.size a ≤ S512x768.size a
  inb_S512x768_S512x64_0_384 : ∀ a, (![0, 384] : Fin 2 → Nat) a + S512x64.size a ≤ S512x768.size a
  inb_S512x768_S512x64_0_448 : ∀ a, (![0, 448] : Fin 2 → Nat) a + S512x64.size a ≤ S512x768.size a
  inb_S512x768_S512x64_0_512 : ∀ a, (![0, 512] : Fin 2 → Nat) a + S512x64.size a ≤ S512x768.size a
  inb_S512x768_S512x64_0_576 : ∀ a, (![0, 576] : Fin 2 → Nat) a + S512x64.size a ≤ S512x768.size a
  inb_S512x768_S512x64_0_640 : ∀ a, (![0, 640] : Fin 2 → Nat) a + S512x64.size a ≤ S512x768.size a
  inb_S512x768_S512x64_0_704 : ∀ a, (![0, 704] : Fin 2 → Nat) a + S512x64.size a ≤ S512x768.size a
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  dot_S512x768_S768x2304_S512x2304_1_0_0_1_n_n_wf : DotDims.WF S512x768 S768x2304 S512x2304 [1] [0] [0] [1] [] []
  dot_S512x64_S256x64_S512x256_1_1_0_0_n_n_wf : DotDims.WF S512x64 S256x64 S512x256 [1] [1] [0] [0] [] []
  dot_S512x256_S256x64_S512x64_1_0_0_1_n_n_wf : DotDims.WF S512x256 S256x64 S512x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S4096x2304.size a
  hwx0_3 : ∀ i : grid0.Coords, EltTy.bits .bf16 = 32 ∨ (Rect.block (s := S4096x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S4096x2304.size a
  hwx1_0 : ∀ i : grid1.Coords, EltTy.bits .bf16 = 32 ∨ (Rect.block (s := S4096x2304) S512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S4096x2304.size a
  hwx1_1 : ∀ i : grid1.Coords, EltTy.bits .bf16 = 32 ∨ (Rect.block (s := S4096x2304) S256x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S4096x2304.size a
  hwx1_2 : ∀ i : grid1.Coords, EltTy.bits .bf16 = 32 ∨ (Rect.block (s := S4096x2304) S256x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x768.size a ≤ S4096x768.size a
  hwx1_5 : ∀ i : grid1.Coords, EltTy.bits .f32 = 32 ∨ (Rect.block (s := S4096x768) S512x768.size (cc1_transform_5 i) (hinb1_5 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S256x64_S512x256_1_1_0_0_n_n : DotDims S512x64 S256x64 S512x256 where
  lhsContracting := [1]
  rhsContracting := [1]
  lhsNonContracting := [0]
  rhsNonContracting := [0]
  lhsBatch := []
  rhsBatch := []
  wf := dot_S512x64_S256x64_S512x256_1_1_0_0_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S512x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x768 : Shape := ⟨2, ![4096, 768]⟩
abbrev S768x768 : Shape := ⟨2, ![768, 768]⟩
abbrev S768 : Shape := ⟨1, ![768]⟩
abbrev S1x768 : Shape := ⟨2, ![1, 768]⟩
abbrev S4096x12x64 : Shape := ⟨3, ![4096, 12, 64]⟩
abbrev S12x64x4096 : Shape := ⟨3, ![12, 64, 4096]⟩
abbrev S12x4096x64 : Shape := ⟨3, ![12, 4096, 64]⟩
abbrev S12x4096x4096 : Shape := ⟨3, ![12, 4096, 4096]⟩
abbrev S_ : Shape := ⟨0, ![]⟩
abbrev S4096x4096 : Shape := ⟨2, ![4096, 4096]⟩
abbrev S1x4096x4096 : Shape := ⟨3, ![1, 4096, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S4096x768, .f32⟩
  | .hbm, ⟨11, _⟩ => ⟨S1x768, .f32⟩
  | .hbm, ⟨12, _⟩ => ⟨S4096x768, .f32⟩
  | .hbm, ⟨13, _⟩ => ⟨S4096x768, .f32⟩
  | .hbm, ⟨14, _⟩ => ⟨S4096x12x64, .f32⟩
  | .hbm, ⟨15, _⟩ => ⟨S12x64x4096, .f32⟩
  | .hbm, ⟨16, _⟩ => ⟨S768x768, .f32⟩
  | .hbm, ⟨17, _⟩ => ⟨S4096x768, .f32⟩
  | .hbm, ⟨18, _⟩ => ⟨S1x768, .f32⟩
  | .hbm, ⟨19, _⟩ => ⟨S4096x768, .f32⟩
  | .hbm, ⟨20, _⟩ => ⟨S4096x768, .f32⟩
  | .hbm, ⟨21, _⟩ => ⟨S4096x12x64, .f32⟩
  | .hbm, ⟨22, _⟩ => ⟨S12x4096x64, .f32⟩
  | .hbm, ⟨23, _⟩ => ⟨S768x768, .f32⟩
  | .hbm, ⟨24, _⟩ => ⟨S4096x768, .f32⟩
  | .hbm, ⟨25, _⟩ => ⟨S1x768, .f32⟩
  | .hbm, ⟨26, _⟩ => ⟨S4096x768, .f32⟩
  | .hbm, ⟨27, _⟩ => ⟨S4096x768, .f32⟩
  | .hbm, ⟨28, _⟩ => ⟨S4096x12x64, .f32⟩
  | .hbm, ⟨29, _⟩ => ⟨S12x4096x64, .f32⟩
  | .hbm, ⟨30, _⟩ => ⟨S12x4096x4096, .f32⟩
  | .hbm, ⟨31, _⟩ => ⟨S_, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S1x4096x4096, .f32⟩
  | .hbm, ⟨37, _⟩ => ⟨S12x4096x4096, .f32⟩
  | .hbm, ⟨38, _⟩ => ⟨S12x4096x4096, .f32⟩
  | .hbm, ⟨39, _⟩ => ⟨S12x4096x4096, .f32⟩
  | .hbm, ⟨40, _⟩ => ⟨S_, .f32⟩
  | .hbm, ⟨41, _⟩ => ⟨S4096x4096, .f32⟩
  | .hbm, ⟨42, _⟩ => ⟨S1x4096x4096, .f32⟩
  | .hbm, ⟨43, _⟩ => ⟨S12x4096x4096, .f32⟩
  | .hbm, ⟨44, _⟩ => ⟨S12x4096x4096, .f32⟩
  | .hbm, ⟨45, _⟩ => ⟨S_, .f32⟩
  | .hbm, ⟨46, _⟩ => ⟨S12x4096x4096, .f32⟩
  | .hbm, ⟨47, _⟩ => ⟨S12x4096x4096, .f32⟩
  | .hbm, ⟨48, _⟩ => ⟨S12x4096x64, .f32⟩
  | .hbm, ⟨49, _⟩ => ⟨S4096x12x64, .f32⟩
  | .hbm, ⟨50, _⟩ => ⟨S4096x768, .f32⟩
  | .hbm, ⟨51, _⟩ => ⟨S768x768, .f32⟩
  | .hbm, ⟨52, _⟩ => ⟨S4096x768, .f32⟩
  | .hbm, ⟨53, _⟩ => ⟨S1x768, .f32⟩
  | .hbm, ⟨54, _⟩ => ⟨S4096x768, .f32⟩
  | .hbm, ⟨55, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  shapeCasts_S4096x768_S4096x12x64 : S4096x768.ShapeCasts S4096x12x64
  transposes_S4096x12x64_S12x64x4096_1_2_0 : S4096x12x64.Transposes [1, 2, 0] S12x64x4096
  transposes_S4096x12x64_S12x4096x64_1_0_2 : S4096x12x64.Transposes [1, 0, 2] S12x4096x64
  reducesTo_S12x4096x4096_S4096x4096_d0 : S12x4096x4096.ReducesTo [0] S4096x4096
  h_S_ : 0 < S_.numel
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S12x4096x4096_0_1_2 : S1x4096x4096.BroadcastsInDim S12x4096x4096 (![0, 1, 2] : Fin 3 → Fin S12x4096x4096.rank)
  bcast_S_S12x4096x4096 : S_.BroadcastsInDim S12x4096x4096 (![] : Fin 0 → Fin S12x4096x4096.rank)
  transposes_S12x4096x64_S4096x12x64_1_0_2 : S12x4096x64.Transposes [1, 0, 2] S4096x12x64
  shapeCasts_S4096x12x64_S4096x768 : S4096x12x64.ShapeCasts S4096x768
  dot_S4096x768_S768x768_S4096x768_1_0_0_1_n_n_wf : DotDims.WF S4096x768 S768x768 S4096x768 [1] [0] [0] [1] [] []
  dot_S12x4096x64_S12x64x4096_S12x4096x4096_2_1_1_2_0_0_wf : DotDims.WF S12x4096x64 S12x64x4096 S12x4096x4096 [2] [1] [1] [2] [0] [0]
  dot_S12x4096x4096_S12x4096x64_S12x4096x64_2_1_1_2_0_0_wf : DotDims.WF S12x4096x4096 S12x4096x64 S12x4096x64 [2] [1] [1] [2] [0] [0]

variable [Facts₀]

def dot_S4096x768_S768x768_S4096x768_1_0_0_1_n_n : DotDims S4096x768 S768x768 S4096x768 where
  lhsContracting := [1]
  rhsContracting := [0]
  lhsNonContracting := [0]
  rhsNonContracting := [1]
  lhsBatch := []
  rhsBatch := []
  wf := dot_S4096x768_S768x768_S4096x768_1_0_0_1_n_n_wf
def dot_S12x4096x64_S12x64x4096_S12x4096x4096_2_1_1_2_0_0 : DotDims S12x4096x64 S12x64x4096 S12x4096x4096 where
  lhsContracting := [2]
  rhsContracting := [1]
  lhsNonContracting := [1]
  rhsNonContracting := [2]
  lhsBatch := [0]
  rhsBatch := [0]
  wf := dot_S12x4096x64_S12x64x4096_S12x4096x4096_2_1_1_2_0_0_wf
def dot_S12x4096x4096_S12x4096x64_S12x4096x64_2_1_1_2_0_0 : DotDims S12x4096x4096 S12x4096x64 S12x4096x64 where
  lhsContracting := [2]
  rhsContracting := [1]
  lhsNonContracting := [1]
  rhsNonContracting := [2]
  lhsBatch := [0]
  rhsBatch := [0]
  wf := dot_S12x4096x4096_S12x4096x64_S12x4096x64_2_1_1_2_0_0_wf

class Facts : Prop extends Facts₀ where

variable [Facts]
-- ==== Proof.K.Shares.lean ====
/- The shares at which custom_call 1's six windows hold their arrays. Windows 0, 1 and 2 read ONE array (custom_call 0's
   result), so its full share is dealt to them in three positive parts: the left half, and the two halves of the right
   half. Windows 3, 4 (inputs with an array of their own) and 5 (the output) hold the full share. -/
import proofs.«178773_j13254269075465_2_alg».proof.Proof.Gen.Kernel
import Idealize.SL.RA.TreeShare

namespace Cert.Kernel.R1

open Idealize.ShloMosaic Idealize.SL.RA
open scoped Idealize.SL.RA.PCS

/-- The three parts of the full share: its left half, -/
abbrev qa : PosShare TreeShare := fullShare.left
/-- the left half of its right half, -/
abbrev qb : PosShare TreeShare := fullShare.right.left
/-- and the right half of its right half. -/
abbrev qc : PosShare TreeShare := fullShare.right.right

/-- The share each window of custom_call 1 holds of its array. -/
def q1 : Fin cfg1.W → PosShare TreeShare
  | ⟨0, _⟩ => qa
  | ⟨1, _⟩ => qb
  | ⟨2, _⟩ => qc
  | _ => fullShare

theorem q1_0 : q1 0 = qa := rfl
theorem q1_1 : q1 1 = qb := rfl
theorem q1_2 : q1 2 = qc := rfl
theorem q1_3 : q1 3 = fullShare := rfl
theorem q1_4 : q1 4 = fullShare := rfl
theorem q1_5 : q1 5 = fullShare := rfl

/-- The last two parts make up the right half, -/
theorem qb_op_qc : fullShare.right ∈ qb ·? qc := PosShare.mem_left_op_right _
/-- and the first part with the right half the whole. -/
theorem qa_op_right : fullShare ∈ qa ·? fullShare.right := PosShare.mem_left_op_right _

end Cert.Kernel.R1
-- ==== Proof.K.R0.lean ====
/- REGION 0 of the program: the tiled linear map `qkv = x · Wᵀ + b` (pallas_call 0), at a PARAMETER `V` — the
   TensorCore's buffer contents when the region is entered. Each window's block at a grid point, what the body leaves
   in the result window's buffer, the body's triple, the pipeline's proof data and the body obligation. -/
import proofs.«178773_j13254269075465_2_alg».proof.Proof.Gen.Kernel.Launch
import proofs.«178773_j13254269075465_2_alg».proof.Proof.Gen.Kernel.Skeleton
import proofs.«178773_j13254269075465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`) holds its block at every point, fetched there or not, for ANY proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weights, one block, fetched at the first point only): the same; where it is not fetched its
    block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row, one block, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0
abbrev r0_3 : Rect S512x2304 := Rect.unit (s := S512x2304) ![0, 0] S512x2304.size inb_S512x2304_S512x2304_0_0

/-! ## What the body leaves in the result window's buffer -/

/-- Window 3's staging buffer after the body, from the input windows' blocks: its one store, of the payload
    `truncate (truncate x0 · x1 + broadcast x2)`, over the whole buffer. -/
def out0_3 (x0 : Vec F S512x768 .f32) (x1 : Vec F S768x2304 .bf16) (x2 : Vec F S1x2304 .f32) : Vec F S512x2304 .bf16 :=
  View.canon [⟨r0_3, k0_pay1 (View.ld x0 r0_0) (View.ld x1 r0_1) (View.ld x2 r0_2)⟩]

/-- The one store tiles the buffer, so it covers it. -/
theorem cover0_3 (p0 : Vec F S512x2304 .bf16) (y : S512x2304.Idx) :
    ∃ pc ∈ ([⟨r0_3, p0⟩] : List (View.Piece (Elt F) S512x2304 .bf16)), y ∈ pc.1.set :=
  View.cover_of_tiled [⟨r0_3, p0⟩] S512x2304.size (by rfl) y

/-! ## The body's triple -/

set_option maxHeartbeats 1000000 in
/-- The kernel body on whole staging memrefs, the three inputs' at read contents `x0 x1 x2` and the output's at
    anything, runs to the continuation holding the inputs' as they were and the output's at `out0_3` of the inputs'. -/
theorem sound_kernel0 (c : Dev nD) (E : Set ℕ) (i : grid0.Coords)
    (arg0 : Memref sig .tc .vmem S512x768 .f32) (harg0 : arg0.IsWhole) (arg1 : Memref sig .tc .vmem S768x2304 .bf16) (harg1 : arg1.IsWhole)
    (arg2 : Memref sig .tc .vmem S1x2304 .f32) (harg2 : arg2.IsWhole) (arg3 : Memref sig .tc .vmem S512x2304 .bf16) (harg3 : arg3.IsWhole)
    (x0 : Vec F S512x768 .f32) (x1 : Vec F S768x2304 .bf16) (x2 : Vec F S1x2304 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Frame

end Cert.Kernel.R0

end
-- ==== Proof.K.R1Conds.lean ====
import proofs.«178773_j13254269075465_2_alg».proof.Proof.Gen.Kernel.Launch
import proofs.«178773_j13254269075465_2_alg».proof.Proof.Gen.Kernel.Skeleton
import proofs.«178773_j13254269075465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention kernel's body, run once per control case

The body branches twice on the second grid coordinate (the index of the block of key/value rows): at the first
block it clears the accumulator, at the last it projects the accumulator and stores the result. On a grid of
16 such blocks a point is in exactly one of three cases: first (A), neither (B), last (C). In each case the body
is run symbolically once, on arbitrary whole buffers; what it leaves in the accumulator (and, in case C, in the
result's buffer) is recorded as the list of the pieces it stored, found by the run itself. -/

/-- The body's first test: the block index is 0. -/
abbrev cond1_0 (i : grid1.Coords) : Prop := (Scalar.cmpi .ne (Scalar.extui (Scalar.cmpi .eq (BitVec.ofNat 32 (i 1).val) 0#32)) 0#32) = 1#1
/-- The body's second test: the block index is 15. -/
abbrev cond1_1 (i : grid1.Coords) : Prop := k1_cond2 i = 1#1

end Cert.Kernel.R1

end
-- ==== Proof.K.R1RunA.lean ====
import proofs.«178773_j13254269075465_2_alg».proof.Proof.K.R1Conds
import proofs.«178773_j13254269075465_2_alg».proof.Proof.Gen.Kernel.Launch
import proofs.«178773_j13254269075465_2_alg».proof.Proof.Gen.Kernel.Skeleton
import proofs.«178773_j13254269075465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (first block of a row of the grid). The five inputs are read and handed back; the result's buffer is left
    as found; the accumulator, at anything before, ends with the pieces `LS0` written; the three work buffers
    (scores, running maximum, running sum) end at some contents. -/
noncomputable def kernelRun1_A (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : cond1_0 i) (hc1 : ¬cond1_1 i)
    (x0 : Vec F S512x768 .bf16) (x1 : Vec F S256x768 .bf16) (x2 : Vec F S256x768 .bf16) (x3 : Vec F S768x768 .bf16) (x4 : Vec F S1x768 .f32) :
    { LS0 : List (View.Piece (Elt F) S512x768 .f32) //
      ∀ (xi5 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.Kernel.R1

end
-- ==== Proof.K.R1RunB.lean ====
import proofs.«178773_j13254269075465_2_alg».proof.Proof.K.R1Conds
import proofs.«178773_j13254269075465_2_alg».proof.Proof.Gen.Kernel.Launch
import proofs.«178773_j13254269075465_2_alg».proof.Proof.Gen.Kernel.Skeleton
import proofs.«178773_j13254269075465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (neither first nor last block). As case A, but the accumulator is entered at the contents `xs0` the
    block before left, and the pieces written into it are sums onto those contents. -/
noncomputable def kernelRun1_B (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : ¬cond1_1 i)
    (x0 : Vec F S512x768 .bf16) (x1 : Vec F S256x768 .bf16) (x2 : Vec F S256x768 .bf16) (x3 : Vec F S768x768 .bf16) (x4 : Vec F S1x768 .f32) (xs0 : Vec F S512x768 .f32) :
    { LS0 : List (View.Piece (Elt F) S512x768 .f32) //
      ∀ (xi5 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.Kernel.R1

end
-- ==== Proof.K.R1RunC.lean ====
import proofs.«178773_j13254269075465_2_alg».proof.Proof.K.R1Conds
import proofs.«178773_j13254269075465_2_alg».proof.Proof.Gen.Kernel.Launch
import proofs.«178773_j13254269075465_2_alg».proof.Proof.Gen.Kernel.Skeleton
import proofs.«178773_j13254269075465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (last block). As case B, and the result's buffer, at anything before, ends with the pieces `L5` written:
    the accumulator's final contents projected. -/
noncomputable def kernelRun1_C (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) :
    Σ' (L5 : List (View.Piece (Elt F) S512x768 .f32)), { LS0 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.Kernel.R1

end
-- ==== Proof.K.R1.lean ====
import proofs.«178773_j13254269075465_2_alg».proof.Proof.K.R1RunA
import proofs.«178773_j13254269075465_2_alg».proof.Proof.K.R1RunB
import proofs.«178773_j13254269075465_2_alg».proof.Proof.K.R1RunC
import proofs.«178773_j13254269075465_2_alg».proof.Proof.K.Shares
import proofs.«178773_j13254269075465_2_alg».proof.Proof.Gen.Kernel.Launch
import proofs.«178773_j13254269075465_2_alg».proof.Proof.Gen.Kernel.Skeleton
import proofs.«178773_j13254269075465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): proof data and body obligation, at the entry contents `V`

A grid point is a pair (block of output rows, block of key/value rows). What the accumulator holds after a point is
defined by recursion on the point's position: the case the position is in (first, middle or last block of key/value
rows), run on the point's blocks of the arrays, the middle and last cases over what the point before left. The
region's invariant carries the accumulator at that value from one point to the next; the three work buffers and
the staging buffers of the other kernel ride along at some contents. The result's buffer is stored only in the last
case; at the other points the window is idle and its buffer is handed back as found. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two tests in closed form, and where the result window is idle -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The buffers the body is called with -/

abbrev VO1_5 : View sig .tc .vmem S512x768 .f32 := (Memref.whole cc1_stg5_0 : Memref sig .tc .vmem S512x768 .f32).view
abbrev ms1_0 (t : Fin cfg1.N) : Memref sig .tc .vmem S512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x768 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x768 .f32 := win1_5.stage (cfg1.slots t 5)
abbrev hs1_5 (t : Fin cfg1.N) : (ms1_5 t).IsWhole := hstage1_5 ((cfg1.slots t 5).cast nbuf1_5)
abbrev scM1_0 : Memref sig .tc .vmem S512x768 .f32 := Memref.whole cc1_scratch0
abbrev scM1_1 : Memref sig .tc .vmem S12x512x256 .f32 := Memref.whole cc1_scratch1
abbrev scM1_2 : Memref sig .tc .vmem S512x256 .f32 := Memref.whole cc1_scratch2
abbrev scM1_3 : Memref sig .tc .vmem S512x256 .f32 := Memref.whole cc1_scratch3
abbrev VS1_0 : View sig .tc .vmem S512x768 .f32 := scM1_0.view

/-- The region's plain invariant spelt out: the other kernel's six staging buffers and this kernel's four scratch
    buffers, each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## What each case leaves -/

/-- At a point where the body stores nothing into the result's buffer the proof data name a placeholder for it: nothing
    reads it (the window is idle there and not written back). -/
def out1_idle_5 : Vec F S512x768 .f32 := VO1_5.read (Elt F) (VO1_5.writes (Elt F) VO1_5.junk [])

/-- Case A's pieces for the accumulator tile it. -/
theorem scover1_A_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : cond1_0 i) (hc1 : ¬cond1_1 i)
    (x0 : Vec F S512x768 .bf16) (x1 : Vec F S256x768 .bf16) (x2 : Vec F S256x768 .bf16) (x3 : Vec F S768x768 .bf16) (x4 : Vec F S1x768 .f32)  (y : S512x768.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).1 S512x768.size (by sl_kernel_rfl) y
/-- What case A leaves in the accumulator: its pieces read back. -/
def sout1_A_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : cond1_0 i) (hc1 : ¬cond1_1 i)
    (x0 : Vec F S512x768 .bf16) (x1 : Vec F S256x768 .bf16) (x2 : Vec F S256x768 .bf16) (x3 : Vec F S768x768 .bf16) (x4 : Vec F S1x768 .f32)  : Vec F S512x768 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4).1)

/-- Case B's pieces for the accumulator tile it. -/
theorem scover1_B_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : ¬cond1_1 i)
    (x0 : Vec F S512x768 .bf16) (x1 : Vec F S256x768 .bf16) (x2 : Vec F S256x768 .bf16) (x3 : Vec F S768x768 .bf16) (x4 : Vec F S1x768 .f32) (xs0 : Vec F S512x768 .f32) (y : S512x768.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0).1 S512x64.size (by sl_kernel_rfl) y
/-- What case B leaves in the accumulator: its pieces read back. -/
def sout1_B_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : ¬cond1_1 i)
    (x0 : Vec F S512x768 .bf16) (x1 : Vec F S256x768 .bf16) (x2 : Vec F S256x768 .bf16) (x3 : Vec F S768x768 .bf16) (x4 : Vec F S1x768 .f32) (xs0 : Vec F S512x768 .f32) : Vec F S512x768 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 xs0).1)

/-- Case C's pieces for the accumulator tile it. -/
theorem scover1_C_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) (y : S512x768.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0).2.1 S512x64.size (by sl_kernel_rfl) y
/-- What case C leaves in the accumulator: its pieces read back. -/
def sout1_C_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) : Vec F S512x768 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 xs0).2.1)
/-- Case C's pieces for the result's buffer tile it. -/
theorem cover1_C_5 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) (y : S512x768.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0).1 S512x768.size (by sl_kernel_rfl) y
/-- What case C leaves in the result's buffer. -/
def out1_C_5 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) : Vec F S512x768 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 hc0 hc1 x0 x1 x2 x3 x4 xs0).1)

/-! ## The accumulation -/

/-- What the result's buffer and the accumulator hold after the body at position `n`: the case the position is in,
    run on the point's blocks; the middle and last cases over what position `n - 1` left in the accumulator. -/
def outsAt1 (c : Dev nD) : (n : ℕ) → n < cfg1.N → Vec F S512x768 .f32 × Vec F S512x768 .f32
  | 0, hn => (out1_idle_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_idle_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_idle_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_idle_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_idle_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- Before position `n`: at the region's entry the plain invariant; afterwards the same with the accumulator at what
    position `n - 1` left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2) ∗ (∃ d, owns (c : Thread nD τ) scM1_1 fullShare d) ∗ (∃ d, owns (c : Thread nD τ) scM1_2 fullShare d) ∗ (∃ d, owns (c : Thread nD τ) scM1_3 fullShare d)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point: the inputs' buffers hold their blocks; the closed forms say which case the point is in; the
    invariant hands the run the accumulator (at what the point before left, or at anything at the very first point) and
    takes it back at this point's value, the case's pieces covering it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3,
        show (dat1 V c).leavesExact 4 t = owns (c : Thread nD τ) (ms1_4 t) fullShare ((dat1 V c).after 4 t) from by
        unfold Dat.leavesExact; rw [liveAt1_4 t], after1_4]
  by_cases h0 : t.val % 16 = 0
  · have h1 : ¬ t.val % 16 = 15 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      isplitl [HS2]; · iexact HS2
      isplitl [HS3]; · iexact HS3
      iintro ⟨H0, H1, H2, H3, H4, H5, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      rw [PhiS1_castSucc V c t, PhiS1_pos V c _ _ hz]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's value is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, Ha5, HS0, HS1, HS2, HS3⟩, Hg⟩
  isplitr [Hg]
  swap; · iexact Hg
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [HS0]; · iexists _; iexact HS0
  isplitl [HS1]; · iexact HS1
  isplitl [HS2]; · iexact HS2
  iexact HS3

theorem hout1 (c : Dev nD) : (dat1 V c).Φ (Fin.last cfg1.N) ⊢ Pipeline.ΦA spec1 c :=
  Phi1_out V c _ (by rw [Fin.val_last]; have : cfg1.N = 128 := N_1; omega)

end Cert.Kernel.R1

end
-- ==== Proof.K.Run.lean ====
/- @main of the kernel program as four segments — a stretch of host operations, the first pallas_call's region, a
   stretch of host operations, the second pallas_call's region — over the several-region launch theorem, ending in
   the run theorem that reads every unscoped buffer off the last boundary's contents.

   The second region hands ONE array (the first region's result) to three input windows. Its entry therefore deals
   that buffer's full share to the three windows in three positive parts (Shares.lean), and its exit joins the parts
   back, every input window's array being unchanged by the region. -/
import proofs.«178773_j13254269075465_2_alg».proof.Proof.Gen.Kernel.Launch
import proofs.«178773_j13254269075465_2_alg».proof.Proof.Gen.Kernel.Regions
import proofs.«178773_j13254269075465_2_alg».proof.Proof.Gen.Kernel.Skeleton
import proofs.«178773_j13254269075465_2_alg».proof.Proof.Gen.Kernel.Points
import proofs.«178773_j13254269075465_2_alg».proof.Proof.K.Shares
import proofs.«178773_j13254269075465_2_alg».proof.Proof.K.R0
import proofs.«178773_j13254269075465_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves (the inputs as entered, the output's
    write-backs folded), every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
/-- The same read at the TensorCore's references (what the second region's proof data take). -/
abbrev V3 : (c : Dev nD) → (b : Ref sig .tc) → Buf (Elt F) ((c : Thread nD τ).loc b) := fun c b => W3 m ρ c b
/-- At the second region's exit: its one output array at what the pipeline leaves, every other buffer as entered
    (its input windows' arrays are never written). -/
def W4 (c : Dev nD) : Valuation τ sig (Elt F) :=
  Function.update (W3 m ρ c) (Proc.devRef .tc main_v9) ((R1.dat1 (V3 m ρ) c).arrAt 5 cfg1.N)
/-- The same read at the TensorCore's references (the second region's exit contents). -/
abbrev V4 : (c : Dev nD) → (b : Ref sig .tc) → Buf (Elt F) ((c : Thread nD τ).loc b) := fun c b => W4 m ρ c b

theorem W4_main_v9 (c : Dev nD) : W4 m ρ c (Proc.devRef .tc main_v9) = (R1.dat1 (V3 m ρ) c).arrAt 5 cfg1.N := by
  unfold W4; exact Function.update_self ..
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The second region's arrays: one buffer dealt to three windows -/

/-- A window's array, a whole buffer, held through the window's view is the buffer held whole. -/
theorem arr_pt1 (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

/-- The DISTINCT buffers behind the second region's arrays, each whole at contents `V`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v7) ↦{fullShare} V main_v7) ∗ (((c : Thread nD τ).loc main_v5) ↦{fullShare} V main_v5)
          ∗ (((c : Thread nD τ).loc main_v8) ↦{fullShare} V main_v8) ∗ (((c : Thread nD τ).loc main_v9) ↦{fullShare} V main_v9)) := by
  unfold Pipeline.arrBufs
  exact bigSep_eq_bigSepL_of_eq [main_v7, main_v5, main_v8, main_v9] (by decide) (by decide) _

/-- A core's unscoped buffers at contents `V` are the buffers behind the second region's arrays and the rest. -/
theorem ub_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ (cfgs := cfgs) (p := 1) winFacts₀1.arr_unscoped c V

/-- The share each window holds of its array, for any proof data dealing the shares of Shares.lean. -/
theorem share1 {c : Dev nD} (dat : Dat τ (Elt F) Unit ℕ (UR sig nD τ) ℕ cfg1 c) (hq : ∀ w, dat.q w = R1.q1 w) :
    dat.share 0 = R1.qa ∧ dat.share 1 = R1.qb ∧ dat.share 2 = R1.qc
      ∧ dat.share 3 = fullShare ∧ dat.share 4 = fullShare ∧ dat.share 5 = fullShare := by
  unfold Pipeline.Dat.share
  refine ⟨?_, ?_, ?_, ?_, ?_, ?_⟩
  · rw [hq 0]; rfl
  · rw [hq 1]; rfl
  · rw [hq 2]; rfl
  · rw [hq 3]; rfl
  · rw [hq 4]; rfl
  · rfl

/-- ENTRY: the buffers behind the second region's arrays, each whole at contents `V`, are its arrays at contents read
    off `V` — the buffer windows 0, 1 and 2 read dealt to them in three shares. -/
theorem arrays_split1 (c : Dev nD) (V : (b : Ref sig .tc) → Buf (Elt F) ((c : Thread nD τ).loc b))
    (dat : Dat τ (Elt F) Unit ℕ (UR sig nD τ) ℕ cfg1 c) (hq : ∀ w, dat.q w = R1.q1 w)
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  obtain ⟨h0, h1, h2, h3, h4, h5⟩ := share1 dat hq
  rw [arrBufs1_eq]
  unfold Pipeline.Dat.arrays
  rw [bigSep_W1, arr_pt1 c 0, arr_pt1 c 1, arr_pt1 c 2, arr_pt1 c 3, arr_pt1 c 4, arr_pt1 c 5]
  simp only [h0, h1, h2, h3, h4, h5, hG]
  iintro ⟨H7, H5, H8, H9⟩
  ihave H7' := (pointsTo_share R1.qa_op_right).1 $$ H7
  icases H7' with ⟨Ha, Hr⟩
  ihave Hr' := (pointsTo_share R1.qb_op_qc).1 $$ Hr
  icases Hr' with ⟨Hb, Hc⟩
  isplitl [Ha]; · iexact Ha
  isplitl [Hb]; · iexact Hb
  isplitl [Hc]; · iexact Hc
  isplitl [H5]; · iexact H5
  isplitl [H8]; · iexact H8
  iexact H9

/-- EXIT: the second region's arrays at contents read off `V` are the buffers behind them, each whole at `V` — the
    three shares of the buffer windows 0, 1 and 2 read joined back. -/
theorem arrays_join1 (c : Dev nD) (V : (b : Ref sig .tc) → Buf (Elt F) ((c : Thread nD τ).loc b))
    (dat : Dat τ (Elt F) Unit ℕ (UR sig nD τ) ℕ cfg1 c) (hq : ∀ w, dat.q w = R1.q1 w)
    (G : (w : Fin cfg1.W) → Buf (Elt F) ((cfg1.win w).arr.view.loc (c : Thread nD τ))) (hG : ∀ w, G w = V (Pipeline.arrRef spec1 w)) :
    dat.arrays G ⊢ (Pipeline.arrBufs (Ix := Unit) (Name := ℕ) (U := UR sig nD τ) (Lvl := ℕ) spec1 c V : sProp 𝕄) := by
  obtain ⟨h0, h1, h2, h3, h4, h5⟩ := share1 dat hq
  rw [arrBufs1_eq]
  unfold Pipeline.Dat.arrays
  rw [bigSep_W1, arr_pt1 c 0, arr_pt1 c 1, arr_pt1 c 2, arr_pt1 c 3, arr_pt1 c 4, arr_pt1 c 5]
  simp only [h0, h1, h2, h3, h4, h5, hG]
  iintro ⟨Ha, Hb, Hc, H5, H8, H9⟩
  ihave Hr := (pointsTo_share R1.qb_op_qc).2 $$ [Hb Hc]
  · isplitl [Hb]; · iexact Hb
    iexact Hc
  ihave H7 := (pointsTo_share R1.qa_op_right).2 $$ [Ha Hr]
  · isplitl [Ha]; · iexact Ha
    iexact Hr
  isplitl [H7]; · iexact H7
  isplitl [H5]; · iexact H5
  isplitl [H8]; · iexact H8
  iexact H9

/-- The second region's proof data deal the shares of Shares.lean. -/
theorem q_eq1 (c : Dev nD) (w : Fin cfg1.W) : (R1.dat1 (V3 m ρ) c).q w = R1.q1 w := rfl

/-- ENTRY, the arrays' part: the unscoped buffers at `W3` are the second region's arrays at the proof data's entry
    contents and the unscoped rest. -/
theorem arrays_entry1 (c : Dev nD) :
    (StableHlo.held (c : Thread nD τ) (Pipeline.ucRefs τ sig) (W3 m ρ c) : sProp 𝕄)
      ⊢ iprop((R1.dat1 (V3 m ρ) c).arrays ((R1.dat1 (V3 m ρ) c).arrAt · 0)
          ∗ Pipeline.unscopedRest (Ix := Unit) (Name := ℕ) (U := UR sig nD τ) (Lvl := ℕ) spec1 c (V3 m ρ c)) := by
  rw [← Pipeline.unscopedBufs_held c (W3 m ρ c), ub_split1]
  exact sep_mono (arrays_split1 c (V3 m ρ c) _ (q_eq1 m ρ c) _ fun w => R1.A_eq1 (V3 m ρ) c w) .rfl

/-- At the second region's exit each of its arrays holds what `W4` says: an input's, never written, what it held at
    entry; the output's what the pipeline leaves. -/
theorem hF1_in (c : Dev nD) (w : Fin cfg1.W) (hw : (cfg1.win w).isOut = false) (hne : Pipeline.arrRef spec1 w ≠ main_v9) :
    (R1.dat1 (V3 m ρ) c).arrAt w cfg1.N = V4 m ρ c (Pipeline.arrRef spec1 w) :=
  (((R1.dat1 (V3 m ρ) c).arrAt_in w hw _).trans (R1.A_eq1 (V3 m ρ) c w)).trans (W4_of_ne m ρ c (Pipeline.arrRef spec1 w) hne).symm
theorem hF1 (c : Dev nD) (w : Fin cfg1.W) : (R1.dat1 (V3 m ρ) c).arrAt w cfg1.N = V4 m ρ c (Pipeline.arrRef spec1 w) := by
  have h : w = 0 ∨ w = 1 ∨ w = 2 ∨ w = 3 ∨ w = 4 ∨ w = 5 := by revert w; decide
  rcases h with rfl | rfl | rfl | rfl | rfl | rfl
  · exact hF1_in m ρ c 0 rfl (by decide)
  · exact hF1_in m ρ c 1 rfl (by decide)
  · exact hF1_in m ρ c 2 rfl (by decide)
  · exact hF1_in m ρ c 3 rfl (by decide)
  · exact hF1_in m ρ c 4 rfl (by decide)
  · exact (W4_main_v9 m ρ c).symm

/-- EXIT, the arrays' part: the second region's arrays at their final contents and the unscoped rest are the unscoped
    buffers at `W4`. -/
theorem arrays_exit1 (c : Dev nD) :
    iprop((R1.dat1 (V3 m ρ) c).arrays ((R1.dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held c (W4 m ρ c), ub_split1]
  refine sep_mono (arrays_join1 c (V4 m ρ c) _ (q_eq1 m ρ c) _ (hF1 m ρ c)) (Entails.of_eq ?_)
  unfold Pipeline.unscopedRest
  refine bigSep_congr fun b hb => ?_
  have hne : b ≠ main_v9 := by
    rintro rfl
    exact (Finset.mem_sdiff.mp hb).2 (Finset.mem_image.mpr ⟨5, Finset.mem_univ _, rfl⟩)
  exact congrArg (fun x => (((c : Thread nD τ).loc b) ↦{fullShare} x : sProp 𝕄)) (W4_of_ne m ρ c b hne).symm

/-! ## The regions as segments -/

set_option backward.isDefEq.respectTransparency.types false in
/-- The first region over the thread state: entered from every unscoped buffer at `W1`, left at `W2`. Its arrays
    (distinct buffers) split out of the unscoped buffers and put back at the exit contents; the generator register
    into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. The buffer
    three of its input windows read is dealt to them in three shares at entry and joined back at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin1 (V3 m ρ) c)
    unfold Pipeline.ΦA
    iintro ⟨Hp, -, Hr⟩
    isplitl [Hr]; · iexact Hr
    iexact Hp
  hout c := by
    rw [Pipeline.ownSems0_none]
    refine (R1.hout1 (V3 m ρ) c).trans ?_
    unfold Pipeline.ΦA
    iintro ⟨Hr, Hp⟩
    isplitl [Hp]; · iexact Hp
    isplitr; · iempintro
    iexact Hr
  hexit c := by
    have hjoin := arrays_exit1 m ρ c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's 4 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- The run at any postcondition that follows from the final memory holding, on every core, every unscoped buffer at
    the last boundary's contents `W4`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE RUN: from any memory with zero counters every weakly fair execution of @main on the TensorCores terminates,
    nothing faulting, and the final memory holds on every core every unscoped buffer at `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun _ h => h

/-! ## The arguments end as launched

No host operation and no region writes an argument (a region reads it through an input window or bypasses it), so the
fold at an argument's buffer walks back to the launch memory. -/

/-- A buffer neither stretch of host operations writes and no window of the first region names, other than the second
    region's output, ends as launched. -/
theorem W4_of_bypass (c : Dev nD) (b : Ref sig .tc) (h9 : b ≠ main_v9) (h1 : b ∉ hostOps1_W)
    (h2 : ∀ w, Pipeline.arrRef spec0 w ≠ b) (h0 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h9
    _ = W2 m ρ c (Proc.devRef .tc b) := StableHlo.after_of_writes_sub hostOps1 _ hostOps1_writes h1
    _ = W1 m ρ c (Proc.devRef .tc b) := W2_of_ne m ρ c b h2
    _ = W0 m ρ c (Proc.devRef .tc b) := StableHlo.after_of_writes_sub hostOps0 _ hostOps0_writes h0
    _ = m ((c : Thread nD τ).loc b) := rfl

/-- The first argument is the first region's input window 0's array: never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  W4_of_bypass m ρ c main_arg1 (by decide) (by decide) (by decide) (by decide)
theorem W4_main_arg2 (c : Dev nD) : W4 m ρ c (Proc.devRef .tc main_arg2) = m ((c : Thread nD τ).loc main_arg2) :=
  W4_of_bypass m ρ c main_arg2 (by decide) (by decide) (by decide) (by decide)
theorem W4_main_arg3 (c : Dev nD) : W4 m ρ c (Proc.devRef .tc main_arg3) = m ((c : Thread nD τ).loc main_arg3) :=
  W4_of_bypass m ρ c main_arg3 (by decide) (by decide) (by decide) (by decide)
theorem W4_main_arg4 (c : Dev nD) : W4 m ρ c (Proc.devRef .tc main_arg4) = m ((c : Thread nD τ).loc main_arg4) :=
  W4_of_bypass m ρ c main_arg4 (by decide) (by decide) (by decide) (by decide)
theorem W4_main_arg5 (c : Dev nD) : W4 m ρ c (Proc.devRef .tc main_arg5) = m ((c : Thread nD τ).loc main_arg5) :=
  W4_of_bypass m ρ c main_arg5 (by decide) (by decide) (by decide) (by decide)
theorem W4_main_arg6 (c : Dev nD) : W4 m ρ c (Proc.devRef .tc main_arg6) = m ((c : Thread nD τ).loc main_arg6) :=
  W4_of_bypass m ρ c main_arg6 (by decide) (by decide) (by decide) (by decide)
theorem W4_main_arg7 (c : Dev nD) : W4 m ρ c (Proc.devRef .tc main_arg7) = m ((c : Thread nD τ).loc main_arg7) :=
  W4_of_bypass m ρ c main_arg7 (by decide) (by decide) (by decide) (by decide)
theorem W4_main_arg8 (c : Dev nD) : W4 m ρ c (Proc.devRef .tc main_arg8) = m ((c : Thread nD τ).loc main_arg8) :=
  W4_of_bypass m ρ c main_arg8 (by decide) (by decide) (by decide) (by decide)

/-- THE FRAME: at the compiled mesh, from any memory with zero counters, every weakly fair execution of @main on the
    TensorCores terminates, nothing faulting, and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩

end Cert.Kernel.Asm

end
-- ==== Proof.KI.Shares.lean ====
/- The shares at which custom_call 1's six windows hold their arrays. Windows 0, 1 and 2 read ONE array (custom_call 0's
   result), so its full share is dealt to them in three positive parts: the left half, and the two halves of the right
   half. Windows 3, 4 (inputs with an array of their own) and 5 (the output) hold the full share. -/
import proofs.«178773_j13254269075465_2_alg».proof.Proof.Gen.KernelIdeal
import Idealize.SL.RA.TreeShare

namespace Cert.KernelIdeal.R1

open Idealize.ShloMosaic Idealize.SL.RA
open scoped Idealize.SL.RA.PCS

/-- The three parts of the full share: its left half, -/
abbrev qa : PosShare TreeShare := fullShare.left
/-- the left half of its right half, -/
abbrev qb : PosShare TreeShare := fullShare.right.left
/-- and the right half of its right half. -/
abbrev qc : PosShare TreeShare := fullShare.right.right

/-- The share each window of custom_call 1 holds of its array. -/
def q1 : Fin cfg1.W → PosShare TreeShare
  | ⟨0, _⟩ => qa
  | ⟨1, _⟩ => qb
  | ⟨2, _⟩ => qc
  | _ => fullShare

theorem q1_0 : q1 0 = qa := rfl
theorem q1_1 : q1 1 = qb := rfl
theorem q1_2 : q1 2 = qc := rfl
theorem q1_3 : q1 3 = fullShare := rfl
theorem q1_4 : q1 4 = fullShare := rfl
theorem q1_5 : q1 5 = fullShare := rfl

/-- The last two parts make up the right half, -/
theorem qb_op_qc : fullShare.right ∈ qb ·? qc := PosShare.mem_left_op_right _
/-- and the first part with the right half the whole. -/
theorem qa_op_right : fullShare ∈ qa ·? fullShare.right := PosShare.mem_left_op_right _

end Cert.KernelIdeal.R1
-- ==== Proof.KI.R0.lean ====
/- REGION 0 of the program: the tiled linear map `qkv = x · Wᵀ + b` (pallas_call 0), at a PARAMETER `V` — the
   TensorCore's buffer contents when the region is entered. Each window's block at a grid point, what the body leaves
   in the result window's buffer, the body's triple, the pipeline's proof data and the body obligation. -/
import proofs.«178773_j13254269075465_2_alg».proof.Proof.Gen.KernelIdeal.Launch
import proofs.«178773_j13254269075465_2_alg».proof.Proof.Gen.KernelIdeal.Skeleton
import proofs.«178773_j13254269075465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of `x`) holds its block at every point, fetched there or not, for ANY proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weights, one block, fetched at the first point only): the same; where it is not fetched its
    block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row, one block, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0
abbrev r0_3 : Rect S512x2304 := Rect.unit (s := S512x2304) ![0, 0] S512x2304.size inb_S512x2304_S512x2304_0_0

/-! ## What the body leaves in the result window's buffer -/

/-- Window 3's staging buffer after the body, from the input windows' blocks: its one store, of the payload
    `truncate (truncate x0 · x1 + broadcast x2)`, over the whole buffer. -/
def out0_3 (x0 : Vec F S512x768 .f32) (x1 : Vec F S768x2304 .bf16) (x2 : Vec F S1x2304 .f32) : Vec F S512x2304 .bf16 :=
  View.canon [⟨r0_3, k0_pay1 (View.ld x0 r0_0) (View.ld x1 r0_1) (View.ld x2 r0_2)⟩]

/-- The one store tiles the buffer, so it covers it. -/
theorem cover0_3 (p0 : Vec F S512x2304 .bf16) (y : S512x2304.Idx) :
    ∃ pc ∈ ([⟨r0_3, p0⟩] : List (View.Piece (Elt F) S512x2304 .bf16)), y ∈ pc.1.set :=
  View.cover_of_tiled [⟨r0_3, p0⟩] S512x2304.size (by rfl) y

/-! ## The body's triple -/

set_option maxHeartbeats 1000000 in
/-- The kernel body on whole staging memrefs, the three inputs' at read contents `x0 x1 x2` and the output's at
    anything, runs to the continuation holding the inputs' as they were and the output's at `out0_3` of the inputs'. -/
theorem sound_kernel0 (c : Dev nD) (E : Set ℕ) (i : grid0.Coords)
    (arg0 : Memref sig .tc .vmem S512x768 .f32) (harg0 : arg0.IsWhole) (arg1 : Memref sig .tc .vmem S768x2304 .bf16) (harg1 : arg1.IsWhole)
    (arg2 : Memref sig .tc .vmem S1x2304 .f32) (harg2 : arg2.IsWhole) (arg3 : Memref sig .tc .vmem S512x2304 .bf16) (harg3 : arg3.IsWhole)
    (x0 : Vec F S512x768 .f32) (x1 : Vec F S768x2304 .bf16) (x2 : Vec F S1x2304 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Frame

end Cert.KernelIdeal.R0

end
-- ==== Proof.KI.R1Conds.lean ====
import proofs.«178773_j13254269075465_2_alg».proof.Proof.Gen.KernelIdeal.Launch
import proofs.«178773_j13254269075465_2_alg».proof.Proof.Gen.KernelIdeal.Skeleton
import proofs.«178773_j13254269075465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention kernel's body, run once per control case

The body branches twice on the second grid coordinate (the index of the block of key/value rows): at the first
block it clears the accumulator, at the last it projects the accumulator and stores the result. On a grid of
16 such blocks a point is in exactly one of three cases: first (A), neither (B), last (C). In each case the body
is run symbolically once, on arbitrary whole buffers; what it leaves in the accumulator (and, in case C, in the
result's buffer) is recorded as the list of the pieces it stored, found by the run itself. -/

/-- The body's first test: the block index is 0. -/
abbrev cond1_0 (i : grid1.Coords) : Prop := (Scalar.cmpi .ne (Scalar.extui (Scalar.cmpi .eq (BitVec.ofNat 32 (i 1).val) 0#32)) 0#32) = 1#1
/-- The body's second test: the block index is 15. -/
abbrev cond1_1 (i : grid1.Coords) : Prop := k1_cond2 i = 1#1

end Cert.KernelIdeal.R1

end
-- ==== Proof.KI.R1RunA.lean ====
import proofs.«178773_j13254269075465_2_alg».proof.Proof.KI.R1Conds
import proofs.«178773_j13254269075465_2_alg».proof.Proof.Gen.KernelIdeal.Launch
import proofs.«178773_j13254269075465_2_alg».proof.Proof.Gen.KernelIdeal.Skeleton
import proofs.«178773_j13254269075465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (first block of a row of the grid). The five inputs are read and handed back; the result's buffer is left
    as found; the accumulator, at anything before, ends with the pieces `LS0` written; the three work buffers
    (scores, running maximum, running sum) end at some contents. -/
noncomputable def kernelRun1_A (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : cond1_0 i) (hc1 : ¬cond1_1 i)
    (x0 : Vec F S512x768 .bf16) (x1 : Vec F S256x768 .bf16) (x2 : Vec F S256x768 .bf16) (x3 : Vec F S768x768 .bf16) (x4 : Vec F S1x768 .f32) :
    { LS0 : List (View.Piece (Elt F) S512x768 .f32) //
      ∀ (xi5 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.KernelIdeal.R1

end
-- ==== Proof.KI.R1RunB.lean ====
import proofs.«178773_j13254269075465_2_alg».proof.Proof.KI.R1Conds
import proofs.«178773_j13254269075465_2_alg».proof.Proof.Gen.KernelIdeal.Launch
import proofs.«178773_j13254269075465_2_alg».proof.Proof.Gen.KernelIdeal.Skeleton
import proofs.«178773_j13254269075465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (neither first nor last block). As case A, but the accumulator is entered at the contents `xs0` the
    block before left, and the pieces written into it are sums onto those contents. -/
noncomputable def kernelRun1_B (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : ¬cond1_1 i)
    (x0 : Vec F S512x768 .bf16) (x1 : Vec F S256x768 .bf16) (x2 : Vec F S256x768 .bf16) (x3 : Vec F S768x768 .bf16) (x4 : Vec F S1x768 .f32) (xs0 : Vec F S512x768 .f32) :
    { LS0 : List (View.Piece (Elt F) S512x768 .f32) //
      ∀ (xi5 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.KernelIdeal.R1

end
-- ==== Proof.KI.R1RunC.lean ====
import proofs.«178773_j13254269075465_2_alg».proof.Proof.KI.R1Conds
import proofs.«178773_j13254269075465_2_alg».proof.Proof.Gen.KernelIdeal.Launch
import proofs.«178773_j13254269075465_2_alg».proof.Proof.Gen.KernelIdeal.Skeleton
import proofs.«178773_j13254269075465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (last block). As case B, and the result's buffer, at anything before, ends with the pieces `L5` written:
    the accumulator's final contents projected. -/
noncomputable def kernelRun1_C (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) :
    Σ' (L5 : List (View.Piece (Elt F) S512x768 .f32)), { LS0 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]
    · iexists _; iexists _; isplitr
      swap; · iexact HS1
      ipureintro; rfl
    isplitl [HS2]
    · iexists _; iexists _; isplitr
      swap; · iexact HS2
      ipureintro; rfl
    iexists _; iexists _; isplitr
    swap; · iexact HS3
    ipureintro; rfl

end Cert.KernelIdeal.R1

end
-- ==== Proof.KI.R1.lean ====
import proofs.«178773_j13254269075465_2_alg».proof.Proof.KI.R1RunA
import proofs.«178773_j13254269075465_2_alg».proof.Proof.KI.R1RunB
import proofs.«178773_j13254269075465_2_alg».proof.Proof.KI.R1RunC
import proofs.«178773_j13254269075465_2_alg».proof.Proof.KI.Shares
import proofs.«178773_j13254269075465_2_alg».proof.Proof.Gen.KernelIdeal.Launch
import proofs.«178773_j13254269075465_2_alg».proof.Proof.Gen.KernelIdeal.Skeleton
import proofs.«178773_j13254269075465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): proof data and body obligation, at the entry contents `V`

A grid point is a pair (block of output rows, block of key/value rows). What the accumulator holds after a point is
defined by recursion on the point's position: the case the position is in (first, middle or last block of key/value
rows), run on the point's blocks of the arrays, the middle and last cases over what the point before left. The
region's invariant carries the accumulator at that value from one point to the next; the three work buffers and
the staging buffers of the other kernel ride along at some contents. The result's buffer is stored only in the last
case; at the other points the window is idle and its buffer is handed back as found. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two tests in closed form, and where the result window is idle -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The buffers the body is called with -/

abbrev VO1_5 : View sig .tc .vmem S512x768 .f32 := (Memref.whole cc1_stg5_0 : Memref sig .tc .vmem S512x768 .f32).view
abbrev ms1_0 (t : Fin cfg1.N) : Memref sig .tc .vmem S512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x768 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x768 .f32 := win1_5.stage (cfg1.slots t 5)
abbrev hs1_5 (t : Fin cfg1.N) : (ms1_5 t).IsWhole := hstage1_5 ((cfg1.slots t 5).cast nbuf1_5)
abbrev scM1_0 : Memref sig .tc .vmem S512x768 .f32 := Memref.whole cc1_scratch0
abbrev scM1_1 : Memref sig .tc .vmem S12x512x256 .f32 := Memref.whole cc1_scratch1
abbrev scM1_2 : Memref sig .tc .vmem S512x256 .f32 := Memref.whole cc1_scratch2
abbrev scM1_3 : Memref sig .tc .vmem S512x256 .f32 := Memref.whole cc1_scratch3
abbrev VS1_0 : View sig .tc .vmem S512x768 .f32 := scM1_0.view

/-- The region's plain invariant spelt out: the other kernel's six staging buffers and this kernel's four scratch
    buffers, each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## What each case leaves -/

/-- At a point where the body stores nothing into the result's buffer the proof data name a placeholder for it: nothing
    reads it (the window is idle there and not written back). -/
def out1_idle_5 : Vec F S512x768 .f32 := VO1_5.read (Elt F) (VO1_5.writes (Elt F) VO1_5.junk [])

/-- Case A's pieces for the accumulator tile it. -/
theorem scover1_A_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : cond1_0 i) (hc1 : ¬cond1_1 i)
    (x0 : Vec F S512x768 .bf16) (x1 : Vec F S256x768 .bf16) (x2 : Vec F S256x768 .bf16) (x3 : Vec F S768x768 .bf16) (x4 : Vec F S1x768 .f32)  (y : S512x768.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).1 S512x768.size (by sl_kernel_rfl) y
/-- What case A leaves in the accumulator: its pieces read back. -/
def sout1_A_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : cond1_0 i) (hc1 : ¬cond1_1 i)
    (x0 : Vec F S512x768 .bf16) (x1 : Vec F S256x768 .bf16) (x2 : Vec F S256x768 .bf16) (x3 : Vec F S768x768 .bf16) (x4 : Vec F S1x768 .f32)  : Vec F S512x768 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4).1)

/-- Case B's pieces for the accumulator tile it. -/
theorem scover1_B_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : ¬cond1_1 i)
    (x0 : Vec F S512x768 .bf16) (x1 : Vec F S256x768 .bf16) (x2 : Vec F S256x768 .bf16) (x3 : Vec F S768x768 .bf16) (x4 : Vec F S1x768 .f32) (xs0 : Vec F S512x768 .f32) (y : S512x768.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0).1 S512x64.size (by sl_kernel_rfl) y
/-- What case B leaves in the accumulator: its pieces read back. -/
def sout1_B_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : ¬cond1_1 i)
    (x0 : Vec F S512x768 .bf16) (x1 : Vec F S256x768 .bf16) (x2 : Vec F S256x768 .bf16) (x3 : Vec F S768x768 .bf16) (x4 : Vec F S1x768 .f32) (xs0 : Vec F S512x768 .f32) : Vec F S512x768 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 xs0).1)

/-- Case C's pieces for the accumulator tile it. -/
theorem scover1_C_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) (y : S512x768.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0).2.1 S512x64.size (by sl_kernel_rfl) y
/-- What case C leaves in the accumulator: its pieces read back. -/
def sout1_C_0 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) : Vec F S512x768 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 xs0).2.1)
/-- Case C's pieces for the result's buffer tile it. -/
theorem cover1_C_5 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) (y : S512x768.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0).1 S512x768.size (by sl_kernel_rfl) y
/-- What case C leaves in the result's buffer. -/
def out1_C_5 (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec F S512x768 .bf16) (x1 : Vec F S256x768 .bf16) (x2 : Vec F S256x768 .bf16) (x3 : Vec F S768x768 .bf16) (x4 : Vec F S1x768 .f32) (xs0 : Vec F S512x768 .f32) : Vec F S512x768 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 hc0 hc1 x0 x1 x2 x3 x4 xs0).1)

/-! ## The accumulation -/

/-- What the result's buffer and the accumulator hold after the body at position `n`: the case the position is in,
    run on the point's blocks; the middle and last cases over what position `n - 1` left in the accumulator. -/
def outsAt1 (c : Dev nD) : (n : ℕ) → n < cfg1.N → Vec F S512x768 .f32 × Vec F S512x768 .f32
  | 0, hn => (out1_idle_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_idle_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_idle_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_idle_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_idle_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- Before position `n`: at the region's entry the plain invariant; afterwards the same with the accumulator at what
    position `n - 1` left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2) ∗ (∃ d, owns (c : Thread nD τ) scM1_1 fullShare d) ∗ (∃ d, owns (c : Thread nD τ) scM1_2 fullShare d) ∗ (∃ d, owns (c : Thread nD τ) scM1_3 fullShare d)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 8000000 in
/-- The body at any point: the inputs' buffers hold their blocks; the closed forms say which case the point is in; the
    invariant hands the run the accumulator (at what the point before left, or at anything at the very first point) and
    takes it back at this point's value, the case's pieces covering it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3,
        show (dat1 V c).leavesExact 4 t = owns (c : Thread nD τ) (ms1_4 t) fullShare ((dat1 V c).after 4 t) from by
        unfold Dat.leavesExact; rw [liveAt1_4 t], after1_4]
  by_cases h0 : t.val % 16 = 0
  · have h1 : ¬ t.val % 16 = 15 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      isplitl [HS2]; · iexact HS2
      isplitl [HS3]; · iexact HS3
      iintro ⟨H0, H1, H2, H3, H4, H5, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      rw [PhiS1_castSucc V c t, PhiS1_pos V c _ _ hz]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨Ha0, Ha1, Ha2, Ha3, Ha4, Ha5, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, HS1, HS2, HS3⟩
      isplitl [Ha0 Ha1 Ha2 Ha3 Ha4 Ha5 HS0 HS1 HS2 HS3 Hg]
      · isplitr [Hg]
        swap; · iexact Hg
        isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's value is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, Ha5, HS0, HS1, HS2, HS3⟩, Hg⟩
  isplitr [Hg]
  swap; · iexact Hg
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [HS0]; · iexists _; iexact HS0
  isplitl [HS1]; · iexact HS1
  isplitl [HS2]; · iexact HS2
  iexact HS3

theorem hout1 (c : Dev nD) : (dat1 V c).Φ (Fin.last cfg1.N) ⊢ Pipeline.ΦA spec1 c :=
  Phi1_out V c _ (by rw [Fin.val_last]; have : cfg1.N = 128 := N_1; omega)

end Cert.KernelIdeal.R1

end
-- ==== Proof.KI.Run.lean ====
/- @main of the kernel program as four segments — a stretch of host operations, the first pallas_call's region, a
   stretch of host operations, the second pallas_call's region — over the several-region launch theorem, ending in
   the run theorem that reads every unscoped buffer off the last boundary's contents.

   The second region hands ONE array (the first region's result) to three input windows. Its entry therefore deals
   that buffer's full share to the three windows in three positive parts (Shares.lean), and its exit joins the parts
   back, every input window's array being unchanged by the region. -/
import proofs.«178773_j13254269075465_2_alg».proof.Proof.Gen.KernelIdeal.Launch
import proofs.«178773_j13254269075465_2_alg».proof.Proof.Gen.KernelIdeal.Regions
import proofs.«178773_j13254269075465_2_alg».proof.Proof.Gen.KernelIdeal.Skeleton
import proofs.«178773_j13254269075465_2_alg».proof.Proof.Gen.KernelIdeal.Points
import proofs.«178773_j13254269075465_2_alg».proof.Proof.KI.Shares
import proofs.«178773_j13254269075465_2_alg».proof.Proof.KI.R0
import proofs.«178773_j13254269075465_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves (the inputs as entered, the output's
    write-backs folded), every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
/-- The same read at the TensorCore's references (what the second region's proof data take). -/
abbrev V3 : (c : Dev nD) → (b : Ref sig .tc) → Buf (Elt F) ((c : Thread nD τ).loc b) := fun c b => W3 m ρ c b
/-- At the second region's exit: its one output array at what the pipeline leaves, every other buffer as entered
    (its input windows' arrays are never written). -/
def W4 (c : Dev nD) : Valuation τ sig (Elt F) :=
  Function.update (W3 m ρ c) (Proc.devRef .tc main_v9) ((R1.dat1 (V3 m ρ) c).arrAt 5 cfg1.N)
/-- The same read at the TensorCore's references (the second region's exit contents). -/
abbrev V4 : (c : Dev nD) → (b : Ref sig .tc) → Buf (Elt F) ((c : Thread nD τ).loc b) := fun c b => W4 m ρ c b

theorem W4_main_v9 (c : Dev nD) : W4 m ρ c (Proc.devRef .tc main_v9) = (R1.dat1 (V3 m ρ) c).arrAt 5 cfg1.N := by
  unfold W4; exact Function.update_self ..
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The second region's arrays: one buffer dealt to three windows -/

/-- A window's array, a whole buffer, held through the window's view is the buffer held whole. -/
theorem arr_pt1 (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

/-- The DISTINCT buffers behind the second region's arrays, each whole at contents `V`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v7) ↦{fullShare} V main_v7) ∗ (((c : Thread nD τ).loc main_v5) ↦{fullShare} V main_v5)
          ∗ (((c : Thread nD τ).loc main_v8) ↦{fullShare} V main_v8) ∗ (((c : Thread nD τ).loc main_v9) ↦{fullShare} V main_v9)) := by
  unfold Pipeline.arrBufs
  exact bigSep_eq_bigSepL_of_eq [main_v7, main_v5, main_v8, main_v9] (by decide) (by decide) _

/-- A core's unscoped buffers at contents `V` are the buffers behind the second region's arrays and the rest. -/
theorem ub_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ (cfgs := cfgs) (p := 1) winFacts₀1.arr_unscoped c V

/-- The share each window holds of its array, for any proof data dealing the shares of Shares.lean. -/
theorem share1 {c : Dev nD} (dat : Dat τ (Elt F) Unit ℕ (UR sig nD τ) ℕ cfg1 c) (hq : ∀ w, dat.q w = R1.q1 w) :
    dat.share 0 = R1.qa ∧ dat.share 1 = R1.qb ∧ dat.share 2 = R1.qc
      ∧ dat.share 3 = fullShare ∧ dat.share 4 = fullShare ∧ dat.share 5 = fullShare := by
  unfold Pipeline.Dat.share
  refine ⟨?_, ?_, ?_, ?_, ?_, ?_⟩
  · rw [hq 0]; rfl
  · rw [hq 1]; rfl
  · rw [hq 2]; rfl
  · rw [hq 3]; rfl
  · rw [hq 4]; rfl
  · rfl

/-- ENTRY: the buffers behind the second region's arrays, each whole at contents `V`, are its arrays at contents read
    off `V` — the buffer windows 0, 1 and 2 read dealt to them in three shares. -/
theorem arrays_split1 (c : Dev nD) (V : (b : Ref sig .tc) → Buf (Elt F) ((c : Thread nD τ).loc b))
    (dat : Dat τ (Elt F) Unit ℕ (UR sig nD τ) ℕ cfg1 c) (hq : ∀ w, dat.q w = R1.q1 w)
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  obtain ⟨h0, h1, h2, h3, h4, h5⟩ := share1 dat hq
  rw [arrBufs1_eq]
  unfold Pipeline.Dat.arrays
  rw [bigSep_W1, arr_pt1 c 0, arr_pt1 c 1, arr_pt1 c 2, arr_pt1 c 3, arr_pt1 c 4, arr_pt1 c 5]
  simp only [h0, h1, h2, h3, h4, h5, hG]
  iintro ⟨H7, H5, H8, H9⟩
  ihave H7' := (pointsTo_share R1.qa_op_right).1 $$ H7
  icases H7' with ⟨Ha, Hr⟩
  ihave Hr' := (pointsTo_share R1.qb_op_qc).1 $$ Hr
  icases Hr' with ⟨Hb, Hc⟩
  isplitl [Ha]; · iexact Ha
  isplitl [Hb]; · iexact Hb
  isplitl [Hc]; · iexact Hc
  isplitl [H5]; · iexact H5
  isplitl [H8]; · iexact H8
  iexact H9

/-- EXIT: the second region's arrays at contents read off `V` are the buffers behind them, each whole at `V` — the
    three shares of the buffer windows 0, 1 and 2 read joined back. -/
theorem arrays_join1 (c : Dev nD) (V : (b : Ref sig .tc) → Buf (Elt F) ((c : Thread nD τ).loc b))
    (dat : Dat τ (Elt F) Unit ℕ (UR sig nD τ) ℕ cfg1 c) (hq : ∀ w, dat.q w = R1.q1 w)
    (G : (w : Fin cfg1.W) → Buf (Elt F) ((cfg1.win w).arr.view.loc (c : Thread nD τ))) (hG : ∀ w, G w = V (Pipeline.arrRef spec1 w)) :
    dat.arrays G ⊢ (Pipeline.arrBufs (Ix := Unit) (Name := ℕ) (U := UR sig nD τ) (Lvl := ℕ) spec1 c V : sProp 𝕄) := by
  obtain ⟨h0, h1, h2, h3, h4, h5⟩ := share1 dat hq
  rw [arrBufs1_eq]
  unfold Pipeline.Dat.arrays
  rw [bigSep_W1, arr_pt1 c 0, arr_pt1 c 1, arr_pt1 c 2, arr_pt1 c 3, arr_pt1 c 4, arr_pt1 c 5]
  simp only [h0, h1, h2, h3, h4, h5, hG]
  iintro ⟨Ha, Hb, Hc, H5, H8, H9⟩
  ihave Hr := (pointsTo_share R1.qb_op_qc).2 $$ [Hb Hc]
  · isplitl [Hb]; · iexact Hb
    iexact Hc
  ihave H7 := (pointsTo_share R1.qa_op_right).2 $$ [Ha Hr]
  · isplitl [Ha]; · iexact Ha
    iexact Hr
  isplitl [H7]; · iexact H7
  isplitl [H5]; · iexact H5
  isplitl [H8]; · iexact H8
  iexact H9

/-- The second region's proof data deal the shares of Shares.lean. -/
theorem q_eq1 (c : Dev nD) (w : Fin cfg1.W) : (R1.dat1 (V3 m ρ) c).q w = R1.q1 w := rfl

/-- ENTRY, the arrays' part: the unscoped buffers at `W3` are the second region's arrays at the proof data's entry
    contents and the unscoped rest. -/
theorem arrays_entry1 (c : Dev nD) :
    (StableHlo.held (c : Thread nD τ) (Pipeline.ucRefs τ sig) (W3 m ρ c) : sProp 𝕄)
      ⊢ iprop((R1.dat1 (V3 m ρ) c).arrays ((R1.dat1 (V3 m ρ) c).arrAt · 0)
          ∗ Pipeline.unscopedRest (Ix := Unit) (Name := ℕ) (U := UR sig nD τ) (Lvl := ℕ) spec1 c (V3 m ρ c)) := by
  rw [← Pipeline.unscopedBufs_held c (W3 m ρ c), ub_split1]
  exact sep_mono (arrays_split1 c (V3 m ρ c) _ (q_eq1 m ρ c) _ fun w => R1.A_eq1 (V3 m ρ) c w) .rfl

/-- At the second region's exit each of its arrays holds what `W4` says: an input's, never written, what it held at
    entry; the output's what the pipeline leaves. -/
theorem hF1_in (c : Dev nD) (w : Fin cfg1.W) (hw : (cfg1.win w).isOut = false) (hne : Pipeline.arrRef spec1 w ≠ main_v9) :
    (R1.dat1 (V3 m ρ) c).arrAt w cfg1.N = V4 m ρ c (Pipeline.arrRef spec1 w) :=
  (((R1.dat1 (V3 m ρ) c).arrAt_in w hw _).trans (R1.A_eq1 (V3 m ρ) c w)).trans (W4_of_ne m ρ c (Pipeline.arrRef spec1 w) hne).symm
theorem hF1 (c : Dev nD) (w : Fin cfg1.W) : (R1.dat1 (V3 m ρ) c).arrAt w cfg1.N = V4 m ρ c (Pipeline.arrRef spec1 w) := by
  have h : w = 0 ∨ w = 1 ∨ w = 2 ∨ w = 3 ∨ w = 4 ∨ w = 5 := by revert w; decide
  rcases h with rfl | rfl | rfl | rfl | rfl | rfl
  · exact hF1_in m ρ c 0 rfl (by decide)
  · exact hF1_in m ρ c 1 rfl (by decide)
  · exact hF1_in m ρ c 2 rfl (by decide)
  · exact hF1_in m ρ c 3 rfl (by decide)
  · exact hF1_in m ρ c 4 rfl (by decide)
  · exact (W4_main_v9 m ρ c).symm

/-- EXIT, the arrays' part: the second region's arrays at their final contents and the unscoped rest are the unscoped
    buffers at `W4`. -/
theorem arrays_exit1 (c : Dev nD) :
    iprop((R1.dat1 (V3 m ρ) c).arrays ((R1.dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held c (W4 m ρ c), ub_split1]
  refine sep_mono (arrays_join1 c (V4 m ρ c) _ (q_eq1 m ρ c) _ (hF1 m ρ c)) (Entails.of_eq ?_)
  unfold Pipeline.unscopedRest
  refine bigSep_congr fun b hb => ?_
  have hne : b ≠ main_v9 := by
    rintro rfl
    exact (Finset.mem_sdiff.mp hb).2 (Finset.mem_image.mpr ⟨5, Finset.mem_univ _, rfl⟩)
  exact congrArg (fun x => (((c : Thread nD τ).loc b) ↦{fullShare} x : sProp 𝕄)) (W4_of_ne m ρ c b hne).symm

/-! ## The regions as segments -/

set_option backward.isDefEq.respectTransparency.types false in
/-- The first region over the thread state: entered from every unscoped buffer at `W1`, left at `W2`. Its arrays
    (distinct buffers) split out of the unscoped buffers and put back at the exit contents; the generator register
    into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. The buffer
    three of its input windows read is dealt to them in three shares at entry and joined back at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin1 (V3 m ρ) c)
    unfold Pipeline.ΦA
    iintro ⟨Hp, -, Hr⟩
    isplitl [Hr]; · iexact Hr
    iexact Hp
  hout c := by
    rw [Pipeline.ownSems0_none]
    refine (R1.hout1 (V3 m ρ) c).trans ?_
    unfold Pipeline.ΦA
    iintro ⟨Hr, Hp⟩
    isplitl [Hp]; · iexact Hp
    isplitr; · iempintro
    iexact Hr
  hexit c := by
    have hjoin := arrays_exit1 m ρ c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's 4 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- The run at any postcondition that follows from the final memory holding, on every core, every unscoped buffer at
    the last boundary's contents `W4`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE RUN: from any memory with zero counters every weakly fair execution of @main on the TensorCores terminates,
    nothing faulting, and the final memory holds on every core every unscoped buffer at `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun _ h => h

/-! ## The arguments end as launched

No host operation and no region writes an argument (a region reads it through an input window or bypasses it), so the
fold at an argument's buffer walks back to the launch memory. -/

/-- A buffer neither stretch of host operations writes and no window of the first region names, other than the second
    region's output, ends as launched. -/
theorem W4_of_bypass (c : Dev nD) (b : Ref sig .tc) (h9 : b ≠ main_v9) (h1 : b ∉ hostOps1_W)
    (h2 : ∀ w, Pipeline.arrRef spec0 w ≠ b) (h0 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h9
    _ = W2 m ρ c (Proc.devRef .tc b) := StableHlo.after_of_writes_sub hostOps1 _ hostOps1_writes h1
    _ = W1 m ρ c (Proc.devRef .tc b) := W2_of_ne m ρ c b h2
    _ = W0 m ρ c (Proc.devRef .tc b) := StableHlo.after_of_writes_sub hostOps0 _ hostOps0_writes h0
    _ = m ((c : Thread nD τ).loc b) := rfl

/-- The first argument is the first region's input window 0's array: never written. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  W4_of_bypass m ρ c main_arg1 (by decide) (by decide) (by decide) (by decide)
theorem W4_main_arg2 (c : Dev nD) : W4 m ρ c (Proc.devRef .tc main_arg2) = m ((c : Thread nD τ).loc main_arg2) :=
  W4_of_bypass m ρ c main_arg2 (by decide) (by decide) (by decide) (by decide)
theorem W4_main_arg3 (c : Dev nD) : W4 m ρ c (Proc.devRef .tc main_arg3) = m ((c : Thread nD τ).loc main_arg3) :=
  W4_of_bypass m ρ c main_arg3 (by decide) (by decide) (by decide) (by decide)
theorem W4_main_arg4 (c : Dev nD) : W4 m ρ c (Proc.devRef .tc main_arg4) = m ((c : Thread nD τ).loc main_arg4) :=
  W4_of_bypass m ρ c main_arg4 (by decide) (by decide) (by decide) (by decide)
theorem W4_main_arg5 (c : Dev nD) : W4 m ρ c (Proc.devRef .tc main_arg5) = m ((c : Thread nD τ).loc main_arg5) :=
  W4_of_bypass m ρ c main_arg5 (by decide) (by decide) (by decide) (by decide)
theorem W4_main_arg6 (c : Dev nD) : W4 m ρ c (Proc.devRef .tc main_arg6) = m ((c : Thread nD τ).loc main_arg6) :=
  W4_of_bypass m ρ c main_arg6 (by decide) (by decide) (by decide) (by decide)
theorem W4_main_arg7 (c : Dev nD) : W4 m ρ c (Proc.devRef .tc main_arg7) = m ((c : Thread nD τ).loc main_arg7) :=
  W4_of_bypass m ρ c main_arg7 (by decide) (by decide) (by decide) (by decide)
theorem W4_main_arg8 (c : Dev nD) : W4 m ρ c (Proc.devRef .tc main_arg8) = m ((c : Thread nD τ).loc main_arg8) :=
  W4_of_bypass m ρ c main_arg8 (by decide) (by decide) (by decide) (by decide)

/-- THE FRAME: at the compiled mesh, from any memory with zero counters, every weakly fair execution of @main on the
    TensorCores terminates, nothing faulting, and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩

end Cert.KernelIdeal.Asm

end
-- ==== Proof.KI.R1Array.lean ====
/- REGION 1 of the program (the attention kernel, pallas_call 1) at the level of ARRAYS, over the extended reals and
   for ANY proof data: where each window's block sits in its array at a grid point `t ↦ (t / 16, t % 16)`; each
   block read as a function of the array; and the result array from the write-backs of the last point of every row
   block. -/
import proofs.«178773_j13254269075465_2_alg».proof.Proof.Gen.KernelIdeal.Launch
import proofs.«178773_j13254269075465_2_alg».proof.Proof.Gen.KernelIdeal.Points
import Idealize.ShloMosaic.Lib.Pipeline.Value
import Idealize.ShloMosaic.Lib.ValueIdx

set_option maxRecDepth 16384

noncomputable section

namespace Cert.KernelIdeal.R1A

open Cert.KernelIdeal Cert.KernelIdeal.Gen
open Idealize.ShloMosaic Idealize.ShloMosaic.TcCoe Idealize.ShloMosaic.ValueIdx
open Idealize.SL.Sem
open Idealize.ShloMosaic.Pipeline (Dat)

/-! ## Small arithmetic: the rows and columns the blocks reach stay inside the arrays -/

theorem point_lt (t : Fin cfg1.N) : t.val < 128 := Nat.lt_of_lt_of_eq (show t.val < grid1.N from t.isLt) N_1
/-- Row `p` of row block `t / 16` (512 rows each) is a row of the 4096. -/
theorem row512_lt (t : Fin cfg1.N) (p : Fin 512) : 512 * (t.val / 16) + p.val < 4096 := by
  have := point_lt t; have := p.isLt; omega
/-- Row `q` of key/value block `t % 16` (256 rows each) is a row of the 4096. -/
theorem row256_lt (t : Fin cfg1.N) (q : Fin 256) : 256 * (t.val % 16) + q.val < 4096 := by
  have := q.isLt; omega
/-- The second and third 768 columns of the 2304. -/
theorem col1_lt (j : Fin 768) : 768 + j.val < 2304 := by have := j.isLt; omega
theorem col0_lt (j : Fin 768) : j.val < 2304 := by have := j.isLt; omega
theorem col2_lt (j : Fin 768) : 1536 + j.val < 2304 := by have := j.isLt; omega

/-- Two functions of a rank-2 index agree when they agree at every (row, column). -/
theorem funext_ix2 {n0 n1 : Nat} {α : Type} (X Z : (⟨2, ![n0, n1]⟩ : Shape).Idx → α)
    (h : ∀ (p : Fin n0) (q : Fin n1), X (ix2 p q) = Z (ix2 p q)) : X = Z := by
  funext y
  obtain ⟨p, q, rfl⟩ : ∃ (p : Fin n0) (q : Fin n1), y = ix2 p q := ⟨y 0, y 1, eq_ix2 y⟩
  exact h p q

/-! ## (1) The printed index maps over the grid -/

/-- At point `t` = (row block `t / 16`, key/value block `t % 16`): window 0 is at block `(t / 16, 1)`, window 1 at
    `(t % 16, 0)`, window 2 at `(t % 16, 2)`, windows 3 and 4 at `(0, 0)`, the result window at `(t / 16, 0)`. -/
theorem idx_facts1 : ∀ t : Fin cfg1.N, win1_0.index t (0 : Fin 2) = t.val / 16 ∧ win1_0.index t (1 : Fin 2) = 1
    ∧ win1_1.index t (0 : Fin 2) = t.val % 16 ∧ win1_1.index t (1 : Fin 2) = 0
    ∧ win1_2.index t (0 : Fin 2) = t.val % 16 ∧ win1_2.index t (1 : Fin 2) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

/-! ## (2) The blocks read, for any array contents -/

section Reads

/-- Window 0's block of an array `Y` of the first region's result: rows of row block `t / 16`, columns 768 … 1535. -/
theorem read1_0_apply (Y : S4096x2304.Idx → EReal) (t : Fin cfg1.N) (p : Fin 512) (j : Fin 768) :
    (((cfg1.win 0).blk t).view.read (Elt Ideal) Y : S512x768.Idx → EReal) (ix2 p j)
      = Y (ix2 (⟨512 * (t.val / 16) + p.val, row512_lt t p⟩ : Fin 4096) (⟨768 + j.val, col1_lt j⟩ : Fin 2304)) := by
  obtain ⟨e0, e1, -⟩ := idx_facts1 t
  rw [View.read_apply]
  show Y _ = Y _
  refine congrArg Y (funext fun a => Fin.ext ?_)
  match a with
  | ⟨0, _⟩ => show win1_0.index t (0 : Fin 2) * 512 + 1 * p.val = 512 * (t.val / 16) + p.val; omega
  | ⟨1, _⟩ => show win1_0.index t (1 : Fin 2) * 768 + 1 * j.val = 768 + j.val; omega
theorem read1_0_eq (Y : S4096x2304.Idx → EReal) (t : Fin cfg1.N) :
    (((cfg1.win 0).blk t).view.read (Elt Ideal) Y : S512x768.Idx → EReal)
      = fun y : S512x768.Idx => Y (ix2 (⟨512 * (t.val / 16) + (y 0).val, row512_lt t (y 0)⟩ : Fin 4096) (⟨768 + (y 1).val, col1_lt (y 1)⟩ : Fin 2304)) :=
  funext_ix2 _ _ fun p j => read1_0_apply Y t p j

/-- Window 1's block: rows of key/value block `t % 16`, columns 0 … 767. -/
theorem read1_1_apply (Y : S4096x2304.Idx → EReal) (t : Fin cfg1.N) (q : Fin 256) (j : Fin 768) :
    (((cfg1.win 1).blk t).view.read (Elt Ideal) Y : S256x768.Idx → EReal) (ix2 q j)
      = Y (ix2 (⟨256 * (t.val % 16) + q.val, row256_lt t q⟩ : Fin 4096) (⟨j.val, col0_lt j⟩ : Fin 2304)) := by
  obtain ⟨-, -, e0, e1, -⟩ := idx_facts1 t
  rw [View.read_apply]
  show Y _ = Y _
  refine congrArg Y (funext fun a => Fin.ext ?_)
  match a with
  | ⟨0, _⟩ => show win1_1.index t (0 : Fin 2) * 256 + 1 * q.val = 256 * (t.val % 16) + q.val; omega
  | ⟨1, _⟩ => show win1_1.index t (1 : Fin 2) * 768 + 1 * j.val = j.val; omega
theorem read1_1_eq (Y : S4096x2304.Idx → EReal) (t : Fin cfg1.N) :
    (((cfg1.win 1).blk t).view.read (Elt Ideal) Y : S256x768.Idx → EReal)
      = fun y : S256x768.Idx => Y (ix2 (⟨256 * (t.val % 16) + (y 0).val, row256_lt t (y 0)⟩ : Fin 4096) (⟨(y 1).val, col0_lt (y 1)⟩ : Fin 2304)) :=
  funext_ix2 _ _ fun q j => read1_1_apply Y t q j

/-- Window 2's block: rows of key/value block `t % 16`, columns 1536 … 2303. -/
theorem read1_2_apply (Y : S4096x2304.Idx → EReal) (t : Fin cfg1.N) (q : Fin 256) (j : Fin 768) :
    (((cfg1.win 2).blk t).view.read (Elt Ideal) Y : S256x768.Idx → EReal) (ix2 q j)
      = Y (ix2 (⟨256 * (t.val % 16) + q.val, row256_lt t q⟩ : Fin 4096) (⟨1536 + j.val, col2_lt j⟩ : Fin 2304)) := by
  obtain ⟨-, -, -, -, e0, e1, -⟩ := idx_facts1 t
  rw [View.read_apply]
  show Y _ = Y _
  refine congrArg Y (funext fun a => Fin.ext ?_)
  match a with
  | ⟨0, _⟩ => show win1_2.index t (0 : Fin 2) * 256 + 1 * q.val = 256 * (t.val % 16) + q.val; omega
  | ⟨1, _⟩ => show win1_2.index t (1 : Fin 2) * 768 + 1 * j.val = 1536 + j.val; omega
theorem read1_2_eq (Y : S4096x2304.Idx → EReal) (t : Fin cfg1.N) :
    (((cfg1.win 2).blk t).view.read (Elt Ideal) Y : S256x768.Idx → EReal)
      = fun y : S256x768.Idx => Y (ix2 (⟨256 * (t.val % 16) + (y 0).val, row256_lt t (y 0)⟩ : Fin 4096) (⟨1536 + (y 1).val, col2_lt (y 1)⟩ : Fin 2304)) :=
  funext_ix2 _ _ fun q j => read1_2_apply Y t q j

/-- Window 3's one block is the whole array (the output projection's weights). -/
theorem read1_3_apply (W : S768x768.Idx → EReal) (t : Fin cfg1.N) (k : Fin 768) (j : Fin 768) :
    (((cfg1.win 3).blk t).view.read (Elt Ideal) W : S768x768.Idx → EReal) (ix2 k j) = W (ix2 k j) := by
  obtain ⟨-, -, -, -, -, -, e0, e1, -⟩ := idx_facts1 t
  rw [View.read_apply]
  show W _ = W _
  refine congrArg W (funext fun a => Fin.ext ?_)
  match a with
  | ⟨0, _⟩ => show win1_3.index t (0 : Fin 2) * 768 + 1 * k.val = k.val; omega
  | ⟨1, _⟩ => show win1_3.index t (1 : Fin 2) * 768 + 1 * j.val = j.val; omega
theorem read1_3_eq (W : S768x768.Idx → EReal) (t : Fin cfg1.N) :
    (((cfg1.win 3).blk t).view.read (Elt Ideal) W : S768x768.Idx → EReal) = W :=
  funext_ix2 _ _ fun k j => read1_3_apply W t k j

/-- Window 4's one block is the whole row (the output projection's bias). -/
theorem read1_4_apply (B : S1x768.Idx → EReal) (t : Fin cfg1.N) (z : Fin 1) (j : Fin 768) :
    (((cfg1.win 4).blk t).view.read (Elt Ideal) B : S1x768.Idx → EReal) (ix2 z j) = B (ix2 z j) := by
  obtain ⟨-, -, -, -, -, -, -, -, e0, e1, -⟩ := idx_facts1 t
  rw [View.read_apply]
  show B _ = B _
  refine congrArg B (funext fun a => Fin.ext ?_)
  match a with
  | ⟨0, _⟩ => show win1_4.index t (0 : Fin 2) * 1 + 1 * z.val = z.val; omega
  | ⟨1, _⟩ => show win1_4.index t (1 : Fin 2) * 768 + 1 * j.val = j.val; omega
theorem read1_4_eq (B : S1x768.Idx → EReal) (t : Fin cfg1.N) :
    (((cfg1.win 4).blk t).view.read (Elt Ideal) B : S1x768.Idx → EReal) = B :=
  funext_ix2 _ _ fun z j => read1_4_apply B t z j

end Reads

/-! ## (3) The result array from the write-backs -/

/-- An index of the result array is in point `t`'s block iff each coordinate is in the block's range on its axis. -/
theorem mem_blk1_5 (t : Fin cfg1.N) (i : S4096x768.Idx) :
    i ∈ ((cfg1.win 5).blk t).view.set ↔ ∀ a : Fin 2, win1_5.index t a * S512x768.size a ≤ (i a).val ∧ (i a).val < win1_5.index t a * S512x768.size a + S512x768.size a := by
  show i ∈ ((View.whole main_v9).slice (win1_5.rect t)).set ↔ _
  rw [View.set_slice_whole, Rect.mem_set_unit]
  exact Iff.rfl

/-- Row `r` of the result array is written back by the last point of its row block, `16 (r / 512) + 15`. -/
theorem cover1_5 (i : S4096x768.Idx) :
    ∃ t : Fin cfg1.N, (cfg1.win 5).flush t = true ∧ i ∈ ((cfg1.win 5).blk t).view.set := by
  have hi0 : (i 0).val < 4096 := (i 0).isLt
  have hi1 : (i 1).val < 768 := (i 1).isLt
  have hN : grid1.N = 128 := N_1
  let t : Fin cfg1.N := ⟨16 * ((i 0).val / 512) + 15, show 16 * ((i 0).val / 512) + 15 < grid1.N by omega⟩
  obtain ⟨-, -, -, -, -, -, -, -, -, -, e0, e1⟩ := idx_facts1 t
  have e0' : win1_5.index t (0 : Fin 2) = (16 * ((i 0).val / 512) + 15) / 16 := e0
  refine ⟨t, (flush1_5 t).mpr (show (16 * ((i 0).val / 512) + 15) % 16 = 15 by omega), ?_⟩
  rw [mem_blk1_5]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 768 ≤ (i 1).val ∧ (i 1).val < win1_5.index t (1 : Fin 2) * 768 + 768; omega

/-- THE RESULT ARRAY, for ANY proof data: if at the last point of every row block (`t % 16 = 15`, the only points that
    write back) the body leaves in the result buffer the rows `512 (t / 16) …` of `G`, the array ends holding `G`. -/
theorem final1_5_of {c : Dev nD} (dat : Dat τ (Elt Ideal) Unit ℕ (UR sig nD τ) ℕ cfg1 c) (G : S4096x768.Idx → EReal)
    (h : ∀ t : Fin cfg1.N, t.val % 16 = 15 → ∀ (p : Fin 512) (j : Fin 768),
      (dat.after 5 t : S512x768.Idx → EReal) (ix2 p j) = G (ix2 (⟨512 * (t.val / 16) + p.val, row512_lt t p⟩ : Fin 4096) j)) :
    dat.arrAt 5 cfg1.N = G :=
  dat.arrAt_eq_of_cover 5 G (fun t hf => by
    have ht : t.val % 16 = 15 := (flush1_5 t).mp hf
    obtain ⟨-, -, -, -, -, -, -, -, -, -, e0, e1⟩ := idx_facts1 t
    show (cfg1.win 5).cut (grid1.coords t) (dat.after 5 t) = _
    refine funext_ix2 (n0 := 512) (n1 := 768) _ _ fun p j => ?_
    refine (h t ht p j).trans ?_
    rw [View.read_apply]
    show G _ = G _
    refine congrArg G (funext fun a => Fin.ext ?_)
    match a with
    | ⟨0, _⟩ => show 512 * (t.val / 16) + p.val = win1_5.index t (0 : Fin 2) * 512 + 1 * p.val; omega
    | ⟨1, _⟩ => show j.val = win1_5.index t (1 : Fin 2) * 768 + 1 * j.val; omega) cover1_5

/-- info: 'Cert.KernelIdeal.R1A.final1_5_of' depends on axioms: [propext, Classical.choice, Quot.sound] -/
#guard_msgs in #print axioms final1_5_of

end Cert.KernelIdeal.R1A

end
-- ==== Proof.Spec.lean ====
/- The self-attention layer as one function of its nine argument arrays, index by index, on the
   extended reals. No program is imported: only the ideal float operations and the index vocabulary.

   Arguments, in the order the programs take them: the input x [4096, 768]; then for each of the
   query, key and value projections a weight W [768, 768] and a bias b [768]; then the output
   projection's weight Wo and bias bo. A linear layer is x · Wᵀ + b (row j of W against row s of x).
   The 768 columns are 12 heads of 64: column 64·h + d is coordinate d of head h.

   The scores are taken between the KEY at row s and the QUERY at row t, per head; the softmax runs
   over the HEAD axis (for each pair (s, t), over the 12 heads), is scaled by a constant, and weighs
   the values over t. -/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The input's and the result's shape, rows × features. -/
abbrev SX : Shape := ⟨2, ![4096, 768]⟩
/-- A weight's shape. -/
abbrev SW : Shape := ⟨2, ![768, 768]⟩
/-- A bias's shape. -/
abbrev SB : Shape := ⟨1, ![768]⟩

/-- Column 64·h + d: coordinate d of head h. -/
def col (h : Fin 12) (d : Fin 64) : Fin 768 := ⟨h.val * 64 + d.val, by have := h.isLt; have := d.isLt; omega⟩

/-- The head a column belongs to. -/
def headOf (j : Fin 768) : Fin 12 := ⟨j.val / 64, by have := j.isLt; omega⟩

/-- The coordinate of a column inside its head. -/
def coordOf (j : Fin 768) : Fin 64 := ⟨j.val % 64, by omega⟩

theorem col_val (h : Fin 12) (d : Fin 64) : (col h d).val = h.val * 64 + d.val := rfl
theorem headOf_val (j : Fin 768) : (headOf j).val = j.val / 64 := rfl
theorem coordOf_val (j : Fin 768) : (coordOf j).val = j.val % 64 := rfl

theorem headOf_col (h : Fin 12) (d : Fin 64) : headOf (col h d) = h :=
  Fin.ext (by have := h.isLt; have := d.isLt; show (h.val * 64 + d.val) / 64 = h.val; omega)
theorem coordOf_col (h : Fin 12) (d : Fin 64) : coordOf (col h d) = d :=
  Fin.ext (by have := h.isLt; have := d.isLt; show (h.val * 64 + d.val) % 64 = d.val; omega)
theorem col_headOf_coordOf (j : Fin 768) : col (headOf j) (coordOf j) = j :=
  Fin.ext (by show j.val / 64 * 64 + j.val % 64 = j.val; omega)

/-- The scale applied after the softmax: the f32 nearest √384, kept as its word. -/
def scale : EReal := Ideal.ofBits .f32 0x419CC471#32

section
variable (x : SX.Idx → EReal) (Wq : SW.Idx → EReal) (bq : SB.Idx → EReal) (Wk : SW.Idx → EReal) (bk : SB.Idx → EReal)
  (Wv : SW.Idx → EReal) (bv : SB.Idx → EReal) (Wo : SW.Idx → EReal) (bo : SB.Idx → EReal)

/-- A linear layer at row s, column j: x · Wᵀ + b. -/
def proj (x : SX.Idx → EReal) (W : SW.Idx → EReal) (b : SB.Idx → EReal) (s : Fin 4096) (j : Fin 768) : EReal :=
  (∑ k : Fin 768, x (ix2 s k) * W (ix2 j k)) + b (ix1 j)

/-- The score of head h between the key at row s and the query at row t. -/
def score (h : Fin 12) (s t : Fin 4096) : EReal :=
  ∑ d : Fin 64, proj x Wk bk s (col h d) * proj x Wq bq t (col h d)

/-- The largest score over the heads at (s, t): the fold of max from −∞. -/
def hmax (s t : Fin 4096) : EReal :=
  (Finset.univ : Finset (Fin 12)).fold max ⊥ (fun h => score x Wq bq Wk bk h s t)

/-- The exponential of a score less the largest over the heads. -/
def ew (h : Fin 12) (s t : Fin 4096) : EReal :=
  Ideal.exp (score x Wq bq Wk bk h s t - hmax x Wq bq Wk bk s t)

/-- The softmax's denominator at (s, t): the sum over the heads. -/
def hsum (s t : Fin 4096) : EReal :=
  ∑ h : Fin 12, ew x Wq bq Wk bk h s t

/-- The scaled softmax over the heads. -/
def attn (h : Fin 12) (s t : Fin 4096) : EReal :=
  Ideal.div (ew x Wq bq Wk bk h s t) (hsum x Wq bq Wk bk s t) * scale

/-- The context at row s, column j: the values over t weighed by the column's head. -/
def ctx (s : Fin 4096) (j : Fin 768) : EReal :=
  ∑ t : Fin 4096, attn x Wq bq Wk bk (headOf j) s t * proj x Wv bv t j

/-- The output projection of the context at row s, column j. -/
def out (s : Fin 4096) (j : Fin 768) : EReal :=
  (∑ k : Fin 768, ctx x Wq bq Wk bk Wv bv s k * Wo (ix2 j k)) + bo (ix1 j)

/-- The layer's result as an array. -/
def G : SX.Idx → EReal := fun i => out x Wq bq Wk bk Wv bv Wo bo (i 0) (i 1)

theorem proj_apply (W : SW.Idx → EReal) (b : SB.Idx → EReal) (s : Fin 4096) (j : Fin 768) :
    proj x W b s j = (∑ k : Fin 768, x (ix2 s k) * W (ix2 j k)) + b (ix1 j) := rfl

theorem score_apply (h : Fin 12) (s t : Fin 4096) :
    score x Wq bq Wk bk h s t = ∑ d : Fin 64, proj x Wk bk s (col h d) * proj x Wq bq t (col h d) := rfl

theorem hmax_apply (s t : Fin 4096) :
    hmax x Wq bq Wk bk s t = (Finset.univ : Finset (Fin 12)).fold max ⊥ (fun h => score x Wq bq Wk bk h s t) := rfl

/-- The same as a supremum over the heads. -/
theorem hmax_eq_sup (s t : Fin 4096) :
    hmax x Wq bq Wk bk s t = (Finset.univ : Finset (Fin 12)).sup (fun h => score x Wq bq Wk bk h s t) := rfl

/-- Every head's score is at most the largest. -/
theorem score_le_hmax (h : Fin 12) (s t : Fin 4096) : score x Wq bq Wk bk h s t ≤ hmax x Wq bq Wk bk s t := by
  rw [hmax_eq_sup]; exact Finset.le_sup (f := fun h => score x Wq bq Wk bk h s t) (Finset.mem_univ h)

theorem ew_apply (h : Fin 12) (s t : Fin 4096) :
    ew x Wq bq Wk bk h s t = Ideal.exp (score x Wq bq Wk bk h s t - hmax x Wq bq Wk bk s t) := rfl

theorem hsum_apply (s t : Fin 4096) : hsum x Wq bq Wk bk s t = ∑ h : Fin 12, ew x Wq bq Wk bk h s t := rfl

theorem attn_apply (h : Fin 12) (s t : Fin 4096) :
    attn x Wq bq Wk bk h s t = Ideal.div (ew x Wq bq Wk bk h s t) (hsum x Wq bq Wk bk s t) * scale := rfl

theorem ctx_apply (s : Fin 4096) (j : Fin 768) :
    ctx x Wq bq Wk bk Wv bv s j = ∑ t : Fin 4096, attn x Wq bq Wk bk (headOf j) s t * proj x Wv bv t j := rfl

/-- The context at a head's coordinate: the head is the column's. -/
theorem ctx_col (s : Fin 4096) (h : Fin 12) (d : Fin 64) :
    ctx x Wq bq Wk bk Wv bv s (col h d) = ∑ t : Fin 4096, attn x Wq bq Wk bk h s t * proj x Wv bv t (col h d) := by
  rw [ctx_apply, headOf_col]

theorem out_apply (s : Fin 4096) (j : Fin 768) :
    out x Wq bq Wk bk Wv bv Wo bo s j = (∑ k : Fin 768, ctx x Wq bq Wk bk Wv bv s k * Wo (ix2 j k)) + bo (ix1 j) := rfl

theorem G_apply (i : SX.Idx) : G x Wq bq Wk bk Wv bv Wo bo i = out x Wq bq Wk bk Wv bv Wo bo (i 0) (i 1) := rfl

theorem G_ix2 (s : Fin 4096) (j : Fin 768) : G x Wq bq Wk bk Wv bv Wo bo (ix2 s j) = out x Wq bq Wk bk Wv bv Wo bo s j := rfl

end

end Cert.Attn

end
-- ==== Proof.Tiles.lean ====
/- The fused attention kernel's arithmetic at one grid point, as functions of its blocks, index by index on the
   extended reals, in the kernel's own order of operations; and the arrays the blocks are cut from.

   At grid point (sb, tb) the kernel holds a block kb of 512 key rows, blocks qb and vb of 256 query and value rows, and
   an accumulator acc of 512 rows. For each of the 12 heads it takes the scores of the key rows against the query rows;
   the largest over the heads, folded from the left from −∞; the exponentials of the scores less that; their sum over the
   heads, folded from the left from zero; the reciprocal of the sum; each exponential times the reciprocal times the scale;
   and adds, onto the head's 64 columns of the accumulator, those weights against the head's 64 value columns. After the
   last block the accumulator goes through the output projection. No program is imported. -/
import proofs.«178773_j13254269075465_2_alg».proof.Proof.Spec

noncomputable section

open scoped BigOperators

namespace Cert.Attn

open Idealize.ShloMosaic Idealize.ShloMosaic.ValueIdx

/-- A block of 512 rows of keys; the accumulator; a block of the result. -/
abbrev SK : Shape := ⟨2, ![512, 768]⟩
/-- A block of 256 rows of queries, or of values. -/
abbrev SQ : Shape := ⟨2, ![256, 768]⟩
/-- The three linear layers side by side: columns 0.. the queries, 768.. the keys, 1536.. the values. -/
abbrev SY : Shape := ⟨2, ![4096, 2304]⟩
/-- The output bias as a one-row matrix. -/
abbrev SB1 : Shape := ⟨2, ![1, 768]⟩

/-! ## One grid point -/

section
variable (kb : SK.Idx → EReal) (qb vb : SQ.Idx → EReal)

/-- The score of head h between key row p and query row t of the blocks. -/
def tScore (h : Fin 12) (p : Fin 512) (t : Fin 256) : EReal :=
  ∑ d : Fin 64, kb (ix2 p (col h d)) * qb (ix2 t (col h d))

/-- The largest score over the heads: from −∞, head after head, the running value on the left. -/
def tMax (p : Fin 512) (t : Fin 256) : EReal :=
  max (max (max (max (max (max (max (max (max (max (max (max (Ideal.ofBits .f32 0xFF800000#32)
    (tScore kb qb 0 p t)) (tScore kb qb 1 p t)) (tScore kb qb 2 p t)) (tScore kb qb 3 p t)) (tScore kb qb 4 p t))
    (tScore kb qb 5 p t)) (tScore kb qb 6 p t)) (tScore kb qb 7 p t)) (tScore kb qb 8 p t)) (tScore kb qb 9 p t))
    (tScore kb qb 10 p t)) (tScore kb qb 11 p t)

/-- The exponential of a score less the largest. -/
def tExp (h : Fin 12) (p : Fin 512) (t : Fin 256) : EReal :=
  Ideal.exp (tScore kb qb h p t - tMax kb qb p t)

/-- The sum of the exponentials over the heads: from zero, head after head, the running value on the left. -/
def tSum (p : Fin 512) (t : Fin 256) : EReal :=
  Ideal.ofBits .f32 0x00000000#32 + tExp kb qb 0 p t + tExp kb qb 1 p t + tExp kb qb 2 p t + tExp kb qb 3 p t
    + tExp kb qb 4 p t + tExp kb qb 5 p t + tExp kb qb 6 p t + tExp kb qb 7 p t + tExp kb qb 8 p t + tExp kb qb 9 p t
    + tExp kb qb 10 p t + tExp kb qb 11 p t

/-- The reciprocal of the sum: the word of 1.0 divided by it. -/
def tInv (p : Fin 512) (t : Fin 256) : EReal :=
  Ideal.div (Ideal.ofBits .f32 0x3F800000#32) (tSum kb qb p t)

/-- The weight of head h at (p, t): the exponential times the reciprocal, times the scale's word. -/
def tAttn (h : Fin 12) (p : Fin 512) (t : Fin 256) : EReal :=
  tExp kb qb h p t * tInv kb qb p t * Ideal.ofBits .f32 0x419CC471#32

/-- What the block adds at row p, coordinate d of head h: the weights against the head's value column. -/
def tContrib (h : Fin 12) (p : Fin 512) (d : Fin 64) : EReal :=
  ∑ t : Fin 256, tAttn kb qb h p t * vb (ix2 t (col h d))

/-- The accumulator after the grid point: at column 64·h + d, what was there plus head h's contribution. -/
def tileStep (acc : SK.Idx → EReal) : SK.Idx → EReal :=
  fun i => acc i + tContrib kb qb vb (headOf (i 1)) (i 0) (coordOf (i 1))

theorem tScore_apply (h : Fin 12) (p : Fin 512) (t : Fin 256) :
    tScore kb qb h p t = ∑ d : Fin 64, kb (ix2 p (col h d)) * qb (ix2 t (col h d)) := rfl

theorem tMax_apply (p : Fin 512) (t : Fin 256) :
    tMax kb qb p t
      = max (max (max (max (max (max (max (max (max (max (max (max (Ideal.ofBits .f32 0xFF800000#32)
          (tScore kb qb 0 p t)) (tScore kb qb 1 p t)) (tScore kb qb 2 p t)) (tScore kb qb 3 p t)) (tScore kb qb 4 p t))
          (tScore kb qb 5 p t)) (tScore kb qb 6 p t)) (tScore kb qb 7 p t)) (tScore kb qb 8 p t)) (tScore kb qb 9 p t))
          (tScore kb qb 10 p t)) (tScore kb qb 11 p t) := rfl

theorem tExp_apply (h : Fin 12) (p : Fin 512) (t : Fin 256) :
    tExp kb qb h p t = Ideal.exp (tScore kb qb h p t - tMax kb qb p t) := rfl

theorem tSum_apply (p : Fin 512) (t : Fin 256) :
    tSum kb qb p t
      = Ideal.ofBits .f32 0x00000000#32 + tExp kb qb 0 p t + tExp kb qb 1 p t + tExp kb qb 2 p t + tExp kb qb 3 p t
        + tExp kb qb 4 p t + tExp kb qb 5 p t + tExp kb qb 6 p t + tExp kb qb 7 p t + tExp kb qb 8 p t + tExp kb qb 9 p t
        + tExp kb qb 10 p t + tExp kb qb 11 p t := rfl

theorem tInv_apply (p : Fin 512) (t : Fin 256) :
    tInv kb qb p t = Ideal.div (Ideal.ofBits .f32 0x3F800000#32) (tSum kb qb p t) := rfl

theorem tAttn_apply (h : Fin 12) (p : Fin 512) (t : Fin 256) :
    tAttn kb qb h p t = tExp kb qb h p t * tInv kb qb p t * Ideal.ofBits .f32 0x419CC471#32 := rfl

theorem tContrib_apply (h : Fin 12) (p : Fin 512) (d : Fin 64) :
    tContrib kb qb vb h p d = ∑ t : Fin 256, tAttn kb qb h p t * vb (ix2 t (col h d)) := rfl

theorem tileStep_apply (acc : SK.Idx → EReal) (i : SK.Idx) :
    tileStep kb qb vb acc i = acc i + tContrib kb qb vb (headOf (i 1)) (i 0) (coordOf (i 1)) := rfl

theorem tileStep_ix2 (acc : SK.Idx → EReal) (p : Fin 512) (j : Fin 768) :
    tileStep kb qb vb acc (ix2 p j) = acc (ix2 p j) + tContrib kb qb vb (headOf j) p (coordOf j) := rfl

/-- At coordinate d of head h. -/
theorem tileStep_col (acc : SK.Idx → EReal) (p : Fin 512) (h : Fin 12) (d : Fin 64) :
    tileStep kb qb vb acc (ix2 p (col h d)) = acc (ix2 p (col h d)) + tContrib kb qb vb h p d := by
  rw [tileStep_ix2, headOf_col, coordOf_col]

end

/-- The output projection of an accumulator block: against the transposed weight wo (row k, column j) and the one-row bias. -/
def projOut (acc : SK.Idx → EReal) (wo : SW.Idx → EReal) (bo : SB1.Idx → EReal) : SK.Idx → EReal :=
  fun i => (∑ k : Fin 768, acc (ix2 (i 0) k) * wo (ix2 k (i 1))) + bo (ix2 (0 : Fin 1) (i 1))

theorem projOut_apply (acc : SK.Idx → EReal) (wo : SW.Idx → EReal) (bo : SB1.Idx → EReal) (i : SK.Idx) :
    projOut acc wo bo i = (∑ k : Fin 768, acc (ix2 (i 0) k) * wo (ix2 k (i 1))) + bo (ix2 (0 : Fin 1) (i 1)) := rfl

theorem projOut_ix2 (acc : SK.Idx → EReal) (wo : SW.Idx → EReal) (bo : SB1.Idx → EReal) (p : Fin 512) (j : Fin 768) :
    projOut acc wo bo (ix2 p j) = (∑ k : Fin 768, acc (ix2 p k) * wo (ix2 k j)) + bo (ix2 (0 : Fin 1) j) := rfl

/-! ## The arrays the blocks are cut from -/

/-- The three linear layers side by side. -/
def qkvOf (x : SX.Idx → EReal) (Wq : SW.Idx → EReal) (bq : SB.Idx → EReal) (Wk : SW.Idx → EReal) (bk : SB.Idx → EReal)
    (Wv : SW.Idx → EReal) (bv : SB.Idx → EReal) : SY.Idx → EReal :=
  fun i =>
    if h1 : (i 1).val < 768 then proj x Wq bq (i 0) ⟨(i 1).val, h1⟩
    else if h2 : (i 1).val < 1536 then proj x Wk bk (i 0) ⟨(i 1).val - 768, by omega⟩
    else proj x Wv bv (i 0) ⟨(i 1).val - 1536, by have h3 : (i 1).val < 2304 := (i 1).isLt; omega⟩

/-- Row p of output-row block sb. -/
def rowK (sb : Fin 8) (p : Fin 512) : Fin 4096 := ⟨sb.val * 512 + p.val, by have := sb.isLt; have := p.isLt; omega⟩
/-- Row t of key/value block tb. -/
def rowQ (tb : Fin 16) (t : Fin 256) : Fin 4096 := ⟨tb.val * 256 + t.val, by have := tb.isLt; have := t.isLt; omega⟩

theorem rowK_val (sb : Fin 8) (p : Fin 512) : (rowK sb p).val = sb.val * 512 + p.val := rfl
theorem rowQ_val (tb : Fin 16) (t : Fin 256) : (rowQ tb t).val = tb.val * 256 + t.val := rfl

/-- Column j of the queries, of the keys, of the values in the side-by-side array. -/
def colQ (j : Fin 768) : Fin 2304 := ⟨j.val, by have := j.isLt; omega⟩
def colK (j : Fin 768) : Fin 2304 := ⟨768 + j.val, by have := j.isLt; omega⟩
def colV (j : Fin 768) : Fin 2304 := ⟨1536 + j.val, by have := j.isLt; omega⟩

theorem colQ_val (j : Fin 768) : (colQ j).val = j.val := rfl
theorem colK_val (j : Fin 768) : (colK j).val = 768 + j.val := rfl
theorem colV_val (j : Fin 768) : (colV j).val = 1536 + j.val := rfl

section
variable (Y : SY.Idx → EReal)

/-- The keys of output-row block sb. -/
def kBlock (sb : Fin 8) : SK.Idx → EReal := fun i => Y (ix2 (rowK sb (i 0)) (colK (i 1)))
/-- The queries of key/value block tb. -/
def qBlock (tb : Fin 16) : SQ.Idx → EReal := fun i => Y (ix2 (rowQ tb (i 0)) (colQ (i 1)))
/-- The values of key/value block tb. -/
def vBlock (tb : Fin 16) : SQ.Idx → EReal := fun i => Y (ix2 (rowQ tb (i 0)) (colV (i 1)))

theorem kBlock_apply (sb : Fin 8) (i : SK.Idx) : kBlock Y sb i = Y (ix2 (rowK sb (i 0)) (colK (i 1))) := rfl
theorem qBlock_apply (tb : Fin 16) (i : SQ.Idx) : qBlock Y tb i = Y (ix2 (rowQ tb (i 0)) (colQ (i 1))) := rfl
theorem vBlock_apply (tb : Fin 16) (i : SQ.Idx) : vBlock Y tb i = Y (ix2 (rowQ tb (i 0)) (colV (i 1))) := rfl
theorem kBlock_ix2 (sb : Fin 8) (p : Fin 512) (j : Fin 768) : kBlock Y sb (ix2 p j) = Y (ix2 (rowK sb p) (colK j)) := rfl
theorem qBlock_ix2 (tb : Fin 16) (t : Fin 256) (j : Fin 768) : qBlock Y tb (ix2 t j) = Y (ix2 (rowQ tb t) (colQ j)) := rfl
theorem vBlock_ix2 (tb : Fin 16) (t : Fin 256) (j : Fin 768) : vBlock Y tb (ix2 t j) = Y (ix2 (rowQ tb t) (colV j)) := rfl

/-- Key/value block number n, for any natural number (the kernel's are 0 … 15). -/
def blockNo (n : ℕ) : Fin 16 := ⟨n % 16, Nat.mod_lt _ (by decide)⟩

theorem blockNo_of_lt (n : ℕ) (h : n < 16) : blockNo n = ⟨n, h⟩ := Fin.ext (Nat.mod_eq_of_lt h)
theorem blockNo_val (tb : Fin 16) : blockNo tb.val = tb := Fin.ext (Nat.mod_eq_of_lt tb.isLt)

/-- The accumulator of output-row block sb after key/value blocks 0 … n: cleared to the zero word, then one grid point
    after another. -/
def accAt (sb : Fin 8) : ℕ → SK.Idx → EReal
  | 0 => tileStep (kBlock Y sb) (qBlock Y (blockNo 0)) (vBlock Y (blockNo 0)) (fun _ => Ideal.ofBits .f32 0x00000000#32)
  | n + 1 => tileStep (kBlock Y sb) (qBlock Y (blockNo (n + 1))) (vBlock Y (blockNo (n + 1))) (accAt sb n)

theorem accAt_zero (sb : Fin 8) :
    accAt Y sb 0 = tileStep (kBlock Y sb) (qBlock Y (blockNo 0)) (vBlock Y (blockNo 0)) (fun _ => Ideal.ofBits .f32 0x00000000#32) := rfl

theorem accAt_succ (sb : Fin 8) (n : ℕ) :
    accAt Y sb (n + 1) = tileStep (kBlock Y sb) (qBlock Y (blockNo (n + 1))) (vBlock Y (blockNo (n + 1))) (accAt Y sb n) := rfl

/-- At the kernel's grid points: block 0 … -/
theorem accAt_zero' (sb : Fin 8) :
    accAt Y sb 0 = tileStep (kBlock Y sb) (qBlock Y 0) (vBlock Y 0) (fun _ => Ideal.ofBits .f32 0x00000000#32) := rfl

/-- … and block tb after block tb − 1. -/
theorem accAt_step (sb : Fin 8) (tb : Fin 16) (n : ℕ) (h : tb.val = n + 1) :
    accAt Y sb tb.val = tileStep (kBlock Y sb) (qBlock Y tb) (vBlock Y tb) (accAt Y sb n) := by
  rw [h, accAt_succ, ← h, blockNo_val]

end

end Cert.Attn

end
-- ==== Proof.KI.R1Value.lean ====
/- REGION 1's result as a closed form, over the extended reals: the accumulator after the key/value blocks 0 … n of a row
   block is the tile recursion of the first region's result array, and the result array is the output projection of the
   accumulator after the last block, row block by row block. The arithmetic of one grid point — what each of the body's
   three cases leaves, as the tile step of its blocks — enters as four hypotheses. -/
import proofs.«178773_j13254269075465_2_alg».proof.Proof.KI.R1
import proofs.«178773_j13254269075465_2_alg».proof.Proof.KI.R1Array
import proofs.«178773_j13254269075465_2_alg».proof.Proof.Tiles

set_option maxRecDepth 16384

noncomputable section

namespace Cert.KernelIdeal.R1V

open Cert.KernelIdeal Cert.KernelIdeal.Gen Cert.KernelIdeal.R1 Cert.KernelIdeal.R1A Cert.Attn
open Idealize.ShloMosaic Idealize.ShloMosaic.TcCoe Idealize.ShloMosaic.ValueIdx
open Idealize.SL.Sem
open Idealize.ShloMosaic.Pipeline (Dat)

/-! ## The four facts about one grid point, as hypotheses -/

/-- At the first key/value block the body leaves in the accumulator the tile step from the zero accumulator. -/
def PieceA : Prop := ∀ (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : cond1_0 i) (hc1 : ¬cond1_1 i)
    (x0 : Vec Ideal S512x768 .bf16) (x1 : Vec Ideal S256x768 .bf16) (x2 : Vec Ideal S256x768 .bf16) (x3 : Vec Ideal S768x768 .bf16) (x4 : Vec Ideal S1x768 .f32),
    sout1_A_0 (F := Ideal) c i arg2 harg2 arg3 harg3 arg4 harg4 arg5 harg5 arg6 harg6 arg7 harg7 arg8 harg8 arg9 harg9 arg10 harg10 arg11 harg11 hc0 hc1 x0 x1 x2 x3 x4 = tileStep x0 x1 x2 (fun _ => Ideal.ofBits .f32 0x00000000#32)
/-- At a middle block, the tile step from what the accumulator held. -/
def PieceB : Prop := ∀ (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : ¬cond1_1 i)
    (x0 : Vec Ideal S512x768 .bf16) (x1 : Vec Ideal S256x768 .bf16) (x2 : Vec Ideal S256x768 .bf16) (x3 : Vec Ideal S768x768 .bf16) (x4 : Vec Ideal S1x768 .f32) (xs0 : Vec Ideal S512x768 .f32),
    sout1_B_0 (F := Ideal) c i arg2 harg2 arg3 harg3 arg4 harg4 arg5 harg5 arg6 harg6 arg7 harg7 arg8 harg8 arg9 harg9 arg10 harg10 arg11 harg11 hc0 hc1 x0 x1 x2 x3 x4 xs0 = tileStep x0 x1 x2 xs0
/-- At the last block, the same in the accumulator, -/
def PieceC : Prop := ∀ (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec Ideal S512x768 .bf16) (x1 : Vec Ideal S256x768 .bf16) (x2 : Vec Ideal S256x768 .bf16) (x3 : Vec Ideal S768x768 .bf16) (x4 : Vec Ideal S1x768 .f32) (xs0 : Vec Ideal S512x768 .f32),
    sout1_C_0 (F := Ideal) c i arg2 harg2 arg3 harg3 arg4 harg4 arg5 harg5 arg6 harg6 arg7 harg7 arg8 harg8 arg9 harg9 arg10 harg10 arg11 harg11 hc0 hc1 x0 x1 x2 x3 x4 xs0 = tileStep x0 x1 x2 xs0
/-- and in the result's buffer its output projection. -/
def PieceO : Prop := ∀ (c : Dev nD) (i : grid1.Coords) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S512x768 .f32) (harg7 : arg7.IsWhole) (arg8 : Memref sig .tc .vmem S512x768 .f32) (harg8 : arg8.IsWhole) (arg9 : Memref sig .tc .vmem S12x512x256 .f32) (harg9 : arg9.IsWhole) (arg10 : Memref sig .tc .vmem S512x256 .f32) (harg10 : arg10.IsWhole) (arg11 : Memref sig .tc .vmem S512x256 .f32) (harg11 : arg11.IsWhole) (hc0 : ¬cond1_0 i) (hc1 : cond1_1 i)
    (x0 : Vec Ideal S512x768 .bf16) (x1 : Vec Ideal S256x768 .bf16) (x2 : Vec Ideal S256x768 .bf16) (x3 : Vec Ideal S768x768 .bf16) (x4 : Vec Ideal S1x768 .f32) (xs0 : Vec Ideal S512x768 .f32),
    out1_C_5 (F := Ideal) c i arg2 harg2 arg3 harg3 arg4 harg4 arg5 harg5 arg6 harg6 arg7 harg7 arg8 harg8 arg9 harg9 arg10 harg10 arg11 harg11 hc0 hc1 x0 x1 x2 x3 x4 xs0 = projOut (tileStep x0 x1 x2 xs0) x3 x4

/-! ## A point's row block and key/value block; the blocks as the tiles' -/

/-- The row block of point `t`. -/
def sbOf (t : Fin cfg1.N) : Fin 8 := ⟨t.val / 16, by have := point_lt t; omega⟩
/-- The key/value block of point `t`. -/
def tbOf (t : Fin cfg1.N) : Fin 16 := ⟨t.val % 16, Nat.mod_lt _ (by decide)⟩
theorem sbOf_val (t : Fin cfg1.N) : (sbOf t).val = t.val / 16 := rfl
theorem tbOf_val (t : Fin cfg1.N) : (tbOf t).val = t.val % 16 := rfl

/-- Point `16 sb + n` of row block `sb`. -/
def pointOf (sb : Fin 8) (n : ℕ) (hn : n < 16) : Fin cfg1.N :=
  ⟨16 * sb.val + n, show 16 * sb.val + n < grid1.N by have := sb.isLt; rw [N_1]; omega⟩
theorem pointOf_val (sb : Fin 8) (n : ℕ) (hn : n < 16) : (pointOf sb n hn).val = 16 * sb.val + n := rfl
theorem sbOf_pointOf (sb : Fin 8) (n : ℕ) (hn : n < 16) : sbOf (pointOf sb n hn) = sb :=
  Fin.ext (by show (16 * sb.val + n) / 16 = sb.val; omega)
theorem tbOf_pointOf (sb : Fin 8) (n : ℕ) (hn : n < 16) : tbOf (pointOf sb n hn) = ⟨n, hn⟩ :=
  Fin.ext (by show (16 * sb.val + n) % 16 = n; omega)

/-- Window 0's block of the first region's result is the keys of the point's row block, -/
theorem read1_0_kBlock (Y : S4096x2304.Idx → EReal) (t : Fin cfg1.N) :
    (((cfg1.win 0).blk t).view.read (Elt Ideal) Y : S512x768.Idx → EReal) = kBlock Y (sbOf t) := by
  refine funext_ix2 _ _ fun p j => (read1_0_apply Y t p j).trans ?_
  show Y _ = Y _
  refine congrArg Y (funext fun a => Fin.ext ?_)
  match a with
  | ⟨0, _⟩ => show 512 * (t.val / 16) + p.val = t.val / 16 * 512 + p.val; omega
  | ⟨1, _⟩ => rfl
/-- window 1's the queries of the point's key/value block, -/
theorem read1_1_qBlock (Y : S4096x2304.Idx → EReal) (t : Fin cfg1.N) :
    (((cfg1.win 1).blk t).view.read (Elt Ideal) Y : S256x768.Idx → EReal) = qBlock Y (tbOf t) := by
  refine funext_ix2 _ _ fun q j => (read1_1_apply Y t q j).trans ?_
  show Y _ = Y _
  refine congrArg Y (funext fun a => Fin.ext ?_)
  match a with
  | ⟨0, _⟩ => show 256 * (t.val % 16) + q.val = t.val % 16 * 256 + q.val; omega
  | ⟨1, _⟩ => rfl
/-- window 2's its values. -/
theorem read1_2_vBlock (Y : S4096x2304.Idx → EReal) (t : Fin cfg1.N) :
    (((cfg1.win 2).blk t).view.read (Elt Ideal) Y : S256x768.Idx → EReal) = vBlock Y (tbOf t) := by
  refine funext_ix2 _ _ fun q j => (read1_2_apply Y t q j).trans ?_
  show Y _ = Y _
  refine congrArg Y (funext fun a => Fin.ext ?_)
  match a with
  | ⟨0, _⟩ => show 256 * (t.val % 16) + q.val = t.val % 16 * 256 + q.val; omega
  | ⟨1, _⟩ => rfl

section Value
variable (V : (c : Dev nD) → (b : Ref sig .tc) → Buf (Elt Ideal) ((c : Thread nD τ).loc b))

theorem iblk1_0_eq (c : Dev nD) (t : Fin cfg1.N) :
    (iblk1 V c 0 t : S512x768.Idx → EReal) = kBlock (V c main_v7) (sbOf t) := read1_0_kBlock (V c main_v7) t
theorem iblk1_1_eq (c : Dev nD) (t : Fin cfg1.N) :
    (iblk1 V c 1 t : S256x768.Idx → EReal) = qBlock (V c main_v7) (tbOf t) := read1_1_qBlock (V c main_v7) t
theorem iblk1_2_eq (c : Dev nD) (t : Fin cfg1.N) :
    (iblk1 V c 2 t : S256x768.Idx → EReal) = vBlock (V c main_v7) (tbOf t) := read1_2_vBlock (V c main_v7) t
theorem iblk1_3_eq (c : Dev nD) (t : Fin cfg1.N) :
    (iblk1 V c 3 t : S768x768.Idx → EReal) = V c main_v5 := read1_3_eq (V c main_v5) t
theorem iblk1_4_eq (c : Dev nD) (t : Fin cfg1.N) :
    (iblk1 V c 4 t : S1x768.Idx → EReal) = V c main_v8 := read1_4_eq (V c main_v8) t

/-! ## The accumulator -/

/-- The recursion's value does not depend on how its position is written. -/
theorem outsAt1_congr (c : Dev nD) (n n' : ℕ) (e : n = n') (hn : n < cfg1.N) (hn' : n' < cfg1.N) :
    outsAt1 (F := Ideal) V c n hn = outsAt1 (F := Ideal) V c n' hn' := by subst e; rfl

/-- At the first point of a row block the accumulator is the tile step of the point's blocks from zero, -/
theorem acc_first (hA : PieceA) (c : Dev nD) (t : Fin cfg1.N) (h0 : t.val % 16 = 0) :
    (outsAt1 (F := Ideal) V c t.val t.isLt).2
      = tileStep (kBlock (V c main_v7) (sbOf t)) (qBlock (V c main_v7) (tbOf t)) (vBlock (V c main_v7) (tbOf t)) (fun _ => Ideal.ofBits .f32 0x00000000#32) := by
  rw [outsAt1_A V c t h0 (by omega)]
  dsimp only
  rw [hA, iblk1_0_eq, iblk1_1_eq, iblk1_2_eq]
/-- and at any other the tile step from what the point before left. -/
theorem acc_next (hB : PieceB) (hC : PieceC) (c : Dev nD) (t : Fin cfg1.N) (h0 : ¬t.val % 16 = 0) :
    (outsAt1 (F := Ideal) V c t.val t.isLt).2
      = tileStep (kBlock (V c main_v7) (sbOf t)) (qBlock (V c main_v7) (tbOf t)) (vBlock (V c main_v7) (tbOf t))
          (outsAt1 (F := Ideal) V c (t.val - 1) (Nat.lt_of_le_of_lt (Nat.sub_le _ _) t.isLt)).2 := by
  by_cases h1 : t.val % 16 = 15
  · rw [outsAt1_C V c t h0 h1]
    dsimp only
    rw [hC, iblk1_0_eq, iblk1_1_eq, iblk1_2_eq]
  · rw [outsAt1_B V c t h0 h1]
    dsimp only
    rw [hB, iblk1_0_eq, iblk1_1_eq, iblk1_2_eq]

/-- THE ACCUMULATOR after key/value blocks 0 … n of row block `sb` is the tile recursion of the first region's result. -/
theorem acc_at_nat (hA : PieceA) (hB : PieceB) (hC : PieceC) (c : Dev nD) (sb : Fin 8) :
    ∀ (n : ℕ) (hn : n < 16), (outsAt1 (F := Ideal) V c (16 * sb.val + n) (pointOf sb n hn).isLt).2 = accAt (V c main_v7) sb n
  | 0, hn => by
    refine (acc_first V hA c (pointOf sb 0 hn) (by rw [pointOf_val]; omega)).trans ?_
    rw [sbOf_pointOf, tbOf_pointOf]
    rfl
  | n + 1, hn => by
    have ih := acc_at_nat hA hB hC c sb n (Nat.lt_of_succ_lt hn)
    refine (acc_next V hB hC c (pointOf sb (n + 1) hn) (by rw [pointOf_val]; omega)).trans ?_
    rw [sbOf_pointOf, tbOf_pointOf,
      outsAt1_congr V c ((pointOf sb (n + 1) hn).val - 1) (16 * sb.val + n) (by rw [pointOf_val]; omega) _ (pointOf sb n (Nat.lt_of_succ_lt hn)).isLt,
      ih]
    exact (accAt_step (V c main_v7) sb ⟨n + 1, hn⟩ n rfl).symm

theorem acc_at (hA : PieceA) (hB : PieceB) (hC : PieceC) (c : Dev nD) (sb : Fin 8) (n : Fin 16) :
    (outsAt1 (F := Ideal) V c (16 * sb.val + n.val) (pointOf sb n.val n.isLt).isLt).2 = accAt (V c main_v7) sb n.val :=
  acc_at_nat V hA hB hC c sb n.val n.isLt

/-- The same at a point: the accumulator after point `t` is the recursion of its row block at its key/value block. -/
theorem acc_at_point (hA : PieceA) (hB : PieceB) (hC : PieceC) (c : Dev nD) (t : Fin cfg1.N) :
    (outsAt1 (F := Ideal) V c t.val t.isLt).2 = accAt (V c main_v7) (sbOf t) (t.val % 16) := by
  have h := acc_at_nat V hA hB hC c (sbOf t) (t.val % 16) (Nat.mod_lt _ (by decide))
  rw [← h]
  exact congrArg Prod.snd (outsAt1_congr V c t.val (16 * (sbOf t).val + t.val % 16) (by rw [sbOf_val]; omega) _ _)

/-! ## The result array -/

theorem div512_lt (r : Fin 4096) : r.val / 512 < 8 := by have := r.isLt; omega
theorem mod512_lt (r : ℕ) : r % 512 < 512 := Nat.mod_lt _ (by decide)

/-- The region's result as one function of the arrays it reads: row `r` is row `r % 512` of the output projection of
    the accumulator of row block `r / 512` after its last key/value block. -/
def attnOut (Y : SY.Idx → EReal) (W : SW.Idx → EReal) (B : SB1.Idx → EReal) : S4096x768.Idx → EReal :=
  fun i => projOut (accAt Y ⟨(i 0).val / 512, div512_lt (i 0)⟩ 15) W B (ix2 (⟨(i 0).val % 512, mod512_lt _⟩ : Fin 512) (i 1))

theorem attnOut_apply (Y : SY.Idx → EReal) (W : SW.Idx → EReal) (B : SB1.Idx → EReal) (i : S4096x768.Idx) :
    attnOut Y W B i = projOut (accAt Y ⟨(i 0).val / 512, div512_lt (i 0)⟩ 15) W B (ix2 (⟨(i 0).val % 512, mod512_lt _⟩ : Fin 512) (i 1)) := rfl

/-- At row `p` of row block `sb`. -/
theorem attnOut_block (Y : SY.Idx → EReal) (W : SW.Idx → EReal) (B : SB1.Idx → EReal) (sb : Fin 8) (p : Fin 512) (j : Fin 768)
    (r : Fin 4096) (hr : r.val = 512 * sb.val + p.val) :
    attnOut Y W B (ix2 r j) = projOut (accAt Y sb 15) W B (ix2 p j) := by
  have hp := p.isLt
  have e1 : (⟨r.val / 512, div512_lt r⟩ : Fin 8) = sb := Fin.ext (by show r.val / 512 = sb.val; omega)
  have e2 : (⟨r.val % 512, mod512_lt _⟩ : Fin 512) = p := Fin.ext (by show r.val % 512 = p.val; omega)
  show projOut (accAt Y ⟨r.val / 512, div512_lt r⟩ 15) W B (ix2 (⟨r.val % 512, mod512_lt _⟩ : Fin 512) j) = _
  rw [e1, e2]

/-- THE RESULT ARRAY after the region's last point. -/
theorem final1_5 (hA : PieceA) (hB : PieceB) (hC : PieceC) (hO : PieceO) (c : Dev nD) :
    (dat1 (F := Ideal) V c).arrAt 5 cfg1.N = attnOut (V c main_v7) (V c main_v5) (V c main_v8) :=
  final1_5_of (dat1 (F := Ideal) V c) (attnOut (V c main_v7) (V c main_v5) (V c main_v8)) fun t ht p j => by
    have h0 : ¬t.val % 16 = 0 := by omega
    rw [after1_5, outsAt1_C V c t h0 ht]
    dsimp only
    rw [hO, iblk1_0_eq, iblk1_1_eq, iblk1_2_eq, iblk1_3_eq, iblk1_4_eq]
    have hacc := acc_at_point V hA hB hC c t
    rw [acc_next V hB hC c t h0, ht] at hacc
    rw [hacc]
    exact (attnOut_block (V c main_v7) (V c main_v5) (V c main_v8) (sbOf t) p j _ rfl).symm

end Value

/-- info: 'Cert.KernelIdeal.R1V.final1_5' depends on axioms: [propext, Classical.choice, Quot.sound] -/
#guard_msgs in #print axioms final1_5

end Cert.KernelIdeal.R1V

end
-- ==== Proof.KI.Finite.lean ====
/- FINITENESS FROM THE PRECONDITION: the precondition is the conjunction, over the nine argument arrays, of "every entry
   has absolute value below +∞"; over the extended reals an entry with that property is a real number. -/
import proofs.«178773_j13254269075465_2_alg».proof.Defs
import proofs.«178773_j13254269075465_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.KernelIdeal.Fin

open Cert.KernelIdeal
open Idealize.ShloMosaic Idealize.ShloMosaic.TcCoe Idealize.ShloMosaic.ValueIdx
open Idealize.SL.Sem

/-- The scalar shape has one index. -/
instance : Subsingleton Cert.Pre_finite_inputs.S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The bit pattern of +∞. -/
theorem ofBits_inf : Ideal.ofBits .f32 0x7F800000#32 = ⊤ := by simp [Ideal.ofBits, Ideal.ieee]

/-- One conjunct of the precondition, for an array of any shape: if "all entries have absolute value below +∞" came
    out true, every entry is a real number. -/
theorem real_of_all {s : Shape} {axes : List (_root_.Fin s.rank)} (x : FVec Ideal s .f32)
    (hb : Cert.Pre_finite_inputs.S_.BroadcastsInDim s (![] : _root_.Fin 0 → _root_.Fin s.rank))
    (hr : s.ReducesTo axes Cert.Pre_finite_inputs.S_) (hu : 0 < Cert.Pre_finite_inputs.S_.numel)
    (e : Host.reduce IntOp.andi (cmpf .olt (Host.absf x) (broadcastInDim s ![] hb (constant (F := Ideal) Cert.Pre_finite_inputs.S_ .f32 0x7F800000#32)))
      (constantI Cert.Pre_finite_inputs.S_ 1 1#1) hr hu ix0 = 1#1) (i : s.Idx) : ∃ r : ℝ, x i = (r : EReal) := by
  have h1 := Host.reduce_andi_all _ _ hr hu ix0 e i
  have h2 : Ideal.cmp .olt (max (x i) (-(x i))) (Ideal.ofBits .f32 0x7F800000#32) = 1#1 := h1
  rw [ofBits_inf] at h2
  refine real_of_abs_lt_top (x i) ?_
  unfold Ideal.cmp at h2
  by_contra hn
  simp [hn] at h2

/-- FROM THE PRECONDITION: on every device, every entry of each of the nine argument arrays is a real number. -/
theorem real_of_pre (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD) :
    (∀ i, ∃ r : ℝ, (m ((c.tc : Thread Cert.KernelIdeal.nD Cert.KernelIdeal.τ).loc main_arg0) : S4096x768.Idx → EReal) i = (r : EReal))
    ∧ (∀ i, ∃ r : ℝ, (m ((c.tc : Thread Cert.KernelIdeal.nD Cert.KernelIdeal.τ).loc main_arg1) : S768x768.Idx → EReal) i = (r : EReal))
    ∧ (∀ i, ∃ r : ℝ, (m ((c.tc : Thread Cert.KernelIdeal.nD Cert.KernelIdeal.τ).loc main_arg2) : S768.Idx → EReal) i = (r : EReal))
    ∧ (∀ i, ∃ r : ℝ, (m ((c.tc : Thread Cert.KernelIdeal.nD Cert.KernelIdeal.τ).loc main_arg3) : S768x768.Idx → EReal) i = (r : EReal))
    ∧ (∀ i, ∃ r : ℝ, (m ((c.tc : Thread Cert.KernelIdeal.nD Cert.KernelIdeal.τ).loc main_arg4) : S768.Idx → EReal) i = (r : EReal))
    ∧ (∀ i, ∃ r : ℝ, (m ((c.tc : Thread Cert.KernelIdeal.nD Cert.KernelIdeal.τ).loc main_arg5) : S768x768.Idx → EReal) i = (r : EReal))
    ∧ (∀ i, ∃ r : ℝ, (m ((c.tc : Thread Cert.KernelIdeal.nD Cert.KernelIdeal.τ).loc main_arg6) : S768.Idx → EReal) i = (r : EReal))
    ∧ (∀ i, ∃ r : ℝ, (m ((c.tc : Thread Cert.KernelIdeal.nD Cert.KernelIdeal.τ).loc main_arg7) : S768x768.Idx → EReal) i = (r : EReal))
    ∧ (∀ i, ∃ r : ℝ, (m ((c.tc : Thread Cert.KernelIdeal.nD Cert.KernelIdeal.τ).loc main_arg8) : S768.Idx → EReal) i = (r : EReal)) := by
  have h0 := congrFun (h c) ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ _ e0, real_of_all _ _ _ _ e1, real_of_all _ _ _ _ e2, real_of_all _ _ _ _ e3, real_of_all _ _ _ _ e4,
    real_of_all _ _ _ _ e5, real_of_all _ _ _ _ e6, real_of_all _ _ _ _ e7, real_of_all _ _ _ _ e8⟩

/-- info: 'Cert.KernelIdeal.Fin.real_of_pre' depends on axioms: [propext, Classical.choice, Quot.sound] -/
#guard_msgs in #print axioms real_of_pre

end Cert.KernelIdeal.Fin

end
-- ==== Proof.TilesAlgebra.lean ====
/- The tiled computation of the attention kernel is the specification: block by block, the accumulator gathers the
   context's sum over the 4096 key/value rows, 256 at a time, and the output projection of the last accumulator is the
   result G of Spec.lean. The laws used: a fold over the twelve heads written out from the left is the fold over the set of
   heads (max and + commute and associate); e · (1 / S) = e / S for S ≠ 0, and S, a sum of exponentials of real numbers,
   is positive when the inputs are real; a sum over 4096 rows is the sum over 16 blocks of the sums over their 256 rows. -/
import proofs.«178773_j13254269075465_2_alg».proof.Proof.Tiles

noncomputable section

open scoped BigOperators

namespace Cert.Attn

open Idealize.ShloMosaic Idealize.ShloMosaic.ValueIdx

/-! ## Extended reals that are real numbers -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type*} (s : Finset ι) (f : ι → EReal) (h : ∀ i ∈ s, IsReal (f i)) : IsReal (∑ i ∈ s, f i) := by
  classical
  revert h
  refine Finset.induction_on s (fun _ => ⟨0, by simp⟩) ?_
  intro a s ha ih h
  rw [Finset.sum_insert ha]
  exact (h a (Finset.mem_insert_self a s)).add (ih fun i hi => h i (Finset.mem_insert_of_mem hi))

/-! ## Words -/

/-- The word 0xFF800000 is −∞. -/
theorem ofBits_negInf : Ideal.ofBits .f32 0xFF800000#32 = (⊥ : EReal) := by simp [Ideal.ofBits, Ideal.ieee]

/-- The word 0x3F800000 is 1. -/
theorem ofBits_one : Ideal.ofBits .f32 0x3F800000#32 = (1 : EReal) := IdealRules.sign_bit.ideal_onePat .f32

/-! ## Division by a sum that is not zero -/

/-- Off zero the quotient is the product with the inverse, so multiplying by the reciprocal is dividing. -/
theorem mul_div_one (e S : EReal) (hS : S ≠ 0) :
    e * Ideal.div (Ideal.ofBits .f32 0x3F800000#32) S = Ideal.div e S := by
  unfold Ideal.div
  rw [if_neg hS, if_neg hS, ofBits_one, one_mul]

/-! ## Folds over the twelve heads, written out -/

/-- For a commutative, associative operation the fold over the twelve heads is the chain from the left. -/
theorem fold_fin12 {α : Type*} (f : α → α → α) [Std.Commutative f] [Std.Associative f] (b : α) (g : Fin 12 → α) :
    (Finset.univ : Finset (Fin 12)).fold f b g
      = f (f (f (f (f (f (f (f (f (f (f (f b (g 0)) (g 1)) (g 2)) (g 3)) (g 4)) (g 5)) (g 6)) (g 7)) (g 8)) (g 9)) (g 10)) (g 11) := by
  simp only [Fin.univ_succ, Finset.fold_cons, Finset.fold_map, Finset.univ_unique, Finset.fold_singleton]
  show f (g 0) (f (g 1) (f (g 2) (f (g 3) (f (g 4) (f (g 5) (f (g 6) (f (g 7) (f (g 8) (f (g 9) (f (g 10) (f (g 11) b)))))))))))
    = _
  ac_rfl

/-- The sum over the twelve heads is the chain of additions from zero. -/
theorem sum_fin12 (g : Fin 12 → EReal) :
    ∑ h : Fin 12, g h = 0 + g 0 + g 1 + g 2 + g 3 + g 4 + g 5 + g 6 + g 7 + g 8 + g 9 + g 10 + g 11 := by
  rw [Finset.sum_eq_fold]
  exact fold_fin12 (· + ·) 0 g

/-! ## 4096 rows are 16 blocks of 256 -/

/-- Row 256·tb + t for block tb and offset t: a bijection. -/
def tileEquiv : Fin 16 × Fin 256 ≃ Fin 4096 where
  toFun q := rowQ q.1 q.2
  invFun u := (⟨u.val / 256, by have := u.isLt; omega⟩, ⟨u.val % 256, by omega⟩)
  left_inv := fun ⟨tb, t⟩ => Prod.ext
    (Fin.ext (by have := t.isLt; show (tb.val * 256 + t.val) / 256 = tb.val; omega))
    (Fin.ext (by have := t.isLt; show (tb.val * 256 + t.val) % 256 = t.val; omega))
  right_inv := fun u => Fin.ext (by show u.val / 256 * 256 + u.val % 256 = u.val; omega)

/-- A sum over the 4096 rows is the sum over the blocks of the sums over their rows. -/
theorem sum_tiles {M : Type*} [AddCommMonoid M] (g : Fin 4096 → M) :
    ∑ u : Fin 4096, g u = ∑ tb : Fin 16, ∑ t : Fin 256, g (rowQ tb t) := by
  rw [← Equiv.sum_comp tileEquiv g, Fintype.sum_prod_type]
  rfl

/-! ## With real inputs the softmax's denominator is not zero -/

section Real
variable (x : SX.Idx → EReal) (Wq : SW.Idx → EReal) (bq : SB.Idx → EReal) (Wk : SW.Idx → EReal) (bk : SB.Idx → EReal)

/-- A linear layer of real inputs is real. -/
theorem isReal_proj (W : SW.Idx → EReal) (b : SB.Idx → EReal) (hx : ∀ i, IsReal (x i)) (hW : ∀ i, IsReal (W i))
    (hb : ∀ i, IsReal (b i)) (s : Fin 4096) (j : Fin 768) : IsReal (proj x W b s j) :=
  (IsReal.sum _ _ fun k _ => (hx _).mul (hW _)).add (hb _)

variable (hx : ∀ i, IsReal (x i)) (hWq : ∀ i, IsReal (Wq i)) (hbq : ∀ i, IsReal (bq i)) (hWk : ∀ i, IsReal (Wk i))
  (hbk : ∀ i, IsReal (bk i))
include hx hWq hbq hWk hbk

/-- A score of real inputs is real. -/
theorem isReal_score (h : Fin 12) (s t : Fin 4096) : IsReal (score x Wq bq Wk bk h s t) :=
  IsReal.sum _ _ fun d _ => (isReal_proj x Wk bk hx hWk hbk s _).mul (isReal_proj x Wq bq hx hWq hbq t _)

/-- The largest of the twelve scores is one of them, so it is real. -/
theorem isReal_hmax (s t : Fin 4096) : IsReal (hmax x Wq bq Wk bk s t) := by
  obtain ⟨h, _, e⟩ := Finset.exists_mem_eq_sup (Finset.univ : Finset (Fin 12)) Finset.univ_nonempty
    (fun h => score x Wq bq Wk bk h s t)
  rw [hmax_eq_sup, e]
  exact isReal_score x Wq bq Wk bk hx hWq hbq hWk hbk h s t

/-- Each exponential is positive. -/
theorem ew_pos (h : Fin 12) (s t : Fin 4096) : 0 < ew x Wq bq Wk bk h s t := by
  obtain ⟨a, ha⟩ := isReal_score x Wq bq Wk bk hx hWq hbq hWk hbk h s t
  obtain ⟨m, hm⟩ := isReal_hmax x Wq bq Wk bk hx hWq hbq hWk hbk s t
  rw [ew_apply, ha, hm, ← EReal.coe_sub, Ideal.exp_coe]
  exact EReal.coe_pos.mpr (Real.exp_pos _)

/-- So their sum over the heads is not zero. -/
theorem hsum_ne_zero (s t : Fin 4096) : hsum x Wq bq Wk bk s t ≠ 0 := by
  have h0 := ew_pos x Wq bq Wk bk hx hWq hbq hWk hbk 0 s t
  have hle : ew x Wq bq Wk bk 0 s t ≤ hsum x Wq bq Wk bk s t :=
    Finset.single_le_sum (f := fun h => ew x Wq bq Wk bk h s t)
      (fun h _ => (ew_pos x Wq bq Wk bk hx hWq hbq hWk hbk h s t).le) (Finset.mem_univ 0)
  exact (lt_of_lt_of_le h0 hle).ne'

end Real

/-! ## The blocks of the three layers side by side -/

section Blocks
variable (x : SX.Idx → EReal) (Wq : SW.Idx → EReal) (bq : SB.Idx → EReal) (Wk : SW.Idx → EReal) (bk : SB.Idx → EReal)
  (Wv : SW.Idx → EReal) (bv : SB.Idx → EReal)

/-- Columns 0 … 767 are the queries. -/
theorem qkvOf_q (s : Fin 4096) (j : Fin 768) : qkvOf x Wq bq Wk bk Wv bv (ix2 s (colQ j)) = proj x Wq bq s j := by
  have h1 : ((ix2 s (colQ j) : SY.Idx) 1).val < 768 := j.isLt
  unfold qkvOf
  rw [dif_pos h1]
  rfl

/-- Columns 768 … 1535 are the keys. -/
theorem qkvOf_k (s : Fin 4096) (j : Fin 768) : qkvOf x Wq bq Wk bk Wv bv (ix2 s (colK j)) = proj x Wk bk s j := by
  have hj := j.isLt
  have h1 : ¬ ((ix2 s (colK j) : SY.Idx) 1).val < 768 := by show ¬ 768 + j.val < 768; omega
  have h2 : ((ix2 s (colK j) : SY.Idx) 1).val < 1536 := by show 768 + j.val < 1536; omega
  unfold qkvOf
  rw [dif_neg h1, dif_pos h2]
  exact congrArg (proj x Wk bk s) (Fin.ext (by show 768 + j.val - 768 = j.val; omega))

/-- Columns 1536 … 2303 are the values. -/
theorem qkvOf_v (s : Fin 4096) (j : Fin 768) : qkvOf x Wq bq Wk bk Wv bv (ix2 s (colV j)) = proj x Wv bv s j := by
  have hj := j.isLt
  have h1 : ¬ ((ix2 s (colV j) : SY.Idx) 1).val < 768 := by show ¬ 1536 + j.val < 768; omega
  have h2 : ¬ ((ix2 s (colV j) : SY.Idx) 1).val < 1536 := by show ¬ 1536 + j.val < 1536; omega
  unfold qkvOf
  rw [dif_neg h1, dif_neg h2]
  exact congrArg (proj x Wv bv s) (Fin.ext (by show 1536 + j.val - 1536 = j.val; omega))

/-- The scores of a grid point are the specification's, at the blocks' rows. -/
theorem tScore_qkv (sb : Fin 8) (tb : Fin 16) (h : Fin 12) (p : Fin 512) (t : Fin 256) :
    tScore (kBlock (qkvOf x Wq bq Wk bk Wv bv) sb) (qBlock (qkvOf x Wq bq Wk bk Wv bv) tb) h p t
      = score x Wq bq Wk bk h (rowK sb p) (rowQ tb t) := by
  rw [tScore_apply, score_apply]
  refine Finset.sum_congr rfl fun d _ => ?_
  rw [kBlock_ix2, qBlock_ix2, qkvOf_k, qkvOf_q]

/-- The largest over the heads, folded from the left from −∞, is the largest over the set of heads. -/
theorem tMax_qkv (sb : Fin 8) (tb : Fin 16) (p : Fin 512) (t : Fin 256) :
    tMax (kBlock (qkvOf x Wq bq Wk bk Wv bv) sb) (qBlock (qkvOf x Wq bq Wk bk Wv bv) tb) p t
      = hmax x Wq bq Wk bk (rowK sb p) (rowQ tb t) := by
  rw [tMax_apply, hmax_apply, fold_fin12 max ⊥ (fun h => score x Wq bq Wk bk h (rowK sb p) (rowQ tb t)), ofBits_negInf]
  simp only [tScore_qkv]

theorem tExp_qkv (sb : Fin 8) (tb : Fin 16) (h : Fin 12) (p : Fin 512) (t : Fin 256) :
    tExp (kBlock (qkvOf x Wq bq Wk bk Wv bv) sb) (qBlock (qkvOf x Wq bq Wk bk Wv bv) tb) h p t
      = ew x Wq bq Wk bk h (rowK sb p) (rowQ tb t) := by
  rw [tExp_apply, tScore_qkv, tMax_qkv, ew_apply]

/-- The sum over the heads, folded from the left from zero, is the sum over the set of heads. -/
theorem tSum_qkv (sb : Fin 8) (tb : Fin 16) (p : Fin 512) (t : Fin 256) :
    tSum (kBlock (qkvOf x Wq bq Wk bk Wv bv) sb) (qBlock (qkvOf x Wq bq Wk bk Wv bv) tb) p t
      = hsum x Wq bq Wk bk (rowK sb p) (rowQ tb t) := by
  rw [tSum_apply, hsum_apply, sum_fin12 (fun h => ew x Wq bq Wk bk h (rowK sb p) (rowQ tb t)), Ideal.ofBits_zero_f32]
  simp only [tExp_qkv]

variable (hx : ∀ i, IsReal (x i)) (hWq : ∀ i, IsReal (Wq i)) (hbq : ∀ i, IsReal (bq i)) (hWk : ∀ i, IsReal (Wk i))
  (hbk : ∀ i, IsReal (bk i))
include hx hWq hbq hWk hbk

/-- With real inputs, the exponential times the reciprocal of the sum is the quotient: the weights are the
    specification's. -/
theorem tAttn_qkv (sb : Fin 8) (tb : Fin 16) (h : Fin 12) (p : Fin 512) (t : Fin 256) :
    tAttn (kBlock (qkvOf x Wq bq Wk bk Wv bv) sb) (qBlock (qkvOf x Wq bq Wk bk Wv bv) tb) h p t
      = attn x Wq bq Wk bk h (rowK sb p) (rowQ tb t) := by
  rw [tAttn_apply, tInv_apply, tExp_qkv, tSum_qkv, attn_apply,
    mul_div_one _ _ (hsum_ne_zero x Wq bq Wk bk hx hWq hbq hWk hbk (rowK sb p) (rowQ tb t))]
  rfl

/-- What a grid point adds at coordinate d of head h. -/
theorem tContrib_qkv (sb : Fin 8) (tb : Fin 16) (h : Fin 12) (p : Fin 512) (d : Fin 64) :
    tContrib (kBlock (qkvOf x Wq bq Wk bk Wv bv) sb) (qBlock (qkvOf x Wq bq Wk bk Wv bv) tb)
        (vBlock (qkvOf x Wq bq Wk bk Wv bv) tb) h p d
      = ∑ t : Fin 256, attn x Wq bq Wk bk h (rowK sb p) (rowQ tb t) * proj x Wv bv (rowQ tb t) (col h d) := by
  rw [tContrib_apply]
  refine Finset.sum_congr rfl fun t _ => ?_
  rw [tAttn_qkv x Wq bq Wk bk Wv bv hx hWq hbq hWk hbk, vBlock_ix2, qkvOf_v]

/-- The accumulator after blocks 0 … n: the zero word plus the blocks' contributions. -/
theorem accAt_qkv (sb : Fin 8) (p : Fin 512) (j : Fin 768) (n : ℕ) :
    accAt (qkvOf x Wq bq Wk bk Wv bv) sb n (ix2 p j)
      = Ideal.ofBits .f32 0x00000000#32
        + ∑ m ∈ Finset.range (n + 1), ∑ t : Fin 256,
            attn x Wq bq Wk bk (headOf j) (rowK sb p) (rowQ (blockNo m) t) * proj x Wv bv (rowQ (blockNo m) t) j := by
  induction n with
  | zero =>
    rw [accAt_zero, tileStep_ix2, tContrib_qkv x Wq bq Wk bk Wv bv hx hWq hbq hWk hbk, col_headOf_coordOf,
      Finset.sum_range_one]
  | succ n ih =>
    rw [accAt_succ, tileStep_ix2, ih, tContrib_qkv x Wq bq Wk bk Wv bv hx hWq hbq hWk hbk, col_headOf_coordOf,
      Finset.sum_range_succ _ (n + 1), add_assoc]

/-- After the sixteenth block the accumulator is the context. -/
theorem accAt_last (sb : Fin 8) (p : Fin 512) (j : Fin 768) :
    accAt (qkvOf x Wq bq Wk bk Wv bv) sb 15 (ix2 p j) = ctx x Wq bq Wk bk Wv bv (rowK sb p) j := by
  rw [accAt_qkv x Wq bq Wk bk Wv bv hx hWq hbq hWk hbk, Ideal.ofBits_zero_f32, zero_add, ctx_apply,
    sum_tiles (fun u => attn x Wq bq Wk bk (headOf j) (rowK sb p) u * proj x Wv bv u j),
    Finset.sum_range (fun m => ∑ t : Fin 256,
      attn x Wq bq Wk bk (headOf j) (rowK sb p) (rowQ (blockNo m) t) * proj x Wv bv (rowQ (blockNo m) t) j)]
  refine Finset.sum_congr rfl fun tb _ => ?_
  rw [blockNo_val]

end Blocks

/-! ## The kernel's result is the specification -/

/-- With every entry of the nine arrays a real number: the output projection of the accumulator after the sixteenth
    block, against the transposed output weight and the bias as one row, is the specification's result at the block's
    rows. -/
theorem kernel_is_G (x : SX.Idx → EReal) (Wq : SW.Idx → EReal) (bq : SB.Idx → EReal) (Wk : SW.Idx → EReal)
    (bk : SB.Idx → EReal) (Wv : SW.Idx → EReal) (bv : SB.Idx → EReal) (Wo : SW.Idx → EReal) (bo : SB.Idx → EReal)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (hWo : ∀ i, ∃ r : ℝ, Wo i = (r : EReal)) (hbo : ∀ i, ∃ r : ℝ, bo i = (r : EReal))
    (sb : Fin 8) (p : Fin 512) (j : Fin 768) :
    projOut (accAt (qkvOf x Wq bq Wk bk Wv bv) sb 15) (fun i => Wo (ix2 (i 1) (i 0))) (fun i => bo (ix1 (i 1))) (ix2 p j)
      = G x Wq bq Wk bk Wv bv Wo bo (ix2 (rowK sb p) j) := by
  rw [projOut_ix2, G_ix2, out_apply]
  simp only [accAt_last x Wq bq Wk bk Wv bv hx hWq hbq hWk hbk]

end Cert.Attn

end
-- ==== Proof.RefIsSpec.lean ====
/- The reference program computes the specification: its result array, read index by index through
   the stages of the generated reading of the program, is the function G of Spec.lean at its nine arguments. -/
import proofs.«178773_j13254269075465_2_alg».proof.Proof.Gen.ReferenceIdeal.Read
import proofs.«178773_j13254269075465_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- The contents of the input (and of the result) at the ideal values. -/
abbrev AX : Type := (⟨S4096x768, .f32⟩ : BufTy).Contents (Elt Ideal)
/-- The contents of a weight. -/
abbrev AW : Type := (⟨S768x768, .f32⟩ : BufTy).Contents (Elt Ideal)
/-- The contents of a bias. -/
abbrev AB : Type := (⟨S768, .f32⟩ : BufTy).Contents (Elt Ideal)

/-! ## The three linear layers -/

/-- The query layer at row s, column j. -/
theorem q_at (x0 : AX) (x1 : AW) (x2 : AB) (s : Fin 4096) (j : Fin 768) :
    val_main_v4 (F := Ideal) x0 x1 x2 (ix2 s j) = proj x0 x1 x2 s j := by
  rw [val_main_v4_apply, val_main_v1_apply, val_main_v3_apply, val_main_v2_apply, proj_apply]
  simp only [val_main_v0_apply, Ideal.addf_def]
  refine congrArg₂ (· + ·) (Finset.sum_congr rfl fun k _ => congrArg₂ (· * ·) (congrArg x0 ?_) (congrArg x1 ?_)) (congrArg x2 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The key layer at row s, column j. -/
theorem k_at (x0 : AX) (x3 : AW) (x4 : AB) (s : Fin 4096) (j : Fin 768) :
    val_main_v11 (F := Ideal) x0 x3 x4 (ix2 s j) = proj x0 x3 x4 s j := by
  rw [val_main_v11_apply, val_main_v8_apply, val_main_v10_apply, val_main_v9_apply, proj_apply]
  simp only [val_main_v7_apply, Ideal.addf_def]
  refine congrArg₂ (· + ·) (Finset.sum_congr rfl fun k _ => congrArg₂ (· * ·) (congrArg x0 ?_) (congrArg x3 ?_)) (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The value layer at row s, column j. -/
theorem v_at (x0 : AX) (x5 : AW) (x6 : AB) (s : Fin 4096) (j : Fin 768) :
    val_main_v18 (F := Ideal) x0 x5 x6 (ix2 s j) = proj x0 x5 x6 s j := by
  rw [val_main_v18_apply, val_main_v15_apply, val_main_v17_apply, val_main_v16_apply, proj_apply]
  simp only [val_main_v14_apply, Ideal.addf_def]
  refine congrArg₂ (· + ·) (Finset.sum_congr rfl fun k _ => congrArg₂ (· * ·) (congrArg x0 ?_) (congrArg x5 ?_)) (congrArg x6 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-! ## The layers split into heads: column 64·h + d of row s sits at (s, h, d) -/

/-- Position (s, h, d) of the [4096, 12, 64] array, counted row-major, is row s, column 64·h + d of the [4096, 768] one. -/
theorem split_heads (s : Fin 4096) (h : Fin 12) (d : Fin 64) :
    idx_main_v5 (ix3 s h d) = ix2 s (col h d) := by
  have hs := s.isLt; have hh := h.isLt; have hd := d.isLt
  exact funext fun a => Fin.ext (by
    match a with
    | ⟨0, _⟩ => show ((s.val * 12 + h.val) * 64 + d.val) / 768 = s.val; omega
    | ⟨1, _⟩ => show ((s.val * 12 + h.val) * 64 + d.val) % 768 = h.val * 64 + d.val; omega)

/-- The queries, laid out head × coordinate × row. -/
theorem q_head (x0 : AX) (x1 : AW) (x2 : AB) (h : Fin 12) (d : Fin 64) (t : Fin 4096) :
    val_main_v6 (F := Ideal) x0 x1 x2 (ix3 h d t) = proj x0 x1 x2 t (col h d) := by
  rw [val_main_v6_apply, val_main_v5_apply]
  have e : idx_main_v6 (ix3 h d t) = ix3 t h d :=
    funext fun a => Fin.ext (by match a with | ⟨0, _⟩ => rfl | ⟨1, _⟩ => rfl | ⟨2, _⟩ => rfl)
  rw [e, split_heads, q_at]

/-- The keys, laid out head × row × coordinate. -/
theorem k_head (x0 : AX) (x3 : AW) (x4 : AB) (h : Fin 12) (s : Fin 4096) (d : Fin 64) :
    val_main_v13 (F := Ideal) x0 x3 x4 (ix3 h s d) = proj x0 x3 x4 s (col h d) := by
  rw [val_main_v13_apply, val_main_v12_apply]
  have e : idx_main_v13 (ix3 h s d) = ix3 s h d :=
    funext fun a => Fin.ext (by match a with | ⟨0, _⟩ => rfl | ⟨1, _⟩ => rfl | ⟨2, _⟩ => rfl)
  rw [e]
  exact (congrArg (val_main_v11 (F := Ideal) x0 x3 x4) (split_heads s h d)).trans (k_at x0 x3 x4 s (col h d))

/-- The values, laid out head × row × coordinate. -/
theorem v_head (x0 : AX) (x5 : AW) (x6 : AB) (h : Fin 12) (t : Fin 4096) (d : Fin 64) :
    val_main_v20 (F := Ideal) x0 x5 x6 (ix3 h t d) = proj x0 x5 x6 t (col h d) := by
  rw [val_main_v20_apply, val_main_v19_apply]
  have e : idx_main_v20 (ix3 h t d) = ix3 t h d :=
    funext fun a => Fin.ext (by match a with | ⟨0, _⟩ => rfl | ⟨1, _⟩ => rfl | ⟨2, _⟩ => rfl)
  rw [e]
  exact (congrArg (val_main_v18 (F := Ideal) x0 x5 x6) (split_heads t h d)).trans (v_at x0 x5 x6 t (col h d))

/-! ## The scores -/

/-- The score of head h between the key at row s and the query at row t. -/
theorem score_at (x0 : AX) (x1 : AW) (x2 : AB) (x3 : AW) (x4 : AB) (h : Fin 12) (s t : Fin 4096) :
    val_main_v21 (F := Ideal) x0 x1 x2 x3 x4 (ix3 h s t) = score x0 x1 x2 x3 x4 h s t := by
  rw [val_main_v21_apply, score_apply]
  refine Finset.sum_congr rfl fun d _ => ?_
  have el : lidx_main_v21 (ix3 h s t) d = ix3 h s d :=
    funext fun a => Fin.ext (by match a with | ⟨0, _⟩ => rfl | ⟨1, _⟩ => rfl | ⟨2, _⟩ => rfl)
  have er : ridx_main_v21 (ix3 h s t) d = ix3 h d t :=
    funext fun a => Fin.ext (by match a with | ⟨0, _⟩ => rfl | ⟨1, _⟩ => rfl | ⟨2, _⟩ => rfl)
  rw [el, er, k_head, q_head]

/-! ## The largest score over the heads -/

/-- The word 0xFF800000 is −∞. -/
theorem neg_inf : Ideal.ofBits .f32 0xFF800000#32 = (⊥ : EReal) := by simp [Ideal.ofBits, Ideal.ieee]

/-- The reduction of a [12, 4096, 4096] array over its first axis by the maximum, from −∞, then taken against −∞
    once more: at (s, t), the fold of max from −∞ over the twelve entries (h, s, t). -/
theorem max_over_heads (y : FVec Ideal S12x4096x4096 .f32) (s t : Fin 4096) :
    FloatOps.maximumf (F := Ideal) (φ := .f32) (val_main_v23 (F := Ideal) (ix2 s t))
        (Host.reduce (FloatOps.maximumf (F := Ideal) (φ := .f32)) y (val_main_cst (F := Ideal))
          reducesTo_S12x4096x4096_S4096x4096_d0 h_S_ (ix2 s t))
      = (Finset.univ : Finset (Fin 12)).fold max ⊥ (fun h => y (ix3 h s t)) := by
  have hred : S12x4096x4096.Reduces [0] S4096x4096 := by decide
  rw [Host.reduce_eq_fold_single (FloatOps.maximumf (F := Ideal) (φ := .f32)) y _ reducesTo_S12x4096x4096_S4096x4096_d0 hred h_S_,
    val_main_v23_apply, val_main_cst_0_apply, val_main_cst_apply]
  have hf : (y ∘ hred.lift (ix2 s t)) = fun h : Fin 12 => y (ix3 h s t) := funext fun h =>
    congrArg y (funext fun a => Fin.ext (by match a with | ⟨0, _⟩ => rfl | ⟨1, _⟩ => rfl | ⟨2, _⟩ => rfl))
  show max (Ideal.ofBits .f32 0xFF800000#32)
      (Finset.fold max (Ideal.ofBits .f32 0xFF800000#32) (y ∘ hred.lift (ix2 s t)) (Finset.univ : Finset (Fin 12))) = _
  rw [hf, neg_inf]
  exact max_eq_right bot_le

/-- The largest score over the heads at (s, t). -/
theorem hmax_at (x0 : AX) (x1 : AW) (x2 : AB) (x3 : AW) (x4 : AB) (s t : Fin 4096) :
    val_main_v24 (F := Ideal) x0 x1 x2 x3 x4 (ix2 s t) = hmax x0 x1 x2 x3 x4 s t := by
  rw [val_main_v24_apply]
  unfold val_main_v22
  rw [max_over_heads, hmax_apply]
  simp only [score_at]

/-! ## The softmax over the heads, scaled -/

/-- Position (h, s, t) reads the per-pair arrays (the largest score, the sum of the weights) at (s, t). -/
theorem pair_of (h : Fin 12) (s t : Fin 4096) : idx_main_v25 (idx_main_v26 (ix3 h s t)) = ix2 s t :=
  funext fun a => Fin.ext (by match a with | ⟨0, _⟩ => rfl | ⟨1, _⟩ => rfl)

/-- The exponential of a score less the largest over the heads. -/
theorem ew_at (x0 : AX) (x1 : AW) (x2 : AB) (x3 : AW) (x4 : AB) (h : Fin 12) (s t : Fin 4096) :
    val_main_v28 (F := Ideal) x0 x1 x2 x3 x4 (ix3 h s t) = ew x0 x1 x2 x3 x4 h s t := by
  rw [val_main_v28_apply, val_main_v27_apply, val_main_v26_apply, val_main_v25_apply, pair_of, hmax_at, score_at, ew_apply]
  simp only [Ideal.hostUnary_exp_def, Ideal.subf_def]

/-- The softmax's denominator at (s, t): the sum over the heads, from zero. -/
theorem hsum_at (x0 : AX) (x1 : AW) (x2 : AB) (x3 : AW) (x4 : AB) (s t : Fin 4096) :
    val_main_v29 (F := Ideal) x0 x1 x2 x3 x4 (ix2 s t) = hsum x0 x1 x2 x3 x4 s t := by
  rw [val_main_v29_apply, val_main_cst_1_apply, hsum_apply]
  show Ideal.ofBits .f32 0x00000000#32 + _ = _
  rw [Ideal.ofBits_zero_f32, zero_add]
  refine Finset.sum_congr rfl fun h _ => ?_
  have e : idx_main_v29 (ix2 s t) h = ix3 h s t :=
    funext fun a => Fin.ext (by match a with | ⟨0, _⟩ => rfl | ⟨1, _⟩ => rfl | ⟨2, _⟩ => rfl)
  rw [e, ew_at]

/-- The scaled softmax over the heads. -/
theorem attn_at (x0 : AX) (x1 : AW) (x2 : AB) (x3 : AW) (x4 : AB) (h : Fin 12) (s t : Fin 4096) :
    val_main_v34 (F := Ideal) x0 x1 x2 x3 x4 (ix3 h s t) = attn x0 x1 x2 x3 x4 h s t := by
  have e : idx_main_v30 (idx_main_v31 (ix3 h s t)) = ix2 s t :=
    funext fun a => Fin.ext (by match a with | ⟨0, _⟩ => rfl | ⟨1, _⟩ => rfl)
  rw [val_main_v34_apply, val_main_v32_apply, val_main_v33_apply, val_main_cst_2_apply, val_main_v31_apply,
    val_main_v30_apply, e, hsum_at, ew_at, attn_apply]
  simp only [Ideal.mulf_def, Ideal.hostDivf_def, Ideal.ofBits_def, scale]

/-! ## The context and the output projection -/

/-- The context of head h at row s, coordinate d: the values over t weighed by the head's softmax. -/
theorem ctx_head (x0 : AX) (x1 : AW) (x2 : AB) (x3 : AW) (x4 : AB) (x5 : AW) (x6 : AB) (h : Fin 12) (s : Fin 4096) (d : Fin 64) :
    val_main_v35 (F := Ideal) x0 x1 x2 x3 x4 x5 x6 (ix3 h s d)
      = ∑ t : Fin 4096, attn x0 x1 x2 x3 x4 h s t * proj x0 x5 x6 t (col h d) := by
  rw [val_main_v35_apply]
  refine Finset.sum_congr rfl fun t _ => ?_
  have el : lidx_main_v35 (ix3 h s d) t = ix3 h s t :=
    funext fun a => Fin.ext (by match a with | ⟨0, _⟩ => rfl | ⟨1, _⟩ => rfl | ⟨2, _⟩ => rfl)
  have er : ridx_main_v35 (ix3 h s d) t = ix3 h t d :=
    funext fun a => Fin.ext (by match a with | ⟨0, _⟩ => rfl | ⟨1, _⟩ => rfl | ⟨2, _⟩ => rfl)
  rw [el, er, attn_at, v_head]

/-- Row s, column k of the [4096, 768] array, counted row-major, is position (s, k / 64, k % 64) of the [4096, 12, 64] one;
    with the head moved in front, (k / 64, s, k % 64). -/
theorem merge_heads (s : Fin 4096) (k : Fin 768) :
    idx_main_v36 (idx_main_v37 (ix2 s k)) = ix3 (headOf k) s (coordOf k) := by
  have hs := s.isLt; have hk := k.isLt
  exact funext fun a => Fin.ext (by
    match a with
    | ⟨0, _⟩ => show (s.val * 768 + k.val) / 64 % 12 = k.val / 64; omega
    | ⟨1, _⟩ => show (s.val * 768 + k.val) / 768 = s.val; omega
    | ⟨2, _⟩ => show (s.val * 768 + k.val) % 64 = k.val % 64; omega)

/-- The context at row s, column k. -/
theorem ctx_at (x0 : AX) (x1 : AW) (x2 : AB) (x3 : AW) (x4 : AB) (x5 : AW) (x6 : AB) (s : Fin 4096) (k : Fin 768) :
    val_main_v37 (F := Ideal) x0 x1 x2 x3 x4 x5 x6 (ix2 s k) = ctx x0 x1 x2 x3 x4 x5 x6 s k := by
  rw [val_main_v37_apply, val_main_v36_apply, merge_heads, ctx_head, ctx_apply, col_headOf_coordOf]

/-- The output projection of the context at row s, column j. -/
theorem out_at (x0 : AX) (x1 : AW) (x2 : AB) (x3 : AW) (x4 : AB) (x5 : AW) (x6 : AB) (x7 : AW) (x8 : AB)
    (s : Fin 4096) (j : Fin 768) :
    val_main_v42 (F := Ideal) x0 x1 x2 x3 x4 x5 x6 x7 x8 (ix2 s j) = out x0 x1 x2 x3 x4 x5 x6 x7 x8 s j := by
  rw [val_main_v42_apply, val_main_v39_apply, val_main_v41_apply, val_main_v40_apply, out_apply]
  simp only [val_main_v38_apply, Ideal.addf_def]
  refine congrArg₂ (· + ·) (Finset.sum_congr rfl fun k _ => congrArg₂ (· * ·) ?_ (congrArg x7 ?_)) (congrArg x8 ?_)
  · have el : lidx_main_v39 (ix2 s j) k = ix2 s k :=
      funext fun a => Fin.ext (by match a with | ⟨0, _⟩ => rfl | ⟨1, _⟩ => rfl)
    rw [el, ctx_at]
  · exact funext fun a => Fin.ext (by match a with | ⟨0, _⟩ => rfl | ⟨1, _⟩ => rfl)
  · exact funext fun a => Fin.ext (by match a with | ⟨0, _⟩ => rfl)

/-! ## The reference is the specification -/

/-- The reference's result, as a function of its nine arguments, is G of them. -/
theorem ref_eq_spec (a0 : AX) (a1 : AW) (a2 : AB) (a3 : AW) (a4 : AB) (a5 : AW) (a6 : AB) (a7 : AW) (a8 : AB) :
    val_main_v42 (F := Ideal) a0 a1 a2 a3 a4 a5 a6 a7 a8 = Cert.Attn.G a0 a1 a2 a3 a4 a5 a6 a7 a8 := by
  funext i
  obtain ⟨s, j, rfl⟩ : ∃ (s : Fin 4096) (j : Fin 768), i = ix2 s j := ⟨i 0, i 1, eq_ix2 i⟩
  rw [out_at, G_ix2]

/-- Every weakly fair execution of the reference ends with its result at G of the arguments' launch contents, the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
        = Cert.Attn.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((val_main_v42_eq m c).trans (ref_eq_spec _ _ _ _ _ _ _ _ _)), (h c).2⟩)
    (Cert.ReferenceIdeal.Value.run (F := Ideal) m ρ)

end Cert.ReferenceIdeal.RefValue

end
-- ==== Proof.KI.Final.lean ====
/- THE TOP LEVEL for the idealized program, over the extended reals: the program's result array is the specification `G`
   of the nine argument arrays; the run, with the result at `G` and the arguments unchanged; and the algebraic claim
   against the reference, which ends at the same `G`. What one grid point of the attention kernel computes, and what the
   host operations before the second region leave in its three input arrays, enter as hypotheses. -/
import proofs.«178773_j13254269075465_2_alg».proof.Defs
import proofs.«178773_j13254269075465_2_alg».proof.Proof.KI.Run
import proofs.«178773_j13254269075465_2_alg».proof.Proof.KI.R1Value
import proofs.«178773_j13254269075465_2_alg».proof.Proof.KI.Finite
import proofs.«178773_j13254269075465_2_alg».proof.Proof.TilesAlgebra
import proofs.«178773_j13254269075465_2_alg».proof.Proof.RefIsSpec
import proofs.«178773_j13254269075465_2_alg».proof.Proof.Gen.ReferenceIdeal
import proofs.«178773_j13254269075465_2_alg».proof.Proof.Gen.Pre_finite_inputs

set_option maxRecDepth 16384

noncomputable section

namespace Cert.KernelIdeal.Top

open Cert.KernelIdeal Cert.KernelIdeal.Gen Cert.KernelIdeal.R1 Cert.KernelIdeal.R1A Cert.KernelIdeal.R1V Cert.Attn
open Idealize.ShloMosaic Idealize.ShloMosaic.TcCoe Idealize.ShloMosaic.ValueIdx
open Idealize.SL.Sem

section
variable (m : (ℓ : Loc nD τ sig) → Buf (Elt Ideal) ℓ) (ρ : Dev nD → PrngReg)

/-- THE RESULT ARRAY at the end of the program is the specification of the nine argument arrays: it is the second
    region's result, the output projection of each row block's accumulator after its sixteen key/value blocks, which
    (every entry of the arguments being a real number) is the specification at the block's rows. -/
theorem kernel_out (hpre : Cert.Pre_KernelIdeal m) (hA : PieceA) (hB : PieceB) (hC : PieceC) (hO : PieceO)
    (hqkv : ∀ (c : Dev nD), (Asm.V3 m ρ c main_v7 : S4096x2304.Idx → EReal) = qkvOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hwo : ∀ (c : Dev nD), (Asm.V3 m ρ c main_v5 : S768x768.Idx → EReal) = fun i => (m ((c : Thread nD τ).loc main_arg7)) (ix2 (i 1) (i 0)))
    (hbo : ∀ (c : Dev nD), (Asm.V3 m ρ c main_v8 : S1x768.Idx → EReal) = fun i => (m ((c : Thread nD τ).loc main_arg8)) (ix1 (i 1))) (c : Dev nD) :
    Asm.W4 m ρ c (Proc.devRef .tc main_v9) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨r0, r1, r2, r3, r4, r5, r6, r7, r8⟩ := Cert.KernelIdeal.Fin.real_of_pre m hpre c
  rw [Asm.W4_main_v9, final1_5 (Asm.V3 m ρ) hA hB hC hO c]
  funext i
  obtain ⟨r, j, rfl⟩ : ∃ (r : _root_.Fin 4096) (j : _root_.Fin 768), i = ix2 r j := ⟨i 0, i 1, eq_ix2 i⟩
  have hr : r.val = 512 * (r.val / 512) + r.val % 512 := by omega
  rw [attnOut_block _ _ _ ⟨r.val / 512, div512_lt r⟩ ⟨r.val % 512, mod512_lt _⟩ j r hr, hqkv c, hwo c, hbo c]
  refine (kernel_is_G _ _ _ _ _ _ _ _ _ r0 r1 r2 r3 r4 r5 r6 r7 r8 ⟨r.val / 512, div512_lt r⟩ ⟨r.val % 512, mod512_lt _⟩ j).trans ?_
  have e : rowK ⟨r.val / 512, div512_lt r⟩ ⟨r.val % 512, mod512_lt _⟩ = r :=
    Fin.ext (by show r.val / 512 * 512 + r.val % 512 = r.val; omega)
  rw [e]

/-- THE RUN: every weakly fair execution terminates, nothing faulting, with the result array at the specification of the
    arguments and the nine arguments unchanged. -/
theorem kernel_run (hpre : Cert.Pre_KernelIdeal m) (hA : PieceA) (hB : PieceB) (hC : PieceC) (hO : PieceO)
    (hqkv : ∀ (c : Dev nD), (Asm.V3 m ρ c main_v7 : S4096x2304.Idx → EReal) = qkvOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hwo : ∀ (c : Dev nD), (Asm.V3 m ρ c main_v5 : S768x768.Idx → EReal) = fun i => (m ((c : Thread nD τ).loc main_arg7)) (ix2 (i 1) (i 0)))
    (hbo : ∀ (c : Dev nD), (Asm.V3 m ρ c main_v8 : S1x768.Idx → EReal) = fun i => (m ((c : Thread nD τ).loc main_arg8)) (ix1 (i 1))) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v9) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Asm.run_post m ρ fun s h c =>
    ⟨(h c _ (Asm.mem_uc main_v9 (by decide))).trans (kernel_out m ρ hpre hA hB hC hO hqkv hwo hbo c),
     (h c _ (Asm.mem_uc main_arg0 (by decide))).trans (Asm.W4_main_arg0 m ρ c),
     (h c _ (Asm.mem_uc main_arg1 (by decide))).trans (Asm.W4_main_arg1 m ρ c),
     (h c _ (Asm.mem_uc main_arg2 (by decide))).trans (Asm.W4_main_arg2 m ρ c),
     (h c _ (Asm.mem_uc main_arg3 (by decide))).trans (Asm.W4_main_arg3 m ρ c),
     (h c _ (Asm.mem_uc main_arg4 (by decide))).trans (Asm.W4_main_arg4 m ρ c),
     (h c _ (Asm.mem_uc main_arg5 (by decide))).trans (Asm.W4_main_arg5 m ρ c),
     (h c _ (Asm.mem_uc main_arg6 (by decide))).trans (Asm.W4_main_arg6 m ρ c),
     (h c _ (Asm.mem_uc main_arg7 (by decide))).trans (Asm.W4_main_arg7 m ρ c),
     (h c _ (Asm.mem_uc main_arg8 (by decide))).trans (Asm.W4_main_arg8 m ρ c)⟩

end

/-- THE ALGEBRAIC CLAIM: from memories agreeing on the nine arguments, the program and the reference both run and end
    with the same result, the specification of the arguments, each with its arguments unchanged. -/
theorem algebraic_of (hA : PieceA) (hB : PieceB) (hC : PieceC) (hO : PieceO)
    (hqkv : ∀ (m : (ℓ : Loc nD τ sig) → Buf (Elt Ideal) ℓ) (ρ : Dev nD → PrngReg) (c : Dev nD), (Asm.V3 m ρ c main_v7 : S4096x2304.Idx → EReal) = qkvOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hwo : ∀ (m : (ℓ : Loc nD τ sig) → Buf (Elt Ideal) ℓ) (ρ : Dev nD → PrngReg) (c : Dev nD), (Asm.V3 m ρ c main_v5 : S768x768.Idx → EReal) = fun i => (m ((c : Thread nD τ).loc main_arg7)) (ix2 (i 1) (i 0)))
    (hbo : ∀ (m : (ℓ : Loc nD τ sig) → Buf (Elt Ideal) ℓ) (ρ : Dev nD → PrngReg) (c : Dev nD), (Asm.V3 m ρ c main_v8 : S1x768.Idx → EReal) = fun i => (m ((c : Thread nD τ).loc main_arg8)) (ix1 (i 1))) :
    Cert.algebraic_KernelIdeal_ReferenceIdeal :=
  fun m ρ m' ρ' hpre hagree =>
    ⟨fun c => G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)),
      kernel_run m ρ hpre hA hB hC hO (hqkv m ρ) (hwo m ρ) (hbo m ρ),
      (θ_run Cert.ReferenceIdeal.defs _ _).mono (fun _ h c => by
        obtain ⟨e0, e1, e2, e3, e4, e5, e6, e7, e8⟩ := hagree c
        refine ⟨(h c).1.trans ?_, (h c).2⟩
        rw [e0, e1, e2, e3, e4, e5, e6, e7, e8])
        (Cert.ReferenceIdeal.RefValue.ref_run m' ρ')⟩

/-- info: 'Cert.KernelIdeal.Top.algebraic_of' depends on axioms: [propext, Classical.choice, Quot.sound] -/
#guard_msgs in #print axioms algebraic_of

end Cert.KernelIdeal.Top

end
-- ==== Proof.KI.Entry.lean ====
/- The contents the two regions are entered from, as the host operations' terms over the launch memory: what each
   window's array holds when a host operation wrote it before the region, and that the first region's result enters the
   second region as the first left it. -/
import proofs.«178773_j13254269075465_2_alg».proof.Proof.KI.Run

set_option maxRecDepth 16384
noncomputable section
namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem V1_main_v3 (c : Dev nD) : (V1 m ρ c main_v3 : (⟨S768x2304, .bf16⟩ : BufTy).Contents (Elt F)) =
    truncf .bf16 (transpose S768x2304 [1, 0] (concatenate S2304x768 0 [⟨S768x768, m ((c : Thread nD τ).loc main_arg1)⟩, ⟨S768x768, m ((c : Thread nD τ).loc main_arg3)⟩, ⟨S768x768, m ((c : Thread nD τ).loc main_arg5)⟩] concatenates_S768x768_S768x768_S768x768_S2304x768_d0) transposes_S2304x768_S768x2304_1_0) bitsLt_bf16_f32 := by
  show StableHlo.after hostOps0 (W0 m ρ c) (Proc.devRef .tc main_v3) = _
  after_results
  rfl

theorem V1_main_v6 (c : Dev nD) : (V1 m ρ c main_v6 : (⟨S1x2304, .f32⟩ : BufTy).Contents (Elt F)) =
    shapeCast S1x2304 (concatenate S2304 0 [⟨S768, m ((c : Thread nD τ).loc main_arg2)⟩, ⟨S768, m ((c : Thread nD τ).loc main_arg4)⟩, ⟨S768, m ((c : Thread nD τ).loc main_arg6)⟩] concatenates_S768_S768_S768_S2304_d0) shapeCasts_S2304_S1x2304 := by
  show StableHlo.after hostOps0 (W0 m ρ c) (Proc.devRef .tc main_v6) = _
  after_results
  rfl

theorem V1_main_v5 (c : Dev nD) : (V1 m ρ c main_v5 : (⟨S768x768, .bf16⟩ : BufTy).Contents (Elt F)) =
    truncf .bf16 (transpose S768x768 [1, 0] (m ((c : Thread nD τ).loc main_arg7)) transposes_S768x768_S768x768_1_0) bitsLt_bf16_f32 := by
  show StableHlo.after hostOps0 (W0 m ρ c) (Proc.devRef .tc main_v5) = _
  after_results

theorem V1_main_arg0 (c : Dev nD) : V1 m ρ c main_arg0 = m ((c : Thread nD τ).loc main_arg0) :=
  StableHlo.after_of_writes_sub hostOps0 _ hostOps0_writes (by decide)

/-- A buffer the second stretch of host operations does not write and no window of the first region names enters the
    second region as it entered the first. -/
theorem V3_of_bypass (c : Dev nD) (b : Ref sig .tc) (h1 : b ∉ hostOps1_W) (h2 : ∀ w, Pipeline.arrRef spec0 w ≠ b) :
    V3 m ρ c b = V1 m ρ c b :=
  (StableHlo.after_of_writes_sub hostOps1 _ hostOps1_writes h1).trans (W2_of_ne m ρ c b h2)

theorem V3_main_v5 (c : Dev nD) : (V3 m ρ c main_v5 : (⟨S768x768, .bf16⟩ : BufTy).Contents (Elt F)) =
    truncf .bf16 (transpose S768x768 [1, 0] (m ((c : Thread nD τ).loc main_arg7)) transposes_S768x768_S768x768_1_0) bitsLt_bf16_f32 :=
  (V3_of_bypass m ρ c main_v5 (by decide) (by decide)).trans (V1_main_v5 m ρ c)

theorem V3_main_arg0 (c : Dev nD) : V3 m ρ c main_arg0 = m ((c : Thread nD τ).loc main_arg0) :=
  (StableHlo.after_of_writes_sub hostOps1 _ hostOps1_writes (by decide)).trans
    ((W2_arr m ρ c 0).trans (((R0.dat0 (V1 m ρ) c).arrAt_in 0 rfl _).trans ((R0.A_eq0 (V1 m ρ) c 0).trans (V1_main_arg0 m ρ c))))

/-- The first region's result enters the second region as the first left it. -/
theorem V3_main_v7 (c : Dev nD) : V3 m ρ c main_v7 = (R0.dat0 (V1 m ρ) c).arrAt 3 cfg0.N :=
  (StableHlo.after_of_writes_sub hostOps1 _ hostOps1_writes (by decide)).trans (W2_arr m ρ c 3)

theorem W2_main_arg8 (c : Dev nD) : W2 m ρ c (Proc.devRef .tc main_arg8) = m ((c : Thread nD τ).loc main_arg8) :=
  (W2_of_ne m ρ c main_arg8 (by decide)).trans (StableHlo.after_of_writes_sub hostOps0 _ hostOps0_writes (by decide))

theorem V3_main_v8 (c : Dev nD) : (V3 m ρ c main_v8 : (⟨S1x768, .f32⟩ : BufTy).Contents (Elt F)) =
    shapeCast S1x768 (m ((c : Thread nD τ).loc main_arg8)) shapeCasts_S768_S1x768 := by
  show StableHlo.after hostOps1 (W2 m ρ c) (Proc.devRef .tc main_v8) = _
  after_results
  rw [W2_main_arg8]
  rfl

end Cert.KernelIdeal.Asm
end
-- ==== Proof.KI.R0Value.lean ====
/- REGION 0's result as a closed form, over the extended reals: after the region, the result array holds at row `r`,
   column `q` the sum over `k` of `x[r,k] · w[k,q]` plus `b[0,q]`, where `x`, `w`, `b` are the three arrays the region reads as
   it finds them on entry. The body's stored value read at an index; each window's block read at an index; what a grid
   point writes back is its block of that closed form; the blocks cover the array. -/
import proofs.«178773_j13254269075465_2_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored value at an index -/

theorem hz : (![0, 0] : Fin 2 → Nat) = fun _ => 0 := funext fun a => by fin_cases a <;> rfl

/-- The product's left operand is read at (row of the output index, contraction index), -/
theorem lhs0_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
theorem lhs0_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
/-- and its right operand at (contraction index, column of the output index). -/
theorem rhs0_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
theorem rhs0_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The body's stored value at row `p`, column `q` of its block: over the extended reals the two roundings are the
    identity, the product into the zero accumulator is the plain sum over the contracted axis, and the bias row is read
    at the column. -/
theorem pay_apply (x0 : Vec Ideal S512x768 .f32) (x1 : Vec Ideal S768x2304 .bf16) (x2 : Vec Ideal S1x2304 .f32) (p : Fin 512) (q : Fin 2304) :
    k0_pay1 (F := Ideal) x0 x1 x2 (ix2 p q) = (∑ k : Fin 768, x0 (ix2 p k) * x1 (ix2 k q)) + x2 (ix2 (0 : Fin 1) q) := by
  unfold k0_pay1
  rw [truncf_apply, addf_apply, shapeCast_self, shapeCast_self]
  refine congrArg₂ (· + ·) ?_ ?_
  · refine (Ideal.matmul_constant_zero_apply (φ₁ := .bf16) (φ₂ := .bf16) dot_S512x768_S768x2304_S512x2304_1_0_0_1_n_n none (truncf .bf16 x0 bitsLt_bf16_f32) x1 (ix2 p q)).trans ?_
    rw [← Equiv.sum_comp (contrEquiv1 dot_S512x768_S768x2304_S512x2304_1_0_0_1_n_n 768 rfl rfl).symm]
    refine Finset.sum_congr rfl fun k _ => ?_
    have hk := contrEquiv1_symm_val dot_S512x768_S768x2304_S512x2304_1_0_0_1_n_n 768 rfl rfl k
    have el : dot_S512x768_S768x2304_S512x2304_1_0_0_1_n_n.lhsIdx (ix2 p q) ((contrEquiv1 dot_S512x768_S768x2304_S512x2304_1_0_0_1_n_n 768 rfl rfl).symm k) = ix2 p k := funext fun a => Fin.ext (by
      match a with
      | ⟨0, _⟩ => exact lhs0_0 _ _
      | ⟨1, _⟩ => exact (lhs0_1 _ _).trans hk)
    have er : dot_S512x768_S768x2304_S512x2304_1_0_0_1_n_n.rhsIdx (ix2 p q) ((contrEquiv1 dot_S512x768_S768x2304_S512x2304_1_0_0_1_n_n 768 rfl rfl).symm k) = ix2 k q := funext fun a => Fin.ext (by
      match a with
      | ⟨0, _⟩ => exact (rhs0_0 _ _).trans hk
      | ⟨1, _⟩ => exact rhs0_1 _ _)
    rw [el, er]
    rfl
  · refine broadcastTo_apply x2 _ (ix2 p q) (ix2 (0 : Fin 1) q) fun a => ?_
    match a with
    | ⟨0, _⟩ => rfl
    | ⟨1, _⟩ => rfl

/-- The same at any index of the block. -/
theorem pay_apply_idx (x0 : Vec Ideal S512x768 .f32) (x1 : Vec Ideal S768x2304 .bf16) (x2 : Vec Ideal S1x2304 .f32) (j : S512x2304.Idx) :
    k0_pay1 (F := Ideal) x0 x1 x2 j
      = (∑ k : Fin 768, x0 (ix2 (n0 := 512) (j 0) k) * x1 (ix2 (n1 := 2304) k (j 1))) + x2 (ix2 (n1 := 2304) (0 : Fin 1) (j 1)) := by
  obtain ⟨p, q, rfl⟩ : ∃ (p : Fin 512) (q : Fin 2304), j = ix2 p q := ⟨j 0, j 1, eq_ix2 j⟩
  exact pay_apply x0 x1 x2 p q

/-! ## The windows' blocks at an index -/

section Value
variable (V : (c : Dev nD) → (b : Ref sig .tc) → Buf (Elt Ideal) ((c : Thread nD τ).loc b))

/-- The printed index maps over the grid: at point `t` the rows' window and the result window are at block `(t, 0)`, the
    weights' and the bias's at block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block of `x` is row `512 t + p` of `x`. -/
theorem iblk0_0_apply (c : Dev nD) (t : Fin cfg0.N) (p : Fin 512) (k : Fin 768) (r : Fin 4096) (hr : r.val = t.val * 512 + p.val) :
    (iblk0 V c 0 t : Vec Ideal S512x768 .f32) (ix2 p k) = (V c main_arg0 : S4096x768.Idx → EReal) (ix2 r k) := by
  obtain ⟨e0, e1, -⟩ := idx_facts0 t
  unfold iblk0
  rw [View.read_apply]
  show (V c main_arg0 : S4096x768.Idx → EReal) _ = _
  refine congrArg (V c main_arg0 : S4096x768.Idx → EReal) (funext fun a => Fin.ext ?_)
  match a with
  | ⟨0, _⟩ => show win0_0.index t (0 : Fin 2) * 512 + 1 * p.val = r.val; omega
  | ⟨1, _⟩ => show win0_0.index t (1 : Fin 2) * 768 + 1 * k.val = k.val; omega

/-- The weights' one block is the whole array. -/
theorem iblk0_1_apply (c : Dev nD) (t : Fin cfg0.N) (k : Fin 768) (q : Fin 2304) :
    (iblk0 V c 1 t : Vec Ideal S768x2304 .bf16) (ix2 k q) = (V c main_v3 : S768x2304.Idx → EReal) (ix2 k q) := by
  obtain ⟨-, -, e0, e1, -⟩ := idx_facts0 t
  unfold iblk0
  rw [View.read_apply]
  show (V c main_v3 : S768x2304.Idx → EReal) _ = _
  refine congrArg (V c main_v3 : S768x2304.Idx → EReal) (funext fun a => Fin.ext ?_)
  match a with
  | ⟨0, _⟩ => show win0_1.index t (0 : Fin 2) * 768 + 1 * k.val = k.val; omega
  | ⟨1, _⟩ => show win0_1.index t (1 : Fin 2) * 2304 + 1 * q.val = q.val; omega

/-- The bias's one block is the whole row. -/
theorem iblk0_2_apply (c : Dev nD) (t : Fin cfg0.N) (z : Fin 1) (q : Fin 2304) :
    (iblk0 V c 2 t : Vec Ideal S1x2304 .f32) (ix2 z q) = (V c main_v6 : S1x2304.Idx → EReal) (ix2 z q) := by
  obtain ⟨-, -, -, -, e0, e1, -⟩ := idx_facts0 t
  unfold iblk0
  rw [View.read_apply]
  show (V c main_v6 : S1x2304.Idx → EReal) _ = _
  refine congrArg (V c main_v6 : S1x2304.Idx → EReal) (funext fun a => Fin.ext ?_)
  match a with
  | ⟨0, _⟩ => show win0_2.index t (0 : Fin 2) * 1 + 1 * z.val = z.val; omega
  | ⟨1, _⟩ => show win0_2.index t (1 : Fin 2) * 2304 + 1 * q.val = q.val; omega

/-! ## The closed form -/

/-- The region's result as one function of the three arrays it reads. -/
def qkv0 (x : S4096x768.Idx → EReal) (w : S768x2304.Idx → EReal) (b : S1x2304.Idx → EReal) : S4096x2304.Idx → EReal :=
  fun i => (∑ k : Fin 768, x (ix2 (n0 := 4096) (i 0) k) * w (ix2 (n1 := 2304) k (i 1))) + b (ix2 (n1 := 2304) (0 : Fin 1) (i 1))

/-- WHAT POINT `t` WRITES BACK is block `t` of the closed form of the arrays as the region finds them. -/
theorem flushed0_3_eq (c : Dev nD) (t : Fin cfg0.N) :
    (dat0 (F := Ideal) V c).flushed 3 t = ((cfg0.win 3).blk t).view.read (Elt Ideal) (qkv0 (V c main_arg0) (V c main_v3) (V c main_v6)) := by
  show (cfg0.win 3).cut (grid0.coords t) ((dat0 V c).after 3 t) = _
  rw [after0_3]
  unfold out0_3
  rw [View.canon_unit_zero hz]
  simp only [View.ld_unit_zero (S := S512x768) hz, View.ld_unit_zero (S := S768x2304) hz, View.ld_unit_zero (S := S1x2304) hz]
  obtain ⟨-, -, -, -, -, -, e0, e1⟩ := idx_facts0 t
  funext j
  have hj0 : (j 0).val < 512 := (j 0).isLt
  have hj1 : (j 1).val < 2304 := (j 1).isLt
  have ht : t.val < 8 := Nat.lt_of_lt_of_eq (show t.val < grid0.N from t.isLt) N_0
  refine (pay_apply_idx (iblk0 V c 0 t) (iblk0 V c 1 t) (iblk0 V c 2 t) j).trans ?_
  rw [View.read_apply]
  have hemb : ((cfg0.win 3).blk t).view.emb j = ix2 (⟨t.val * 512 + (j 0).val, by omega⟩ : Fin 4096) (⟨(j 1).val, hj1⟩ : Fin 2304) := by
    funext a; apply Fin.ext
    match a with
    | ⟨0, _⟩ => show win0_3.index t (0 : Fin 2) * 512 + 1 * (j 0).val = t.val * 512 + (j 0).val; omega
    | ⟨1, _⟩ => show win0_3.index t (1 : Fin 2) * 2304 + 1 * (j 1).val = (j 1).val; omega
  rw [hemb]
  unfold qkv0
  refine congrArg₂ (· + ·) (Finset.sum_congr rfl fun k _ => congrArg₂ (· * ·) ?_ ?_) ?_
  · exact iblk0_0_apply V c t _ k _ rfl
  · exact iblk0_1_apply V c t k _
  · exact iblk0_2_apply V c t 0 _

/-! ## The blocks cover the array -/

/-- An index of the result array is in point `t`'s block iff each coordinate is in the block's range on its axis. -/
theorem mem_blk0_3 (t : Fin cfg0.N) (i : S4096x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v7).slice (win0_3.rect t)).set ↔ _
  rw [View.set_slice_whole, Rect.mem_set_unit]
  exact Iff.rfl

/-- Row `r` of the result array is written back by point `r / 512`. -/
theorem cover0_3_arr (i : S4096x2304.Idx) :
    ∃ t : Fin cfg0.N, (cfg0.win 3).flush t = true ∧ i ∈ ((cfg0.win 3).blk t).view.set := by
  have hi0 : (i 0).val < 4096 := (i 0).isLt
  have hi1 : (i 1).val < 2304 := (i 1).isLt
  have hN : grid0.N = 8 := N_0
  let t : Fin cfg0.N := ⟨(i 0).val / 512, show (i 0).val / 512 < grid0.N by omega⟩
  obtain ⟨-, -, -, -, -, -, e0, e1⟩ := idx_facts0 t
  have e0' : win0_3.index t (0 : Fin 2) = (i 0).val / 512 := e0
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2304 ≤ (i 1).val ∧ (i 1).val < win0_3.index t (1 : Fin 2) * 2304 + 2304; omega

/-! ## The result array after the region -/

/-- THE RESULT ARRAY after the region's last point is the closed form of the arrays the region read, as it found them:
    row `r`, column `q` holds `∑ₖ x[r,k] · w[k,q] + b[0,q]`. -/
theorem final0_3 (c : Dev nD) :
    (dat0 (F := Ideal) V c).arrAt 3 cfg0.N = qkv0 (V c main_arg0) (V c main_v3) (V c main_v6) :=
  (dat0 (F := Ideal) V c).arrAt_eq_of_cover 3 (qkv0 (V c main_arg0) (V c main_v3) (V c main_v6))
    (fun t _ => flushed0_3_eq V c t) cover0_3_arr

end Value

/-- The closed form at an index, -/
theorem qkv0_apply (x : S4096x768.Idx → EReal) (w : S768x2304.Idx → EReal) (b : S1x2304.Idx → EReal) (i : S4096x2304.Idx) :
    qkv0 x w b i = (∑ k : Fin 768, x (ix2 (n0 := 4096) (i 0) k) * w (ix2 (n1 := 2304) k (i 1))) + b (ix2 (n1 := 2304) (0 : Fin 1) (i 1)) := rfl
/-- and at an index given by its row and column. -/
theorem qkv0_ix2 (x : S4096x768.Idx → EReal) (w : S768x2304.Idx → EReal) (b : S1x2304.Idx → EReal) (r : Fin 4096) (q : Fin 2304) :
    qkv0 x w b (ix2 r q) = (∑ k : Fin 768, x (ix2 r k) * w (ix2 k q)) + b (ix2 (0 : Fin 1) q) := rfl

/-- info: 'Cert.KernelIdeal.R0.final0_3' depends on axioms: [propext, Classical.choice, Quot.sound] -/
#guard_msgs in #print axioms final0_3

end Cert.KernelIdeal.R0

end
-- ==== Proof.KI.Glue.lean ====
/- The contents the two regions are entered from, read at an index over the extended reals as functions of @main's nine
   arguments: the stacked weight [Wq;Wk;Wv] transposed, the stacked bias as a row, the first region's result as the
   three linear layers side by side, the output projection's weight transposed and its bias as a row. -/
import proofs.«178773_j13254269075465_2_alg».proof.Proof.KI.Entry
import proofs.«178773_j13254269075465_2_alg».proof.Proof.KI.R0Value
import proofs.«178773_j13254269075465_2_alg».proof.Proof.Tiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Asm

open Cert.KernelIdeal Cert.KernelIdeal.Gen
open Idealize.ShloMosaic Idealize.ShloMosaic.TcCoe Idealize.ShloMosaic.ValueIdx
open Idealize.SL.Sem
open scoped BigOperators

/-! ## The host operations at an index -/

/-- Three [768, 768] matrices stacked along the rows, read at (row, column): the row picks the matrix. -/
theorem stackW_apply (a1 a3 a5 : S768x768.Idx → EReal) (q : Fin 2304) (k : Fin 768) :
    concatenate S2304x768 0 [⟨S768x768, a1⟩, ⟨S768x768, a3⟩, ⟨S768x768, a5⟩] concatenates_S768x768_S768x768_S768x768_S2304x768_d0 (ix2 q k)
      = if h1 : q.val < 768 then a1 (ix2 ⟨q.val, h1⟩ k)
        else if h2 : q.val < 1536 then a3 (ix2 ⟨q.val - 768, by omega⟩ k)
        else a5 (ix2 ⟨q.val - 1536, by have := q.isLt; omega⟩ k) := by
  split_ifs with h1 h2
  · exact concatenate_apply_piece 0 [⟨S768x768, a1⟩, ⟨S768x768, a3⟩, ⟨S768x768, a5⟩] concatenates_S768x768_S768x768_S768x768_S2304x768_d0 (ix2 q k) 0 (show (0 : ℕ) < 3 by decide) S768x768 a1 rfl rfl 0 rfl (ix2 ⟨q.val, h1⟩ k)
      (fun b hb => by match b with | ⟨0, _⟩ => exact absurd rfl hb | ⟨1, _⟩ => rfl) (by show 0 + q.val = q.val; omega)
  · exact concatenate_apply_piece 0 [⟨S768x768, a1⟩, ⟨S768x768, a3⟩, ⟨S768x768, a5⟩] concatenates_S768x768_S768x768_S768x768_S2304x768_d0 (ix2 q k) 1 (show (1 : ℕ) < 3 by decide) S768x768 a3 rfl rfl 768 rfl (ix2 ⟨q.val - 768, by omega⟩ k)
      (fun b hb => by match b with | ⟨0, _⟩ => exact absurd rfl hb | ⟨1, _⟩ => rfl) (by show 768 + (q.val - 768) = q.val; omega)
  · exact concatenate_apply_piece 0 [⟨S768x768, a1⟩, ⟨S768x768, a3⟩, ⟨S768x768, a5⟩] concatenates_S768x768_S768x768_S768x768_S2304x768_d0 (ix2 q k) 2 (show (2 : ℕ) < 3 by decide) S768x768 a5 rfl rfl 1536 rfl (ix2 ⟨q.val - 1536, by have := q.isLt; omega⟩ k)
      (fun b hb => by match b with | ⟨0, _⟩ => exact absurd rfl hb | ⟨1, _⟩ => rfl) (by show 1536 + (q.val - 1536) = q.val; omega)

/-- Three [768] vectors laid end to end, read at an index: the index picks the vector. -/
theorem stackB_apply (a2 a4 a6 : S768.Idx → EReal) (q : Fin 2304) :
    concatenate S2304 0 [⟨S768, a2⟩, ⟨S768, a4⟩, ⟨S768, a6⟩] concatenates_S768_S768_S768_S2304_d0 (ix1 q)
      = if h1 : q.val < 768 then a2 (ix1 ⟨q.val, h1⟩)
        else if h2 : q.val < 1536 then a4 (ix1 ⟨q.val - 768, by omega⟩)
        else a6 (ix1 ⟨q.val - 1536, by have := q.isLt; omega⟩) := by
  split_ifs with h1 h2
  · exact concatenate_apply_piece 0 [⟨S768, a2⟩, ⟨S768, a4⟩, ⟨S768, a6⟩] concatenates_S768_S768_S768_S2304_d0 (ix1 q) 0 (show (0 : ℕ) < 3 by decide) S768 a2 rfl rfl 0 rfl (ix1 ⟨q.val, h1⟩)
      (fun b hb => by match b with | ⟨0, _⟩ => exact absurd rfl hb) (by show 0 + q.val = q.val; omega)
  · exact concatenate_apply_piece 0 [⟨S768, a2⟩, ⟨S768, a4⟩, ⟨S768, a6⟩] concatenates_S768_S768_S768_S2304_d0 (ix1 q) 1 (show (1 : ℕ) < 3 by decide) S768 a4 rfl rfl 768 rfl (ix1 ⟨q.val - 768, by omega⟩)
      (fun b hb => by match b with | ⟨0, _⟩ => exact absurd rfl hb) (by show 768 + (q.val - 768) = q.val; omega)
  · exact concatenate_apply_piece 0 [⟨S768, a2⟩, ⟨S768, a4⟩, ⟨S768, a6⟩] concatenates_S768_S768_S768_S2304_d0 (ix1 q) 2 (show (2 : ℕ) < 3 by decide) S768 a6 rfl rfl 1536 rfl (ix1 ⟨q.val - 1536, by have := q.isLt; omega⟩)
      (fun b hb => by match b with | ⟨0, _⟩ => exact absurd rfl hb) (by show 1536 + (q.val - 1536) = q.val; omega)

/-- The stacked weight [Wq;Wk;Wv], transposed and narrowed: what the first region's second window reads. -/
def wT (a1 a3 a5 : S768x768.Idx → EReal) : S768x2304.Idx → EReal :=
  (truncf .bf16 (transpose S768x2304 [1, 0] (concatenate S2304x768 0 [⟨S768x768, a1⟩, ⟨S768x768, a3⟩, ⟨S768x768, a5⟩] concatenates_S768x768_S768x768_S768x768_S2304x768_d0) transposes_S2304x768_S768x2304_1_0 : FVec Ideal S768x2304 .f32) bitsLt_bf16_f32 : FVec Ideal S768x2304 .bf16)
/-- The stacked bias [bq;bk;bv] as one row: what the first region's third window reads. -/
def bRow (a2 a4 a6 : S768.Idx → EReal) : S1x2304.Idx → EReal :=
  shapeCast S1x2304 (concatenate S2304 0 [⟨S768, a2⟩, ⟨S768, a4⟩, ⟨S768, a6⟩] concatenates_S768_S768_S768_S2304_d0) shapeCasts_S2304_S1x2304
/-- The output projection's weight, transposed and narrowed. -/
def woT (a7 : S768x768.Idx → EReal) : S768x768.Idx → EReal :=
  (truncf .bf16 (transpose S768x768 [1, 0] a7 transposes_S768x768_S768x768_1_0 : FVec Ideal S768x768 .f32) bitsLt_bf16_f32 : FVec Ideal S768x768 .bf16)
/-- The output projection's bias as one row. -/
def boRow (a8 : S768.Idx → EReal) : S1x768.Idx → EReal := shapeCast S1x768 a8 shapeCasts_S768_S1x768

/-- At (k, q): row q of the stack at column k (narrowing changes nothing on the extended reals). -/
theorem wT_apply (a1 a3 a5 : S768x768.Idx → EReal) (k : Fin 768) (q : Fin 2304) :
    wT a1 a3 a5 (ix2 k q)
      = if h1 : q.val < 768 then a1 (ix2 ⟨q.val, h1⟩ k)
        else if h2 : q.val < 1536 then a3 (ix2 ⟨q.val - 768, by omega⟩ k)
        else a5 (ix2 ⟨q.val - 1536, by have := q.isLt; omega⟩ k) :=
  (transpose_ix2_apply _ transposes_S2304x768_S768x2304_1_0 k q).trans (stackW_apply a1 a3 a5 q k)

/-- At (0, q): entry q of the stacked bias. -/
theorem bRow_apply (a2 a4 a6 : S768.Idx → EReal) (u : Fin 1) (q : Fin 2304) :
    bRow a2 a4 a6 (ix2 u q)
      = if h1 : q.val < 768 then a2 (ix1 ⟨q.val, h1⟩)
        else if h2 : q.val < 1536 then a4 (ix1 ⟨q.val - 768, by omega⟩)
        else a6 (ix1 ⟨q.val - 1536, by have := q.isLt; omega⟩) :=
  (shapeCast_a_1a_apply _ shapeCasts_S2304_S1x2304 u q).trans (stackB_apply a2 a4 a6 q)

theorem woT_apply (a7 : S768x768.Idx → EReal) (j k : Fin 768) : woT a7 (ix2 j k) = a7 (ix2 k j) :=
  transpose_ix2_apply a7 transposes_S768x768_S768x768_1_0 j k

theorem boRow_apply (a8 : S768.Idx → EReal) (u : Fin 1) (j : Fin 768) : boRow a8 (ix2 u j) = a8 (ix1 j) :=
  shapeCast_a_1a_apply a8 shapeCasts_S768_S1x768 u j

/-- The three linear layers side by side, at (row, column): the column picks the layer. -/
theorem qkvOf_ix2 (x : S4096x768.Idx → EReal) (a1 : S768x768.Idx → EReal) (a2 : S768.Idx → EReal) (a3 : S768x768.Idx → EReal)
    (a4 : S768.Idx → EReal) (a5 : S768x768.Idx → EReal) (a6 : S768.Idx → EReal) (r : Fin 4096) (q : Fin 2304) :
    Cert.Attn.qkvOf x a1 a2 a3 a4 a5 a6 (ix2 r q)
      = if h1 : q.val < 768 then Cert.Attn.proj x a1 a2 r ⟨q.val, h1⟩
        else if h2 : q.val < 1536 then Cert.Attn.proj x a3 a4 r ⟨q.val - 768, by omega⟩
        else Cert.Attn.proj x a5 a6 r ⟨q.val - 1536, by have := q.isLt; omega⟩ := rfl

/-- The first region's closed form over the stacked, transposed weight and the stacked bias row is the three linear
    layers side by side. -/
theorem qkv0_stack (x : S4096x768.Idx → EReal) (a1 : S768x768.Idx → EReal) (a2 : S768.Idx → EReal) (a3 : S768x768.Idx → EReal)
    (a4 : S768.Idx → EReal) (a5 : S768x768.Idx → EReal) (a6 : S768.Idx → EReal) :
    R0.qkv0 x (wT a1 a3 a5) (bRow a2 a4 a6) = Cert.Attn.qkvOf x a1 a2 a3 a4 a5 a6 := by
  funext i
  obtain ⟨r, q, rfl⟩ : ∃ (r : Fin 4096) (q : Fin 2304), i = ix2 r q := ⟨i 0, i 1, eq_ix2 i⟩
  rw [R0.qkv0_ix2, qkvOf_ix2]
  by_cases h1 : q.val < 768
  · rw [dif_pos h1, Cert.Attn.proj_apply, (bRow_apply a2 a4 a6 0 q).trans (dif_pos h1)]
    exact congrArg (· + _) (Finset.sum_congr rfl fun k _ => by rw [(wT_apply a1 a3 a5 k q).trans (dif_pos h1)])
  · by_cases h2 : q.val < 1536
    · rw [dif_neg h1, dif_pos h2, Cert.Attn.proj_apply, (bRow_apply a2 a4 a6 0 q).trans ((dif_neg h1).trans (dif_pos h2))]
      exact congrArg (· + _) (Finset.sum_congr rfl fun k _ => by rw [(wT_apply a1 a3 a5 k q).trans ((dif_neg h1).trans (dif_pos h2))])
    · rw [dif_neg h1, dif_neg h2, Cert.Attn.proj_apply, (bRow_apply a2 a4 a6 0 q).trans ((dif_neg h1).trans (dif_neg h2))]
      exact congrArg (· + _) (Finset.sum_congr rfl fun k _ => by rw [(wT_apply a1 a3 a5 k q).trans ((dif_neg h1).trans (dif_neg h2))])

/-! ## The regions' entry contents as functions of the arguments -/

variable (m : (ℓ : Loc nD τ sig) → Buf (Elt Ideal) ℓ) (ρ : Dev nD → PrngReg)

/-- The second region finds, in the array its first three windows read, the three linear layers of the first
    argument side by side. -/
theorem entry_qkv (c : Dev nD) :
    (V3 m ρ c main_v7 : S4096x2304.Idx → EReal)
      = Cert.Attn.qkvOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have h : (V3 m ρ c main_v7 : S4096x2304.Idx → EReal)
      = R0.qkv0 (V1 m ρ c main_arg0) (V1 m ρ c main_v3) (V1 m ρ c main_v6) := (V3_main_v7 m ρ c).trans (R0.final0_3 (V1 m ρ) c)
  have hx : (V1 m ρ c main_arg0 : S4096x768.Idx → EReal) = m ((c : Thread nD τ).loc main_arg0) := V1_main_arg0 m ρ c
  have hw : (V1 m ρ c main_v3 : S768x2304.Idx → EReal)
      = wT (m ((c : Thread nD τ).loc main_arg1)) (m ((c : Thread nD τ).loc main_arg3)) (m ((c : Thread nD τ).loc main_arg5)) := V1_main_v3 m ρ c
  have hb : (V1 m ρ c main_v6 : S1x2304.Idx → EReal)
      = bRow (m ((c : Thread nD τ).loc main_arg2)) (m ((c : Thread nD τ).loc main_arg4)) (m ((c : Thread nD τ).loc main_arg6)) := V1_main_v6 m ρ c
  exact h.trans ((congr (congr (congrArg R0.qkv0 hx) hw) hb).trans (qkv0_stack _ _ _ _ _ _ _))

/-- It finds the output projection's weight transposed, -/
theorem entry_wo (c : Dev nD) :
    (V3 m ρ c main_v5 : S768x768.Idx → EReal) = fun i => (m ((c : Thread nD τ).loc main_arg7) : S768x768.Idx → EReal) (ix2 (i 1) (i 0)) := by
  have h : (V3 m ρ c main_v5 : S768x768.Idx → EReal) = woT (m ((c : Thread nD τ).loc main_arg7)) := V3_main_v5 m ρ c
  rw [h]
  funext i
  obtain ⟨j, k, rfl⟩ : ∃ (j k : Fin 768), i = ix2 j k := ⟨i 0, i 1, eq_ix2 i⟩
  exact woT_apply _ j k

/-- and its bias as one row. -/
theorem entry_bo (c : Dev nD) :
    (V3 m ρ c main_v8 : S1x768.Idx → EReal) = fun i => (m ((c : Thread nD τ).loc main_arg8) : S768.Idx → EReal) (ix1 (i 1)) := by
  have h : (V3 m ρ c main_v8 : S1x768.Idx → EReal) = boRow (m ((c : Thread nD τ).loc main_arg8)) := V3_main_v8 m ρ c
  rw [h]
  funext i
  obtain ⟨u, j, rfl⟩ : ∃ (u : Fin 1) (j : Fin 768), i = ix2 u j := ⟨i 0, i 1, eq_ix2 i⟩
  exact boRow_apply _ u j

end Cert.KernelIdeal.Asm

end
-- ==== Proof.KI.R1Forms.lean ====
import proofs.«178773_j13254269075465_2_alg».proof.Proof.Tiles
import proofs.«178773_j13254269075465_2_alg».proof.Proof.Gen.KernelIdeal
import Idealize.ShloMosaic.Lib.Pipeline.FrameBody
import Idealize.ShloMosaic.Lib.Pipeline.Value
import Idealize.ShloMosaic.Lib.ValueIdx
import Idealize.ShloMosaic.PureOps.Ideal.Laws

noncomputable section

/-! # The running maximum and running sum over the heads, and how the body's loads read

The body keeps, per (output row, key row), a maximum over the heads taken one head at a time from −∞ and a sum of
exponentials taken one head at a time from 0. `M k` and `T k` are those two quantities after `k` heads; after all
twelve they are the tile's maximum and sum. The lemmas below say what a load of a whole input block, of a 64-column
band of the accumulator, and of one head's slab of the scores buffer reads. -/

namespace Cert.KernelIdeal.R1F

open Cert.KernelIdeal Cert.Attn
open Idealize.ShloMosaic Idealize.ShloMosaic.ValueIdx

section Chains
def M0 (kb : SK.Idx → EReal) (qb : SQ.Idx → EReal) (p : Fin 512) (t : Fin 256) : EReal := Ideal.ofBits .f32 0xFF800000#32
def M1 (kb : SK.Idx → EReal) (qb : SQ.Idx → EReal) (p : Fin 512) (t : Fin 256) : EReal := max (M0 kb qb p t) (tScore kb qb 0 p t)
def M2 (kb : SK.Idx → EReal) (qb : SQ.Idx → EReal) (p : Fin 512) (t : Fin 256) : EReal := max (M1 kb qb p t) (tScore kb qb 1 p t)
def M3 (kb : SK.Idx → EReal) (qb : SQ.Idx → EReal) (p : Fin 512) (t : Fin 256) : EReal := max (M2 kb qb p t) (tScore kb qb 2 p t)
def M4 (kb : SK.Idx → EReal) (qb : SQ.Idx → EReal) (p : Fin 512) (t : Fin 256) : EReal := max (M3 kb qb p t) (tScore kb qb 3 p t)
def M5 (kb : SK.Idx → EReal) (qb : SQ.Idx → EReal) (p : Fin 512) (t : Fin 256) : EReal := max (M4 kb qb p t) (tScore kb qb 4 p t)
def M6 (kb : SK.Idx → EReal) (qb : SQ.Idx → EReal) (p : Fin 512) (t : Fin 256) : EReal := max (M5 kb qb p t) (tScore kb qb 5 p t)
def M7 (kb : SK.Idx → EReal) (qb : SQ.Idx → EReal) (p : Fin 512) (t : Fin 256) : EReal := max (M6 kb qb p t) (tScore kb qb 6 p t)
def M8 (kb : SK.Idx → EReal) (qb : SQ.Idx → EReal) (p : Fin 512) (t : Fin 256) : EReal := max (M7 kb qb p t) (tScore kb qb 7 p t)
def M9 (kb : SK.Idx → EReal) (qb : SQ.Idx → EReal) (p : Fin 512) (t : Fin 256) : EReal := max (M8 kb qb p t) (tScore kb qb 8 p t)
def M10 (kb : SK.Idx → EReal) (qb : SQ.Idx → EReal) (p : Fin 512) (t : Fin 256) : EReal := max (M9 kb qb p t) (tScore kb qb 9 p t)
def M11 (kb : SK.Idx → EReal) (qb : SQ.Idx → EReal) (p : Fin 512) (t : Fin 256) : EReal := max (M10 kb qb p t) (tScore kb qb 10 p t)
def M12 (kb : SK.Idx → EReal) (qb : SQ.Idx → EReal) (p : Fin 512) (t : Fin 256) : EReal := max (M11 kb qb p t) (tScore kb qb 11 p t)
def T0 (kb : SK.Idx → EReal) (qb : SQ.Idx → EReal) (p : Fin 512) (t : Fin 256) : EReal := Ideal.ofBits .f32 0x00000000#32
def T1 (kb : SK.Idx → EReal) (qb : SQ.Idx → EReal) (p : Fin 512) (t : Fin 256) : EReal := T0 kb qb p t + tExp kb qb 0 p t
def T2 (kb : SK.Idx → EReal) (qb : SQ.Idx → EReal) (p : Fin 512) (t : Fin 256) : EReal := T1 kb qb p t + tExp kb qb 1 p t
def T3 (kb : SK.Idx → EReal) (qb : SQ.Idx → EReal) (p : Fin 512) (t : Fin 256) : EReal := T2 kb qb p t + tExp kb qb 2 p t
def T4 (kb : SK.Idx → EReal) (qb : SQ.Idx → EReal) (p : Fin 512) (t : Fin 256) : EReal := T3 kb qb p t + tExp kb qb 3 p t
def T5 (kb : SK.Idx → EReal) (qb : SQ.Idx → EReal) (p : Fin 512) (t : Fin 256) : EReal := T4 kb qb p t + tExp kb qb 4 p t
def T6 (kb : SK.Idx → EReal) (qb : SQ.Idx → EReal) (p : Fin 512) (t : Fin 256) : EReal := T5 kb qb p t + tExp kb qb 5 p t
def T7 (kb : SK.Idx → EReal) (qb : SQ.Idx → EReal) (p : Fin 512) (t : Fin 256) : EReal := T6 kb qb p t + tExp kb qb 6 p t
def T8 (kb : SK.Idx → EReal) (qb : SQ.Idx → EReal) (p : Fin 512) (t : Fin 256) : EReal := T7 kb qb p t + tExp kb qb 7 p t
def T9 (kb : SK.Idx → EReal) (qb : SQ.Idx → EReal) (p : Fin 512) (t : Fin 256) : EReal := T8 kb qb p t + tExp kb qb 8 p t
def T10 (kb : SK.Idx → EReal) (qb : SQ.Idx → EReal) (p : Fin 512) (t : Fin 256) : EReal := T9 kb qb p t + tExp kb qb 9 p t
def T11 (kb : SK.Idx → EReal) (qb : SQ.Idx → EReal) (p : Fin 512) (t : Fin 256) : EReal := T10 kb qb p t + tExp kb qb 10 p t
def T12 (kb : SK.Idx → EReal) (qb : SQ.Idx → EReal) (p : Fin 512) (t : Fin 256) : EReal := T11 kb qb p t + tExp kb qb 11 p t
theorem M12_eq (kb : SK.Idx → EReal) (qb : SQ.Idx → EReal) (p : Fin 512) (t : Fin 256) : M12 kb qb p t = tMax kb qb p t := by
  simp only [M12, M11, M10, M9, M8, M7, M6, M5, M4, M3, M2, M1, M0, tMax_apply]
theorem T12_eq (kb : SK.Idx → EReal) (qb : SQ.Idx → EReal) (p : Fin 512) (t : Fin 256) : T12 kb qb p t = tSum kb qb p t := by
  simp only [T12, T11, T10, T9, T8, T7, T6, T5, T4, T3, T2, T1, T0, tSum_apply]
end Chains

variable {F : FTy → Type} [FloatOps F]

theorem hz2 : (![0, 0] : Fin 2 → Nat) = fun _ => 0 := funext fun a => by fin_cases a <;> rfl

/-- A load of a whole block through a whole buffer holding `x` reads `x`. -/
theorem ld_whole {S : Shape} {e : EltTy} (hS : S.rank = 2) {sp : Space} (arg : Memref sig .tc sp S e) (harg : arg.IsWhole) (x : Vec F S e)
    (off : Fin S.rank → Nat) (hoff : off = fun _ => 0) (inb : ∀ a, off a + S.size a ≤ S.size a) :
    View.readAt (Elt F) arg.view (Rect.unit off S.size inb).toLoadRect (harg.unread x) = x := by
  rw [View.readAt_eq_ld, harg.read_unread, View.ld_unit_zero hoff]

/-- A load of the 64-column band at column offset `off` of the accumulator holding `xs` reads that band. -/
theorem ld_band (arg8 : Memref sig .tc .vmem S512x768 .f32) (harg8 : arg8.IsWhole) (xs : Vec F S512x768 .f32)
    (off : Nat) (inb : ∀ a, (![0, off] : Fin 2 → Nat) a + S512x64.size a ≤ S512x768.size a) (p : Fin 512) (d : Fin 64) (hlt : off + d.val < 768) :
    View.readAt (Elt F) arg8.view (Rect.unit (s := S512x768) ![0, off] S512x64.size inb).toLoadRect (harg8.unread xs) (ix2 p d)
      = xs (ix2 p (⟨off + d.val, hlt⟩ : Fin 768)) := by
  rw [View.readAt_eq_ld, harg8.read_unread]
  show xs ((Rect.unit (s := S512x768) ![0, off] S512x64.size inb).emb (ix2 p d)) = _
  refine congrArg xs (funext fun a => Fin.ext ?_)
  rw [Rect.emb_apply]
  match a with
  | ⟨0, _⟩ => simp [ix2]
  | ⟨1, _⟩ => simp [ix2]

end Cert.KernelIdeal.R1F

end
-- ==== Proof.KI.Payloads.lean ====
/- The attention kernel's stored values, each read at an index in terms of the values it is computed from: the body's
   arithmetic, one pure term per store, over the extended reals. A format change is the identity there; a product into a
   zero accumulator is the plain sum over the contracted axis; a slice of 64 columns at offset 64·h reads column 64·h + d;
   a cast between [512, 256] and [1, 512, 256] keeps the position. -/
import proofs.«178773_j13254269075465_2_alg».proof.Proof.Gen.KernelIdeal.Skeleton
import proofs.«178773_j13254269075465_2_alg».proof.Proof.Tiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pay

open Cert.KernelIdeal Cert.KernelIdeal.Gen Cert.Attn
open Idealize.ShloMosaic Idealize.ShloMosaic.ValueIdx

/-! ## The three products' operand indices -/

/-- Scores: the keys' slice is read at (row of the output index, contraction index), -/
theorem lhsS_0 (i : S512x256.Idx) (q : dot_S512x64_S256x64_S512x256_1_1_0_0_n_n.contr.Idx) :
    (dot_S512x64_S256x64_S512x256_1_1_0_0_n_n.lhsIdx i q 0).val = (i 0).val := by
  unfold DotDims.lhsIdx
  rw [dif_neg (show ¬(0 : Fin S512x64.rank) ∈ dot_S512x64_S256x64_S512x256_1_1_0_0_n_n.lhsBatch by decide), dif_pos (show (0 : Fin S512x64.rank) ∈ dot_S512x64_S256x64_S512x256_1_1_0_0_n_n.lhsNonContracting by decide)]
  rfl
theorem lhsS_1 (i : S512x256.Idx) (q : dot_S512x64_S256x64_S512x256_1_1_0_0_n_n.contr.Idx) :
    (dot_S512x64_S256x64_S512x256_1_1_0_0_n_n.lhsIdx i q 1).val = (q ⟨0, by decide⟩).val :=
  dot_S512x64_S256x64_S512x256_1_1_0_0_n_n.lhsIdx_val_of_single rfl i q
/-- and the queries' slice at (column of the output index, contraction index). -/
theorem rhsS_0 (i : S512x256.Idx) (q : dot_S512x64_S256x64_S512x256_1_1_0_0_n_n.contr.Idx) :
    (dot_S512x64_S256x64_S512x256_1_1_0_0_n_n.rhsIdx i q 0).val = (i 1).val := by
  unfold DotDims.rhsIdx
  rw [dif_neg (show ¬(0 : Fin S256x64.rank) ∈ dot_S512x64_S256x64_S512x256_1_1_0_0_n_n.rhsBatch by decide), dif_pos (show (0 : Fin S256x64.rank) ∈ dot_S512x64_S256x64_S512x256_1_1_0_0_n_n.rhsNonContracting by decide)]
  rfl
theorem rhsS_1 (i : S512x256.Idx) (q : dot_S512x64_S256x64_S512x256_1_1_0_0_n_n.contr.Idx) :
    (dot_S512x64_S256x64_S512x256_1_1_0_0_n_n.rhsIdx i q 1).val = (q ⟨0, by decide⟩).val :=
  dot_S512x64_S256x64_S512x256_1_1_0_0_n_n.rhsIdx_val_of_single rfl i q

/-- Updates: the weights are read at (row, contraction index), the values' slice at (contraction index, column). -/
theorem lhsU_0 (i : S512x64.Idx) (q : dot_S512x256_S256x64_S512x64_1_0_0_1_n_n.contr.Idx) :
    (dot_S512x256_S256x64_S512x64_1_0_0_1_n_n.lhsIdx i q 0).val = (i 0).val := by
  unfold DotDims.lhsIdx
  rw [dif_neg (show ¬(0 : Fin S512x256.rank) ∈ dot_S512x256_S256x64_S512x64_1_0_0_1_n_n.lhsBatch by decide), dif_pos (show (0 : Fin S512x256.rank) ∈ dot_S512x256_S256x64_S512x64_1_0_0_1_n_n.lhsNonContracting by decide)]
  rfl
theorem lhsU_1 (i : S512x64.Idx) (q : dot_S512x256_S256x64_S512x64_1_0_0_1_n_n.contr.Idx) :
    (dot_S512x256_S256x64_S512x64_1_0_0_1_n_n.lhsIdx i q 1).val = (q ⟨0, by decide⟩).val :=
  dot_S512x256_S256x64_S512x64_1_0_0_1_n_n.lhsIdx_val_of_single rfl i q
theorem rhsU_0 (i : S512x64.Idx) (q : dot_S512x256_S256x64_S512x64_1_0_0_1_n_n.contr.Idx) :
    (dot_S512x256_S256x64_S512x64_1_0_0_1_n_n.rhsIdx i q 0).val = (q ⟨0, by decide⟩).val :=
  dot_S512x256_S256x64_S512x64_1_0_0_1_n_n.rhsIdx_val_of_single rfl i q
theorem rhsU_1 (i : S512x64.Idx) (q : dot_S512x256_S256x64_S512x64_1_0_0_1_n_n.contr.Idx) :
    (dot_S512x256_S256x64_S512x64_1_0_0_1_n_n.rhsIdx i q 1).val = (i 1).val := by
  unfold DotDims.rhsIdx
  rw [dif_neg (show ¬(1 : Fin S256x64.rank) ∈ dot_S512x256_S256x64_S512x64_1_0_0_1_n_n.rhsBatch by decide), dif_pos (show (1 : Fin S256x64.rank) ∈ dot_S512x256_S256x64_S512x64_1_0_0_1_n_n.rhsNonContracting by decide)]
  rfl

/-- The output projection: the accumulator at (row, contraction index), the weight at (contraction index, column). -/
theorem lhsO_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem lhsO_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
theorem rhsO_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
theorem rhsO_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-! ## The operations the payloads are made of, at an index -/

/-- The score product of two 64-column operands into the zero accumulator, at (p, t): the sum over the 64 coordinates. -/
theorem scoreMm_apply (a : FVec Ideal S512x64 .bf16) (b : FVec Ideal S256x64 .bf16) (p : Fin 512) (t : Fin 256) :
    matmul dot_S512x64_S256x64_S512x256_1_1_0_0_n_n none a b (constant (F := Ideal) S512x256 .f32 0x00000000#32) (ix2 p t)
      = ∑ d : Fin 64, a (ix2 p d) * b (ix2 t d) := by
  refine (Ideal.matmul_constant_zero_apply (φ₁ := .bf16) (φ₂ := .bf16) dot_S512x64_S256x64_S512x256_1_1_0_0_n_n none a b (ix2 p t)).trans ?_
  rw [← Equiv.sum_comp (contrEquiv1 dot_S512x64_S256x64_S512x256_1_1_0_0_n_n 64 rfl rfl).symm]
  refine Finset.sum_congr rfl fun k _ => ?_
  have hk := contrEquiv1_symm_val dot_S512x64_S256x64_S512x256_1_1_0_0_n_n 64 rfl rfl k
  have el : dot_S512x64_S256x64_S512x256_1_1_0_0_n_n.lhsIdx (ix2 p t) ((contrEquiv1 dot_S512x64_S256x64_S512x256_1_1_0_0_n_n 64 rfl rfl).symm k) = ix2 p k := funext fun a => Fin.ext (by
    match a with
    | ⟨0, _⟩ => exact lhsS_0 _ _
    | ⟨1, _⟩ => exact (lhsS_1 _ _).trans hk)
  have er : dot_S512x64_S256x64_S512x256_1_1_0_0_n_n.rhsIdx (ix2 p t) ((contrEquiv1 dot_S512x64_S256x64_S512x256_1_1_0_0_n_n 64 rfl rfl).symm k) = ix2 t k := funext fun a => Fin.ext (by
    match a with
    | ⟨0, _⟩ => exact rhsS_0 _ _
    | ⟨1, _⟩ => exact (rhsS_1 _ _).trans hk)
  rw [el, er]

/-- The 64 columns of head h of a block of 512 rows: column d of the slice is column 64·h + d. -/
theorem sliceK_apply (a : FVec Ideal S512x768 .bf16) (h : Fin 12) (c : Nat) (hc : c = h.val * 64)
    (sa : S512x768.Slices ![0, c] S512x64) (p : Fin 512) (d : Fin 64) :
    extractStridedSlice S512x64 ![0, c] a sa (ix2 p d) = a (ix2 p (col h d)) :=
  extractStridedSlice_apply ![0, c] a sa (ix2 p d) (ix2 p (col h d)) (fun x => by
    match x with
    | ⟨0, _⟩ => show p.val = 0 + p.val; omega
    | ⟨1, _⟩ => show h.val * 64 + d.val = c + d.val; omega)

/-- The same of a block of 256 rows. -/
theorem sliceQ_apply (b : FVec Ideal S256x768 .bf16) (h : Fin 12) (c : Nat) (hc : c = h.val * 64)
    (sb : S256x768.Slices ![0, c] S256x64) (t : Fin 256) (d : Fin 64) :
    extractStridedSlice S256x64 ![0, c] b sb (ix2 t d) = b (ix2 t (col h d)) :=
  extractStridedSlice_apply ![0, c] b sb (ix2 t d) (ix2 t (col h d)) (fun x => by
    match x with
    | ⟨0, _⟩ => show t.val = 0 + t.val; omega
    | ⟨1, _⟩ => show h.val * 64 + d.val = c + d.val; omega)

/-- Head h's score product of the two blocks' slices at (p, t) is the head's score. -/
theorem scoreSlices_apply (a : FVec Ideal S512x768 .bf16) (b : FVec Ideal S256x768 .bf16) (h : Fin 12) (c : Nat) (hc : c = h.val * 64)
    (sa : S512x768.Slices ![0, c] S512x64) (sb : S256x768.Slices ![0, c] S256x64) (p : Fin 512) (t : Fin 256) :
    matmul dot_S512x64_S256x64_S512x256_1_1_0_0_n_n none (extractStridedSlice S512x64 ![0, c] a sa)
        (extractStridedSlice S256x64 ![0, c] b sb) (constant (F := Ideal) S512x256 .f32 0x00000000#32) (ix2 p t)
      = tScore a b h p t := by
  rw [scoreMm_apply, tScore_apply]
  refine Finset.sum_congr rfl fun d _ => ?_
  rw [sliceK_apply a h c hc, sliceQ_apply b h c hc]

/-- A [512, 256] array cast to [1, 512, 256] keeps its entries: position (0, p, t) reads (p, t). -/
theorem toSlab_apply (y : FVec Ideal S512x256 .f32) (p : Fin 512) (t : Fin 256) :
    shapeCast S1x512x256 y shapeCasts_S512x256_S1x512x256 (ix3 (0 : Fin 1) p t) = y (ix2 p t) :=
  shapeCast_apply y shapeCasts_S512x256_S1x512x256 (ix3 (0 : Fin 1) p t) (ix2 p t) (by
    rw [Shape.rowMajor_val_two, Shape.rowMajor_val_three]
    show p.val * 256 + t.val = (0 * 512 + p.val) * 256 + t.val; omega)

/-- And back: position (p, t) of the cast of a [1, 512, 256] array reads (0, p, t). -/
theorem ofSlab_apply (s : FVec Ideal S1x512x256 .f32) (p : Fin 512) (t : Fin 256) :
    shapeCast S512x256 s shapeCasts_S1x512x256_S512x256 (ix2 p t) = s (ix3 (0 : Fin 1) p t) :=
  shapeCast_apply s shapeCasts_S1x512x256_S512x256 (ix2 p t) (ix3 (0 : Fin 1) p t) (by
    rw [Shape.rowMajor_val_two, Shape.rowMajor_val_three]
    show (0 * 512 + p.val) * 256 + t.val = p.val * 256 + t.val; omega)

/-- Head h's update product at (p, d): the weights of row p against the head's value column d, over the 256 rows. -/
theorem updateMm_apply (w : FVec Ideal S512x256 .bf16) (v : FVec Ideal S256x768 .bf16) (h : Fin 12) (c : Nat) (hc : c = h.val * 64)
    (sv : S256x768.Slices ![0, c] S256x64) (p : Fin 512) (d : Fin 64) :
    matmul dot_S512x256_S256x64_S512x64_1_0_0_1_n_n none w (extractStridedSlice S256x64 ![0, c] v sv)
        (constant (F := Ideal) S512x64 .f32 0x00000000#32) (ix2 p d)
      = ∑ t : Fin 256, w (ix2 p t) * v (ix2 t (col h d)) := by
  refine (Ideal.matmul_constant_zero_apply (φ₁ := .bf16) (φ₂ := .bf16) dot_S512x256_S256x64_S512x64_1_0_0_1_n_n none w _ (ix2 p d)).trans ?_
  rw [← Equiv.sum_comp (contrEquiv1 dot_S512x256_S256x64_S512x64_1_0_0_1_n_n 256 rfl rfl).symm]
  refine Finset.sum_congr rfl fun k _ => ?_
  have hk := contrEquiv1_symm_val dot_S512x256_S256x64_S512x64_1_0_0_1_n_n 256 rfl rfl k
  have el : dot_S512x256_S256x64_S512x64_1_0_0_1_n_n.lhsIdx (ix2 p d) ((contrEquiv1 dot_S512x256_S256x64_S512x64_1_0_0_1_n_n 256 rfl rfl).symm k) = ix2 p k := funext fun a => Fin.ext (by
    match a with
    | ⟨0, _⟩ => exact lhsU_0 _ _
    | ⟨1, _⟩ => exact (lhsU_1 _ _).trans hk)
  have er : dot_S512x256_S256x64_S512x64_1_0_0_1_n_n.rhsIdx (ix2 p d) ((contrEquiv1 dot_S512x256_S256x64_S512x64_1_0_0_1_n_n 256 rfl rfl).symm k) = ix2 k d := funext fun a => Fin.ext (by
    match a with
    | ⟨0, _⟩ => exact (rhsU_0 _ _).trans hk
    | ⟨1, _⟩ => exact rhsU_1 _ _)
  rw [el, er, sliceQ_apply v h c hc]

/-- The weights an update multiplies by: the stored exponential times the reciprocal times the scale's word, the
    narrowing of the format being the identity. -/
theorem weight_apply (slab : FVec Ideal S1x512x256 .f32) (inv : FVec Ideal S512x256 .f32) (p : Fin 512) (t : Fin 256) :
    (truncf .bf16 (mulf (mulf (shapeCast S512x256 slab shapeCasts_S1x512x256_S512x256) inv)
        (broadcast S512x256 (Scalar.ofBits (F := Ideal) .f32 0x419CC471#32))) bitsLt_bf16_f32 : FVec Ideal S512x256 .bf16) (ix2 p t)
      = slab (ix3 (0 : Fin 1) p t) * inv (ix2 p t) * Ideal.ofBits .f32 0x419CC471#32 := by
  rw [truncf_apply, mulf_apply, mulf_apply, ofSlab_apply]
  rfl

/-- An exponential at an index is the exponential of the entry. -/
theorem exp_apply {s : Shape} {φ : FTy} (a : FVec Ideal s φ) (i : s.Idx) : exp a i = Ideal.exp (a i) := rfl

/-! ## The stored values, in the body's order: blocks, scores and the running maximum -/

/-- The constant block of the word 0x00000000. -/
theorem pay1_eq : k1_pay1 (F := Ideal) = fun _ => Ideal.ofBits .f32 0x00000000#32 := by
  unfold k1_pay1
  exact shapeCast_self (fun _ => Ideal.ofBits .f32 0x00000000#32) _

/-- A cast to the same shape. -/
theorem pay2_eq (v3 : Vec Ideal S512x768 .bf16) : k1_pay2 (F := Ideal) v3 = v3 := by
  unfold k1_pay2
  exact shapeCast_self _ _

/-- A cast to the same shape. -/
theorem pay3_eq (v5 : Vec Ideal S256x768 .bf16) : k1_pay3 (F := Ideal) v5 = v5 := by
  unfold k1_pay3
  exact shapeCast_self _ _

/-- A cast to the same shape. -/
theorem pay4_eq (v7 : Vec Ideal S256x768 .bf16) : k1_pay4 (F := Ideal) v7 = v7 := by
  unfold k1_pay4
  exact shapeCast_self _ _

/-- The constant block of the word 0xFF800000. -/
theorem pay5_eq : k1_pay5 (F := Ideal) = fun _ => Ideal.ofBits .f32 0xFF800000#32 := by
  unfold k1_pay5
  exact shapeCast_self (fun _ => Ideal.ofBits .f32 0xFF800000#32) _

/-- Head 0's scores. -/
theorem pay6_apply (v3 : Vec Ideal S512x768 .bf16) (v5 : Vec Ideal S256x768 .bf16) (p : Fin 512) (t : Fin 256) :
    k1_pay6 (F := Ideal) v3 v5 (ix2 p t) = tScore v3 v5 0 p t := by
  unfold k1_pay6
  rw [pay2_eq, pay3_eq]
  exact scoreSlices_apply v3 v5 0 0 (by decide) _ _ p t

/-- The same value stored as a [1, 512, 256] slab. -/
theorem pay7_apply (v3 : Vec Ideal S512x768 .bf16) (v5 : Vec Ideal S256x768 .bf16) (p : Fin 512) (t : Fin 256) :
    k1_pay7 (F := Ideal) v3 v5 (ix3 (0 : Fin 1) p t) = tScore v3 v5 0 p t := by
  unfold k1_pay7
  rw [toSlab_apply, pay6_apply]

/-- The running maximum, the earlier value on the left. -/
theorem pay8_apply (v3 : Vec Ideal S512x768 .bf16) (v5 : Vec Ideal S256x768 .bf16) (v19 : Vec Ideal S512x256 .f32) (p : Fin 512) (t : Fin 256) :
    k1_pay8 (F := Ideal) v3 v5 v19 (ix2 p t) = max (v19 (ix2 p t)) (tScore v3 v5 0 p t) := by
  unfold k1_pay8
  rw [shapeCast_self, maximumf_apply, pay6_apply]

/-- Head 1's scores. -/
theorem pay9_apply (v3 : Vec Ideal S512x768 .bf16) (v5 : Vec Ideal S256x768 .bf16) (p : Fin 512) (t : Fin 256) :
    k1_pay9 (F := Ideal) v3 v5 (ix2 p t) = tScore v3 v5 1 p t := by
  unfold k1_pay9
  rw [pay2_eq, pay3_eq]
  exact scoreSlices_apply v3 v5 1 64 (by decide) _ _ p t

/-- The same value stored as a [1, 512, 256] slab. -/
theorem pay10_apply (v3 : Vec Ideal S512x768 .bf16) (v5 : Vec Ideal S256x768 .bf16) (p : Fin 512) (t : Fin 256) :
    k1_pay10 (F := Ideal) v3 v5 (ix3 (0 : Fin 1) p t) = tScore v3 v5 1 p t := by
  unfold k1_pay10
  rw [toSlab_apply, pay9_apply]

/-- The running maximum, the earlier value on the left. -/
theorem pay11_apply (v26 : FVec Ideal S512x256 .f32) (v30 : Vec Ideal S512x256 .f32) (p : Fin 512) (t : Fin 256) :
    k1_pay11 (F := Ideal) v26 v30 (ix2 p t) = max (v30 (ix2 p t)) (v26 (ix2 p t)) := by
  unfold k1_pay11
  rw [shapeCast_self, maximumf_apply]

/-- Head 2's scores. -/
theorem pay12_apply (v4 : FVec Ideal S512x768 .bf16) (v6 : FVec Ideal S256x768 .bf16) (p : Fin 512) (t : Fin 256) :
    k1_pay12 (F := Ideal) v4 v6 (ix2 p t) = tScore v4 v6 2 p t := by
  unfold k1_pay12
  exact scoreSlices_apply v4 v6 2 128 (by decide) _ _ p t

/-- The same value stored as a [1, 512, 256] slab. -/
theorem pay13_apply (v4 : FVec Ideal S512x768 .bf16) (v6 : FVec Ideal S256x768 .bf16) (p : Fin 512) (t : Fin 256) :
    k1_pay13 (F := Ideal) v4 v6 (ix3 (0 : Fin 1) p t) = tScore v4 v6 2 p t := by
  unfold k1_pay13
  rw [toSlab_apply, pay12_apply]

/-- The running maximum, the earlier value on the left. -/
theorem pay14_apply (v4 : FVec Ideal S512x768 .bf16) (v6 : FVec Ideal S256x768 .bf16) (v41 : Vec Ideal S512x256 .f32) (p : Fin 512) (t : Fin 256) :
    k1_pay14 (F := Ideal) v4 v6 v41 (ix2 p t) = max (v41 (ix2 p t)) (tScore v4 v6 2 p t) := by
  unfold k1_pay14
  rw [shapeCast_self, maximumf_apply, pay12_apply]

/-- Head 3's scores. -/
theorem pay15_apply (v4 : FVec Ideal S512x768 .bf16) (v6 : FVec Ideal S256x768 .bf16) (p : Fin 512) (t : Fin 256) :
    k1_pay15 (F := Ideal) v4 v6 (ix2 p t) = tScore v4 v6 3 p t := by
  unfold k1_pay15
  exact scoreSlices_apply v4 v6 3 192 (by decide) _ _ p t

/-- The same value stored as a [1, 512, 256] slab. -/
theorem pay16_apply (v4 : FVec Ideal S512x768 .bf16) (v6 : FVec Ideal S256x768 .bf16) (p : Fin 512) (t : Fin 256) :
    k1_pay16 (F := Ideal) v4 v6 (ix3 (0 : Fin 1) p t) = tScore v4 v6 3 p t := by
  unfold k1_pay16
  rw [toSlab_apply, pay15_apply]

/-- The running maximum, the earlier value on the left. -/
theorem pay17_apply (v4 : FVec Ideal S512x768 .bf16) (v6 : FVec Ideal S256x768 .bf16) (v52 : Vec Ideal S512x256 .f32) (p : Fin 512) (t : Fin 256) :
    k1_pay17 (F := Ideal) v4 v6 v52 (ix2 p t) = max (v52 (ix2 p t)) (tScore v4 v6 3 p t) := by
  unfold k1_pay17
  rw [shapeCast_self, maximumf_apply, pay15_apply]

/-- Head 4's scores. -/
theorem pay18_apply (v4 : FVec Ideal S512x768 .bf16) (v6 : FVec Ideal S256x768 .bf16) (p : Fin 512) (t : Fin 256) :
    k1_pay18 (F := Ideal) v4 v6 (ix2 p t) = tScore v4 v6 4 p t := by
  unfold k1_pay18
  exact scoreSlices_apply v4 v6 4 256 (by decide) _ _ p t

/-- The argument stored as a [1, 512, 256] slab. -/
theorem pay19_apply (v59 : FVec Ideal S512x256 .f32) (p : Fin 512) (t : Fin 256) :
    k1_pay19 (F := Ideal) v59 (ix3 (0 : Fin 1) p t) = v59 (ix2 p t) := by
  unfold k1_pay19
  exact toSlab_apply _ p t

/-- The running maximum, the earlier value on the left. -/
theorem pay20_apply (v59 : FVec Ideal S512x256 .f32) (v63 : Vec Ideal S512x256 .f32) (p : Fin 512) (t : Fin 256) :
    k1_pay20 (F := Ideal) v59 v63 (ix2 p t) = max (v63 (ix2 p t)) (v59 (ix2 p t)) := by
  unfold k1_pay20
  rw [shapeCast_self, maximumf_apply]

/-- Head 5's scores. -/
theorem pay21_apply (v4 : FVec Ideal S512x768 .bf16) (v6 : FVec Ideal S256x768 .bf16) (p : Fin 512) (t : Fin 256) :
    k1_pay21 (F := Ideal) v4 v6 (ix2 p t) = tScore v4 v6 5 p t := by
  unfold k1_pay21
  exact scoreSlices_apply v4 v6 5 320 (by decide) _ _ p t

/-- The same value stored as a [1, 512, 256] slab. -/
theorem pay22_apply (v4 : FVec Ideal S512x768 .bf16) (v6 : FVec Ideal S256x768 .bf16) (p : Fin 512) (t : Fin 256) :
    k1_pay22 (F := Ideal) v4 v6 (ix3 (0 : Fin 1) p t) = tScore v4 v6 5 p t := by
  unfold k1_pay22
  rw [toSlab_apply, pay21_apply]

/-- The running maximum, the earlier value on the left. -/
theorem pay23_apply (v4 : FVec Ideal S512x768 .bf16) (v6 : FVec Ideal S256x768 .bf16) (v74 : Vec Ideal S512x256 .f32) (p : Fin 512) (t : Fin 256) :
    k1_pay23 (F := Ideal) v4 v6 v74 (ix2 p t) = max (v74 (ix2 p t)) (tScore v4 v6 5 p t) := by
  unfold k1_pay23
  rw [shapeCast_self, maximumf_apply, pay21_apply]

/-- Head 6's scores. -/
theorem pay24_apply (v4 : FVec Ideal S512x768 .bf16) (v6 : FVec Ideal S256x768 .bf16) (p : Fin 512) (t : Fin 256) :
    k1_pay24 (F := Ideal) v4 v6 (ix2 p t) = tScore v4 v6 6 p t := by
  unfold k1_pay24
  exact scoreSlices_apply v4 v6 6 384 (by decide) _ _ p t

/-- The same value stored as a [1, 512, 256] slab. -/
theorem pay25_apply (v4 : FVec Ideal S512x768 .bf16) (v6 : FVec Ideal S256x768 .bf16) (p : Fin 512) (t : Fin 256) :
    k1_pay25 (F := Ideal) v4 v6 (ix3 (0 : Fin 1) p t) = tScore v4 v6 6 p t := by
  unfold k1_pay25
  rw [toSlab_apply, pay24_apply]

/-- The running maximum, the earlier value on the left. -/
theorem pay26_apply (v4 : FVec Ideal S512x768 .bf16) (v6 : FVec Ideal S256x768 .bf16) (v85 : Vec Ideal S512x256 .f32) (p : Fin 512) (t : Fin 256) :
    k1_pay26 (F := Ideal) v4 v6 v85 (ix2 p t) = max (v85 (ix2 p t)) (tScore v4 v6 6 p t) := by
  unfold k1_pay26
  rw [shapeCast_self, maximumf_apply, pay24_apply]

/-- Head 7's scores. -/
theorem pay27_apply (v4 : FVec Ideal S512x768 .bf16) (v6 : FVec Ideal S256x768 .bf16) (p : Fin 512) (t : Fin 256) :
    k1_pay27 (F := Ideal) v4 v6 (ix2 p t) = tScore v4 v6 7 p t := by
  unfold k1_pay27
  exact scoreSlices_apply v4 v6 7 448 (by decide) _ _ p t

/-- The argument stored as a [1, 512, 256] slab. -/
theorem pay28_apply (v92 : FVec Ideal S512x256 .f32) (p : Fin 512) (t : Fin 256) :
    k1_pay28 (F := Ideal) v92 (ix3 (0 : Fin 1) p t) = v92 (ix2 p t) := by
  unfold k1_pay28
  exact toSlab_apply _ p t

/-- The running maximum, the earlier value on the left. -/
theorem pay29_apply (v92 : FVec Ideal S512x256 .f32) (v96 : Vec Ideal S512x256 .f32) (p : Fin 512) (t : Fin 256) :
    k1_pay29 (F := Ideal) v92 v96 (ix2 p t) = max (v96 (ix2 p t)) (v92 (ix2 p t)) := by
  unfold k1_pay29
  rw [shapeCast_self, maximumf_apply]

/-- Head 8's scores. -/
theorem pay30_apply (v4 : FVec Ideal S512x768 .bf16) (v6 : FVec Ideal S256x768 .bf16) (p : Fin 512) (t : Fin 256) :
    k1_pay30 (F := Ideal) v4 v6 (ix2 p t) = tScore v4 v6 8 p t := by
  unfold k1_pay30
  exact scoreSlices_apply v4 v6 8 512 (by decide) _ _ p t

/-- The same value stored as a [1, 512, 256] slab. -/
theorem pay31_apply (v4 : FVec Ideal S512x768 .bf16) (v6 : FVec Ideal S256x768 .bf16) (p : Fin 512) (t : Fin 256) :
    k1_pay31 (F := Ideal) v4 v6 (ix3 (0 : Fin 1) p t) = tScore v4 v6 8 p t := by
  unfold k1_pay31
  rw [toSlab_apply, pay30_apply]

/-- The running maximum, the earlier value on the left. -/
theorem pay32_apply (v4 : FVec Ideal S512x768 .bf16) (v6 : FVec Ideal S256x768 .bf16) (v107 : Vec Ideal S512x256 .f32) (p : Fin 512) (t : Fin 256) :
    k1_pay32 (F := Ideal) v4 v6 v107 (ix2 p t) = max (v107 (ix2 p t)) (tScore v4 v6 8 p t) := by
  unfold k1_pay32
  rw [shapeCast_self, maximumf_apply, pay30_apply]

/-- Head 9's scores. -/
theorem pay33_apply (v4 : FVec Ideal S512x768 .bf16) (v6 : FVec Ideal S256x768 .bf16) (p : Fin 512) (t : Fin 256) :
    k1_pay33 (F := Ideal) v4 v6 (ix2 p t) = tScore v4 v6 9 p t := by
  unfold k1_pay33
  exact scoreSlices_apply v4 v6 9 576 (by decide) _ _ p t

/-- The same value stored as a [1, 512, 256] slab. -/
theorem pay34_apply (v4 : FVec Ideal S512x768 .bf16) (v6 : FVec Ideal S256x768 .bf16) (p : Fin 512) (t : Fin 256) :
    k1_pay34 (F := Ideal) v4 v6 (ix3 (0 : Fin 1) p t) = tScore v4 v6 9 p t := by
  unfold k1_pay34
  rw [toSlab_apply, pay33_apply]

/-- The running maximum, the earlier value on the left. -/
theorem pay35_apply (v4 : FVec Ideal S512x768 .bf16) (v6 : FVec Ideal S256x768 .bf16) (v118 : Vec Ideal S512x256 .f32) (p : Fin 512) (t : Fin 256) :
    k1_pay35 (F := Ideal) v4 v6 v118 (ix2 p t) = max (v118 (ix2 p t)) (tScore v4 v6 9 p t) := by
  unfold k1_pay35
  rw [shapeCast_self, maximumf_apply, pay33_apply]

/-- Head 10's 64 columns. -/
theorem pay36_apply (v4 : FVec Ideal S512x768 .bf16) (p : Fin 512) (d : Fin 64) :
    k1_pay36 (F := Ideal) v4 (ix2 p d) = v4 (ix2 p (col 10 d)) := by
  unfold k1_pay36
  exact sliceK_apply v4 10 640 (by decide) _ p d

/-- Head 10's 64 columns. -/
theorem pay37_apply (v6 : FVec Ideal S256x768 .bf16) (t : Fin 256) (d : Fin 64) :
    k1_pay37 (F := Ideal) v6 (ix2 t d) = v6 (ix2 t (col 10 d)) := by
  unfold k1_pay37
  exact sliceQ_apply v6 10 640 (by decide) _ t d

/-- The scores of two 64-column operands. -/
theorem pay38_apply (v123 : FVec Ideal S512x64 .bf16) (v124 : FVec Ideal S256x64 .bf16) (p : Fin 512) (t : Fin 256) :
    k1_pay38 (F := Ideal) v123 v124 (ix2 p t) = ∑ d : Fin 64, v123 (ix2 p d) * v124 (ix2 t d) := by
  unfold k1_pay38
  exact scoreMm_apply v123 v124 p t

/-- The same value stored as a [1, 512, 256] slab. -/
theorem pay39_apply (v123 : FVec Ideal S512x64 .bf16) (v124 : FVec Ideal S256x64 .bf16) (p : Fin 512) (t : Fin 256) :
    k1_pay39 (F := Ideal) v123 v124 (ix3 (0 : Fin 1) p t) = ∑ d : Fin 64, v123 (ix2 p d) * v124 (ix2 t d) := by
  unfold k1_pay39
  rw [toSlab_apply, pay38_apply]

/-- The running maximum, the earlier value on the left. -/
theorem pay40_apply (v123 : FVec Ideal S512x64 .bf16) (v124 : FVec Ideal S256x64 .bf16) (v129 : Vec Ideal S512x256 .f32) (p : Fin 512) (t : Fin 256) :
    k1_pay40 (F := Ideal) v123 v124 v129 (ix2 p t) = max (v129 (ix2 p t)) (∑ d : Fin 64, v123 (ix2 p d) * v124 (ix2 t d)) := by
  unfold k1_pay40
  rw [shapeCast_self, maximumf_apply, pay38_apply]

/-- Head 11's scores. -/
theorem pay41_apply (v4 : FVec Ideal S512x768 .bf16) (v6 : FVec Ideal S256x768 .bf16) (p : Fin 512) (t : Fin 256) :
    k1_pay41 (F := Ideal) v4 v6 (ix2 p t) = tScore v4 v6 11 p t := by
  unfold k1_pay41
  exact scoreSlices_apply v4 v6 11 704 (by decide) _ _ p t

/-- The same value stored as a [1, 512, 256] slab. -/
theorem pay42_apply (v4 : FVec Ideal S512x768 .bf16) (v6 : FVec Ideal S256x768 .bf16) (p : Fin 512) (t : Fin 256) :
    k1_pay42 (F := Ideal) v4 v6 (ix3 (0 : Fin 1) p t) = tScore v4 v6 11 p t := by
  unfold k1_pay42
  rw [toSlab_apply, pay41_apply]

/-- The running maximum, the earlier value on the left. -/
theorem pay43_apply (v4 : FVec Ideal S512x768 .bf16) (v6 : FVec Ideal S256x768 .bf16) (v140 : Vec Ideal S512x256 .f32) (p : Fin 512) (t : Fin 256) :
    k1_pay43 (F := Ideal) v4 v6 v140 (ix2 p t) = max (v140 (ix2 p t)) (tScore v4 v6 11 p t) := by
  unfold k1_pay43
  rw [shapeCast_self, maximumf_apply, pay41_apply]

end Cert.KernelIdeal.Pay

end
-- ==== Proof.KI.Payloads2.lean ====
/- The attention kernel's stored values read at an index, continued: the exponentials and the running sum over the heads. -/
import proofs.«178773_j13254269075465_2_alg».proof.Proof.KI.Payloads

set_option maxRecDepth 16384

noncomputable section

open scoped BigOperators

namespace Cert.KernelIdeal.Pay

open Cert.KernelIdeal Cert.KernelIdeal.Gen Cert.Attn
open Idealize.ShloMosaic Idealize.ShloMosaic.ValueIdx

/-- The constant block of the word 0x00000000. -/
theorem pay44_eq : k1_pay44 (F := Ideal) = fun _ => Ideal.ofBits .f32 0x00000000#32 := by
  unfold k1_pay44
  exact shapeCast_self (fun _ => Ideal.ofBits .f32 0x00000000#32) _

/-- The exponential of the stored score less the largest. -/
theorem pay45_apply (v149 : Vec Ideal S1x512x256 .f32) (v151 : Vec Ideal S512x256 .f32) (p : Fin 512) (t : Fin 256) :
    k1_pay45 (F := Ideal) v149 v151 (ix2 p t) = Ideal.exp (v149 (ix3 (0 : Fin 1) p t) - v151 (ix2 p t)) := by
  unfold k1_pay45
  rw [exp_apply, subf_apply, ofSlab_apply]

/-- The argument stored as a [1, 512, 256] slab. -/
theorem pay46_apply (v153 : FVec Ideal S512x256 .f32) (p : Fin 512) (t : Fin 256) :
    k1_pay46 (F := Ideal) v153 (ix3 (0 : Fin 1) p t) = v153 (ix2 p t) := by
  unfold k1_pay46
  exact toSlab_apply _ p t

/-- The running sum, the earlier value on the left. -/
theorem pay47_apply (v153 : FVec Ideal S512x256 .f32) (v157 : Vec Ideal S512x256 .f32) (p : Fin 512) (t : Fin 256) :
    k1_pay47 (F := Ideal) v153 v157 (ix2 p t) = v157 (ix2 p t) + v153 (ix2 p t) := by
  unfold k1_pay47
  rw [shapeCast_self, addf_apply]

/-- The exponential of the stored score less the largest. -/
theorem pay48_apply (v162 : Vec Ideal S1x512x256 .f32) (v164 : Vec Ideal S512x256 .f32) (p : Fin 512) (t : Fin 256) :
    k1_pay48 (F := Ideal) v162 v164 (ix2 p t) = Ideal.exp (v162 (ix3 (0 : Fin 1) p t) - v164 (ix2 p t)) := by
  unfold k1_pay48
  rw [exp_apply, subf_apply, ofSlab_apply]

/-- The same value stored as a [1, 512, 256] slab. -/
theorem pay49_apply (v162 : Vec Ideal S1x512x256 .f32) (v164 : Vec Ideal S512x256 .f32) (p : Fin 512) (t : Fin 256) :
    k1_pay49 (F := Ideal) v162 v164 (ix3 (0 : Fin 1) p t) = Ideal.exp (v162 (ix3 (0 : Fin 1) p t) - v164 (ix2 p t)) := by
  unfold k1_pay49
  rw [toSlab_apply, pay48_apply]

/-- The running sum, the earlier value on the left. -/
theorem pay50_apply (v162 : Vec Ideal S1x512x256 .f32) (v164 : Vec Ideal S512x256 .f32) (v170 : Vec Ideal S512x256 .f32) (p : Fin 512) (t : Fin 256) :
    k1_pay50 (F := Ideal) v162 v164 v170 (ix2 p t) = v170 (ix2 p t) + Ideal.exp (v162 (ix3 (0 : Fin 1) p t) - v164 (ix2 p t)) := by
  unfold k1_pay50
  rw [shapeCast_self, addf_apply, pay48_apply]

/-- The exponential of the stored score less the largest. -/
theorem pay51_apply (v175 : Vec Ideal S1x512x256 .f32) (v177 : Vec Ideal S512x256 .f32) (p : Fin 512) (t : Fin 256) :
    k1_pay51 (F := Ideal) v175 v177 (ix2 p t) = Ideal.exp (v175 (ix3 (0 : Fin 1) p t) - v177 (ix2 p t)) := by
  unfold k1_pay51
  rw [exp_apply, subf_apply, ofSlab_apply]

/-- The same value stored as a [1, 512, 256] slab. -/
theorem pay52_apply (v175 : Vec Ideal S1x512x256 .f32) (v177 : Vec Ideal S512x256 .f32) (p : Fin 512) (t : Fin 256) :
    k1_pay52 (F := Ideal) v175 v177 (ix3 (0 : Fin 1) p t) = Ideal.exp (v175 (ix3 (0 : Fin 1) p t) - v177 (ix2 p t)) := by
  unfold k1_pay52
  rw [toSlab_apply, pay51_apply]

/-- The running sum, the earlier value on the left. -/
theorem pay53_apply (v179 : FVec Ideal S512x256 .f32) (v183 : Vec Ideal S512x256 .f32) (p : Fin 512) (t : Fin 256) :
    k1_pay53 (F := Ideal) v179 v183 (ix2 p t) = v183 (ix2 p t) + v179 (ix2 p t) := by
  unfold k1_pay53
  rw [shapeCast_self, addf_apply]

/-- The exponential of the stored score less the largest. -/
theorem pay54_apply (v188 : Vec Ideal S1x512x256 .f32) (v190 : Vec Ideal S512x256 .f32) (p : Fin 512) (t : Fin 256) :
    k1_pay54 (F := Ideal) v188 v190 (ix2 p t) = Ideal.exp (v188 (ix3 (0 : Fin 1) p t) - v190 (ix2 p t)) := by
  unfold k1_pay54
  rw [exp_apply, subf_apply, ofSlab_apply]

/-- The same value stored as a [1, 512, 256] slab. -/
theorem pay55_apply (v188 : Vec Ideal S1x512x256 .f32) (v190 : Vec Ideal S512x256 .f32) (p : Fin 512) (t : Fin 256) :
    k1_pay55 (F := Ideal) v188 v190 (ix3 (0 : Fin 1) p t) = Ideal.exp (v188 (ix3 (0 : Fin 1) p t) - v190 (ix2 p t)) := by
  unfold k1_pay55
  rw [toSlab_apply, pay54_apply]

/-- The running sum, the earlier value on the left. -/
theorem pay56_apply (v188 : Vec Ideal S1x512x256 .f32) (v190 : Vec Ideal S512x256 .f32) (v196 : Vec Ideal S512x256 .f32) (p : Fin 512) (t : Fin 256) :
    k1_pay56 (F := Ideal) v188 v190 v196 (ix2 p t) = v196 (ix2 p t) + Ideal.exp (v188 (ix3 (0 : Fin 1) p t) - v190 (ix2 p t)) := by
  unfold k1_pay56
  rw [shapeCast_self, addf_apply, pay54_apply]

/-- The exponential of the stored score less the largest. -/
theorem pay57_apply (v201 : Vec Ideal S1x512x256 .f32) (v203 : Vec Ideal S512x256 .f32) (p : Fin 512) (t : Fin 256) :
    k1_pay57 (F := Ideal) v201 v203 (ix2 p t) = Ideal.exp (v201 (ix3 (0 : Fin 1) p t) - v203 (ix2 p t)) := by
  unfold k1_pay57
  rw [exp_apply, subf_apply, ofSlab_apply]

/-- The same value stored as a [1, 512, 256] slab. -/
theorem pay58_apply (v201 : Vec Ideal S1x512x256 .f32) (v203 : Vec Ideal S512x256 .f32) (p : Fin 512) (t : Fin 256) :
    k1_pay58 (F := Ideal) v201 v203 (ix3 (0 : Fin 1) p t) = Ideal.exp (v201 (ix3 (0 : Fin 1) p t) - v203 (ix2 p t)) := by
  unfold k1_pay58
  rw [toSlab_apply, pay57_apply]

/-- The running sum, the earlier value on the left. -/
theorem pay59_apply (v201 : Vec Ideal S1x512x256 .f32) (v203 : Vec Ideal S512x256 .f32) (v209 : Vec Ideal S512x256 .f32) (p : Fin 512) (t : Fin 256) :
    k1_pay59 (F := Ideal) v201 v203 v209 (ix2 p t) = v209 (ix2 p t) + Ideal.exp (v201 (ix3 (0 : Fin 1) p t) - v203 (ix2 p t)) := by
  unfold k1_pay59
  rw [addf_apply, pay57_apply]

/-- A cast to the same shape. -/
theorem pay60_eq (v210 : FVec Ideal S512x256 .f32) : k1_pay60 (F := Ideal) v210 = v210 := by
  unfold k1_pay60
  exact shapeCast_self _ _

/-- The exponential of the stored score less the largest. -/
theorem pay61_apply (v214 : Vec Ideal S1x512x256 .f32) (v216 : Vec Ideal S512x256 .f32) (p : Fin 512) (t : Fin 256) :
    k1_pay61 (F := Ideal) v214 v216 (ix2 p t) = Ideal.exp (v214 (ix3 (0 : Fin 1) p t) - v216 (ix2 p t)) := by
  unfold k1_pay61
  rw [exp_apply, subf_apply, ofSlab_apply]

/-- The same value stored as a [1, 512, 256] slab. -/
theorem pay62_apply (v214 : Vec Ideal S1x512x256 .f32) (v216 : Vec Ideal S512x256 .f32) (p : Fin 512) (t : Fin 256) :
    k1_pay62 (F := Ideal) v214 v216 (ix3 (0 : Fin 1) p t) = Ideal.exp (v214 (ix3 (0 : Fin 1) p t) - v216 (ix2 p t)) := by
  unfold k1_pay62
  rw [toSlab_apply, pay61_apply]

/-- The running sum, the earlier value on the left. -/
theorem pay63_apply (v214 : Vec Ideal S1x512x256 .f32) (v216 : Vec Ideal S512x256 .f32) (v222 : Vec Ideal S512x256 .f32) (p : Fin 512) (t : Fin 256) :
    k1_pay63 (F := Ideal) v214 v216 v222 (ix2 p t) = v222 (ix2 p t) + Ideal.exp (v214 (ix3 (0 : Fin 1) p t) - v216 (ix2 p t)) := by
  unfold k1_pay63
  rw [shapeCast_self, addf_apply, pay61_apply]

/-- The exponential of the stored score less the largest. -/
theorem pay64_apply (v227 : Vec Ideal S1x512x256 .f32) (v229 : Vec Ideal S512x256 .f32) (p : Fin 512) (t : Fin 256) :
    k1_pay64 (F := Ideal) v227 v229 (ix2 p t) = Ideal.exp (v227 (ix3 (0 : Fin 1) p t) - v229 (ix2 p t)) := by
  unfold k1_pay64
  rw [exp_apply, subf_apply, ofSlab_apply]

/-- The same value stored as a [1, 512, 256] slab. -/
theorem pay65_apply (v227 : Vec Ideal S1x512x256 .f32) (v229 : Vec Ideal S512x256 .f32) (p : Fin 512) (t : Fin 256) :
    k1_pay65 (F := Ideal) v227 v229 (ix3 (0 : Fin 1) p t) = Ideal.exp (v227 (ix3 (0 : Fin 1) p t) - v229 (ix2 p t)) := by
  unfold k1_pay65
  rw [toSlab_apply, pay64_apply]

/-- The running sum, the earlier value on the left. -/
theorem pay66_apply (v227 : Vec Ideal S1x512x256 .f32) (v229 : Vec Ideal S512x256 .f32) (v235 : Vec Ideal S512x256 .f32) (p : Fin 512) (t : Fin 256) :
    k1_pay66 (F := Ideal) v227 v229 v235 (ix2 p t) = v235 (ix2 p t) + Ideal.exp (v227 (ix3 (0 : Fin 1) p t) - v229 (ix2 p t)) := by
  unfold k1_pay66
  rw [shapeCast_self, addf_apply, pay64_apply]

/-- The exponential of the stored score less the largest. -/
theorem pay67_apply (v240 : Vec Ideal S1x512x256 .f32) (v242 : Vec Ideal S512x256 .f32) (p : Fin 512) (t : Fin 256) :
    k1_pay67 (F := Ideal) v240 v242 (ix2 p t) = Ideal.exp (v240 (ix3 (0 : Fin 1) p t) - v242 (ix2 p t)) := by
  unfold k1_pay67
  rw [exp_apply, subf_apply, ofSlab_apply]

/-- The same value stored as a [1, 512, 256] slab. -/
theorem pay68_apply (v240 : Vec Ideal S1x512x256 .f32) (v242 : Vec Ideal S512x256 .f32) (p : Fin 512) (t : Fin 256) :
    k1_pay68 (F := Ideal) v240 v242 (ix3 (0 : Fin 1) p t) = Ideal.exp (v240 (ix3 (0 : Fin 1) p t) - v242 (ix2 p t)) := by
  unfold k1_pay68
  rw [toSlab_apply, pay67_apply]

/-- The running sum, the earlier value on the left. -/
theorem pay69_apply (v240 : Vec Ideal S1x512x256 .f32) (v242 : Vec Ideal S512x256 .f32) (v248 : Vec Ideal S512x256 .f32) (p : Fin 512) (t : Fin 256) :
    k1_pay69 (F := Ideal) v240 v242 v248 (ix2 p t) = v248 (ix2 p t) + Ideal.exp (v240 (ix3 (0 : Fin 1) p t) - v242 (ix2 p t)) := by
  unfold k1_pay69
  rw [shapeCast_self, addf_apply, pay67_apply]

/-- The exponential of the stored score less the largest. -/
theorem pay70_apply (v253 : Vec Ideal S1x512x256 .f32) (v255 : Vec Ideal S512x256 .f32) (p : Fin 512) (t : Fin 256) :
    k1_pay70 (F := Ideal) v253 v255 (ix2 p t) = Ideal.exp (v253 (ix3 (0 : Fin 1) p t) - v255 (ix2 p t)) := by
  unfold k1_pay70
  rw [exp_apply, subf_apply, ofSlab_apply]

/-- The same value stored as a [1, 512, 256] slab. -/
theorem pay71_apply (v253 : Vec Ideal S1x512x256 .f32) (v255 : Vec Ideal S512x256 .f32) (p : Fin 512) (t : Fin 256) :
    k1_pay71 (F := Ideal) v253 v255 (ix3 (0 : Fin 1) p t) = Ideal.exp (v253 (ix3 (0 : Fin 1) p t) - v255 (ix2 p t)) := by
  unfold k1_pay71
  rw [toSlab_apply, pay70_apply]

/-- The running sum, the earlier value on the left. -/
theorem pay72_apply (v253 : Vec Ideal S1x512x256 .f32) (v255 : Vec Ideal S512x256 .f32) (v261 : Vec Ideal S512x256 .f32) (p : Fin 512) (t : Fin 256) :
    k1_pay72 (F := Ideal) v253 v255 v261 (ix2 p t) = v261 (ix2 p t) + Ideal.exp (v253 (ix3 (0 : Fin 1) p t) - v255 (ix2 p t)) := by
  unfold k1_pay72
  rw [shapeCast_self, addf_apply, pay70_apply]

/-- The stored score less the largest. -/
theorem pay73_apply (v266 : Vec Ideal S1x512x256 .f32) (v268 : Vec Ideal S512x256 .f32) (p : Fin 512) (t : Fin 256) :
    k1_pay73 (F := Ideal) v266 v268 (ix2 p t) = v266 (ix3 (0 : Fin 1) p t) - v268 (ix2 p t) := by
  unfold k1_pay73
  rw [subf_apply, ofSlab_apply]

/-- The exponential. -/
theorem pay74_apply (v269 : FVec Ideal S512x256 .f32) (p : Fin 512) (t : Fin 256) :
    k1_pay74 (F := Ideal) v269 (ix2 p t) = Ideal.exp (v269 (ix2 p t)) := by
  unfold k1_pay74
  rw [exp_apply]

/-- The same value stored as a [1, 512, 256] slab. -/
theorem pay75_apply (v269 : FVec Ideal S512x256 .f32) (p : Fin 512) (t : Fin 256) :
    k1_pay75 (F := Ideal) v269 (ix3 (0 : Fin 1) p t) = Ideal.exp (v269 (ix2 p t)) := by
  unfold k1_pay75
  rw [toSlab_apply, pay74_apply]

/-- The running sum, the earlier value on the left. -/
theorem pay76_apply (v269 : FVec Ideal S512x256 .f32) (v274 : Vec Ideal S512x256 .f32) (p : Fin 512) (t : Fin 256) :
    k1_pay76 (F := Ideal) v269 v274 (ix2 p t) = v274 (ix2 p t) + Ideal.exp (v269 (ix2 p t)) := by
  unfold k1_pay76
  rw [shapeCast_self, addf_apply, pay74_apply]

/-- The exponential of the stored score less the largest. -/
theorem pay77_apply (v279 : Vec Ideal S1x512x256 .f32) (v281 : Vec Ideal S512x256 .f32) (p : Fin 512) (t : Fin 256) :
    k1_pay77 (F := Ideal) v279 v281 (ix2 p t) = Ideal.exp (v279 (ix3 (0 : Fin 1) p t) - v281 (ix2 p t)) := by
  unfold k1_pay77
  rw [exp_apply, subf_apply, ofSlab_apply]

/-- The same value stored as a [1, 512, 256] slab. -/
theorem pay78_apply (v279 : Vec Ideal S1x512x256 .f32) (v281 : Vec Ideal S512x256 .f32) (p : Fin 512) (t : Fin 256) :
    k1_pay78 (F := Ideal) v279 v281 (ix3 (0 : Fin 1) p t) = Ideal.exp (v279 (ix3 (0 : Fin 1) p t) - v281 (ix2 p t)) := by
  unfold k1_pay78
  rw [toSlab_apply, pay77_apply]

/-- The running sum, the earlier value on the left. -/
theorem pay79_apply (v279 : Vec Ideal S1x512x256 .f32) (v281 : Vec Ideal S512x256 .f32) (v287 : Vec Ideal S512x256 .f32) (p : Fin 512) (t : Fin 256) :
    k1_pay79 (F := Ideal) v279 v281 v287 (ix2 p t) = v287 (ix2 p t) + Ideal.exp (v279 (ix3 (0 : Fin 1) p t) - v281 (ix2 p t)) := by
  unfold k1_pay79
  rw [shapeCast_self, addf_apply, pay77_apply]

/-- The exponential of the stored score less the largest. -/
theorem pay80_apply (v292 : Vec Ideal S1x512x256 .f32) (v294 : Vec Ideal S512x256 .f32) (p : Fin 512) (t : Fin 256) :
    k1_pay80 (F := Ideal) v292 v294 (ix2 p t) = Ideal.exp (v292 (ix3 (0 : Fin 1) p t) - v294 (ix2 p t)) := by
  unfold k1_pay80
  rw [exp_apply, subf_apply, ofSlab_apply]

/-- The argument stored as a [1, 512, 256] slab. -/
theorem pay81_apply (v296 : FVec Ideal S512x256 .f32) (p : Fin 512) (t : Fin 256) :
    k1_pay81 (F := Ideal) v296 (ix3 (0 : Fin 1) p t) = v296 (ix2 p t) := by
  unfold k1_pay81
  exact toSlab_apply _ p t

/-- The running sum, the earlier value on the left. -/
theorem pay82_apply (v296 : FVec Ideal S512x256 .f32) (v300 : Vec Ideal S512x256 .f32) (p : Fin 512) (t : Fin 256) :
    k1_pay82 (F := Ideal) v296 v300 (ix2 p t) = v300 (ix2 p t) + v296 (ix2 p t) := by
  unfold k1_pay82
  rw [shapeCast_self, addf_apply]

end Cert.KernelIdeal.Pay

end
-- ==== Proof.KI.Payloads3.lean ====
/- The attention kernel's stored values read at an index, continued: the reciprocal of the sum, the heads' updates of the accumulator, and the output projection. -/
import proofs.«178773_j13254269075465_2_alg».proof.Proof.KI.Payloads2

set_option maxRecDepth 16384

noncomputable section

open scoped BigOperators

namespace Cert.KernelIdeal.Pay

open Cert.KernelIdeal Cert.KernelIdeal.Gen Cert.Attn
open Idealize.ShloMosaic Idealize.ShloMosaic.ValueIdx

/-- The reciprocal of the sum: the word of 1.0 divided by it. -/
theorem pay83_apply (v305 : Vec Ideal S512x256 .f32) (p : Fin 512) (t : Fin 256) :
    k1_pay83 (F := Ideal) v305 (ix2 p t) = Ideal.div (Ideal.ofBits .f32 0x3F800000#32) (v305 (ix2 p t)) := by
  unfold k1_pay83
  rw [divf_apply]
  rfl

/-- Head 0's update of the accumulator's 64 columns: the weights against the head's value columns. -/
theorem pay84_apply (v8 : FVec Ideal S256x768 .bf16) (v305 : Vec Ideal S512x256 .f32) (v308 : Vec Ideal S1x512x256 .f32) (v316 : Vec Ideal S512x64 .f32) (p : Fin 512) (d : Fin 64) :
    k1_pay84 (F := Ideal) v8 v305 v308 v316 (ix2 p d) = v316 (ix2 p d) + ∑ t : Fin 256, v308 (ix3 (0 : Fin 1) p t) * Ideal.div (Ideal.ofBits .f32 0x3F800000#32) (v305 (ix2 p t)) * Ideal.ofBits .f32 0x419CC471#32 * v8 (ix2 t (col 0 d)) := by
  unfold k1_pay84
  rw [shapeCast_self, addf_apply, updateMm_apply _ v8 0 0 (by decide)]
  refine congrArg (_ + ·) (Finset.sum_congr rfl fun t _ => ?_)
  rw [weight_apply, pay83_apply]

/-- Head 1's update of the accumulator's 64 columns: the weights against the head's value columns. -/
theorem pay85_apply (v8 : FVec Ideal S256x768 .bf16) (v305 : Vec Ideal S512x256 .f32) (v321 : Vec Ideal S1x512x256 .f32) (v329 : Vec Ideal S512x64 .f32) (p : Fin 512) (d : Fin 64) :
    k1_pay85 (F := Ideal) v8 v305 v321 v329 (ix2 p d) = v329 (ix2 p d) + ∑ t : Fin 256, v321 (ix3 (0 : Fin 1) p t) * Ideal.div (Ideal.ofBits .f32 0x3F800000#32) (v305 (ix2 p t)) * Ideal.ofBits .f32 0x419CC471#32 * v8 (ix2 t (col 1 d)) := by
  unfold k1_pay85
  rw [addf_apply, updateMm_apply _ v8 1 64 (by decide)]
  refine congrArg (_ + ·) (Finset.sum_congr rfl fun t _ => ?_)
  rw [weight_apply, pay83_apply]

/-- A cast to the same shape. -/
theorem pay86_eq (v330 : FVec Ideal S512x64 .f32) : k1_pay86 (F := Ideal) v330 = v330 := by
  unfold k1_pay86
  exact shapeCast_self _ _

/-- Head 2's update of the accumulator's 64 columns: the weights against the head's value columns. -/
theorem pay87_apply (v8 : FVec Ideal S256x768 .bf16) (v307 : FVec Ideal S512x256 .f32) (v334 : Vec Ideal S1x512x256 .f32) (v342 : Vec Ideal S512x64 .f32) (p : Fin 512) (d : Fin 64) :
    k1_pay87 (F := Ideal) v8 v307 v334 v342 (ix2 p d) = v342 (ix2 p d) + ∑ t : Fin 256, v334 (ix3 (0 : Fin 1) p t) * v307 (ix2 p t) * Ideal.ofBits .f32 0x419CC471#32 * v8 (ix2 t (col 2 d)) := by
  unfold k1_pay87
  rw [shapeCast_self, addf_apply, updateMm_apply _ v8 2 128 (by decide)]
  refine congrArg (_ + ·) (Finset.sum_congr rfl fun t _ => ?_)
  rw [weight_apply]

/-- Head 3's update of the accumulator's 64 columns: the weights against the head's value columns. -/
theorem pay88_apply (v8 : FVec Ideal S256x768 .bf16) (v307 : FVec Ideal S512x256 .f32) (v347 : Vec Ideal S1x512x256 .f32) (v355 : Vec Ideal S512x64 .f32) (p : Fin 512) (d : Fin 64) :
    k1_pay88 (F := Ideal) v8 v307 v347 v355 (ix2 p d) = v355 (ix2 p d) + ∑ t : Fin 256, v347 (ix3 (0 : Fin 1) p t) * v307 (ix2 p t) * Ideal.ofBits .f32 0x419CC471#32 * v8 (ix2 t (col 3 d)) := by
  unfold k1_pay88
  rw [shapeCast_self, addf_apply, updateMm_apply _ v8 3 192 (by decide)]
  refine congrArg (_ + ·) (Finset.sum_congr rfl fun t _ => ?_)
  rw [weight_apply]

/-- Head 4's weights. -/
theorem pay89_apply (v307 : FVec Ideal S512x256 .f32) (v360 : Vec Ideal S1x512x256 .f32) (p : Fin 512) (t : Fin 256) :
    k1_pay89 (F := Ideal) v307 v360 (ix2 p t) = v360 (ix3 (0 : Fin 1) p t) * v307 (ix2 p t) * Ideal.ofBits .f32 0x419CC471#32 := by
  unfold k1_pay89
  exact weight_apply v360 v307 p t

/-- Head 4's update of the accumulator's 64 columns, from its weights. -/
theorem pay90_apply (v8 : FVec Ideal S256x768 .bf16) (v365 : FVec Ideal S512x256 .bf16) (v368 : Vec Ideal S512x64 .f32) (p : Fin 512) (d : Fin 64) :
    k1_pay90 (F := Ideal) v8 v365 v368 (ix2 p d) = v368 (ix2 p d) + ∑ t : Fin 256, v365 (ix2 p t) * v8 (ix2 t (col 4 d)) := by
  unfold k1_pay90
  rw [shapeCast_self, addf_apply, updateMm_apply v365 v8 4 256 (by decide)]

/-- Head 5's update of the accumulator's 64 columns: the weights against the head's value columns. -/
theorem pay91_apply (v8 : FVec Ideal S256x768 .bf16) (v307 : FVec Ideal S512x256 .f32) (v373 : Vec Ideal S1x512x256 .f32) (v381 : Vec Ideal S512x64 .f32) (p : Fin 512) (d : Fin 64) :
    k1_pay91 (F := Ideal) v8 v307 v373 v381 (ix2 p d) = v381 (ix2 p d) + ∑ t : Fin 256, v373 (ix3 (0 : Fin 1) p t) * v307 (ix2 p t) * Ideal.ofBits .f32 0x419CC471#32 * v8 (ix2 t (col 5 d)) := by
  unfold k1_pay91
  rw [shapeCast_self, addf_apply, updateMm_apply _ v8 5 320 (by decide)]
  refine congrArg (_ + ·) (Finset.sum_congr rfl fun t _ => ?_)
  rw [weight_apply]

/-- Head 6's update of the accumulator's 64 columns: the weights against the head's value columns. -/
theorem pay92_apply (v8 : FVec Ideal S256x768 .bf16) (v307 : FVec Ideal S512x256 .f32) (v386 : Vec Ideal S1x512x256 .f32) (v394 : Vec Ideal S512x64 .f32) (p : Fin 512) (d : Fin 64) :
    k1_pay92 (F := Ideal) v8 v307 v386 v394 (ix2 p d) = v394 (ix2 p d) + ∑ t : Fin 256, v386 (ix3 (0 : Fin 1) p t) * v307 (ix2 p t) * Ideal.ofBits .f32 0x419CC471#32 * v8 (ix2 t (col 6 d)) := by
  unfold k1_pay92
  rw [shapeCast_self, addf_apply, updateMm_apply _ v8 6 384 (by decide)]
  refine congrArg (_ + ·) (Finset.sum_congr rfl fun t _ => ?_)
  rw [weight_apply]

/-- Head 7's update of the accumulator's 64 columns: the weights against the head's value columns. -/
theorem pay93_apply (v8 : FVec Ideal S256x768 .bf16) (v307 : FVec Ideal S512x256 .f32) (v399 : Vec Ideal S1x512x256 .f32) (v407 : Vec Ideal S512x64 .f32) (p : Fin 512) (d : Fin 64) :
    k1_pay93 (F := Ideal) v8 v307 v399 v407 (ix2 p d) = v407 (ix2 p d) + ∑ t : Fin 256, v399 (ix3 (0 : Fin 1) p t) * v307 (ix2 p t) * Ideal.ofBits .f32 0x419CC471#32 * v8 (ix2 t (col 7 d)) := by
  unfold k1_pay93
  rw [shapeCast_self, addf_apply, updateMm_apply _ v8 7 448 (by decide)]
  refine congrArg (_ + ·) (Finset.sum_congr rfl fun t _ => ?_)
  rw [weight_apply]

/-- Head 8's update of the accumulator's 64 columns: the weights against the head's value columns. -/
theorem pay94_apply (v8 : FVec Ideal S256x768 .bf16) (v307 : FVec Ideal S512x256 .f32) (v412 : Vec Ideal S1x512x256 .f32) (v420 : Vec Ideal S512x64 .f32) (p : Fin 512) (d : Fin 64) :
    k1_pay94 (F := Ideal) v8 v307 v412 v420 (ix2 p d) = v420 (ix2 p d) + ∑ t : Fin 256, v412 (ix3 (0 : Fin 1) p t) * v307 (ix2 p t) * Ideal.ofBits .f32 0x419CC471#32 * v8 (ix2 t (col 8 d)) := by
  unfold k1_pay94
  rw [shapeCast_self, addf_apply, updateMm_apply _ v8 8 512 (by decide)]
  refine congrArg (_ + ·) (Finset.sum_congr rfl fun t _ => ?_)
  rw [weight_apply]

/-- Head 9's contribution: the weights against the head's value columns. -/
theorem pay95_apply (v8 : FVec Ideal S256x768 .bf16) (v307 : FVec Ideal S512x256 .f32) (v425 : Vec Ideal S1x512x256 .f32) (p : Fin 512) (d : Fin 64) :
    k1_pay95 (F := Ideal) v8 v307 v425 (ix2 p d) = ∑ t : Fin 256, v425 (ix3 (0 : Fin 1) p t) * v307 (ix2 p t) * Ideal.ofBits .f32 0x419CC471#32 * v8 (ix2 t (col 9 d)) := by
  unfold k1_pay95
  rw [updateMm_apply _ v8 9 576 (by decide)]
  refine Finset.sum_congr rfl fun t _ => ?_
  rw [weight_apply]

/-- The accumulator's 64 columns plus the head's contribution. -/
theorem pay96_apply (v432 : FVec Ideal S512x64 .f32) (v433 : Vec Ideal S512x64 .f32) (p : Fin 512) (d : Fin 64) :
    k1_pay96 (F := Ideal) v432 v433 (ix2 p d) = v433 (ix2 p d) + v432 (ix2 p d) := by
  unfold k1_pay96
  rw [shapeCast_self, addf_apply]

/-- Head 10's update of the accumulator's 64 columns: the weights against the head's value columns. -/
theorem pay97_apply (v8 : FVec Ideal S256x768 .bf16) (v307 : FVec Ideal S512x256 .f32) (v438 : Vec Ideal S1x512x256 .f32) (v446 : Vec Ideal S512x64 .f32) (p : Fin 512) (d : Fin 64) :
    k1_pay97 (F := Ideal) v8 v307 v438 v446 (ix2 p d) = v446 (ix2 p d) + ∑ t : Fin 256, v438 (ix3 (0 : Fin 1) p t) * v307 (ix2 p t) * Ideal.ofBits .f32 0x419CC471#32 * v8 (ix2 t (col 10 d)) := by
  unfold k1_pay97
  rw [shapeCast_self, addf_apply, updateMm_apply _ v8 10 640 (by decide)]
  refine congrArg (_ + ·) (Finset.sum_congr rfl fun t _ => ?_)
  rw [weight_apply]

/-- Head 11's update of the accumulator's 64 columns: the weights against the head's value columns. -/
theorem pay98_apply (v8 : FVec Ideal S256x768 .bf16) (v307 : FVec Ideal S512x256 .f32) (v451 : Vec Ideal S1x512x256 .f32) (v459 : Vec Ideal S512x64 .f32) (p : Fin 512) (d : Fin 64) :
    k1_pay98 (F := Ideal) v8 v307 v451 v459 (ix2 p d) = v459 (ix2 p d) + ∑ t : Fin 256, v451 (ix3 (0 : Fin 1) p t) * v307 (ix2 p t) * Ideal.ofBits .f32 0x419CC471#32 * v8 (ix2 t (col 11 d)) := by
  unfold k1_pay98
  rw [shapeCast_self, addf_apply, updateMm_apply _ v8 11 704 (by decide)]
  refine congrArg (_ + ·) (Finset.sum_congr rfl fun t _ => ?_)
  rw [weight_apply]

/-- The output projection of the accumulator block at (p, j): the narrowing is the identity, the product into the zero
    accumulator the sum over the 768 columns, and the bias row is read at the column. -/
theorem pay99_apply (v467 : Vec Ideal S512x768 .f32) (v469 : Vec Ideal S768x768 .bf16) (v472 : Vec Ideal S1x768 .f32) (p : Fin 512) (j : Fin 768) :
    k1_pay99 (F := Ideal) v467 v469 v472 (ix2 p j) = (∑ k : Fin 768, v467 (ix2 p k) * v469 (ix2 k j)) + v472 (ix2 (0 : Fin 1) j) := by
  unfold k1_pay99
  rw [addf_apply, shapeCast_self, shapeCast_self]
  refine congrArg₂ (· + ·) ?_ ?_
  · refine (Ideal.matmul_constant_zero_apply (φ₁ := .bf16) (φ₂ := .bf16) dot_S512x768_S768x768_S512x768_1_0_0_1_n_n none (truncf .bf16 v467 bitsLt_bf16_f32) v469 (ix2 p j)).trans ?_
    rw [← Equiv.sum_comp (contrEquiv1 dot_S512x768_S768x768_S512x768_1_0_0_1_n_n 768 rfl rfl).symm]
    refine Finset.sum_congr rfl fun k _ => ?_
    have hk := contrEquiv1_symm_val dot_S512x768_S768x768_S512x768_1_0_0_1_n_n 768 rfl rfl k
    have el : dot_S512x768_S768x768_S512x768_1_0_0_1_n_n.lhsIdx (ix2 p j) ((contrEquiv1 dot_S512x768_S768x768_S512x768_1_0_0_1_n_n 768 rfl rfl).symm k) = ix2 p k := funext fun a => Fin.ext (by
      match a with
      | ⟨0, _⟩ => exact lhsO_0 _ _
      | ⟨1, _⟩ => exact (lhsO_1 _ _).trans hk)
    have er : dot_S512x768_S768x768_S512x768_1_0_0_1_n_n.rhsIdx (ix2 p j) ((contrEquiv1 dot_S512x768_S768x768_S512x768_1_0_0_1_n_n 768 rfl rfl).symm k) = ix2 k j := funext fun a => Fin.ext (by
      match a with
      | ⟨0, _⟩ => exact (rhsO_0 _ _).trans hk
      | ⟨1, _⟩ => exact rhsO_1 _ _)
    rw [el, er]
    rfl
  · refine broadcastTo_apply v472 _ (ix2 p j) (ix2 (0 : Fin 1) j) fun a => ?_
    match a with
    | ⟨0, _⟩ => rfl
    | ⟨1, _⟩ => rfl

/-- As one function: the output projection of Tiles.lean. -/
theorem pay99_eq (v467 : Vec Ideal S512x768 .f32) (v469 : Vec Ideal S768x768 .bf16) (v472 : Vec Ideal S1x768 .f32) :
    k1_pay99 (F := Ideal) v467 v469 v472 = projOut v467 v469 v472 := by
  funext i
  obtain ⟨p, j, rfl⟩ : ∃ (p : Fin 512) (j : Fin 768), i = ix2 p j := ⟨i 0, i 1, eq_ix2 i⟩
  rw [pay99_apply, projOut_ix2]

end Cert.KernelIdeal.Pay

end
-- ==== Proof.KI.R1ChainA.lean ====
import proofs.«178773_j13254269075465_2_alg».proof.Proof.KI.R1RunA
import proofs.«178773_j13254269075465_2_alg».proof.Proof.KI.R1Forms
import proofs.«178773_j13254269075465_2_alg».proof.Proof.KI.Payloads
import proofs.«178773_j13254269075465_2_alg».proof.Proof.KI.Payloads2
import proofs.«178773_j13254269075465_2_alg».proof.Proof.KI.Payloads3

set_option maxRecDepth 16384

noncomputable section

/-! # What the body's intermediate values are, in case A

Each load of the run reads back the last store that covers it: a whole work buffer its last whole store, one head's slab
of the scores buffer the last store into that slab. Followed in program order this gives every intermediate value in
closed form: the per-head scores, the running maximum after `k` heads, the exponentials, the running sum after `k`
heads, the inverse of the sum. -/

namespace Cert.KernelIdeal.R1CA

open Cert.KernelIdeal Cert.KernelIdeal.Gen Cert.KernelIdeal.R1 Cert.KernelIdeal.R1F Cert.KernelIdeal Cert.Attn
open Idealize.ShloMosaic Idealize.ShloMosaic.ValueIdx

variable (c : Dev nD) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg8 : Memref sig .tc .vmem S512x768 .f32) (harg8 : arg8.IsWhole) (arg9 : Memref sig .tc .vmem S12x512x256 .f32) (arg10 : Memref sig .tc .vmem S512x256 .f32) (arg11 : Memref sig .tc .vmem S512x256 .f32) (x0 : Vec Ideal S512x768 .bf16) (x1 : Vec Ideal S256x768 .bf16) (x2 : Vec Ideal S256x768 .bf16) (xs0 : Vec Ideal S512x768 .f32)

theorem r_eq : kernelRun1_A.sl.r (F := Ideal) c arg2 harg2 x0 = x0 := by
  unfold kernelRun1_A.sl.r; rw [Pay.pay2_eq]; exact ld_whole rfl arg2 harg2 x0 _ hz2 _

theorem r_1_eq : kernelRun1_A.sl.r_1 (F := Ideal) c arg3 harg3 x1 = x1 := by
  unfold kernelRun1_A.sl.r_1; rw [Pay.pay3_eq]; exact ld_whole rfl arg3 harg3 x1 _ hz2 _

theorem r_2_eq : kernelRun1_A.sl.r_2 (F := Ideal) c arg4 harg4 x2 = x2 := by
  unfold kernelRun1_A.sl.r_2; rw [Pay.pay4_eq]; exact ld_whole rfl arg4 harg4 x2 _ hz2 _

theorem r_3_eq (p : Fin 512) (t : Fin 256) : kernelRun1_A.sl.r_3 (F := Ideal) c arg2 harg2 arg3 harg3 x0 x1 (ix2 p t) = tScore x0 x1 1 p t := by
  unfold kernelRun1_A.sl.r_3; rw [ld_whole rfl arg2 harg2 x0 _ hz2 _, ld_whole rfl arg3 harg3 x1 _ hz2 _]; exact Pay.pay9_apply x0 x1 p t

theorem r_4_eq (p : Fin 512) (t : Fin 256) : kernelRun1_A.sl.r_4 (F := Ideal) c arg2 harg2 arg3 harg3 x0 x1 (ix2 p t) = tScore x0 x1 4 p t := by
  unfold kernelRun1_A.sl.r_4; rw [r_eq, r_1_eq]; exact Pay.pay18_apply x0 x1 p t

theorem r_5_eq (p : Fin 512) (t : Fin 256) : kernelRun1_A.sl.r_5 (F := Ideal) c arg2 harg2 arg3 harg3 x0 x1 (ix2 p t) = tScore x0 x1 7 p t := by
  unfold kernelRun1_A.sl.r_5; rw [r_eq, r_1_eq]; exact Pay.pay27_apply x0 x1 p t

theorem r_6_eq (p : Fin 512) (d : Fin 64) : kernelRun1_A.sl.r_6 (F := Ideal) c arg2 harg2 x0 (ix2 p d) = x0 (ix2 p (col 10 d)) := by
  unfold kernelRun1_A.sl.r_6; rw [r_eq]; exact Pay.pay36_apply x0 p d

theorem r_7_eq (t : Fin 256) (d : Fin 64) : kernelRun1_A.sl.r_7 (F := Ideal) c arg3 harg3 x1 (ix2 t d) = x1 (ix2 t (col 10 d)) := by
  unfold kernelRun1_A.sl.r_7; rw [r_1_eq]; exact Pay.pay37_apply x1 t d

theorem v19_eq (p : Fin 512) (t : Fin 256) : kernelRun1_A.sl.v19 (F := Ideal) c arg10 (ix2 p t) = M0 x0 x1 p t := by
  unfold kernelRun1_A.sl.v19 kernelRun1_A.sl.HS2_1; rw [View.readCov_cons_toLoadRect]; rw [Pay.pay5_eq]; rfl

theorem v30_eq (p : Fin 512) (t : Fin 256) : kernelRun1_A.sl.v30 (F := Ideal) c arg2 harg2 arg3 harg3 arg10 x0 x1 (ix2 p t) = M1 x0 x1 p t := by
  unfold kernelRun1_A.sl.v30 kernelRun1_A.sl.HS2_2; rw [View.readCov_cons_toLoadRect]
  rw [ld_whole rfl arg2 harg2 x0 _ hz2 _, ld_whole rfl arg3 harg3 x1 _ hz2 _, Pay.pay8_apply, v19_eq]; rfl

theorem v41_eq (p : Fin 512) (t : Fin 256) : kernelRun1_A.sl.v41 (F := Ideal) c arg2 harg2 arg3 harg3 arg10 x0 x1 (ix2 p t) = M2 x0 x1 p t := by
  unfold kernelRun1_A.sl.v41 kernelRun1_A.sl.HS2_3; rw [View.readCov_cons_toLoadRect]
  rw [Pay.pay11_apply, v30_eq, r_3_eq]; rfl

theorem v52_eq (p : Fin 512) (t : Fin 256) : kernelRun1_A.sl.v52 (F := Ideal) c arg2 harg2 arg3 harg3 arg10 x0 x1 (ix2 p t) = M3 x0 x1 p t := by
  unfold kernelRun1_A.sl.v52 kernelRun1_A.sl.HS2_4; rw [View.readCov_cons_toLoadRect]
  rw [r_eq, r_1_eq, Pay.pay14_apply, v41_eq]; rfl

theorem v63_eq (p : Fin 512) (t : Fin 256) : kernelRun1_A.sl.v63 (F := Ideal) c arg2 harg2 arg3 harg3 arg10 x0 x1 (ix2 p t) = M4 x0 x1 p t := by
  unfold kernelRun1_A.sl.v63 kernelRun1_A.sl.HS2_5; rw [View.readCov_cons_toLoadRect]
  rw [r_eq, r_1_eq, Pay.pay17_apply, v52_eq]; rfl

theorem v74_eq (p : Fin 512) (t : Fin 256) : kernelRun1_A.sl.v74 (F := Ideal) c arg2 harg2 arg3 harg3 arg10 x0 x1 (ix2 p t) = M5 x0 x1 p t := by
  unfold kernelRun1_A.sl.v74 kernelRun1_A.sl.HS2_6; rw [View.readCov_cons_toLoadRect]
  rw [Pay.pay20_apply, v63_eq, r_4_eq]; rfl

theorem v85_eq (p : Fin 512) (t : Fin 256) : kernelRun1_A.sl.v85 (F := Ideal) c arg2 harg2 arg3 harg3 arg10 x0 x1 (ix2 p t) = M6 x0 x1 p t := by
  unfold kernelRun1_A.sl.v85 kernelRun1_A.sl.HS2_7; rw [View.readCov_cons_toLoadRect]
  rw [r_eq, r_1_eq, Pay.pay23_apply, v74_eq]; rfl

theorem v96_eq (p : Fin 512) (t : Fin 256) : kernelRun1_A.sl.v96 (F := Ideal) c arg2 harg2 arg3 harg3 arg10 x0 x1 (ix2 p t) = M7 x0 x1 p t := by
  unfold kernelRun1_A.sl.v96 kernelRun1_A.sl.HS2_8; rw [View.readCov_cons_toLoadRect]
  rw [r_eq, r_1_eq, Pay.pay26_apply, v85_eq]; rfl

theorem v107_eq (p : Fin 512) (t : Fin 256) : kernelRun1_A.sl.v107 (F := Ideal) c arg2 harg2 arg3 harg3 arg10 x0 x1 (ix2 p t) = M8 x0 x1 p t := by
  unfold kernelRun1_A.sl.v107 kernelRun1_A.sl.HS2_9; rw [View.readCov_cons_toLoadRect]
  rw [Pay.pay29_apply, v96_eq, r_5_eq]; rfl

theorem v118_eq (p : Fin 512) (t : Fin 256) : kernelRun1_A.sl.v118 (F := Ideal) c arg2 harg2 arg3 harg3 arg10 x0 x1 (ix2 p t) = M9 x0 x1 p t := by
  unfold kernelRun1_A.sl.v118 kernelRun1_A.sl.HS2_10; rw [View.readCov_cons_toLoadRect]
  rw [r_eq, r_1_eq, Pay.pay32_apply, v107_eq]; rfl

theorem v129_eq (p : Fin 512) (t : Fin 256) : kernelRun1_A.sl.v129 (F := Ideal) c arg2 harg2 arg3 harg3 arg10 x0 x1 (ix2 p t) = M10 x0 x1 p t := by
  unfold kernelRun1_A.sl.v129 kernelRun1_A.sl.HS2_11; rw [View.readCov_cons_toLoadRect]
  rw [r_eq, r_1_eq, Pay.pay35_apply, v118_eq]; rfl

theorem v140_eq (p : Fin 512) (t : Fin 256) : kernelRun1_A.sl.v140 (F := Ideal) c arg2 harg2 arg3 harg3 arg10 x0 x1 (ix2 p t) = M11 x0 x1 p t := by
  unfold kernelRun1_A.sl.v140 kernelRun1_A.sl.HS2_12; rw [View.readCov_cons_toLoadRect]
  rw [Pay.pay40_apply, v129_eq]; simp only [r_6_eq, r_7_eq]; rfl

theorem v151_eq (p : Fin 512) (t : Fin 256) : kernelRun1_A.sl.v151 (F := Ideal) c arg2 harg2 arg3 harg3 arg10 x0 x1 (ix2 p t) = M12 x0 x1 p t := by
  unfold kernelRun1_A.sl.v151 kernelRun1_A.sl.HS2_13; rw [View.readCov_cons_toLoadRect]
  rw [r_eq, r_1_eq, Pay.pay43_apply, v140_eq]; rfl

theorem v157_eq (p : Fin 512) (t : Fin 256) : kernelRun1_A.sl.v157 (F := Ideal) c arg11 (ix2 p t) = T0 x0 x1 p t := by
  unfold kernelRun1_A.sl.v157 kernelRun1_A.sl.HS3_1; rw [View.readCov_cons_toLoadRect]; rw [Pay.pay44_eq]; rfl

theorem v149_eq (p : Fin 512) (t : Fin 256) : kernelRun1_A.sl.v149 (F := Ideal) c arg2 harg2 arg3 harg3 arg9 x0 x1 (ix3 (0 : Fin 1) p t) = tScore x0 x1 0 p t := by
  unfold kernelRun1_A.sl.v149 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [ld_whole rfl arg2 harg2 x0 _ hz2 _, ld_whole rfl arg3 harg3 x1 _ hz2 _]; exact Pay.pay7_apply x0 x1 p t

theorem r_8_eq (p : Fin 512) (t : Fin 256) : kernelRun1_A.sl.r_8 (F := Ideal) c arg2 harg2 arg3 harg3 arg9 arg10 x0 x1 (ix2 p t) = tExp x0 x1 0 p t := by
  unfold kernelRun1_A.sl.r_8; rw [Pay.pay45_apply, v149_eq, v151_eq, M12_eq]; rfl

theorem v170_eq (p : Fin 512) (t : Fin 256) : kernelRun1_A.sl.v170 (F := Ideal) c arg2 harg2 arg3 harg3 arg9 arg10 arg11 x0 x1 (ix2 p t) = T1 x0 x1 p t := by
  unfold kernelRun1_A.sl.v170 kernelRun1_A.sl.HS3_2; rw [View.readCov_cons_toLoadRect]
  rw [Pay.pay47_apply, v157_eq, r_8_eq]; rfl

theorem v162_eq (p : Fin 512) (t : Fin 256) : kernelRun1_A.sl.v162 (F := Ideal) c arg2 harg2 arg3 harg3 arg9 arg10 x0 x1 (ix3 (0 : Fin 1) p t) = tScore x0 x1 1 p t := by
  unfold kernelRun1_A.sl.v162 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [ld_whole rfl arg2 harg2 x0 _ hz2 _, ld_whole rfl arg3 harg3 x1 _ hz2 _]; exact Pay.pay10_apply x0 x1 p t

theorem v183_eq (p : Fin 512) (t : Fin 256) : kernelRun1_A.sl.v183 (F := Ideal) c arg2 harg2 arg3 harg3 arg9 arg10 arg11 x0 x1 (ix2 p t) = T2 x0 x1 p t := by
  unfold kernelRun1_A.sl.v183 kernelRun1_A.sl.HS3_3; rw [View.readCov_cons_toLoadRect]
  rw [Pay.pay50_apply, v170_eq, v162_eq, v151_eq, M12_eq]; rfl

theorem v175_eq (p : Fin 512) (t : Fin 256) : kernelRun1_A.sl.v175 (F := Ideal) c arg2 harg2 arg3 harg3 arg9 arg10 x0 x1 (ix3 (0 : Fin 1) p t) = tScore x0 x1 2 p t := by
  unfold kernelRun1_A.sl.v175 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay13_apply x0 x1 p t

theorem r_9_eq (p : Fin 512) (t : Fin 256) : kernelRun1_A.sl.r_9 (F := Ideal) c arg2 harg2 arg3 harg3 arg9 arg10 x0 x1 (ix2 p t) = tExp x0 x1 2 p t := by
  unfold kernelRun1_A.sl.r_9; rw [Pay.pay51_apply, v175_eq, v151_eq, M12_eq]; rfl

theorem v196_eq (p : Fin 512) (t : Fin 256) : kernelRun1_A.sl.v196 (F := Ideal) c arg2 harg2 arg3 harg3 arg9 arg10 arg11 x0 x1 (ix2 p t) = T3 x0 x1 p t := by
  unfold kernelRun1_A.sl.v196 kernelRun1_A.sl.HS3_4; rw [View.readCov_cons_toLoadRect]
  rw [Pay.pay53_apply, v183_eq, r_9_eq]; rfl

theorem v188_eq (p : Fin 512) (t : Fin 256) : kernelRun1_A.sl.v188 (F := Ideal) c arg2 harg2 arg3 harg3 arg9 arg10 x0 x1 (ix3 (0 : Fin 1) p t) = tScore x0 x1 3 p t := by
  unfold kernelRun1_A.sl.v188 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay16_apply x0 x1 p t

theorem v209_eq (p : Fin 512) (t : Fin 256) : kernelRun1_A.sl.v209 (F := Ideal) c arg2 harg2 arg3 harg3 arg9 arg10 arg11 x0 x1 (ix2 p t) = T4 x0 x1 p t := by
  unfold kernelRun1_A.sl.v209 kernelRun1_A.sl.HS3_5; rw [View.readCov_cons_toLoadRect]
  rw [Pay.pay56_apply, v196_eq, v188_eq, v151_eq, M12_eq]; rfl

theorem v201_eq (p : Fin 512) (t : Fin 256) : kernelRun1_A.sl.v201 (F := Ideal) c arg2 harg2 arg3 harg3 arg9 arg10 x0 x1 (ix3 (0 : Fin 1) p t) = tScore x0 x1 4 p t := by
  unfold kernelRun1_A.sl.v201 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay19_apply, r_4_eq]

theorem r_10_eq (p : Fin 512) (t : Fin 256) : kernelRun1_A.sl.r_10 (F := Ideal) c arg2 harg2 arg3 harg3 arg9 arg10 arg11 x0 x1 (ix2 p t) = T5 x0 x1 p t := by
  unfold kernelRun1_A.sl.r_10; rw [Pay.pay59_apply, v201_eq, v151_eq, M12_eq, v209_eq]; rfl

theorem v222_eq (p : Fin 512) (t : Fin 256) : kernelRun1_A.sl.v222 (F := Ideal) c arg2 harg2 arg3 harg3 arg9 arg10 arg11 x0 x1 (ix2 p t) = T5 x0 x1 p t := by
  unfold kernelRun1_A.sl.v222 kernelRun1_A.sl.HS3_6; rw [View.readCov_cons_toLoadRect]
  rw [Pay.pay60_eq]; exact r_10_eq c arg2 harg2 arg3 harg3 arg9 arg10 arg11 x0 x1 p t

theorem v214_eq (p : Fin 512) (t : Fin 256) : kernelRun1_A.sl.v214 (F := Ideal) c arg2 harg2 arg3 harg3 arg9 arg10 x0 x1 (ix3 (0 : Fin 1) p t) = tScore x0 x1 5 p t := by
  unfold kernelRun1_A.sl.v214 kernelRun1_A.sl.HS1_17 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay22_apply x0 x1 p t

theorem v235_eq (p : Fin 512) (t : Fin 256) : kernelRun1_A.sl.v235 (F := Ideal) c arg2 harg2 arg3 harg3 arg9 arg10 arg11 x0 x1 (ix2 p t) = T6 x0 x1 p t := by
  unfold kernelRun1_A.sl.v235 kernelRun1_A.sl.HS3_7; rw [View.readCov_cons_toLoadRect]
  rw [Pay.pay63_apply, v222_eq, v214_eq, v151_eq, M12_eq]; rfl

theorem v227_eq (p : Fin 512) (t : Fin 256) : kernelRun1_A.sl.v227 (F := Ideal) c arg2 harg2 arg3 harg3 arg9 arg10 x0 x1 (ix3 (0 : Fin 1) p t) = tScore x0 x1 6 p t := by
  unfold kernelRun1_A.sl.v227 kernelRun1_A.sl.HS1_18 kernelRun1_A.sl.HS1_17 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay25_apply x0 x1 p t

theorem v248_eq (p : Fin 512) (t : Fin 256) : kernelRun1_A.sl.v248 (F := Ideal) c arg2 harg2 arg3 harg3 arg9 arg10 arg11 x0 x1 (ix2 p t) = T7 x0 x1 p t := by
  unfold kernelRun1_A.sl.v248 kernelRun1_A.sl.HS3_8; rw [View.readCov_cons_toLoadRect]
  rw [Pay.pay66_apply, v235_eq, v227_eq, v151_eq, M12_eq]; rfl

theorem v240_eq (p : Fin 512) (t : Fin 256) : kernelRun1_A.sl.v240 (F := Ideal) c arg2 harg2 arg3 harg3 arg9 arg10 x0 x1 (ix3 (0 : Fin 1) p t) = tScore x0 x1 7 p t := by
  unfold kernelRun1_A.sl.v240 kernelRun1_A.sl.HS1_19 kernelRun1_A.sl.HS1_18 kernelRun1_A.sl.HS1_17 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay28_apply, r_5_eq]

theorem v261_eq (p : Fin 512) (t : Fin 256) : kernelRun1_A.sl.v261 (F := Ideal) c arg2 harg2 arg3 harg3 arg9 arg10 arg11 x0 x1 (ix2 p t) = T8 x0 x1 p t := by
  unfold kernelRun1_A.sl.v261 kernelRun1_A.sl.HS3_9; rw [View.readCov_cons_toLoadRect]
  rw [Pay.pay69_apply, v248_eq, v240_eq, v151_eq, M12_eq]; rfl

theorem v253_eq (p : Fin 512) (t : Fin 256) : kernelRun1_A.sl.v253 (F := Ideal) c arg2 harg2 arg3 harg3 arg9 arg10 x0 x1 (ix3 (0 : Fin 1) p t) = tScore x0 x1 8 p t := by
  unfold kernelRun1_A.sl.v253 kernelRun1_A.sl.HS1_20 kernelRun1_A.sl.HS1_19 kernelRun1_A.sl.HS1_18 kernelRun1_A.sl.HS1_17 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay31_apply x0 x1 p t

theorem v274_eq (p : Fin 512) (t : Fin 256) : kernelRun1_A.sl.v274 (F := Ideal) c arg2 harg2 arg3 harg3 arg9 arg10 arg11 x0 x1 (ix2 p t) = T9 x0 x1 p t := by
  unfold kernelRun1_A.sl.v274 kernelRun1_A.sl.HS3_10; rw [View.readCov_cons_toLoadRect]
  rw [Pay.pay72_apply, v261_eq, v253_eq, v151_eq, M12_eq]; rfl

theorem v266_eq (p : Fin 512) (t : Fin 256) : kernelRun1_A.sl.v266 (F := Ideal) c arg2 harg2 arg3 harg3 arg9 arg10 x0 x1 (ix3 (0 : Fin 1) p t) = tScore x0 x1 9 p t := by
  unfold kernelRun1_A.sl.v266 kernelRun1_A.sl.HS1_21 kernelRun1_A.sl.HS1_20 kernelRun1_A.sl.HS1_19 kernelRun1_A.sl.HS1_18 kernelRun1_A.sl.HS1_17 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay34_apply x0 x1 p t

theorem r_11_eq (p : Fin 512) (t : Fin 256) : kernelRun1_A.sl.r_11 (F := Ideal) c arg2 harg2 arg3 harg3 arg9 arg10 x0 x1 (ix2 p t) = tScore x0 x1 9 p t - tMax x0 x1 p t := by
  unfold kernelRun1_A.sl.r_11; rw [Pay.pay73_apply, v266_eq, v151_eq, M12_eq]

theorem v287_eq (p : Fin 512) (t : Fin 256) : kernelRun1_A.sl.v287 (F := Ideal) c arg2 harg2 arg3 harg3 arg9 arg10 arg11 x0 x1 (ix2 p t) = T10 x0 x1 p t := by
  unfold kernelRun1_A.sl.v287 kernelRun1_A.sl.HS3_11; rw [View.readCov_cons_toLoadRect]
  rw [Pay.pay76_apply, v274_eq, r_11_eq]; rfl

theorem v279_eq (p : Fin 512) (t : Fin 256) : kernelRun1_A.sl.v279 (F := Ideal) c arg2 harg2 arg3 harg3 arg9 arg10 x0 x1 (ix3 (0 : Fin 1) p t) = tScore x0 x1 10 p t := by
  unfold kernelRun1_A.sl.v279 kernelRun1_A.sl.HS1_22 kernelRun1_A.sl.HS1_21 kernelRun1_A.sl.HS1_20 kernelRun1_A.sl.HS1_19 kernelRun1_A.sl.HS1_18 kernelRun1_A.sl.HS1_17 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay39_apply]; simp only [r_6_eq, r_7_eq]; rfl

theorem v300_eq (p : Fin 512) (t : Fin 256) : kernelRun1_A.sl.v300 (F := Ideal) c arg2 harg2 arg3 harg3 arg9 arg10 arg11 x0 x1 (ix2 p t) = T11 x0 x1 p t := by
  unfold kernelRun1_A.sl.v300 kernelRun1_A.sl.HS3_12; rw [View.readCov_cons_toLoadRect]
  rw [Pay.pay79_apply, v287_eq, v279_eq, v151_eq, M12_eq]; rfl

theorem v292_eq (p : Fin 512) (t : Fin 256) : kernelRun1_A.sl.v292 (F := Ideal) c arg2 harg2 arg3 harg3 arg9 arg10 x0 x1 (ix3 (0 : Fin 1) p t) = tScore x0 x1 11 p t := by
  unfold kernelRun1_A.sl.v292 kernelRun1_A.sl.HS1_23 kernelRun1_A.sl.HS1_22 kernelRun1_A.sl.HS1_21 kernelRun1_A.sl.HS1_20 kernelRun1_A.sl.HS1_19 kernelRun1_A.sl.HS1_18 kernelRun1_A.sl.HS1_17 kernelRun1_A.sl.HS1_16 kernelRun1_A.sl.HS1_15 kernelRun1_A.sl.HS1_14 kernelRun1_A.sl.HS1_13 kernelRun1_A.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay42_apply x0 x1 p t

theorem r_12_eq (p : Fin 512) (t : Fin 256) : kernelRun1_A.sl.r_12 (F := Ideal) c arg2 harg2 arg3 harg3 arg9 arg10 x0 x1 (ix2 p t) = tExp x0 x1 11 p t := by
  unfold kernelRun1_A.sl.r_12; rw [Pay.pay80_apply, v292_eq, v151_eq, M12_eq]; rfl

theorem v305_eq (p : Fin 512) (t : Fin 256) : kernelRun1_A.sl.v305 (F := Ideal) c arg2 harg2 arg3 harg3 arg9 arg10 arg11 x0 x1 (ix2 p t) = T12 x0 x1 p t := by
  unfold kernelRun1_A.sl.v305 kernelRun1_A.sl.HS3_13; rw [View.readCov_cons_toLoadRect]
  rw [Pay.pay82_apply, v300_eq, r_12_eq]; rfl

theorem r_13_eq (p : Fin 512) (t : Fin 256) : kernelRun1_A.sl.r_13 (F := Ideal) c arg2 harg2 arg3 harg3 arg9 arg10 arg11 x0 x1 (ix2 p t) = tInv x0 x1 p t := by
  unfold kernelRun1_A.sl.r_13; rw [Pay.pay83_apply, v305_eq, T12_eq]; rfl

theorem v308_eq (p : Fin 512) (t : Fin 256) : kernelRun1_A.sl.v308 (F := Ideal) c arg2 harg2 arg3 harg3 arg9 arg10 x0 x1 (ix3 (0 : Fin 1) p t) = tExp x0 x1 0 p t := by
  unfold kernelRun1_A.sl.v308 kernelRun1_A.sl.HS1_24 kernelRun1_A.sl.HS1_23 kernelRun1_A.sl.HS1_22 kernelRun1_A.sl.HS1_21 kernelRun1_A.sl.HS1_20 kernelRun1_A.sl.HS1_19 kernelRun1_A.sl.HS1_18 kernelRun1_A.sl.HS1_17 kernelRun1_A.sl.HS1_16 kernelRun1_A.sl.HS1_15 kernelRun1_A.sl.HS1_14 kernelRun1_A.sl.HS1_13
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay46_apply, r_8_eq]

theorem v321_eq (p : Fin 512) (t : Fin 256) : kernelRun1_A.sl.v321 (F := Ideal) c arg2 harg2 arg3 harg3 arg9 arg10 x0 x1 (ix3 (0 : Fin 1) p t) = tExp x0 x1 1 p t := by
  unfold kernelRun1_A.sl.v321 kernelRun1_A.sl.HS1_24 kernelRun1_A.sl.HS1_23 kernelRun1_A.sl.HS1_22 kernelRun1_A.sl.HS1_21 kernelRun1_A.sl.HS1_20 kernelRun1_A.sl.HS1_19 kernelRun1_A.sl.HS1_18 kernelRun1_A.sl.HS1_17 kernelRun1_A.sl.HS1_16 kernelRun1_A.sl.HS1_15 kernelRun1_A.sl.HS1_14
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay49_apply, v162_eq, v151_eq, M12_eq]; rfl

theorem v334_eq (p : Fin 512) (t : Fin 256) : kernelRun1_A.sl.v334 (F := Ideal) c arg2 harg2 arg3 harg3 arg9 arg10 x0 x1 (ix3 (0 : Fin 1) p t) = tExp x0 x1 2 p t := by
  unfold kernelRun1_A.sl.v334 kernelRun1_A.sl.HS1_24 kernelRun1_A.sl.HS1_23 kernelRun1_A.sl.HS1_22 kernelRun1_A.sl.HS1_21 kernelRun1_A.sl.HS1_20 kernelRun1_A.sl.HS1_19 kernelRun1_A.sl.HS1_18 kernelRun1_A.sl.HS1_17 kernelRun1_A.sl.HS1_16 kernelRun1_A.sl.HS1_15
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay52_apply, v175_eq, v151_eq, M12_eq]; rfl

theorem v347_eq (p : Fin 512) (t : Fin 256) : kernelRun1_A.sl.v347 (F := Ideal) c arg2 harg2 arg3 harg3 arg9 arg10 x0 x1 (ix3 (0 : Fin 1) p t) = tExp x0 x1 3 p t := by
  unfold kernelRun1_A.sl.v347 kernelRun1_A.sl.HS1_24 kernelRun1_A.sl.HS1_23 kernelRun1_A.sl.HS1_22 kernelRun1_A.sl.HS1_21 kernelRun1_A.sl.HS1_20 kernelRun1_A.sl.HS1_19 kernelRun1_A.sl.HS1_18 kernelRun1_A.sl.HS1_17 kernelRun1_A.sl.HS1_16
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay55_apply, v188_eq, v151_eq, M12_eq]; rfl

theorem v360_eq (p : Fin 512) (t : Fin 256) : kernelRun1_A.sl.v360 (F := Ideal) c arg2 harg2 arg3 harg3 arg9 arg10 x0 x1 (ix3 (0 : Fin 1) p t) = tExp x0 x1 4 p t := by
  unfold kernelRun1_A.sl.v360 kernelRun1_A.sl.HS1_24 kernelRun1_A.sl.HS1_23 kernelRun1_A.sl.HS1_22 kernelRun1_A.sl.HS1_21 kernelRun1_A.sl.HS1_20 kernelRun1_A.sl.HS1_19 kernelRun1_A.sl.HS1_18 kernelRun1_A.sl.HS1_17
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay58_apply, v201_eq, v151_eq, M12_eq]; rfl

theorem v373_eq (p : Fin 512) (t : Fin 256) : kernelRun1_A.sl.v373 (F := Ideal) c arg2 harg2 arg3 harg3 arg9 arg10 x0 x1 (ix3 (0 : Fin 1) p t) = tExp x0 x1 5 p t := by
  unfold kernelRun1_A.sl.v373 kernelRun1_A.sl.HS1_24 kernelRun1_A.sl.HS1_23 kernelRun1_A.sl.HS1_22 kernelRun1_A.sl.HS1_21 kernelRun1_A.sl.HS1_20 kernelRun1_A.sl.HS1_19 kernelRun1_A.sl.HS1_18
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay62_apply, v214_eq, v151_eq, M12_eq]; rfl

theorem v386_eq (p : Fin 512) (t : Fin 256) : kernelRun1_A.sl.v386 (F := Ideal) c arg2 harg2 arg3 harg3 arg9 arg10 x0 x1 (ix3 (0 : Fin 1) p t) = tExp x0 x1 6 p t := by
  unfold kernelRun1_A.sl.v386 kernelRun1_A.sl.HS1_24 kernelRun1_A.sl.HS1_23 kernelRun1_A.sl.HS1_22 kernelRun1_A.sl.HS1_21 kernelRun1_A.sl.HS1_20 kernelRun1_A.sl.HS1_19
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay65_apply, v227_eq, v151_eq, M12_eq]; rfl

theorem v399_eq (p : Fin 512) (t : Fin 256) : kernelRun1_A.sl.v399 (F := Ideal) c arg2 harg2 arg3 harg3 arg9 arg10 x0 x1 (ix3 (0 : Fin 1) p t) = tExp x0 x1 7 p t := by
  unfold kernelRun1_A.sl.v399 kernelRun1_A.sl.HS1_24 kernelRun1_A.sl.HS1_23 kernelRun1_A.sl.HS1_22 kernelRun1_A.sl.HS1_21 kernelRun1_A.sl.HS1_20
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay68_apply, v240_eq, v151_eq, M12_eq]; rfl

theorem v412_eq (p : Fin 512) (t : Fin 256) : kernelRun1_A.sl.v412 (F := Ideal) c arg2 harg2 arg3 harg3 arg9 arg10 x0 x1 (ix3 (0 : Fin 1) p t) = tExp x0 x1 8 p t := by
  unfold kernelRun1_A.sl.v412 kernelRun1_A.sl.HS1_24 kernelRun1_A.sl.HS1_23 kernelRun1_A.sl.HS1_22 kernelRun1_A.sl.HS1_21
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay71_apply, v253_eq, v151_eq, M12_eq]; rfl

theorem v425_eq (p : Fin 512) (t : Fin 256) : kernelRun1_A.sl.v425 (F := Ideal) c arg2 harg2 arg3 harg3 arg9 arg10 x0 x1 (ix3 (0 : Fin 1) p t) = tExp x0 x1 9 p t := by
  unfold kernelRun1_A.sl.v425 kernelRun1_A.sl.HS1_24 kernelRun1_A.sl.HS1_23 kernelRun1_A.sl.HS1_22
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay75_apply, r_11_eq]; rfl

theorem v438_eq (p : Fin 512) (t : Fin 256) : kernelRun1_A.sl.v438 (F := Ideal) c arg2 harg2 arg3 harg3 arg9 arg10 x0 x1 (ix3 (0 : Fin 1) p t) = tExp x0 x1 10 p t := by
  unfold kernelRun1_A.sl.v438 kernelRun1_A.sl.HS1_24 kernelRun1_A.sl.HS1_23
  rw [View.readCov_cons_of_disjoint]; swap; (dsimp only; exact Rect.unit_disjoint 0 (by decide))
  rw [View.readCov_cons_toLoadRect]
  rw [Pay.pay78_apply, v279_eq, v151_eq, M12_eq]; rfl

theorem v451_eq (p : Fin 512) (t : Fin 256) : kernelRun1_A.sl.v451 (F := Ideal) c arg2 harg2 arg3 harg3 arg9 arg10 x0 x1 (ix3 (0 : Fin 1) p t) = tExp x0 x1 11 p t := by
  unfold kernelRun1_A.sl.v451 kernelRun1_A.sl.HS1_24

  rw [View.readCov_cons_toLoadRect]
  rw [Pay.pay81_apply, r_12_eq]

end Cert.KernelIdeal.R1CA

end
-- ==== Proof.KI.R1PiecesA.lean ====
import proofs.«178773_j13254269075465_2_alg».proof.Proof.KI.R1ChainA
import proofs.«178773_j13254269075465_2_alg».proof.Proof.KI.R1
import Idealize.ShloMosaic.Lib.Pipeline.CanonAppend

set_option maxRecDepth 16384

noncomputable section

/-! # What case A leaves in the accumulator

The first key/value block of a row of the grid: the body first stores the zero block over the whole accumulator, then,
head by head, loads the head's 64-column band, adds the head's contribution and stores the band back. A band's load
reads what the zero block left there, since the bands stored before it lie to its left. So the twelve bands the run
stored are one tile's step from the zero accumulator; the zero block itself, stored first, lies under them. -/

namespace Cert.KernelIdeal.R1CA

open Cert.KernelIdeal Cert.KernelIdeal.Gen Cert.KernelIdeal.R1 Cert.KernelIdeal.R1F Cert.KernelIdeal Cert.Attn
open Idealize.ShloMosaic Idealize.ShloMosaic.ValueIdx Idealize.ShloMosaic.Tactic

variable (c : Dev nD) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (arg6 : Memref sig .tc .vmem S1x768 .f32) (arg7 : Memref sig .tc .vmem S512x768 .f32) (arg8 : Memref sig .tc .vmem S512x768 .f32) (harg8 : arg8.IsWhole) (arg9 : Memref sig .tc .vmem S12x512x256 .f32) (arg10 : Memref sig .tc .vmem S512x256 .f32) (arg11 : Memref sig .tc .vmem S512x256 .f32) (x0 : Vec Ideal S512x768 .bf16) (x1 : Vec Ideal S256x768 .bf16) (x2 : Vec Ideal S256x768 .bf16)

/-- Under the zero block alone, a load of any 64-column band reads zero. -/
theorem under1 (off : Nat) (inb : ∀ a, (![0, off] : Fin 2 → Nat) a + S512x64.size a ≤ S512x768.size a) (p : Fin 512) (d : Fin 64) :
    arg8.view.readCov (kernelRun1_A.sl.HS0_1 (F := Ideal)) (Rect.unit (s := S512x768) ![0, off] S512x64.size inb).toLoadRect (ix2 p d) = Ideal.ofBits .f32 0x00000000#32 := by
  unfold kernelRun1_A.sl.HS0_1
  rw [View.readCov_eq_canon', View.canon_unit_zero hz2, Pay.pay1_eq]

/-- The band of head 0, stored over it, does not reach a band further right; -/
theorem under2 (off : Nat) (hoff : 64 ≤ off) (inb : ∀ a, (![0, off] : Fin 2 → Nat) a + S512x64.size a ≤ S512x768.size a) (p : Fin 512) (d : Fin 64) :
    arg8.view.readCov (kernelRun1_A.sl.HS0_2 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_2
  rw [View.readCov_cons_of_disjoint _ _ _ _ (by dsimp only; exact Rect.unit_disjoint 1 (Or.inl (by show 0 + 64 ≤ off; omega)))]
  exact under1 arg8 off inb p d

/-- nor do the bands of heads 0 … 1. -/
theorem under3 (off : Nat) (hoff : 128 ≤ off) (inb : ∀ a, (![0, off] : Fin 2 → Nat) a + S512x64.size a ≤ S512x768.size a) (p : Fin 512) (d : Fin 64) :
    arg8.view.readCov (kernelRun1_A.sl.HS0_3 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_3
  rw [View.readCov_cons_of_disjoint _ _ _ _ (by dsimp only; exact Rect.unit_disjoint 1 (Or.inl (by show 64 + 64 ≤ off; omega)))]
  exact under2 c arg2 harg2 arg3 harg3 arg4 harg4 arg8 arg9 arg10 arg11 x0 x1 x2 off (by omega) inb p d

/-- nor do the bands of heads 0 … 2. -/
theorem under4 (off : Nat) (hoff : 192 ≤ off) (inb : ∀ a, (![0, off] : Fin 2 → Nat) a + S512x64.size a ≤ S512x768.size a) (p : Fin 512) (d : Fin 64) :
    arg8.view.readCov (kernelRun1_A.sl.HS0_4 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_4
  rw [View.readCov_cons_of_disjoint _ _ _ _ (by dsimp only; exact Rect.unit_disjoint 1 (Or.inl (by show 128 + 64 ≤ off; omega)))]
  exact under3 c arg2 harg2 arg3 harg3 arg4 harg4 arg8 arg9 arg10 arg11 x0 x1 x2 off (by omega) inb p d

/-- nor do the bands of heads 0 … 3. -/
theorem under5 (off : Nat) (hoff : 256 ≤ off) (inb : ∀ a, (![0, off] : Fin 2 → Nat) a + S512x64.size a ≤ S512x768.size a) (p : Fin 512) (d : Fin 64) :
    arg8.view.readCov (kernelRun1_A.sl.HS0_5 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_5
  rw [View.readCov_cons_of_disjoint _ _ _ _ (by dsimp only; exact Rect.unit_disjoint 1 (Or.inl (by show 192 + 64 ≤ off; omega)))]
  exact under4 c arg2 harg2 arg3 harg3 arg4 harg4 arg8 arg9 arg10 arg11 x0 x1 x2 off (by omega) inb p d

/-- nor do the bands of heads 0 … 4. -/
theorem under6 (off : Nat) (hoff : 320 ≤ off) (inb : ∀ a, (![0, off] : Fin 2 → Nat) a + S512x64.size a ≤ S512x768.size a) (p : Fin 512) (d : Fin 64) :
    arg8.view.readCov (kernelRun1_A.sl.HS0_6 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_6
  rw [View.readCov_cons_of_disjoint _ _ _ _ (by dsimp only; exact Rect.unit_disjoint 1 (Or.inl (by show 256 + 64 ≤ off; omega)))]
  exact under5 c arg2 harg2 arg3 harg3 arg4 harg4 arg8 arg9 arg10 arg11 x0 x1 x2 off (by omega) inb p d

/-- nor do the bands of heads 0 … 5. -/
theorem under7 (off : Nat) (hoff : 384 ≤ off) (inb : ∀ a, (![0, off] : Fin 2 → Nat) a + S512x64.size a ≤ S512x768.size a) (p : Fin 512) (d : Fin 64) :
    arg8.view.readCov (kernelRun1_A.sl.HS0_7 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_7
  rw [View.readCov_cons_of_disjoint _ _ _ _ (by dsimp only; exact Rect.unit_disjoint 1 (Or.inl (by show 320 + 64 ≤ off; omega)))]
  exact under6 c arg2 harg2 arg3 harg3 arg4 harg4 arg8 arg9 arg10 arg11 x0 x1 x2 off (by omega) inb p d

/-- nor do the bands of heads 0 … 6. -/
theorem under8 (off : Nat) (hoff : 448 ≤ off) (inb : ∀ a, (![0, off] : Fin 2 → Nat) a + S512x64.size a ≤ S512x768.size a) (p : Fin 512) (d : Fin 64) :
    arg8.view.readCov (kernelRun1_A.sl.HS0_8 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_8
  rw [View.readCov_cons_of_disjoint _ _ _ _ (by dsimp only; exact Rect.unit_disjoint 1 (Or.inl (by show 384 + 64 ≤ off; omega)))]
  exact under7 c arg2 harg2 arg3 harg3 arg4 harg4 arg8 arg9 arg10 arg11 x0 x1 x2 off (by omega) inb p d

/-- nor do the bands of heads 0 … 7. -/
theorem under9 (off : Nat) (hoff : 512 ≤ off) (inb : ∀ a, (![0, off] : Fin 2 → Nat) a + S512x64.size a ≤ S512x768.size a) (p : Fin 512) (d : Fin 64) :
    arg8.view.readCov (kernelRun1_A.sl.HS0_9 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_9
  rw [View.readCov_cons_of_disjoint _ _ _ _ (by dsimp only; exact Rect.unit_disjoint 1 (Or.inl (by show 448 + 64 ≤ off; omega)))]
  exact under8 c arg2 harg2 arg3 harg3 arg4 harg4 arg8 arg9 arg10 arg11 x0 x1 x2 off (by omega) inb p d

/-- nor do the bands of heads 0 … 8. -/
theorem under10 (off : Nat) (hoff : 576 ≤ off) (inb : ∀ a, (![0, off] : Fin 2 → Nat) a + S512x64.size a ≤ S512x768.size a) (p : Fin 512) (d : Fin 64) :
    arg8.view.readCov (kernelRun1_A.sl.HS0_10 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_10
  rw [View.readCov_cons_of_disjoint _ _ _ _ (by dsimp only; exact Rect.unit_disjoint 1 (Or.inl (by show 512 + 64 ≤ off; omega)))]
  exact under9 c arg2 harg2 arg3 harg3 arg4 harg4 arg8 arg9 arg10 arg11 x0 x1 x2 off (by omega) inb p d

/-- nor do the bands of heads 0 … 9. -/
theorem under11 (off : Nat) (hoff : 640 ≤ off) (inb : ∀ a, (![0, off] : Fin 2 → Nat) a + S512x64.size a ≤ S512x768.size a) (p : Fin 512) (d : Fin 64) :
    arg8.view.readCov (kernelRun1_A.sl.HS0_11 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_11
  rw [View.readCov_cons_of_disjoint _ _ _ _ (by dsimp only; exact Rect.unit_disjoint 1 (Or.inl (by show 576 + 64 ≤ off; omega)))]
  exact under10 c arg2 harg2 arg3 harg3 arg4 harg4 arg8 arg9 arg10 arg11 x0 x1 x2 off (by omega) inb p d

/-- nor do the bands of heads 0 … 10. -/
theorem under12 (off : Nat) (hoff : 704 ≤ off) (inb : ∀ a, (![0, off] : Fin 2 → Nat) a + S512x64.size a ≤ S512x768.size a) (p : Fin 512) (d : Fin 64) :
    arg8.view.readCov (kernelRun1_A.sl.HS0_12 (F := Ideal) c arg2 harg2 arg3 harg3 arg4 harg4 arg8 arg9 arg10 arg11 x0 x1 x2) (Rect.unit (s := S512x768) ![0, off] S512x64.size inb).toLoadRect (ix2 p d) = Ideal.ofBits .f32 0x00000000#32 := by
  unfold kernelRun1_A.sl.HS0_12
  rw [View.readCov_cons_of_disjoint _ _ _ _ (by dsimp only; exact Rect.unit_disjoint 1 (Or.inl (by show 640 + 64 ≤ off; omega)))]
  exact under11 c arg2 harg2 arg3 harg3 arg4 harg4 arg8 arg9 arg10 arg11 x0 x1 x2 off (by omega) inb p d

/-- The accumulator's band a head adds onto was cleared by this same grid point and not touched since: it reads zero. -/
theorem v316_eq (p : Fin 512) (d : Fin 64) : kernelRun1_A.sl.v316 (F := Ideal) c arg8 (ix2 p d) = Ideal.ofBits .f32 0x00000000#32 := by
  unfold kernelRun1_A.sl.v316
  exact under1 arg8 0 _ p d

theorem v329_eq (p : Fin 512) (d : Fin 64) : kernelRun1_A.sl.v329 (F := Ideal) c arg2 harg2 arg3 harg3 arg4 harg4 arg8 arg9 arg10 arg11 x0 x1 x2 (ix2 p d) = Ideal.ofBits .f32 0x00000000#32 := by
  unfold kernelRun1_A.sl.v329
  exact under2 c arg2 harg2 arg3 harg3 arg4 harg4 arg8 arg9 arg10 arg11 x0 x1 x2 64 (by decide) _ p d

theorem v342_eq (p : Fin 512) (d : Fin 64) : kernelRun1_A.sl.v342 (F := Ideal) c arg2 harg2 arg3 harg3 arg4 harg4 arg8 arg9 arg10 arg11 x0 x1 x2 (ix2 p d) = Ideal.ofBits .f32 0x00000000#32 := by
  unfold kernelRun1_A.sl.v342
  exact under3 c arg2 harg2 arg3 harg3 arg4 harg4 arg8 arg9 arg10 arg11 x0 x1 x2 128 (by decide) _ p d

theorem v355_eq (p : Fin 512) (d : Fin 64) : kernelRun1_A.sl.v355 (F := Ideal) c arg2 harg2 arg3 harg3 arg4 harg4 arg8 arg9 arg10 arg11 x0 x1 x2 (ix2 p d) = Ideal.ofBits .f32 0x00000000#32 := by
  unfold kernelRun1_A.sl.v355
  exact under4 c arg2 harg2 arg3 harg3 arg4 harg4 arg8 arg9 arg10 arg11 x0 x1 x2 192 (by decide) _ p d

theorem v368_eq (p : Fin 512) (d : Fin 64) : kernelRun1_A.sl.v368 (F := Ideal) c arg2 harg2 arg3 harg3 arg4 harg4 arg8 arg9 arg10 arg11 x0 x1 x2 (ix2 p d) = Ideal.ofBits .f32 0x00000000#32 := by
  unfold kernelRun1_A.sl.v368
  exact under5 c arg2 harg2 arg3 harg3 arg4 harg4 arg8 arg9 arg10 arg11 x0 x1 x2 256 (by decide) _ p d

theorem v381_eq (p : Fin 512) (d : Fin 64) : kernelRun1_A.sl.v381 (F := Ideal) c arg2 harg2 arg3 harg3 arg4 harg4 arg8 arg9 arg10 arg11 x0 x1 x2 (ix2 p d) = Ideal.ofBits .f32 0x00000000#32 := by
  unfold kernelRun1_A.sl.v381
  exact under6 c arg2 harg2 arg3 harg3 arg4 harg4 arg8 arg9 arg10 arg11 x0 x1 x2 320 (by decide) _ p d

theorem v394_eq (p : Fin 512) (d : Fin 64) : kernelRun1_A.sl.v394 (F := Ideal) c arg2 harg2 arg3 harg3 arg4 harg4 arg8 arg9 arg10 arg11 x0 x1 x2 (ix2 p d) = Ideal.ofBits .f32 0x00000000#32 := by
  unfold kernelRun1_A.sl.v394
  exact under7 c arg2 harg2 arg3 harg3 arg4 harg4 arg8 arg9 arg10 arg11 x0 x1 x2 384 (by decide) _ p d

theorem v407_eq (p : Fin 512) (d : Fin 64) : kernelRun1_A.sl.v407 (F := Ideal) c arg2 harg2 arg3 harg3 arg4 harg4 arg8 arg9 arg10 arg11 x0 x1 x2 (ix2 p d) = Ideal.ofBits .f32 0x00000000#32 := by
  unfold kernelRun1_A.sl.v407
  exact under8 c arg2 harg2 arg3 harg3 arg4 harg4 arg8 arg9 arg10 arg11 x0 x1 x2 448 (by decide) _ p d

theorem v420_eq (p : Fin 512) (d : Fin 64) : kernelRun1_A.sl.v420 (F := Ideal) c arg2 harg2 arg3 harg3 arg4 harg4 arg8 arg9 arg10 arg11 x0 x1 x2 (ix2 p d) = Ideal.ofBits .f32 0x00000000#32 := by
  unfold kernelRun1_A.sl.v420
  exact under9 c arg2 harg2 arg3 harg3 arg4 harg4 arg8 arg9 arg10 arg11 x0 x1 x2 512 (by decide) _ p d

theorem v433_eq (p : Fin 512) (d : Fin 64) : kernelRun1_A.sl.v433 (F := Ideal) c arg2 harg2 arg3 harg3 arg4 harg4 arg8 arg9 arg10 arg11 x0 x1 x2 (ix2 p d) = Ideal.ofBits .f32 0x00000000#32 := by
  unfold kernelRun1_A.sl.v433
  exact under10 c arg2 harg2 arg3 harg3 arg4 harg4 arg8 arg9 arg10 arg11 x0 x1 x2 576 (by decide) _ p d

theorem v446_eq (p : Fin 512) (d : Fin 64) : kernelRun1_A.sl.v446 (F := Ideal) c arg2 harg2 arg3 harg3 arg4 harg4 arg8 arg9 arg10 arg11 x0 x1 x2 (ix2 p d) = Ideal.ofBits .f32 0x00000000#32 := by
  unfold kernelRun1_A.sl.v446
  exact under11 c arg2 harg2 arg3 harg3 arg4 harg4 arg8 arg9 arg10 arg11 x0 x1 x2 640 (by decide) _ p d

theorem v459_eq (p : Fin 512) (d : Fin 64) : kernelRun1_A.sl.v459 (F := Ideal) c arg2 harg2 arg3 harg3 arg4 harg4 arg8 arg9 arg10 arg11 x0 x1 x2 (ix2 p d) = Ideal.ofBits .f32 0x00000000#32 := by
  unfold kernelRun1_A.sl.v459
  exact under12 c arg2 harg2 arg3 harg3 arg4 harg4 arg8 arg9 arg10 arg11 x0 x1 x2 704 (by decide) _ p d

theorem r_14_eq (p : Fin 512) (d : Fin 64) : kernelRun1_A.sl.r_14 (F := Ideal) c arg2 harg2 arg3 harg3 arg4 harg4 arg8 arg9 arg10 arg11 x0 x1 x2 (ix2 p d) = Ideal.ofBits .f32 0x00000000#32 + tContrib x0 x1 x2 1 p d := by
  unfold kernelRun1_A.sl.r_14; rw [Pay.pay85_apply]
  simp only [r_2_eq, v305_eq, T12_eq, v321_eq, v329_eq, tContrib_apply, tAttn_apply, tInv_apply]

theorem r_15_eq (p : Fin 512) (t : Fin 256) : kernelRun1_A.sl.r_15 (F := Ideal) c arg2 harg2 arg3 harg3 arg9 arg10 arg11 x0 x1 (ix2 p t) = tAttn x0 x1 4 p t := by
  unfold kernelRun1_A.sl.r_15; rw [Pay.pay89_apply]
  simp only [r_13_eq, v360_eq, tAttn_apply]

theorem r_16_eq (p : Fin 512) (d : Fin 64) : kernelRun1_A.sl.r_16 (F := Ideal) c arg2 harg2 arg3 harg3 arg4 harg4 arg9 arg10 arg11 x0 x1 x2 (ix2 p d) = tContrib x0 x1 x2 9 p d := by
  unfold kernelRun1_A.sl.r_16; rw [Pay.pay95_apply]
  simp only [r_2_eq, r_13_eq, v425_eq, tContrib_apply, tAttn_apply]

theorem emb_band (off : Nat) (inb : ∀ a, (![0, off] : Fin 2 → Nat) a + S512x64.size a ≤ S512x768.size a) (h : Fin 12) (hoff : off = h.val * 64) (p : Fin 512) (d : Fin 64) :
    (Rect.unit (s := S512x768) ![0, off] S512x64.size inb).emb (ix2 p d) = ix2 p (col h d) := by
  subst hoff
  funext a; apply Fin.ext; rw [Rect.emb_apply]
  match a with
  | ⟨0, _⟩ => simp [ix2]
  | ⟨1, _⟩ => simp [ix2, col]

/-- What case A leaves in the accumulator is one tile's step from the zero accumulator: each of the twelve 64-column
    pieces stored last is zero plus that head's contribution, and the zero block stored first lies under them. -/
theorem sout_eq (i : grid1.Coords) (harg5 : arg5.IsWhole) (harg6 : arg6.IsWhole) (harg7 : arg7.IsWhole) (harg9 : arg9.IsWhole) (harg10 : arg10.IsWhole) (harg11 : arg11.IsWhole)
    (hc0 : cond1_0 i) (hc1 : ¬cond1_1 i) (x3 : Vec Ideal S768x768 .bf16) (x4 : Vec Ideal S1x768 .f32) :
    sout1_A_0 (F := Ideal) c i arg2 harg2 arg3 harg3 arg4 harg4 arg5 harg5 arg6 harg6 arg7 harg7 arg8 harg8 arg9 harg9 arg10 harg10 arg11 harg11 hc0 hc1 x0 x1 x2 x3 x4 = tileStep x0 x1 x2 (fun _ => Ideal.ofBits .f32 0x00000000#32) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4)]
  funext y
  unfold kernelRun1_A
  dsimp only
  unfold kernelRun1_A.sl.HS0_12 kernelRun1_A.sl.HS0_11 kernelRun1_A.sl.HS0_10 kernelRun1_A.sl.HS0_9 kernelRun1_A.sl.HS0_8 kernelRun1_A.sl.HS0_7 kernelRun1_A.sl.HS0_6 kernelRun1_A.sl.HS0_5 kernelRun1_A.sl.HS0_4 kernelRun1_A.sl.HS0_3 kernelRun1_A.sl.HS0_2 kernelRun1_A.sl.HS0_1
  refine View.canon_append_of_pieces (Val := Elt Ideal) (S := S512x768) (e := .f32) (tileStep x0 x1 x2 (fun _ => Ideal.ofBits .f32 0x00000000#32)) [_] [_, _, _, _, _, _, _, _, _, _, _, _] ?_ y ?_
  · intro pc hpc x
    simp only [List.mem_cons, List.not_mem_nil, or_false] at hpc
    rcases hpc with rfl | rfl | rfl | rfl | rfl | rfl | rfl | rfl | rfl | rfl | rfl | rfl
    · obtain ⟨p, d, rfl⟩ : ∃ (p : Fin 512) (d : Fin 64), x = ix2 p d := ⟨x 0, x 1, eq_ix2 x⟩
      rw [emb_band 704 _ 11 rfl p d, tileStep_col]
      dsimp only
      rw [Pay.pay98_apply]; simp only [r_2_eq, r_13_eq, v451_eq, v459_eq, tContrib_apply, tAttn_apply]
    · obtain ⟨p, d, rfl⟩ : ∃ (p : Fin 512) (d : Fin 64), x = ix2 p d := ⟨x 0, x 1, eq_ix2 x⟩
      rw [emb_band 640 _ 10 rfl p d, tileStep_col]
      dsimp only
      rw [Pay.pay97_apply]; simp only [r_2_eq, r_13_eq, v438_eq, v446_eq, tContrib_apply, tAttn_apply]
    · obtain ⟨p, d, rfl⟩ : ∃ (p : Fin 512) (d : Fin 64), x = ix2 p d := ⟨x 0, x 1, eq_ix2 x⟩
      rw [emb_band 576 _ 9 rfl p d, tileStep_col]
      dsimp only
      rw [Pay.pay96_apply]; simp only [r_16_eq, v433_eq]
    · obtain ⟨p, d, rfl⟩ : ∃ (p : Fin 512) (d : Fin 64), x = ix2 p d := ⟨x 0, x 1, eq_ix2 x⟩
      rw [emb_band 512 _ 8 rfl p d, tileStep_col]
      dsimp only
      rw [Pay.pay94_apply]; simp only [r_2_eq, r_13_eq, v412_eq, v420_eq, tContrib_apply, tAttn_apply]
    · obtain ⟨p, d, rfl⟩ : ∃ (p : Fin 512) (d : Fin 64), x = ix2 p d := ⟨x 0, x 1, eq_ix2 x⟩
      rw [emb_band 448 _ 7 rfl p d, tileStep_col]
      dsimp only
      rw [Pay.pay93_apply]; simp only [r_2_eq, r_13_eq, v399_eq, v407_eq, tContrib_apply, tAttn_apply]
    · obtain ⟨p, d, rfl⟩ : ∃ (p : Fin 512) (d : Fin 64), x = ix2 p d := ⟨x 0, x 1, eq_ix2 x⟩
      rw [emb_band 384 _ 6 rfl p d, tileStep_col]
      dsimp only
      rw [Pay.pay92_apply]; simp only [r_2_eq, r_13_eq, v386_eq, v394_eq, tContrib_apply, tAttn_apply]
    · obtain ⟨p, d, rfl⟩ : ∃ (p : Fin 512) (d : Fin 64), x = ix2 p d := ⟨x 0, x 1, eq_ix2 x⟩
      rw [emb_band 320 _ 5 rfl p d, tileStep_col]
      dsimp only
      rw [Pay.pay91_apply]; simp only [r_2_eq, r_13_eq, v373_eq, v381_eq, tContrib_apply, tAttn_apply]
    · obtain ⟨p, d, rfl⟩ : ∃ (p : Fin 512) (d : Fin 64), x = ix2 p d := ⟨x 0, x 1, eq_ix2 x⟩
      rw [emb_band 256 _ 4 rfl p d, tileStep_col]
      dsimp only
      rw [Pay.pay90_apply]; simp only [r_2_eq, r_15_eq, v368_eq, tContrib_apply]
    · obtain ⟨p, d, rfl⟩ : ∃ (p : Fin 512) (d : Fin 64), x = ix2 p d := ⟨x 0, x 1, eq_ix2 x⟩
      rw [emb_band 192 _ 3 rfl p d, tileStep_col]
      dsimp only
      rw [Pay.pay88_apply]; simp only [r_2_eq, r_13_eq, v347_eq, v355_eq, tContrib_apply, tAttn_apply]
    · obtain ⟨p, d, rfl⟩ : ∃ (p : Fin 512) (d : Fin 64), x = ix2 p d := ⟨x 0, x 1, eq_ix2 x⟩
      rw [emb_band 128 _ 2 rfl p d, tileStep_col]
      dsimp only
      rw [Pay.pay87_apply]; simp only [r_2_eq, r_13_eq, v334_eq, v342_eq, tContrib_apply, tAttn_apply]
    · obtain ⟨p, d, rfl⟩ : ∃ (p : Fin 512) (d : Fin 64), x = ix2 p d := ⟨x 0, x 1, eq_ix2 x⟩
      rw [emb_band 64 _ 1 rfl p d, tileStep_col]
      dsimp only
      rw [Pay.pay86_eq]; exact r_14_eq c arg2 harg2 arg3 harg3 arg4 harg4 arg8 arg9 arg10 arg11 x0 x1 x2 p d
    · obtain ⟨p, d, rfl⟩ : ∃ (p : Fin 512) (d : Fin 64), x = ix2 p d := ⟨x 0, x 1, eq_ix2 x⟩
      rw [emb_band 0 _ 0 rfl p d, tileStep_col]
      dsimp only
      rw [Pay.pay84_apply]; simp only [r_2_eq, v305_eq, T12_eq, v308_eq, v316_eq, tContrib_apply, tAttn_apply, tInv_apply]
  · exact View.cover_of_tiledL (s := S512x768) _ S512x64.size (by sl_kernel_rfl) y

end Cert.KernelIdeal.R1CA

end
-- ==== Proof.KI.R1ChainB.lean ====
import proofs.«178773_j13254269075465_2_alg».proof.Proof.KI.R1RunB
import proofs.«178773_j13254269075465_2_alg».proof.Proof.KI.R1Forms
import proofs.«178773_j13254269075465_2_alg».proof.Proof.KI.Payloads
import proofs.«178773_j13254269075465_2_alg».proof.Proof.KI.Payloads2
import proofs.«178773_j13254269075465_2_alg».proof.Proof.KI.Payloads3

set_option maxRecDepth 16384

noncomputable section

/-! # What the body's intermediate values are, in case B

Each load of the run reads back the last store that covers it: a whole work buffer its last whole store, one head's slab
of the scores buffer the last store into that slab. Followed in program order this gives every intermediate value in
closed form: the per-head scores, the running maximum after `k` heads, the exponentials, the running sum after `k`
heads, the inverse of the sum. -/

namespace Cert.KernelIdeal.R1CB

open Cert.KernelIdeal Cert.KernelIdeal.Gen Cert.KernelIdeal.R1 Cert.KernelIdeal.R1F Cert.KernelIdeal Cert.Attn
open Idealize.ShloMosaic Idealize.ShloMosaic.ValueIdx

variable (c : Dev nD) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg8 : Memref sig .tc .vmem S512x768 .f32) (harg8 : arg8.IsWhole) (arg9 : Memref sig .tc .vmem S12x512x256 .f32) (arg10 : Memref sig .tc .vmem S512x256 .f32) (arg11 : Memref sig .tc .vmem S512x256 .f32) (x0 : Vec Ideal S512x768 .bf16) (x1 : Vec Ideal S256x768 .bf16) (x2 : Vec Ideal S256x768 .bf16) (xs0 : Vec Ideal S512x768 .f32)

theorem r_eq : kernelRun1_B.sl.r (F := Ideal) c arg2 harg2 x0 = x0 := by
  unfold kernelRun1_B.sl.r; rw [Pay.pay2_eq]; exact ld_whole rfl arg2 harg2 x0 _ hz2 _

theorem r_1_eq : kernelRun1_B.sl.r_1 (F := Ideal) c arg3 harg3 x1 = x1 := by
  unfold kernelRun1_B.sl.r_1; rw [Pay.pay3_eq]; exact ld_whole rfl arg3 harg3 x1 _ hz2 _

theorem r_2_eq : kernelRun1_B.sl.r_2 (F := Ideal) c arg4 harg4 x2 = x2 := by
  unfold kernelRun1_B.sl.r_2; rw [Pay.pay4_eq]; exact ld_whole rfl arg4 harg4 x2 _ hz2 _

theorem r_3_eq (p : Fin 512) (t : Fin 256) : kernelRun1_B.sl.r_3 (F := Ideal) c arg2 harg2 arg3 harg3 x0 x1 (ix2 p t) = tScore x0 x1 1 p t := by
  unfold kernelRun1_B.sl.r_3; rw [ld_whole rfl arg2 harg2 x0 _ hz2 _, ld_whole rfl arg3 harg3 x1 _ hz2 _]; exact Pay.pay9_apply x0 x1 p t

theorem r_4_eq (p : Fin 512) (t : Fin 256) : kernelRun1_B.sl.r_4 (F := Ideal) c arg2 harg2 arg3 harg3 x0 x1 (ix2 p t) = tScore x0 x1 4 p t := by
  unfold kernelRun1_B.sl.r_4; rw [r_eq, r_1_eq]; exact Pay.pay18_apply x0 x1 p t

theorem r_5_eq (p : Fin 512) (t : Fin 256) : kernelRun1_B.sl.r_5 (F := Ideal) c arg2 harg2 arg3 harg3 x0 x1 (ix2 p t) = tScore x0 x1 7 p t := by
  unfold kernelRun1_B.sl.r_5; rw [r_eq, r_1_eq]; exact Pay.pay27_apply x0 x1 p t

theorem r_6_eq (p : Fin 512) (d : Fin 64) : kernelRun1_B.sl.r_6 (F := Ideal) c arg2 harg2 x0 (ix2 p d) = x0 (ix2 p (col 10 d)) := by
  unfold kernelRun1_B.sl.r_6; rw [r_eq]; exact Pay.pay36_apply x0 p d

theorem r_7_eq (t : Fin 256) (d : Fin 64) : kernelRun1_B.sl.r_7 (F := Ideal) c arg3 harg3 x1 (ix2 t d) = x1 (ix2 t (col 10 d)) := by
  unfold kernelRun1_B.sl.r_7; rw [r_1_eq]; exact Pay.pay37_apply x1 t d

theorem v19_eq (p : Fin 512) (t : Fin 256) : kernelRun1_B.sl.v19 (F := Ideal) c arg10 (ix2 p t) = M0 x0 x1 p t := by
  unfold kernelRun1_B.sl.v19 kernelRun1_B.sl.HS2_1; rw [View.readCov_cons_toLoadRect]; rw [Pay.pay5_eq]; rfl

theorem v30_eq (p : Fin 512) (t : Fin 256) : kernelRun1_B.sl.v30 (F := Ideal) c arg2 harg2 arg3 harg3 arg10 x0 x1 (ix2 p t) = M1 x0 x1 p t := by
  unfold kernelRun1_B.sl.v30 kernelRun1_B.sl.HS2_2; rw [View.readCov_cons_toLoadRect]
  rw [ld_whole rfl arg2 harg2 x0 _ hz2 _, ld_whole rfl arg3 harg3 x1 _ hz2 _, Pay.pay8_apply, v19_eq]; rfl

theorem v41_eq (p : Fin 512) (t : Fin 256) : kernelRun1_B.sl.v41 (F := Ideal) c arg2 harg2 arg3 harg3 arg10 x0 x1 (ix2 p t) = M2 x0 x1 p t := by
  unfold kernelRun1_B.sl.v41 kernelRun1_B.sl.HS2_3; rw [View.readCov_cons_toLoadRect]
  rw [Pay.pay11_apply, v30_eq, r_3_eq]; rfl

theorem v52_eq (p : Fin 512) (t : Fin 256) : kernelRun1_B.sl.v52 (F := Ideal) c arg2 harg2 arg3 harg3 arg10 x0 x1 (ix2 p t) = M3 x0 x1 p t := by
  unfold kernelRun1_B.sl.v52 kernelRun1_B.sl.HS2_4; rw [View.readCov_cons_toLoadRect]
  rw [r_eq, r_1_eq, Pay.pay14_apply, v41_eq]; rfl

theorem v63_eq (p : Fin 512) (t : Fin 256) : kernelRun1_B.sl.v63 (F := Ideal) c arg2 harg2 arg3 harg3 arg10 x0 x1 (ix2 p t) = M4 x0 x1 p t := by
  unfold kernelRun1_B.sl.v63 kernelRun1_B.sl.HS2_5; rw [View.readCov_cons_toLoadRect]
  rw [r_eq, r_1_eq, Pay.pay17_apply, v52_eq]; rfl

theorem v74_eq (p : Fin 512) (t : Fin 256) : kernelRun1_B.sl.v74 (F := Ideal) c arg2 harg2 arg3 harg3 arg10 x0 x1 (ix2 p t) = M5 x0 x1 p t := by
  unfold kernelRun1_B.sl.v74 kernelRun1_B.sl.HS2_6; rw [View.readCov_cons_toLoadRect]
  rw [Pay.pay20_apply, v63_eq, r_4_eq]; rfl

theorem v85_eq (p : Fin 512) (t : Fin 256) : kernelRun1_B.sl.v85 (F := Ideal) c arg2 harg2 arg3 harg3 arg10 x0 x1 (ix2 p t) = M6 x0 x1 p t := by
  unfold kernelRun1_B.sl.v85 kernelRun1_B.sl.HS2_7; rw [View.readCov_cons_toLoadRect]
  rw [r_eq, r_1_eq, Pay.pay23_apply, v74_eq]; rfl

theorem v96_eq (p : Fin 512) (t : Fin 256) : kernelRun1_B.sl.v96 (F := Ideal) c arg2 harg2 arg3 harg3 arg10 x0 x1 (ix2 p t) = M7 x0 x1 p t := by
  unfold kernelRun1_B.sl.v96 kernelRun1_B.sl.HS2_8; rw [View.readCov_cons_toLoadRect]
  rw [r_eq, r_1_eq, Pay.pay26_apply, v85_eq]; rfl

theorem v107_eq (p : Fin 512) (t : Fin 256) : kernelRun1_B.sl.v107 (F := Ideal) c arg2 harg2 arg3 harg3 arg10 x0 x1 (ix2 p t) = M8 x0 x1 p t := by
  unfold kernelRun1_B.sl.v107 kernelRun1_B.sl.HS2_9; rw [View.readCov_cons_toLoadRect]
  rw [Pay.pay29_apply, v96_eq, r_5_eq]; rfl

theorem v118_eq (p : Fin 512) (t : Fin 256) : kernelRun1_B.sl.v118 (F := Ideal) c arg2 harg2 arg3 harg3 arg10 x0 x1 (ix2 p t) = M9 x0 x1 p t := by
  unfold kernelRun1_B.sl.v118 kernelRun1_B.sl.HS2_10; rw [View.readCov_cons_toLoadRect]
  rw [r_eq, r_1_eq, Pay.pay32_apply, v107_eq]; rfl

theorem v129_eq (p : Fin 512) (t : Fin 256) : kernelRun1_B.sl.v129 (F := Ideal) c arg2 harg2 arg3 harg3 arg10 x0 x1 (ix2 p t) = M10 x0 x1 p t := by
  unfold kernelRun1_B.sl.v129 kernelRun1_B.sl.HS2_11; rw [View.readCov_cons_toLoadRect]
  rw [r_eq, r_1_eq, Pay.pay35_apply, v118_eq]; rfl

theorem v140_eq (p : Fin 512) (t : Fin 256) : kernelRun1_B.sl.v140 (F := Ideal) c arg2 harg2 arg3 harg3 arg10 x0 x1 (ix2 p t) = M11 x0 x1 p t := by
  unfold kernelRun1_B.sl.v140 kernelRun1_B.sl.HS2_12; rw [View.readCov_cons_toLoadRect]
  rw [Pay.pay40_apply, v129_eq]; simp only [r_6_eq, r_7_eq]; rfl

theorem v151_eq (p : Fin 512) (t : Fin 256) : kernelRun1_B.sl.v151 (F := Ideal) c arg2 harg2 arg3 harg3 arg10 x0 x1 (ix2 p t) = M12 x0 x1 p t := by
  unfold kernelRun1_B.sl.v151 kernelRun1_B.sl.HS2_13; rw [View.readCov_cons_toLoadRect]
  rw [r_eq, r_1_eq, Pay.pay43_apply, v140_eq]; rfl

theorem v157_eq (p : Fin 512) (t : Fin 256) : kernelRun1_B.sl.v157 (F := Ideal) c arg11 (ix2 p t) = T0 x0 x1 p t := by
  unfold kernelRun1_B.sl.v157 kernelRun1_B.sl.HS3_1; rw [View.readCov_cons_toLoadRect]; rw [Pay.pay44_eq]; rfl

theorem v149_eq (p : Fin 512) (t : Fin 256) : kernelRun1_B.sl.v149 (F := Ideal) c arg2 harg2 arg3 harg3 arg9 x0 x1 (ix3 (0 : Fin 1) p t) = tScore x0 x1 0 p t := by
  unfold kernelRun1_B.sl.v149 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [ld_whole rfl arg2 harg2 x0 _ hz2 _, ld_whole rfl arg3 harg3 x1 _ hz2 _]; exact Pay.pay7_apply x0 x1 p t

theorem r_8_eq (p : Fin 512) (t : Fin 256) : kernelRun1_B.sl.r_8 (F := Ideal) c arg2 harg2 arg3 harg3 arg9 arg10 x0 x1 (ix2 p t) = tExp x0 x1 0 p t := by
  unfold kernelRun1_B.sl.r_8; rw [Pay.pay45_apply, v149_eq, v151_eq, M12_eq]; rfl

theorem v170_eq (p : Fin 512) (t : Fin 256) : kernelRun1_B.sl.v170 (F := Ideal) c arg2 harg2 arg3 harg3 arg9 arg10 arg11 x0 x1 (ix2 p t) = T1 x0 x1 p t := by
  unfold kernelRun1_B.sl.v170 kernelRun1_B.sl.HS3_2; rw [View.readCov_cons_toLoadRect]
  rw [Pay.pay47_apply, v157_eq, r_8_eq]; rfl

theorem v162_eq (p : Fin 512) (t : Fin 256) : kernelRun1_B.sl.v162 (F := Ideal) c arg2 harg2 arg3 harg3 arg9 arg10 x0 x1 (ix3 (0 : Fin 1) p t) = tScore x0 x1 1 p t := by
  unfold kernelRun1_B.sl.v162 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [ld_whole rfl arg2 harg2 x0 _ hz2 _, ld_whole rfl arg3 harg3 x1 _ hz2 _]; exact Pay.pay10_apply x0 x1 p t

theorem v183_eq (p : Fin 512) (t : Fin 256) : kernelRun1_B.sl.v183 (F := Ideal) c arg2 harg2 arg3 harg3 arg9 arg10 arg11 x0 x1 (ix2 p t) = T2 x0 x1 p t := by
  unfold kernelRun1_B.sl.v183 kernelRun1_B.sl.HS3_3; rw [View.readCov_cons_toLoadRect]
  rw [Pay.pay50_apply, v170_eq, v162_eq, v151_eq, M12_eq]; rfl

theorem v175_eq (p : Fin 512) (t : Fin 256) : kernelRun1_B.sl.v175 (F := Ideal) c arg2 harg2 arg3 harg3 arg9 arg10 x0 x1 (ix3 (0 : Fin 1) p t) = tScore x0 x1 2 p t := by
  unfold kernelRun1_B.sl.v175 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay13_apply x0 x1 p t

theorem r_9_eq (p : Fin 512) (t : Fin 256) : kernelRun1_B.sl.r_9 (F := Ideal) c arg2 harg2 arg3 harg3 arg9 arg10 x0 x1 (ix2 p t) = tExp x0 x1 2 p t := by
  unfold kernelRun1_B.sl.r_9; rw [Pay.pay51_apply, v175_eq, v151_eq, M12_eq]; rfl

theorem v196_eq (p : Fin 512) (t : Fin 256) : kernelRun1_B.sl.v196 (F := Ideal) c arg2 harg2 arg3 harg3 arg9 arg10 arg11 x0 x1 (ix2 p t) = T3 x0 x1 p t := by
  unfold kernelRun1_B.sl.v196 kernelRun1_B.sl.HS3_4; rw [View.readCov_cons_toLoadRect]
  rw [Pay.pay53_apply, v183_eq, r_9_eq]; rfl

theorem v188_eq (p : Fin 512) (t : Fin 256) : kernelRun1_B.sl.v188 (F := Ideal) c arg2 harg2 arg3 harg3 arg9 arg10 x0 x1 (ix3 (0 : Fin 1) p t) = tScore x0 x1 3 p t := by
  unfold kernelRun1_B.sl.v188 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay16_apply x0 x1 p t

theorem v209_eq (p : Fin 512) (t : Fin 256) : kernelRun1_B.sl.v209 (F := Ideal) c arg2 harg2 arg3 harg3 arg9 arg10 arg11 x0 x1 (ix2 p t) = T4 x0 x1 p t := by
  unfold kernelRun1_B.sl.v209 kernelRun1_B.sl.HS3_5; rw [View.readCov_cons_toLoadRect]
  rw [Pay.pay56_apply, v196_eq, v188_eq, v151_eq, M12_eq]; rfl

theorem v201_eq (p : Fin 512) (t : Fin 256) : kernelRun1_B.sl.v201 (F := Ideal) c arg2 harg2 arg3 harg3 arg9 arg10 x0 x1 (ix3 (0 : Fin 1) p t) = tScore x0 x1 4 p t := by
  unfold kernelRun1_B.sl.v201 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay19_apply, r_4_eq]

theorem r_10_eq (p : Fin 512) (t : Fin 256) : kernelRun1_B.sl.r_10 (F := Ideal) c arg2 harg2 arg3 harg3 arg9 arg10 arg11 x0 x1 (ix2 p t) = T5 x0 x1 p t := by
  unfold kernelRun1_B.sl.r_10; rw [Pay.pay59_apply, v201_eq, v151_eq, M12_eq, v209_eq]; rfl

theorem v222_eq (p : Fin 512) (t : Fin 256) : kernelRun1_B.sl.v222 (F := Ideal) c arg2 harg2 arg3 harg3 arg9 arg10 arg11 x0 x1 (ix2 p t) = T5 x0 x1 p t := by
  unfold kernelRun1_B.sl.v222 kernelRun1_B.sl.HS3_6; rw [View.readCov_cons_toLoadRect]
  rw [Pay.pay60_eq]; exact r_10_eq c arg2 harg2 arg3 harg3 arg9 arg10 arg11 x0 x1 p t

theorem v214_eq (p : Fin 512) (t : Fin 256) : kernelRun1_B.sl.v214 (F := Ideal) c arg2 harg2 arg3 harg3 arg9 arg10 x0 x1 (ix3 (0 : Fin 1) p t) = tScore x0 x1 5 p t := by
  unfold kernelRun1_B.sl.v214 kernelRun1_B.sl.HS1_17 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay22_apply x0 x1 p t

theorem v235_eq (p : Fin 512) (t : Fin 256) : kernelRun1_B.sl.v235 (F := Ideal) c arg2 harg2 arg3 harg3 arg9 arg10 arg11 x0 x1 (ix2 p t) = T6 x0 x1 p t := by
  unfold kernelRun1_B.sl.v235 kernelRun1_B.sl.HS3_7; rw [View.readCov_cons_toLoadRect]
  rw [Pay.pay63_apply, v222_eq, v214_eq, v151_eq, M12_eq]; rfl

theorem v227_eq (p : Fin 512) (t : Fin 256) : kernelRun1_B.sl.v227 (F := Ideal) c arg2 harg2 arg3 harg3 arg9 arg10 x0 x1 (ix3 (0 : Fin 1) p t) = tScore x0 x1 6 p t := by
  unfold kernelRun1_B.sl.v227 kernelRun1_B.sl.HS1_18 kernelRun1_B.sl.HS1_17 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay25_apply x0 x1 p t

theorem v248_eq (p : Fin 512) (t : Fin 256) : kernelRun1_B.sl.v248 (F := Ideal) c arg2 harg2 arg3 harg3 arg9 arg10 arg11 x0 x1 (ix2 p t) = T7 x0 x1 p t := by
  unfold kernelRun1_B.sl.v248 kernelRun1_B.sl.HS3_8; rw [View.readCov_cons_toLoadRect]
  rw [Pay.pay66_apply, v235_eq, v227_eq, v151_eq, M12_eq]; rfl

theorem v240_eq (p : Fin 512) (t : Fin 256) : kernelRun1_B.sl.v240 (F := Ideal) c arg2 harg2 arg3 harg3 arg9 arg10 x0 x1 (ix3 (0 : Fin 1) p t) = tScore x0 x1 7 p t := by
  unfold kernelRun1_B.sl.v240 kernelRun1_B.sl.HS1_19 kernelRun1_B.sl.HS1_18 kernelRun1_B.sl.HS1_17 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay28_apply, r_5_eq]

theorem v261_eq (p : Fin 512) (t : Fin 256) : kernelRun1_B.sl.v261 (F := Ideal) c arg2 harg2 arg3 harg3 arg9 arg10 arg11 x0 x1 (ix2 p t) = T8 x0 x1 p t := by
  unfold kernelRun1_B.sl.v261 kernelRun1_B.sl.HS3_9; rw [View.readCov_cons_toLoadRect]
  rw [Pay.pay69_apply, v248_eq, v240_eq, v151_eq, M12_eq]; rfl

theorem v253_eq (p : Fin 512) (t : Fin 256) : kernelRun1_B.sl.v253 (F := Ideal) c arg2 harg2 arg3 harg3 arg9 arg10 x0 x1 (ix3 (0 : Fin 1) p t) = tScore x0 x1 8 p t := by
  unfold kernelRun1_B.sl.v253 kernelRun1_B.sl.HS1_20 kernelRun1_B.sl.HS1_19 kernelRun1_B.sl.HS1_18 kernelRun1_B.sl.HS1_17 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay31_apply x0 x1 p t

theorem v274_eq (p : Fin 512) (t : Fin 256) : kernelRun1_B.sl.v274 (F := Ideal) c arg2 harg2 arg3 harg3 arg9 arg10 arg11 x0 x1 (ix2 p t) = T9 x0 x1 p t := by
  unfold kernelRun1_B.sl.v274 kernelRun1_B.sl.HS3_10; rw [View.readCov_cons_toLoadRect]
  rw [Pay.pay72_apply, v261_eq, v253_eq, v151_eq, M12_eq]; rfl

theorem v266_eq (p : Fin 512) (t : Fin 256) : kernelRun1_B.sl.v266 (F := Ideal) c arg2 harg2 arg3 harg3 arg9 arg10 x0 x1 (ix3 (0 : Fin 1) p t) = tScore x0 x1 9 p t := by
  unfold kernelRun1_B.sl.v266 kernelRun1_B.sl.HS1_21 kernelRun1_B.sl.HS1_20 kernelRun1_B.sl.HS1_19 kernelRun1_B.sl.HS1_18 kernelRun1_B.sl.HS1_17 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay34_apply x0 x1 p t

theorem r_11_eq (p : Fin 512) (t : Fin 256) : kernelRun1_B.sl.r_11 (F := Ideal) c arg2 harg2 arg3 harg3 arg9 arg10 x0 x1 (ix2 p t) = tScore x0 x1 9 p t - tMax x0 x1 p t := by
  unfold kernelRun1_B.sl.r_11; rw [Pay.pay73_apply, v266_eq, v151_eq, M12_eq]

theorem v287_eq (p : Fin 512) (t : Fin 256) : kernelRun1_B.sl.v287 (F := Ideal) c arg2 harg2 arg3 harg3 arg9 arg10 arg11 x0 x1 (ix2 p t) = T10 x0 x1 p t := by
  unfold kernelRun1_B.sl.v287 kernelRun1_B.sl.HS3_11; rw [View.readCov_cons_toLoadRect]
  rw [Pay.pay76_apply, v274_eq, r_11_eq]; rfl

theorem v279_eq (p : Fin 512) (t : Fin 256) : kernelRun1_B.sl.v279 (F := Ideal) c arg2 harg2 arg3 harg3 arg9 arg10 x0 x1 (ix3 (0 : Fin 1) p t) = tScore x0 x1 10 p t := by
  unfold kernelRun1_B.sl.v279 kernelRun1_B.sl.HS1_22 kernelRun1_B.sl.HS1_21 kernelRun1_B.sl.HS1_20 kernelRun1_B.sl.HS1_19 kernelRun1_B.sl.HS1_18 kernelRun1_B.sl.HS1_17 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay39_apply]; simp only [r_6_eq, r_7_eq]; rfl

theorem v300_eq (p : Fin 512) (t : Fin 256) : kernelRun1_B.sl.v300 (F := Ideal) c arg2 harg2 arg3 harg3 arg9 arg10 arg11 x0 x1 (ix2 p t) = T11 x0 x1 p t := by
  unfold kernelRun1_B.sl.v300 kernelRun1_B.sl.HS3_12; rw [View.readCov_cons_toLoadRect]
  rw [Pay.pay79_apply, v287_eq, v279_eq, v151_eq, M12_eq]; rfl

theorem v292_eq (p : Fin 512) (t : Fin 256) : kernelRun1_B.sl.v292 (F := Ideal) c arg2 harg2 arg3 harg3 arg9 arg10 x0 x1 (ix3 (0 : Fin 1) p t) = tScore x0 x1 11 p t := by
  unfold kernelRun1_B.sl.v292 kernelRun1_B.sl.HS1_23 kernelRun1_B.sl.HS1_22 kernelRun1_B.sl.HS1_21 kernelRun1_B.sl.HS1_20 kernelRun1_B.sl.HS1_19 kernelRun1_B.sl.HS1_18 kernelRun1_B.sl.HS1_17 kernelRun1_B.sl.HS1_16 kernelRun1_B.sl.HS1_15 kernelRun1_B.sl.HS1_14 kernelRun1_B.sl.HS1_13 kernelRun1_B.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay42_apply x0 x1 p t

theorem r_12_eq (p : Fin 512) (t : Fin 256) : kernelRun1_B.sl.r_12 (F := Ideal) c arg2 harg2 arg3 harg3 arg9 arg10 x0 x1 (ix2 p t) = tExp x0 x1 11 p t := by
  unfold kernelRun1_B.sl.r_12; rw [Pay.pay80_apply, v292_eq, v151_eq, M12_eq]; rfl

theorem v305_eq (p : Fin 512) (t : Fin 256) : kernelRun1_B.sl.v305 (F := Ideal) c arg2 harg2 arg3 harg3 arg9 arg10 arg11 x0 x1 (ix2 p t) = T12 x0 x1 p t := by
  unfold kernelRun1_B.sl.v305 kernelRun1_B.sl.HS3_13; rw [View.readCov_cons_toLoadRect]
  rw [Pay.pay82_apply, v300_eq, r_12_eq]; rfl

theorem r_13_eq (p : Fin 512) (t : Fin 256) : kernelRun1_B.sl.r_13 (F := Ideal) c arg2 harg2 arg3 harg3 arg9 arg10 arg11 x0 x1 (ix2 p t) = tInv x0 x1 p t := by
  unfold kernelRun1_B.sl.r_13; rw [Pay.pay83_apply, v305_eq, T12_eq]; rfl

theorem v308_eq (p : Fin 512) (t : Fin 256) : kernelRun1_B.sl.v308 (F := Ideal) c arg2 harg2 arg3 harg3 arg9 arg10 x0 x1 (ix3 (0 : Fin 1) p t) = tExp x0 x1 0 p t := by
  unfold kernelRun1_B.sl.v308 kernelRun1_B.sl.HS1_24 kernelRun1_B.sl.HS1_23 kernelRun1_B.sl.HS1_22 kernelRun1_B.sl.HS1_21 kernelRun1_B.sl.HS1_20 kernelRun1_B.sl.HS1_19 kernelRun1_B.sl.HS1_18 kernelRun1_B.sl.HS1_17 kernelRun1_B.sl.HS1_16 kernelRun1_B.sl.HS1_15 kernelRun1_B.sl.HS1_14 kernelRun1_B.sl.HS1_13
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay46_apply, r_8_eq]

theorem v321_eq (p : Fin 512) (t : Fin 256) : kernelRun1_B.sl.v321 (F := Ideal) c arg2 harg2 arg3 harg3 arg9 arg10 x0 x1 (ix3 (0 : Fin 1) p t) = tExp x0 x1 1 p t := by
  unfold kernelRun1_B.sl.v321 kernelRun1_B.sl.HS1_24 kernelRun1_B.sl.HS1_23 kernelRun1_B.sl.HS1_22 kernelRun1_B.sl.HS1_21 kernelRun1_B.sl.HS1_20 kernelRun1_B.sl.HS1_19 kernelRun1_B.sl.HS1_18 kernelRun1_B.sl.HS1_17 kernelRun1_B.sl.HS1_16 kernelRun1_B.sl.HS1_15 kernelRun1_B.sl.HS1_14
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay49_apply, v162_eq, v151_eq, M12_eq]; rfl

theorem v334_eq (p : Fin 512) (t : Fin 256) : kernelRun1_B.sl.v334 (F := Ideal) c arg2 harg2 arg3 harg3 arg9 arg10 x0 x1 (ix3 (0 : Fin 1) p t) = tExp x0 x1 2 p t := by
  unfold kernelRun1_B.sl.v334 kernelRun1_B.sl.HS1_24 kernelRun1_B.sl.HS1_23 kernelRun1_B.sl.HS1_22 kernelRun1_B.sl.HS1_21 kernelRun1_B.sl.HS1_20 kernelRun1_B.sl.HS1_19 kernelRun1_B.sl.HS1_18 kernelRun1_B.sl.HS1_17 kernelRun1_B.sl.HS1_16 kernelRun1_B.sl.HS1_15
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay52_apply, v175_eq, v151_eq, M12_eq]; rfl

theorem v347_eq (p : Fin 512) (t : Fin 256) : kernelRun1_B.sl.v347 (F := Ideal) c arg2 harg2 arg3 harg3 arg9 arg10 x0 x1 (ix3 (0 : Fin 1) p t) = tExp x0 x1 3 p t := by
  unfold kernelRun1_B.sl.v347 kernelRun1_B.sl.HS1_24 kernelRun1_B.sl.HS1_23 kernelRun1_B.sl.HS1_22 kernelRun1_B.sl.HS1_21 kernelRun1_B.sl.HS1_20 kernelRun1_B.sl.HS1_19 kernelRun1_B.sl.HS1_18 kernelRun1_B.sl.HS1_17 kernelRun1_B.sl.HS1_16
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay55_apply, v188_eq, v151_eq, M12_eq]; rfl

theorem v360_eq (p : Fin 512) (t : Fin 256) : kernelRun1_B.sl.v360 (F := Ideal) c arg2 harg2 arg3 harg3 arg9 arg10 x0 x1 (ix3 (0 : Fin 1) p t) = tExp x0 x1 4 p t := by
  unfold kernelRun1_B.sl.v360 kernelRun1_B.sl.HS1_24 kernelRun1_B.sl.HS1_23 kernelRun1_B.sl.HS1_22 kernelRun1_B.sl.HS1_21 kernelRun1_B.sl.HS1_20 kernelRun1_B.sl.HS1_19 kernelRun1_B.sl.HS1_18 kernelRun1_B.sl.HS1_17
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay58_apply, v201_eq, v151_eq, M12_eq]; rfl

theorem v373_eq (p : Fin 512) (t : Fin 256) : kernelRun1_B.sl.v373 (F := Ideal) c arg2 harg2 arg3 harg3 arg9 arg10 x0 x1 (ix3 (0 : Fin 1) p t) = tExp x0 x1 5 p t := by
  unfold kernelRun1_B.sl.v373 kernelRun1_B.sl.HS1_24 kernelRun1_B.sl.HS1_23 kernelRun1_B.sl.HS1_22 kernelRun1_B.sl.HS1_21 kernelRun1_B.sl.HS1_20 kernelRun1_B.sl.HS1_19 kernelRun1_B.sl.HS1_18
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay62_apply, v214_eq, v151_eq, M12_eq]; rfl

theorem v386_eq (p : Fin 512) (t : Fin 256) : kernelRun1_B.sl.v386 (F := Ideal) c arg2 harg2 arg3 harg3 arg9 arg10 x0 x1 (ix3 (0 : Fin 1) p t) = tExp x0 x1 6 p t := by
  unfold kernelRun1_B.sl.v386 kernelRun1_B.sl.HS1_24 kernelRun1_B.sl.HS1_23 kernelRun1_B.sl.HS1_22 kernelRun1_B.sl.HS1_21 kernelRun1_B.sl.HS1_20 kernelRun1_B.sl.HS1_19
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay65_apply, v227_eq, v151_eq, M12_eq]; rfl

theorem v399_eq (p : Fin 512) (t : Fin 256) : kernelRun1_B.sl.v399 (F := Ideal) c arg2 harg2 arg3 harg3 arg9 arg10 x0 x1 (ix3 (0 : Fin 1) p t) = tExp x0 x1 7 p t := by
  unfold kernelRun1_B.sl.v399 kernelRun1_B.sl.HS1_24 kernelRun1_B.sl.HS1_23 kernelRun1_B.sl.HS1_22 kernelRun1_B.sl.HS1_21 kernelRun1_B.sl.HS1_20
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay68_apply, v240_eq, v151_eq, M12_eq]; rfl

theorem v412_eq (p : Fin 512) (t : Fin 256) : kernelRun1_B.sl.v412 (F := Ideal) c arg2 harg2 arg3 harg3 arg9 arg10 x0 x1 (ix3 (0 : Fin 1) p t) = tExp x0 x1 8 p t := by
  unfold kernelRun1_B.sl.v412 kernelRun1_B.sl.HS1_24 kernelRun1_B.sl.HS1_23 kernelRun1_B.sl.HS1_22 kernelRun1_B.sl.HS1_21
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay71_apply, v253_eq, v151_eq, M12_eq]; rfl

theorem v425_eq (p : Fin 512) (t : Fin 256) : kernelRun1_B.sl.v425 (F := Ideal) c arg2 harg2 arg3 harg3 arg9 arg10 x0 x1 (ix3 (0 : Fin 1) p t) = tExp x0 x1 9 p t := by
  unfold kernelRun1_B.sl.v425 kernelRun1_B.sl.HS1_24 kernelRun1_B.sl.HS1_23 kernelRun1_B.sl.HS1_22
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay75_apply, r_11_eq]; rfl

theorem v438_eq (p : Fin 512) (t : Fin 256) : kernelRun1_B.sl.v438 (F := Ideal) c arg2 harg2 arg3 harg3 arg9 arg10 x0 x1 (ix3 (0 : Fin 1) p t) = tExp x0 x1 10 p t := by
  unfold kernelRun1_B.sl.v438 kernelRun1_B.sl.HS1_24 kernelRun1_B.sl.HS1_23
  rw [View.readCov_cons_of_disjoint]; swap; (dsimp only; exact Rect.unit_disjoint 0 (by decide))
  rw [View.readCov_cons_toLoadRect]
  rw [Pay.pay78_apply, v279_eq, v151_eq, M12_eq]; rfl

theorem v451_eq (p : Fin 512) (t : Fin 256) : kernelRun1_B.sl.v451 (F := Ideal) c arg2 harg2 arg3 harg3 arg9 arg10 x0 x1 (ix3 (0 : Fin 1) p t) = tExp x0 x1 11 p t := by
  unfold kernelRun1_B.sl.v451 kernelRun1_B.sl.HS1_24

  rw [View.readCov_cons_toLoadRect]
  rw [Pay.pay81_apply, r_12_eq]

end Cert.KernelIdeal.R1CB

end
-- ==== Proof.KI.R1PiecesB.lean ====
import proofs.«178773_j13254269075465_2_alg».proof.Proof.KI.R1ChainB
import proofs.«178773_j13254269075465_2_alg».proof.Proof.KI.R1
import Idealize.ShloMosaic.Lib.Pipeline.CanonAppend

set_option maxRecDepth 16384

noncomputable section

/-! # What case B leaves in the accumulator

The pieces the run stored are the twelve 64-column bands of the accumulator, one per head. Band `h` holds the old band
plus head `h`'s contribution: the head's exponentials over the tile's sum, scaled, against the head's columns of the
value block. Together the bands are one tile's step. -/

namespace Cert.KernelIdeal.R1CB

open Cert.KernelIdeal Cert.KernelIdeal.Gen Cert.KernelIdeal.R1 Cert.KernelIdeal.R1F Cert.KernelIdeal Cert.Attn
open Idealize.ShloMosaic Idealize.ShloMosaic.ValueIdx

variable (c : Dev nD) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (arg6 : Memref sig .tc .vmem S1x768 .f32) (arg7 : Memref sig .tc .vmem S512x768 .f32) (arg8 : Memref sig .tc .vmem S512x768 .f32) (harg8 : arg8.IsWhole) (arg9 : Memref sig .tc .vmem S12x512x256 .f32) (arg10 : Memref sig .tc .vmem S512x256 .f32) (arg11 : Memref sig .tc .vmem S512x256 .f32) (x0 : Vec Ideal S512x768 .bf16) (x1 : Vec Ideal S256x768 .bf16) (x2 : Vec Ideal S256x768 .bf16) (xs0 : Vec Ideal S512x768 .f32)

theorem v329_eq (p : Fin 512) (d : Fin 64) : kernelRun1_B.sl.v329 (F := Ideal) c arg8 harg8 xs0 (ix2 p d) = xs0 (ix2 p (col 1 d)) := by
  unfold kernelRun1_B.sl.v329
  exact (ld_band arg8 harg8 xs0 64 _ p d (by have := d.isLt; omega)).trans (congrArg xs0 (congrArg (ix2 p) (Fin.ext rfl)))

theorem v342_eq (p : Fin 512) (d : Fin 64) : kernelRun1_B.sl.v342 (F := Ideal) c arg8 harg8 xs0 (ix2 p d) = xs0 (ix2 p (col 2 d)) := by
  unfold kernelRun1_B.sl.v342
  exact (ld_band arg8 harg8 xs0 128 _ p d (by have := d.isLt; omega)).trans (congrArg xs0 (congrArg (ix2 p) (Fin.ext rfl)))

theorem v355_eq (p : Fin 512) (d : Fin 64) : kernelRun1_B.sl.v355 (F := Ideal) c arg8 harg8 xs0 (ix2 p d) = xs0 (ix2 p (col 3 d)) := by
  unfold kernelRun1_B.sl.v355
  exact (ld_band arg8 harg8 xs0 192 _ p d (by have := d.isLt; omega)).trans (congrArg xs0 (congrArg (ix2 p) (Fin.ext rfl)))

theorem v368_eq (p : Fin 512) (d : Fin 64) : kernelRun1_B.sl.v368 (F := Ideal) c arg8 harg8 xs0 (ix2 p d) = xs0 (ix2 p (col 4 d)) := by
  unfold kernelRun1_B.sl.v368
  exact (ld_band arg8 harg8 xs0 256 _ p d (by have := d.isLt; omega)).trans (congrArg xs0 (congrArg (ix2 p) (Fin.ext rfl)))

theorem v381_eq (p : Fin 512) (d : Fin 64) : kernelRun1_B.sl.v381 (F := Ideal) c arg8 harg8 xs0 (ix2 p d) = xs0 (ix2 p (col 5 d)) := by
  unfold kernelRun1_B.sl.v381
  exact (ld_band arg8 harg8 xs0 320 _ p d (by have := d.isLt; omega)).trans (congrArg xs0 (congrArg (ix2 p) (Fin.ext rfl)))

theorem v394_eq (p : Fin 512) (d : Fin 64) : kernelRun1_B.sl.v394 (F := Ideal) c arg8 harg8 xs0 (ix2 p d) = xs0 (ix2 p (col 6 d)) := by
  unfold kernelRun1_B.sl.v394
  exact (ld_band arg8 harg8 xs0 384 _ p d (by have := d.isLt; omega)).trans (congrArg xs0 (congrArg (ix2 p) (Fin.ext rfl)))

theorem v407_eq (p : Fin 512) (d : Fin 64) : kernelRun1_B.sl.v407 (F := Ideal) c arg8 harg8 xs0 (ix2 p d) = xs0 (ix2 p (col 7 d)) := by
  unfold kernelRun1_B.sl.v407
  exact (ld_band arg8 harg8 xs0 448 _ p d (by have := d.isLt; omega)).trans (congrArg xs0 (congrArg (ix2 p) (Fin.ext rfl)))

theorem v420_eq (p : Fin 512) (d : Fin 64) : kernelRun1_B.sl.v420 (F := Ideal) c arg8 harg8 xs0 (ix2 p d) = xs0 (ix2 p (col 8 d)) := by
  unfold kernelRun1_B.sl.v420
  exact (ld_band arg8 harg8 xs0 512 _ p d (by have := d.isLt; omega)).trans (congrArg xs0 (congrArg (ix2 p) (Fin.ext rfl)))

theorem v433_eq (p : Fin 512) (d : Fin 64) : kernelRun1_B.sl.v433 (F := Ideal) c arg8 harg8 xs0 (ix2 p d) = xs0 (ix2 p (col 9 d)) := by
  unfold kernelRun1_B.sl.v433
  exact (ld_band arg8 harg8 xs0 576 _ p d (by have := d.isLt; omega)).trans (congrArg xs0 (congrArg (ix2 p) (Fin.ext rfl)))

theorem v446_eq (p : Fin 512) (d : Fin 64) : kernelRun1_B.sl.v446 (F := Ideal) c arg8 harg8 xs0 (ix2 p d) = xs0 (ix2 p (col 10 d)) := by
  unfold kernelRun1_B.sl.v446
  exact (ld_band arg8 harg8 xs0 640 _ p d (by have := d.isLt; omega)).trans (congrArg xs0 (congrArg (ix2 p) (Fin.ext rfl)))

theorem v459_eq (p : Fin 512) (d : Fin 64) : kernelRun1_B.sl.v459 (F := Ideal) c arg8 harg8 xs0 (ix2 p d) = xs0 (ix2 p (col 11 d)) := by
  unfold kernelRun1_B.sl.v459
  exact (ld_band arg8 harg8 xs0 704 _ p d (by have := d.isLt; omega)).trans (congrArg xs0 (congrArg (ix2 p) (Fin.ext rfl)))

theorem acc0_eq (inb : ∀ a, (![0, 0] : Fin 2 → Nat) a + S512x64.size a ≤ S512x768.size a) (p : Fin 512) (d : Fin 64) :
    View.readAt (Elt Ideal) arg8.view (Rect.unit (s := S512x768) ![0, 0] S512x64.size inb).toLoadRect (harg8.unread xs0) (ix2 p d) = xs0 (ix2 p (col 0 d)) :=
  (ld_band arg8 harg8 xs0 0 inb p d (by have := d.isLt; omega)).trans (congrArg xs0 (congrArg (ix2 p) (Fin.ext (by show 0 + d.val = _; simp [col]))))

theorem r_14_eq (p : Fin 512) (d : Fin 64) : kernelRun1_B.sl.r_14 (F := Ideal) c arg2 harg2 arg3 harg3 arg4 harg4 arg8 harg8 arg9 arg10 arg11 x0 x1 x2 xs0 (ix2 p d) = xs0 (ix2 p (col 1 d)) + tContrib x0 x1 x2 1 p d := by
  unfold kernelRun1_B.sl.r_14; rw [Pay.pay85_apply]
  simp only [r_2_eq, v305_eq, T12_eq, v321_eq, v329_eq, tContrib_apply, tAttn_apply, tInv_apply]

theorem r_15_eq (p : Fin 512) (t : Fin 256) : kernelRun1_B.sl.r_15 (F := Ideal) c arg2 harg2 arg3 harg3 arg9 arg10 arg11 x0 x1 (ix2 p t) = tAttn x0 x1 4 p t := by
  unfold kernelRun1_B.sl.r_15; rw [Pay.pay89_apply]
  simp only [r_13_eq, v360_eq, tAttn_apply]

theorem r_16_eq (p : Fin 512) (d : Fin 64) : kernelRun1_B.sl.r_16 (F := Ideal) c arg2 harg2 arg3 harg3 arg4 harg4 arg9 arg10 arg11 x0 x1 x2 (ix2 p d) = tContrib x0 x1 x2 9 p d := by
  unfold kernelRun1_B.sl.r_16; rw [Pay.pay95_apply]
  simp only [r_2_eq, r_13_eq, v425_eq, tContrib_apply, tAttn_apply]

theorem emb_band (off : Nat) (inb : ∀ a, (![0, off] : Fin 2 → Nat) a + S512x64.size a ≤ S512x768.size a) (h : Fin 12) (hoff : off = h.val * 64) (p : Fin 512) (d : Fin 64) :
    (Rect.unit (s := S512x768) ![0, off] S512x64.size inb).emb (ix2 p d) = ix2 p (col h d) := by
  subst hoff
  funext a; apply Fin.ext; rw [Rect.emb_apply]
  match a with
  | ⟨0, _⟩ => simp [ix2]
  | ⟨1, _⟩ => simp [ix2, col]

/-- What case B leaves in the accumulator is one tile's step from what it held: each of its twelve 64-column pieces is
    the old band plus that head's contribution. -/
theorem sout_eq (i : grid1.Coords) (harg5 : arg5.IsWhole) (harg6 : arg6.IsWhole) (harg7 : arg7.IsWhole) (harg9 : arg9.IsWhole) (harg10 : arg10.IsWhole) (harg11 : arg11.IsWhole)
    (hc0 : ¬cond1_0 i) (hc1 : ¬cond1_1 i) (x3 : Vec Ideal S768x768 .bf16) (x4 : Vec Ideal S1x768 .f32) :
    sout1_B_0 (F := Ideal) c i arg2 harg2 arg3 harg3 arg4 harg4 arg5 harg5 arg6 harg6 arg7 harg7 arg8 harg8 arg9 harg9 arg10 harg10 arg11 harg11 hc0 hc1 x0 x1 x2 x3 x4 xs0 = tileStep x0 x1 x2 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 xs0)]
  funext y
  refine View.canon_apply_of_pieces (tileStep x0 x1 x2 xs0) _ ?_ y (scover1_B_0 c i arg2 harg2 arg3 harg3 arg4 harg4 arg5 harg5 arg6 harg6 arg7 harg7 arg8 harg8 arg9 harg9 arg10 harg10 arg11 harg11 hc0 hc1 x0 x1 x2 x3 x4 xs0 y)
  unfold kernelRun1_B
  dsimp only
  intro pc hpc x
  simp only [List.mem_cons, List.not_mem_nil, or_false] at hpc
  rcases hpc with rfl | rfl | rfl | rfl | rfl | rfl | rfl | rfl | rfl | rfl | rfl | rfl
  · obtain ⟨p, d, rfl⟩ : ∃ (p : Fin 512) (d : Fin 64), x = ix2 p d := ⟨x 0, x 1, eq_ix2 x⟩
    rw [emb_band 704 _ 11 rfl p d, tileStep_col]
    dsimp only
    rw [Pay.pay98_apply]; simp only [r_2_eq, r_13_eq, v451_eq, v459_eq, tContrib_apply, tAttn_apply]
  · obtain ⟨p, d, rfl⟩ : ∃ (p : Fin 512) (d : Fin 64), x = ix2 p d := ⟨x 0, x 1, eq_ix2 x⟩
    rw [emb_band 640 _ 10 rfl p d, tileStep_col]
    dsimp only
    rw [Pay.pay97_apply]; simp only [r_2_eq, r_13_eq, v438_eq, v446_eq, tContrib_apply, tAttn_apply]
  · obtain ⟨p, d, rfl⟩ : ∃ (p : Fin 512) (d : Fin 64), x = ix2 p d := ⟨x 0, x 1, eq_ix2 x⟩
    rw [emb_band 576 _ 9 rfl p d, tileStep_col]
    dsimp only
    rw [Pay.pay96_apply]; simp only [r_16_eq, v433_eq]
  · obtain ⟨p, d, rfl⟩ : ∃ (p : Fin 512) (d : Fin 64), x = ix2 p d := ⟨x 0, x 1, eq_ix2 x⟩
    rw [emb_band 512 _ 8 rfl p d, tileStep_col]
    dsimp only
    rw [Pay.pay94_apply]; simp only [r_2_eq, r_13_eq, v412_eq, v420_eq, tContrib_apply, tAttn_apply]
  · obtain ⟨p, d, rfl⟩ : ∃ (p : Fin 512) (d : Fin 64), x = ix2 p d := ⟨x 0, x 1, eq_ix2 x⟩
    rw [emb_band 448 _ 7 rfl p d, tileStep_col]
    dsimp only
    rw [Pay.pay93_apply]; simp only [r_2_eq, r_13_eq, v399_eq, v407_eq, tContrib_apply, tAttn_apply]
  · obtain ⟨p, d, rfl⟩ : ∃ (p : Fin 512) (d : Fin 64), x = ix2 p d := ⟨x 0, x 1, eq_ix2 x⟩
    rw [emb_band 384 _ 6 rfl p d, tileStep_col]
    dsimp only
    rw [Pay.pay92_apply]; simp only [r_2_eq, r_13_eq, v386_eq, v394_eq, tContrib_apply, tAttn_apply]
  · obtain ⟨p, d, rfl⟩ : ∃ (p : Fin 512) (d : Fin 64), x = ix2 p d := ⟨x 0, x 1, eq_ix2 x⟩
    rw [emb_band 320 _ 5 rfl p d, tileStep_col]
    dsimp only
    rw [Pay.pay91_apply]; simp only [r_2_eq, r_13_eq, v373_eq, v381_eq, tContrib_apply, tAttn_apply]
  · obtain ⟨p, d, rfl⟩ : ∃ (p : Fin 512) (d : Fin 64), x = ix2 p d := ⟨x 0, x 1, eq_ix2 x⟩
    rw [emb_band 256 _ 4 rfl p d, tileStep_col]
    dsimp only
    rw [Pay.pay90_apply]; simp only [r_2_eq, r_15_eq, v368_eq, tContrib_apply]
  · obtain ⟨p, d, rfl⟩ : ∃ (p : Fin 512) (d : Fin 64), x = ix2 p d := ⟨x 0, x 1, eq_ix2 x⟩
    rw [emb_band 192 _ 3 rfl p d, tileStep_col]
    dsimp only
    rw [Pay.pay88_apply]; simp only [r_2_eq, r_13_eq, v347_eq, v355_eq, tContrib_apply, tAttn_apply]
  · obtain ⟨p, d, rfl⟩ : ∃ (p : Fin 512) (d : Fin 64), x = ix2 p d := ⟨x 0, x 1, eq_ix2 x⟩
    rw [emb_band 128 _ 2 rfl p d, tileStep_col]
    dsimp only
    rw [Pay.pay87_apply]; simp only [r_2_eq, r_13_eq, v334_eq, v342_eq, tContrib_apply, tAttn_apply]
  · obtain ⟨p, d, rfl⟩ : ∃ (p : Fin 512) (d : Fin 64), x = ix2 p d := ⟨x 0, x 1, eq_ix2 x⟩
    rw [emb_band 64 _ 1 rfl p d, tileStep_col]
    dsimp only
    rw [Pay.pay86_eq]; exact r_14_eq c arg2 harg2 arg3 harg3 arg4 harg4 arg8 harg8 arg9 arg10 arg11 x0 x1 x2 xs0 p d
  · obtain ⟨p, d, rfl⟩ : ∃ (p : Fin 512) (d : Fin 64), x = ix2 p d := ⟨x 0, x 1, eq_ix2 x⟩
    rw [emb_band 0 _ 0 rfl p d, tileStep_col]
    dsimp only
    rw [Pay.pay84_apply]; simp only [r_2_eq, v305_eq, T12_eq, v308_eq, acc0_eq, tContrib_apply, tAttn_apply, tInv_apply]
    exact congrArg (fun z => z + _) (acc0_eq arg8 harg8 xs0 _ p d)

end Cert.KernelIdeal.R1CB

end
-- ==== Proof.KI.R1ChainC.lean ====
import proofs.«178773_j13254269075465_2_alg».proof.Proof.KI.R1RunC
import proofs.«178773_j13254269075465_2_alg».proof.Proof.KI.R1Forms
import proofs.«178773_j13254269075465_2_alg».proof.Proof.KI.Payloads
import proofs.«178773_j13254269075465_2_alg».proof.Proof.KI.Payloads2
import proofs.«178773_j13254269075465_2_alg».proof.Proof.KI.Payloads3

set_option maxRecDepth 16384

noncomputable section

/-! # What the body's intermediate values are, in case C

Each load of the run reads back the last store that covers it: a whole work buffer its last whole store, one head's slab
of the scores buffer the last store into that slab. Followed in program order this gives every intermediate value in
closed form: the per-head scores, the running maximum after `k` heads, the exponentials, the running sum after `k`
heads, the inverse of the sum. -/

namespace Cert.KernelIdeal.R1CC

open Cert.KernelIdeal Cert.KernelIdeal.Gen Cert.KernelIdeal.R1 Cert.KernelIdeal.R1F Cert.KernelIdeal Cert.Attn
open Idealize.ShloMosaic Idealize.ShloMosaic.ValueIdx

variable (c : Dev nD) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg8 : Memref sig .tc .vmem S512x768 .f32) (harg8 : arg8.IsWhole) (arg9 : Memref sig .tc .vmem S12x512x256 .f32) (arg10 : Memref sig .tc .vmem S512x256 .f32) (arg11 : Memref sig .tc .vmem S512x256 .f32) (x0 : Vec Ideal S512x768 .bf16) (x1 : Vec Ideal S256x768 .bf16) (x2 : Vec Ideal S256x768 .bf16) (xs0 : Vec Ideal S512x768 .f32)

theorem r_eq : kernelRun1_C.sl.r (F := Ideal) c arg2 harg2 x0 = x0 := by
  unfold kernelRun1_C.sl.r; rw [Pay.pay2_eq]; exact ld_whole rfl arg2 harg2 x0 _ hz2 _

theorem r_1_eq : kernelRun1_C.sl.r_1 (F := Ideal) c arg3 harg3 x1 = x1 := by
  unfold kernelRun1_C.sl.r_1; rw [Pay.pay3_eq]; exact ld_whole rfl arg3 harg3 x1 _ hz2 _

theorem r_2_eq : kernelRun1_C.sl.r_2 (F := Ideal) c arg4 harg4 x2 = x2 := by
  unfold kernelRun1_C.sl.r_2; rw [Pay.pay4_eq]; exact ld_whole rfl arg4 harg4 x2 _ hz2 _

theorem r_3_eq (p : Fin 512) (t : Fin 256) : kernelRun1_C.sl.r_3 (F := Ideal) c arg2 harg2 arg3 harg3 x0 x1 (ix2 p t) = tScore x0 x1 1 p t := by
  unfold kernelRun1_C.sl.r_3; rw [ld_whole rfl arg2 harg2 x0 _ hz2 _, ld_whole rfl arg3 harg3 x1 _ hz2 _]; exact Pay.pay9_apply x0 x1 p t

theorem r_4_eq (p : Fin 512) (t : Fin 256) : kernelRun1_C.sl.r_4 (F := Ideal) c arg2 harg2 arg3 harg3 x0 x1 (ix2 p t) = tScore x0 x1 4 p t := by
  unfold kernelRun1_C.sl.r_4; rw [r_eq, r_1_eq]; exact Pay.pay18_apply x0 x1 p t

theorem r_5_eq (p : Fin 512) (t : Fin 256) : kernelRun1_C.sl.r_5 (F := Ideal) c arg2 harg2 arg3 harg3 x0 x1 (ix2 p t) = tScore x0 x1 7 p t := by
  unfold kernelRun1_C.sl.r_5; rw [r_eq, r_1_eq]; exact Pay.pay27_apply x0 x1 p t

theorem r_6_eq (p : Fin 512) (d : Fin 64) : kernelRun1_C.sl.r_6 (F := Ideal) c arg2 harg2 x0 (ix2 p d) = x0 (ix2 p (col 10 d)) := by
  unfold kernelRun1_C.sl.r_6; rw [r_eq]; exact Pay.pay36_apply x0 p d

theorem r_7_eq (t : Fin 256) (d : Fin 64) : kernelRun1_C.sl.r_7 (F := Ideal) c arg3 harg3 x1 (ix2 t d) = x1 (ix2 t (col 10 d)) := by
  unfold kernelRun1_C.sl.r_7; rw [r_1_eq]; exact Pay.pay37_apply x1 t d

theorem v19_eq (p : Fin 512) (t : Fin 256) : kernelRun1_C.sl.v19 (F := Ideal) c arg10 (ix2 p t) = M0 x0 x1 p t := by
  unfold kernelRun1_C.sl.v19 kernelRun1_C.sl.HS2_1; rw [View.readCov_cons_toLoadRect]; rw [Pay.pay5_eq]; rfl

theorem v30_eq (p : Fin 512) (t : Fin 256) : kernelRun1_C.sl.v30 (F := Ideal) c arg2 harg2 arg3 harg3 arg10 x0 x1 (ix2 p t) = M1 x0 x1 p t := by
  unfold kernelRun1_C.sl.v30 kernelRun1_C.sl.HS2_2; rw [View.readCov_cons_toLoadRect]
  rw [ld_whole rfl arg2 harg2 x0 _ hz2 _, ld_whole rfl arg3 harg3 x1 _ hz2 _, Pay.pay8_apply, v19_eq]; rfl

theorem v41_eq (p : Fin 512) (t : Fin 256) : kernelRun1_C.sl.v41 (F := Ideal) c arg2 harg2 arg3 harg3 arg10 x0 x1 (ix2 p t) = M2 x0 x1 p t := by
  unfold kernelRun1_C.sl.v41 kernelRun1_C.sl.HS2_3; rw [View.readCov_cons_toLoadRect]
  rw [Pay.pay11_apply, v30_eq, r_3_eq]; rfl

theorem v52_eq (p : Fin 512) (t : Fin 256) : kernelRun1_C.sl.v52 (F := Ideal) c arg2 harg2 arg3 harg3 arg10 x0 x1 (ix2 p t) = M3 x0 x1 p t := by
  unfold kernelRun1_C.sl.v52 kernelRun1_C.sl.HS2_4; rw [View.readCov_cons_toLoadRect]
  rw [r_eq, r_1_eq, Pay.pay14_apply, v41_eq]; rfl

theorem v63_eq (p : Fin 512) (t : Fin 256) : kernelRun1_C.sl.v63 (F := Ideal) c arg2 harg2 arg3 harg3 arg10 x0 x1 (ix2 p t) = M4 x0 x1 p t := by
  unfold kernelRun1_C.sl.v63 kernelRun1_C.sl.HS2_5; rw [View.readCov_cons_toLoadRect]
  rw [r_eq, r_1_eq, Pay.pay17_apply, v52_eq]; rfl

theorem v74_eq (p : Fin 512) (t : Fin 256) : kernelRun1_C.sl.v74 (F := Ideal) c arg2 harg2 arg3 harg3 arg10 x0 x1 (ix2 p t) = M5 x0 x1 p t := by
  unfold kernelRun1_C.sl.v74 kernelRun1_C.sl.HS2_6; rw [View.readCov_cons_toLoadRect]
  rw [Pay.pay20_apply, v63_eq, r_4_eq]; rfl

theorem v85_eq (p : Fin 512) (t : Fin 256) : kernelRun1_C.sl.v85 (F := Ideal) c arg2 harg2 arg3 harg3 arg10 x0 x1 (ix2 p t) = M6 x0 x1 p t := by
  unfold kernelRun1_C.sl.v85 kernelRun1_C.sl.HS2_7; rw [View.readCov_cons_toLoadRect]
  rw [r_eq, r_1_eq, Pay.pay23_apply, v74_eq]; rfl

theorem v96_eq (p : Fin 512) (t : Fin 256) : kernelRun1_C.sl.v96 (F := Ideal) c arg2 harg2 arg3 harg3 arg10 x0 x1 (ix2 p t) = M7 x0 x1 p t := by
  unfold kernelRun1_C.sl.v96 kernelRun1_C.sl.HS2_8; rw [View.readCov_cons_toLoadRect]
  rw [r_eq, r_1_eq, Pay.pay26_apply, v85_eq]; rfl

theorem v107_eq (p : Fin 512) (t : Fin 256) : kernelRun1_C.sl.v107 (F := Ideal) c arg2 harg2 arg3 harg3 arg10 x0 x1 (ix2 p t) = M8 x0 x1 p t := by
  unfold kernelRun1_C.sl.v107 kernelRun1_C.sl.HS2_9; rw [View.readCov_cons_toLoadRect]
  rw [Pay.pay29_apply, v96_eq, r_5_eq]; rfl

theorem v118_eq (p : Fin 512) (t : Fin 256) : kernelRun1_C.sl.v118 (F := Ideal) c arg2 harg2 arg3 harg3 arg10 x0 x1 (ix2 p t) = M9 x0 x1 p t := by
  unfold kernelRun1_C.sl.v118 kernelRun1_C.sl.HS2_10; rw [View.readCov_cons_toLoadRect]
  rw [r_eq, r_1_eq, Pay.pay32_apply, v107_eq]; rfl

theorem v129_eq (p : Fin 512) (t : Fin 256) : kernelRun1_C.sl.v129 (F := Ideal) c arg2 harg2 arg3 harg3 arg10 x0 x1 (ix2 p t) = M10 x0 x1 p t := by
  unfold kernelRun1_C.sl.v129 kernelRun1_C.sl.HS2_11; rw [View.readCov_cons_toLoadRect]
  rw [r_eq, r_1_eq, Pay.pay35_apply, v118_eq]; rfl

theorem v140_eq (p : Fin 512) (t : Fin 256) : kernelRun1_C.sl.v140 (F := Ideal) c arg2 harg2 arg3 harg3 arg10 x0 x1 (ix2 p t) = M11 x0 x1 p t := by
  unfold kernelRun1_C.sl.v140 kernelRun1_C.sl.HS2_12; rw [View.readCov_cons_toLoadRect]
  rw [Pay.pay40_apply, v129_eq]; simp only [r_6_eq, r_7_eq]; rfl

theorem v151_eq (p : Fin 512) (t : Fin 256) : kernelRun1_C.sl.v151 (F := Ideal) c arg2 harg2 arg3 harg3 arg10 x0 x1 (ix2 p t) = M12 x0 x1 p t := by
  unfold kernelRun1_C.sl.v151 kernelRun1_C.sl.HS2_13; rw [View.readCov_cons_toLoadRect]
  rw [r_eq, r_1_eq, Pay.pay43_apply, v140_eq]; rfl

theorem v157_eq (p : Fin 512) (t : Fin 256) : kernelRun1_C.sl.v157 (F := Ideal) c arg11 (ix2 p t) = T0 x0 x1 p t := by
  unfold kernelRun1_C.sl.v157 kernelRun1_C.sl.HS3_1; rw [View.readCov_cons_toLoadRect]; rw [Pay.pay44_eq]; rfl

theorem v149_eq (p : Fin 512) (t : Fin 256) : kernelRun1_C.sl.v149 (F := Ideal) c arg2 harg2 arg3 harg3 arg9 x0 x1 (ix3 (0 : Fin 1) p t) = tScore x0 x1 0 p t := by
  unfold kernelRun1_C.sl.v149 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [ld_whole rfl arg2 harg2 x0 _ hz2 _, ld_whole rfl arg3 harg3 x1 _ hz2 _]; exact Pay.pay7_apply x0 x1 p t

theorem r_8_eq (p : Fin 512) (t : Fin 256) : kernelRun1_C.sl.r_8 (F := Ideal) c arg2 harg2 arg3 harg3 arg9 arg10 x0 x1 (ix2 p t) = tExp x0 x1 0 p t := by
  unfold kernelRun1_C.sl.r_8; rw [Pay.pay45_apply, v149_eq, v151_eq, M12_eq]; rfl

theorem v170_eq (p : Fin 512) (t : Fin 256) : kernelRun1_C.sl.v170 (F := Ideal) c arg2 harg2 arg3 harg3 arg9 arg10 arg11 x0 x1 (ix2 p t) = T1 x0 x1 p t := by
  unfold kernelRun1_C.sl.v170 kernelRun1_C.sl.HS3_2; rw [View.readCov_cons_toLoadRect]
  rw [Pay.pay47_apply, v157_eq, r_8_eq]; rfl

theorem v162_eq (p : Fin 512) (t : Fin 256) : kernelRun1_C.sl.v162 (F := Ideal) c arg2 harg2 arg3 harg3 arg9 arg10 x0 x1 (ix3 (0 : Fin 1) p t) = tScore x0 x1 1 p t := by
  unfold kernelRun1_C.sl.v162 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [ld_whole rfl arg2 harg2 x0 _ hz2 _, ld_whole rfl arg3 harg3 x1 _ hz2 _]; exact Pay.pay10_apply x0 x1 p t

theorem v183_eq (p : Fin 512) (t : Fin 256) : kernelRun1_C.sl.v183 (F := Ideal) c arg2 harg2 arg3 harg3 arg9 arg10 arg11 x0 x1 (ix2 p t) = T2 x0 x1 p t := by
  unfold kernelRun1_C.sl.v183 kernelRun1_C.sl.HS3_3; rw [View.readCov_cons_toLoadRect]
  rw [Pay.pay50_apply, v170_eq, v162_eq, v151_eq, M12_eq]; rfl

theorem v175_eq (p : Fin 512) (t : Fin 256) : kernelRun1_C.sl.v175 (F := Ideal) c arg2 harg2 arg3 harg3 arg9 arg10 x0 x1 (ix3 (0 : Fin 1) p t) = tScore x0 x1 2 p t := by
  unfold kernelRun1_C.sl.v175 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay13_apply x0 x1 p t

theorem r_9_eq (p : Fin 512) (t : Fin 256) : kernelRun1_C.sl.r_9 (F := Ideal) c arg2 harg2 arg3 harg3 arg9 arg10 x0 x1 (ix2 p t) = tExp x0 x1 2 p t := by
  unfold kernelRun1_C.sl.r_9; rw [Pay.pay51_apply, v175_eq, v151_eq, M12_eq]; rfl

theorem v196_eq (p : Fin 512) (t : Fin 256) : kernelRun1_C.sl.v196 (F := Ideal) c arg2 harg2 arg3 harg3 arg9 arg10 arg11 x0 x1 (ix2 p t) = T3 x0 x1 p t := by
  unfold kernelRun1_C.sl.v196 kernelRun1_C.sl.HS3_4; rw [View.readCov_cons_toLoadRect]
  rw [Pay.pay53_apply, v183_eq, r_9_eq]; rfl

theorem v188_eq (p : Fin 512) (t : Fin 256) : kernelRun1_C.sl.v188 (F := Ideal) c arg2 harg2 arg3 harg3 arg9 arg10 x0 x1 (ix3 (0 : Fin 1) p t) = tScore x0 x1 3 p t := by
  unfold kernelRun1_C.sl.v188 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay16_apply x0 x1 p t

theorem v209_eq (p : Fin 512) (t : Fin 256) : kernelRun1_C.sl.v209 (F := Ideal) c arg2 harg2 arg3 harg3 arg9 arg10 arg11 x0 x1 (ix2 p t) = T4 x0 x1 p t := by
  unfold kernelRun1_C.sl.v209 kernelRun1_C.sl.HS3_5; rw [View.readCov_cons_toLoadRect]
  rw [Pay.pay56_apply, v196_eq, v188_eq, v151_eq, M12_eq]; rfl

theorem v201_eq (p : Fin 512) (t : Fin 256) : kernelRun1_C.sl.v201 (F := Ideal) c arg2 harg2 arg3 harg3 arg9 arg10 x0 x1 (ix3 (0 : Fin 1) p t) = tScore x0 x1 4 p t := by
  unfold kernelRun1_C.sl.v201 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay19_apply, r_4_eq]

theorem r_10_eq (p : Fin 512) (t : Fin 256) : kernelRun1_C.sl.r_10 (F := Ideal) c arg2 harg2 arg3 harg3 arg9 arg10 arg11 x0 x1 (ix2 p t) = T5 x0 x1 p t := by
  unfold kernelRun1_C.sl.r_10; rw [Pay.pay59_apply, v201_eq, v151_eq, M12_eq, v209_eq]; rfl

theorem v222_eq (p : Fin 512) (t : Fin 256) : kernelRun1_C.sl.v222 (F := Ideal) c arg2 harg2 arg3 harg3 arg9 arg10 arg11 x0 x1 (ix2 p t) = T5 x0 x1 p t := by
  unfold kernelRun1_C.sl.v222 kernelRun1_C.sl.HS3_6; rw [View.readCov_cons_toLoadRect]
  rw [Pay.pay60_eq]; exact r_10_eq c arg2 harg2 arg3 harg3 arg9 arg10 arg11 x0 x1 p t

theorem v214_eq (p : Fin 512) (t : Fin 256) : kernelRun1_C.sl.v214 (F := Ideal) c arg2 harg2 arg3 harg3 arg9 arg10 x0 x1 (ix3 (0 : Fin 1) p t) = tScore x0 x1 5 p t := by
  unfold kernelRun1_C.sl.v214 kernelRun1_C.sl.HS1_17 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay22_apply x0 x1 p t

theorem v235_eq (p : Fin 512) (t : Fin 256) : kernelRun1_C.sl.v235 (F := Ideal) c arg2 harg2 arg3 harg3 arg9 arg10 arg11 x0 x1 (ix2 p t) = T6 x0 x1 p t := by
  unfold kernelRun1_C.sl.v235 kernelRun1_C.sl.HS3_7; rw [View.readCov_cons_toLoadRect]
  rw [Pay.pay63_apply, v222_eq, v214_eq, v151_eq, M12_eq]; rfl

theorem v227_eq (p : Fin 512) (t : Fin 256) : kernelRun1_C.sl.v227 (F := Ideal) c arg2 harg2 arg3 harg3 arg9 arg10 x0 x1 (ix3 (0 : Fin 1) p t) = tScore x0 x1 6 p t := by
  unfold kernelRun1_C.sl.v227 kernelRun1_C.sl.HS1_18 kernelRun1_C.sl.HS1_17 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay25_apply x0 x1 p t

theorem v248_eq (p : Fin 512) (t : Fin 256) : kernelRun1_C.sl.v248 (F := Ideal) c arg2 harg2 arg3 harg3 arg9 arg10 arg11 x0 x1 (ix2 p t) = T7 x0 x1 p t := by
  unfold kernelRun1_C.sl.v248 kernelRun1_C.sl.HS3_8; rw [View.readCov_cons_toLoadRect]
  rw [Pay.pay66_apply, v235_eq, v227_eq, v151_eq, M12_eq]; rfl

theorem v240_eq (p : Fin 512) (t : Fin 256) : kernelRun1_C.sl.v240 (F := Ideal) c arg2 harg2 arg3 harg3 arg9 arg10 x0 x1 (ix3 (0 : Fin 1) p t) = tScore x0 x1 7 p t := by
  unfold kernelRun1_C.sl.v240 kernelRun1_C.sl.HS1_19 kernelRun1_C.sl.HS1_18 kernelRun1_C.sl.HS1_17 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay28_apply, r_5_eq]

theorem v261_eq (p : Fin 512) (t : Fin 256) : kernelRun1_C.sl.v261 (F := Ideal) c arg2 harg2 arg3 harg3 arg9 arg10 arg11 x0 x1 (ix2 p t) = T8 x0 x1 p t := by
  unfold kernelRun1_C.sl.v261 kernelRun1_C.sl.HS3_9; rw [View.readCov_cons_toLoadRect]
  rw [Pay.pay69_apply, v248_eq, v240_eq, v151_eq, M12_eq]; rfl

theorem v253_eq (p : Fin 512) (t : Fin 256) : kernelRun1_C.sl.v253 (F := Ideal) c arg2 harg2 arg3 harg3 arg9 arg10 x0 x1 (ix3 (0 : Fin 1) p t) = tScore x0 x1 8 p t := by
  unfold kernelRun1_C.sl.v253 kernelRun1_C.sl.HS1_20 kernelRun1_C.sl.HS1_19 kernelRun1_C.sl.HS1_18 kernelRun1_C.sl.HS1_17 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay31_apply x0 x1 p t

theorem v274_eq (p : Fin 512) (t : Fin 256) : kernelRun1_C.sl.v274 (F := Ideal) c arg2 harg2 arg3 harg3 arg9 arg10 arg11 x0 x1 (ix2 p t) = T9 x0 x1 p t := by
  unfold kernelRun1_C.sl.v274 kernelRun1_C.sl.HS3_10; rw [View.readCov_cons_toLoadRect]
  rw [Pay.pay72_apply, v261_eq, v253_eq, v151_eq, M12_eq]; rfl

theorem v266_eq (p : Fin 512) (t : Fin 256) : kernelRun1_C.sl.v266 (F := Ideal) c arg2 harg2 arg3 harg3 arg9 arg10 x0 x1 (ix3 (0 : Fin 1) p t) = tScore x0 x1 9 p t := by
  unfold kernelRun1_C.sl.v266 kernelRun1_C.sl.HS1_21 kernelRun1_C.sl.HS1_20 kernelRun1_C.sl.HS1_19 kernelRun1_C.sl.HS1_18 kernelRun1_C.sl.HS1_17 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay34_apply x0 x1 p t

theorem r_11_eq (p : Fin 512) (t : Fin 256) : kernelRun1_C.sl.r_11 (F := Ideal) c arg2 harg2 arg3 harg3 arg9 arg10 x0 x1 (ix2 p t) = tScore x0 x1 9 p t - tMax x0 x1 p t := by
  unfold kernelRun1_C.sl.r_11; rw [Pay.pay73_apply, v266_eq, v151_eq, M12_eq]

theorem v287_eq (p : Fin 512) (t : Fin 256) : kernelRun1_C.sl.v287 (F := Ideal) c arg2 harg2 arg3 harg3 arg9 arg10 arg11 x0 x1 (ix2 p t) = T10 x0 x1 p t := by
  unfold kernelRun1_C.sl.v287 kernelRun1_C.sl.HS3_11; rw [View.readCov_cons_toLoadRect]
  rw [Pay.pay76_apply, v274_eq, r_11_eq]; rfl

theorem v279_eq (p : Fin 512) (t : Fin 256) : kernelRun1_C.sl.v279 (F := Ideal) c arg2 harg2 arg3 harg3 arg9 arg10 x0 x1 (ix3 (0 : Fin 1) p t) = tScore x0 x1 10 p t := by
  unfold kernelRun1_C.sl.v279 kernelRun1_C.sl.HS1_22 kernelRun1_C.sl.HS1_21 kernelRun1_C.sl.HS1_20 kernelRun1_C.sl.HS1_19 kernelRun1_C.sl.HS1_18 kernelRun1_C.sl.HS1_17 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay39_apply]; simp only [r_6_eq, r_7_eq]; rfl

theorem v300_eq (p : Fin 512) (t : Fin 256) : kernelRun1_C.sl.v300 (F := Ideal) c arg2 harg2 arg3 harg3 arg9 arg10 arg11 x0 x1 (ix2 p t) = T11 x0 x1 p t := by
  unfold kernelRun1_C.sl.v300 kernelRun1_C.sl.HS3_12; rw [View.readCov_cons_toLoadRect]
  rw [Pay.pay79_apply, v287_eq, v279_eq, v151_eq, M12_eq]; rfl

theorem v292_eq (p : Fin 512) (t : Fin 256) : kernelRun1_C.sl.v292 (F := Ideal) c arg2 harg2 arg3 harg3 arg9 arg10 x0 x1 (ix3 (0 : Fin 1) p t) = tScore x0 x1 11 p t := by
  unfold kernelRun1_C.sl.v292 kernelRun1_C.sl.HS1_23 kernelRun1_C.sl.HS1_22 kernelRun1_C.sl.HS1_21 kernelRun1_C.sl.HS1_20 kernelRun1_C.sl.HS1_19 kernelRun1_C.sl.HS1_18 kernelRun1_C.sl.HS1_17 kernelRun1_C.sl.HS1_16 kernelRun1_C.sl.HS1_15 kernelRun1_C.sl.HS1_14 kernelRun1_C.sl.HS1_13 kernelRun1_C.sl.HS1_12
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [r_eq, r_1_eq]; exact Pay.pay42_apply x0 x1 p t

theorem r_12_eq (p : Fin 512) (t : Fin 256) : kernelRun1_C.sl.r_12 (F := Ideal) c arg2 harg2 arg3 harg3 arg9 arg10 x0 x1 (ix2 p t) = tExp x0 x1 11 p t := by
  unfold kernelRun1_C.sl.r_12; rw [Pay.pay80_apply, v292_eq, v151_eq, M12_eq]; rfl

theorem v305_eq (p : Fin 512) (t : Fin 256) : kernelRun1_C.sl.v305 (F := Ideal) c arg2 harg2 arg3 harg3 arg9 arg10 arg11 x0 x1 (ix2 p t) = T12 x0 x1 p t := by
  unfold kernelRun1_C.sl.v305 kernelRun1_C.sl.HS3_13; rw [View.readCov_cons_toLoadRect]
  rw [Pay.pay82_apply, v300_eq, r_12_eq]; rfl

theorem r_13_eq (p : Fin 512) (t : Fin 256) : kernelRun1_C.sl.r_13 (F := Ideal) c arg2 harg2 arg3 harg3 arg9 arg10 arg11 x0 x1 (ix2 p t) = tInv x0 x1 p t := by
  unfold kernelRun1_C.sl.r_13; rw [Pay.pay83_apply, v305_eq, T12_eq]; rfl

theorem v308_eq (p : Fin 512) (t : Fin 256) : kernelRun1_C.sl.v308 (F := Ideal) c arg2 harg2 arg3 harg3 arg9 arg10 x0 x1 (ix3 (0 : Fin 1) p t) = tExp x0 x1 0 p t := by
  unfold kernelRun1_C.sl.v308 kernelRun1_C.sl.HS1_24 kernelRun1_C.sl.HS1_23 kernelRun1_C.sl.HS1_22 kernelRun1_C.sl.HS1_21 kernelRun1_C.sl.HS1_20 kernelRun1_C.sl.HS1_19 kernelRun1_C.sl.HS1_18 kernelRun1_C.sl.HS1_17 kernelRun1_C.sl.HS1_16 kernelRun1_C.sl.HS1_15 kernelRun1_C.sl.HS1_14 kernelRun1_C.sl.HS1_13
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay46_apply, r_8_eq]

theorem v321_eq (p : Fin 512) (t : Fin 256) : kernelRun1_C.sl.v321 (F := Ideal) c arg2 harg2 arg3 harg3 arg9 arg10 x0 x1 (ix3 (0 : Fin 1) p t) = tExp x0 x1 1 p t := by
  unfold kernelRun1_C.sl.v321 kernelRun1_C.sl.HS1_24 kernelRun1_C.sl.HS1_23 kernelRun1_C.sl.HS1_22 kernelRun1_C.sl.HS1_21 kernelRun1_C.sl.HS1_20 kernelRun1_C.sl.HS1_19 kernelRun1_C.sl.HS1_18 kernelRun1_C.sl.HS1_17 kernelRun1_C.sl.HS1_16 kernelRun1_C.sl.HS1_15 kernelRun1_C.sl.HS1_14
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay49_apply, v162_eq, v151_eq, M12_eq]; rfl

theorem v334_eq (p : Fin 512) (t : Fin 256) : kernelRun1_C.sl.v334 (F := Ideal) c arg2 harg2 arg3 harg3 arg9 arg10 x0 x1 (ix3 (0 : Fin 1) p t) = tExp x0 x1 2 p t := by
  unfold kernelRun1_C.sl.v334 kernelRun1_C.sl.HS1_24 kernelRun1_C.sl.HS1_23 kernelRun1_C.sl.HS1_22 kernelRun1_C.sl.HS1_21 kernelRun1_C.sl.HS1_20 kernelRun1_C.sl.HS1_19 kernelRun1_C.sl.HS1_18 kernelRun1_C.sl.HS1_17 kernelRun1_C.sl.HS1_16 kernelRun1_C.sl.HS1_15
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay52_apply, v175_eq, v151_eq, M12_eq]; rfl

theorem v347_eq (p : Fin 512) (t : Fin 256) : kernelRun1_C.sl.v347 (F := Ideal) c arg2 harg2 arg3 harg3 arg9 arg10 x0 x1 (ix3 (0 : Fin 1) p t) = tExp x0 x1 3 p t := by
  unfold kernelRun1_C.sl.v347 kernelRun1_C.sl.HS1_24 kernelRun1_C.sl.HS1_23 kernelRun1_C.sl.HS1_22 kernelRun1_C.sl.HS1_21 kernelRun1_C.sl.HS1_20 kernelRun1_C.sl.HS1_19 kernelRun1_C.sl.HS1_18 kernelRun1_C.sl.HS1_17 kernelRun1_C.sl.HS1_16
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay55_apply, v188_eq, v151_eq, M12_eq]; rfl

theorem v360_eq (p : Fin 512) (t : Fin 256) : kernelRun1_C.sl.v360 (F := Ideal) c arg2 harg2 arg3 harg3 arg9 arg10 x0 x1 (ix3 (0 : Fin 1) p t) = tExp x0 x1 4 p t := by
  unfold kernelRun1_C.sl.v360 kernelRun1_C.sl.HS1_24 kernelRun1_C.sl.HS1_23 kernelRun1_C.sl.HS1_22 kernelRun1_C.sl.HS1_21 kernelRun1_C.sl.HS1_20 kernelRun1_C.sl.HS1_19 kernelRun1_C.sl.HS1_18 kernelRun1_C.sl.HS1_17
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay58_apply, v201_eq, v151_eq, M12_eq]; rfl

theorem v373_eq (p : Fin 512) (t : Fin 256) : kernelRun1_C.sl.v373 (F := Ideal) c arg2 harg2 arg3 harg3 arg9 arg10 x0 x1 (ix3 (0 : Fin 1) p t) = tExp x0 x1 5 p t := by
  unfold kernelRun1_C.sl.v373 kernelRun1_C.sl.HS1_24 kernelRun1_C.sl.HS1_23 kernelRun1_C.sl.HS1_22 kernelRun1_C.sl.HS1_21 kernelRun1_C.sl.HS1_20 kernelRun1_C.sl.HS1_19 kernelRun1_C.sl.HS1_18
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay62_apply, v214_eq, v151_eq, M12_eq]; rfl

theorem v386_eq (p : Fin 512) (t : Fin 256) : kernelRun1_C.sl.v386 (F := Ideal) c arg2 harg2 arg3 harg3 arg9 arg10 x0 x1 (ix3 (0 : Fin 1) p t) = tExp x0 x1 6 p t := by
  unfold kernelRun1_C.sl.v386 kernelRun1_C.sl.HS1_24 kernelRun1_C.sl.HS1_23 kernelRun1_C.sl.HS1_22 kernelRun1_C.sl.HS1_21 kernelRun1_C.sl.HS1_20 kernelRun1_C.sl.HS1_19
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay65_apply, v227_eq, v151_eq, M12_eq]; rfl

theorem v399_eq (p : Fin 512) (t : Fin 256) : kernelRun1_C.sl.v399 (F := Ideal) c arg2 harg2 arg3 harg3 arg9 arg10 x0 x1 (ix3 (0 : Fin 1) p t) = tExp x0 x1 7 p t := by
  unfold kernelRun1_C.sl.v399 kernelRun1_C.sl.HS1_24 kernelRun1_C.sl.HS1_23 kernelRun1_C.sl.HS1_22 kernelRun1_C.sl.HS1_21 kernelRun1_C.sl.HS1_20
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay68_apply, v240_eq, v151_eq, M12_eq]; rfl

theorem v412_eq (p : Fin 512) (t : Fin 256) : kernelRun1_C.sl.v412 (F := Ideal) c arg2 harg2 arg3 harg3 arg9 arg10 x0 x1 (ix3 (0 : Fin 1) p t) = tExp x0 x1 8 p t := by
  unfold kernelRun1_C.sl.v412 kernelRun1_C.sl.HS1_24 kernelRun1_C.sl.HS1_23 kernelRun1_C.sl.HS1_22 kernelRun1_C.sl.HS1_21
  rw [View.readCov_cons_of_disjoint]; swap; (dsimp only; exact Rect.unit_disjoint 0 (by decide))
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay71_apply, v253_eq, v151_eq, M12_eq]; rfl

theorem v425_eq (p : Fin 512) (t : Fin 256) : kernelRun1_C.sl.v425 (F := Ideal) c arg2 harg2 arg3 harg3 arg9 arg10 x0 x1 (ix3 (0 : Fin 1) p t) = tExp x0 x1 9 p t := by
  unfold kernelRun1_C.sl.v425 kernelRun1_C.sl.HS1_24 kernelRun1_C.sl.HS1_23 kernelRun1_C.sl.HS1_22
  rw [View.readCov_cons_of_disjoint]; swap; (dsimp only; exact Rect.unit_disjoint 0 (by decide))
  rw [View.readCov_cons_of_disjoint]; swap; (dsimp only; exact Rect.unit_disjoint 0 (by decide))
  rw [View.readCov_cons_toLoadRect]
  rw [Pay.pay75_apply, r_11_eq]; rfl

theorem v438_eq (p : Fin 512) (t : Fin 256) : kernelRun1_C.sl.v438 (F := Ideal) c arg2 harg2 arg3 harg3 arg9 arg10 x0 x1 (ix3 (0 : Fin 1) p t) = tExp x0 x1 10 p t := by
  unfold kernelRun1_C.sl.v438 kernelRun1_C.sl.HS1_24 kernelRun1_C.sl.HS1_23
  rw [View.readCov_cons_of_disjoint]; swap; (dsimp only; exact Rect.unit_disjoint 0 (by decide))
  rw [View.readCov_cons_toLoadRect]
  rw [Pay.pay78_apply, v279_eq, v151_eq, M12_eq]; rfl

theorem v451_eq (p : Fin 512) (t : Fin 256) : kernelRun1_C.sl.v451 (F := Ideal) c arg2 harg2 arg3 harg3 arg9 arg10 x0 x1 (ix3 (0 : Fin 1) p t) = tExp x0 x1 11 p t := by
  unfold kernelRun1_C.sl.v451 kernelRun1_C.sl.HS1_24

  rw [View.readCov_cons_toLoadRect]
  rw [Pay.pay81_apply, r_12_eq]

end Cert.KernelIdeal.R1CC

end
-- ==== Proof.KI.R1PiecesC.lean ====
import proofs.«178773_j13254269075465_2_alg».proof.Proof.KI.R1ChainC
import proofs.«178773_j13254269075465_2_alg».proof.Proof.KI.R1
import Idealize.ShloMosaic.Lib.Pipeline.CanonAppend

set_option maxRecDepth 16384

noncomputable section

/-! # What case C leaves in the accumulator and in the result

The pieces the run stored are the twelve 64-column bands of the accumulator, one per head. Band `h` holds the old band
plus head `h`'s contribution: the head's exponentials over the tile's sum, scaled, against the head's columns of the
value block. Together the bands are one tile's step. -/

namespace Cert.KernelIdeal.R1CC

open Cert.KernelIdeal Cert.KernelIdeal.Gen Cert.KernelIdeal.R1 Cert.KernelIdeal.R1F Cert.KernelIdeal Cert.Attn
open Idealize.ShloMosaic Idealize.ShloMosaic.ValueIdx Idealize.ShloMosaic.Tactic

variable (c : Dev nD) (arg2 : Memref sig .tc .vmem S512x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x768 .bf16) (arg6 : Memref sig .tc .vmem S1x768 .f32) (arg7 : Memref sig .tc .vmem S512x768 .f32) (arg8 : Memref sig .tc .vmem S512x768 .f32) (harg8 : arg8.IsWhole) (arg9 : Memref sig .tc .vmem S12x512x256 .f32) (arg10 : Memref sig .tc .vmem S512x256 .f32) (arg11 : Memref sig .tc .vmem S512x256 .f32) (x0 : Vec Ideal S512x768 .bf16) (x1 : Vec Ideal S256x768 .bf16) (x2 : Vec Ideal S256x768 .bf16) (xs0 : Vec Ideal S512x768 .f32)

theorem v329_eq (p : Fin 512) (d : Fin 64) : kernelRun1_C.sl.v329 (F := Ideal) c arg8 harg8 xs0 (ix2 p d) = xs0 (ix2 p (col 1 d)) := by
  unfold kernelRun1_C.sl.v329
  exact (ld_band arg8 harg8 xs0 64 _ p d (by have := d.isLt; omega)).trans (congrArg xs0 (congrArg (ix2 p) (Fin.ext rfl)))

theorem v342_eq (p : Fin 512) (d : Fin 64) : kernelRun1_C.sl.v342 (F := Ideal) c arg8 harg8 xs0 (ix2 p d) = xs0 (ix2 p (col 2 d)) := by
  unfold kernelRun1_C.sl.v342
  exact (ld_band arg8 harg8 xs0 128 _ p d (by have := d.isLt; omega)).trans (congrArg xs0 (congrArg (ix2 p) (Fin.ext rfl)))

theorem v355_eq (p : Fin 512) (d : Fin 64) : kernelRun1_C.sl.v355 (F := Ideal) c arg8 harg8 xs0 (ix2 p d) = xs0 (ix2 p (col 3 d)) := by
  unfold kernelRun1_C.sl.v355
  exact (ld_band arg8 harg8 xs0 192 _ p d (by have := d.isLt; omega)).trans (congrArg xs0 (congrArg (ix2 p) (Fin.ext rfl)))

theorem v368_eq (p : Fin 512) (d : Fin 64) : kernelRun1_C.sl.v368 (F := Ideal) c arg8 harg8 xs0 (ix2 p d) = xs0 (ix2 p (col 4 d)) := by
  unfold kernelRun1_C.sl.v368
  exact (ld_band arg8 harg8 xs0 256 _ p d (by have := d.isLt; omega)).trans (congrArg xs0 (congrArg (ix2 p) (Fin.ext rfl)))

theorem v381_eq (p : Fin 512) (d : Fin 64) : kernelRun1_C.sl.v381 (F := Ideal) c arg8 harg8 xs0 (ix2 p d) = xs0 (ix2 p (col 5 d)) := by
  unfold kernelRun1_C.sl.v381
  exact (ld_band arg8 harg8 xs0 320 _ p d (by have := d.isLt; omega)).trans (congrArg xs0 (congrArg (ix2 p) (Fin.ext rfl)))

theorem v394_eq (p : Fin 512) (d : Fin 64) : kernelRun1_C.sl.v394 (F := Ideal) c arg8 harg8 xs0 (ix2 p d) = xs0 (ix2 p (col 6 d)) := by
  unfold kernelRun1_C.sl.v394
  exact (ld_band arg8 harg8 xs0 384 _ p d (by have := d.isLt; omega)).trans (congrArg xs0 (congrArg (ix2 p) (Fin.ext rfl)))

theorem v407_eq (p : Fin 512) (d : Fin 64) : kernelRun1_C.sl.v407 (F := Ideal) c arg8 harg8 xs0 (ix2 p d) = xs0 (ix2 p (col 7 d)) := by
  unfold kernelRun1_C.sl.v407
  exact (ld_band arg8 harg8 xs0 448 _ p d (by have := d.isLt; omega)).trans (congrArg xs0 (congrArg (ix2 p) (Fin.ext rfl)))

theorem v420_eq (p : Fin 512) (d : Fin 64) : kernelRun1_C.sl.v420 (F := Ideal) c arg8 harg8 xs0 (ix2 p d) = xs0 (ix2 p (col 8 d)) := by
  unfold kernelRun1_C.sl.v420
  exact (ld_band arg8 harg8 xs0 512 _ p d (by have := d.isLt; omega)).trans (congrArg xs0 (congrArg (ix2 p) (Fin.ext rfl)))

theorem v433_eq (p : Fin 512) (d : Fin 64) : kernelRun1_C.sl.v433 (F := Ideal) c arg8 harg8 xs0 (ix2 p d) = xs0 (ix2 p (col 9 d)) := by
  unfold kernelRun1_C.sl.v433
  exact (ld_band arg8 harg8 xs0 576 _ p d (by have := d.isLt; omega)).trans (congrArg xs0 (congrArg (ix2 p) (Fin.ext rfl)))

theorem v446_eq (p : Fin 512) (d : Fin 64) : kernelRun1_C.sl.v446 (F := Ideal) c arg8 harg8 xs0 (ix2 p d) = xs0 (ix2 p (col 10 d)) := by
  unfold kernelRun1_C.sl.v446
  exact (ld_band arg8 harg8 xs0 640 _ p d (by have := d.isLt; omega)).trans (congrArg xs0 (congrArg (ix2 p) (Fin.ext rfl)))

theorem v459_eq (p : Fin 512) (d : Fin 64) : kernelRun1_C.sl.v459 (F := Ideal) c arg8 harg8 xs0 (ix2 p d) = xs0 (ix2 p (col 11 d)) := by
  unfold kernelRun1_C.sl.v459
  exact (ld_band arg8 harg8 xs0 704 _ p d (by have := d.isLt; omega)).trans (congrArg xs0 (congrArg (ix2 p) (Fin.ext rfl)))

theorem acc0_eq (inb : ∀ a, (![0, 0] : Fin 2 → Nat) a + S512x64.size a ≤ S512x768.size a) (p : Fin 512) (d : Fin 64) :
    View.readAt (Elt Ideal) arg8.view (Rect.unit (s := S512x768) ![0, 0] S512x64.size inb).toLoadRect (harg8.unread xs0) (ix2 p d) = xs0 (ix2 p (col 0 d)) :=
  (ld_band arg8 harg8 xs0 0 inb p d (by have := d.isLt; omega)).trans (congrArg xs0 (congrArg (ix2 p) (Fin.ext (by show 0 + d.val = _; simp [col]))))

theorem r_14_eq (p : Fin 512) (d : Fin 64) : kernelRun1_C.sl.r_14 (F := Ideal) c arg2 harg2 arg3 harg3 arg4 harg4 arg8 harg8 arg9 arg10 arg11 x0 x1 x2 xs0 (ix2 p d) = xs0 (ix2 p (col 1 d)) + tContrib x0 x1 x2 1 p d := by
  unfold kernelRun1_C.sl.r_14; rw [Pay.pay85_apply]
  simp only [r_2_eq, v305_eq, T12_eq, v321_eq, v329_eq, tContrib_apply, tAttn_apply, tInv_apply]

theorem r_15_eq (p : Fin 512) (t : Fin 256) : kernelRun1_C.sl.r_15 (F := Ideal) c arg2 harg2 arg3 harg3 arg9 arg10 arg11 x0 x1 (ix2 p t) = tAttn x0 x1 4 p t := by
  unfold kernelRun1_C.sl.r_15; rw [Pay.pay89_apply]
  simp only [r_13_eq, v360_eq, tAttn_apply]

theorem r_16_eq (p : Fin 512) (d : Fin 64) : kernelRun1_C.sl.r_16 (F := Ideal) c arg2 harg2 arg3 harg3 arg4 harg4 arg9 arg10 arg11 x0 x1 x2 (ix2 p d) = tContrib x0 x1 x2 9 p d := by
  unfold kernelRun1_C.sl.r_16; rw [Pay.pay95_apply]
  simp only [r_2_eq, r_13_eq, v425_eq, tContrib_apply, tAttn_apply]

theorem emb_band (off : Nat) (inb : ∀ a, (![0, off] : Fin 2 → Nat) a + S512x64.size a ≤ S512x768.size a) (h : Fin 12) (hoff : off = h.val * 64) (p : Fin 512) (d : Fin 64) :
    (Rect.unit (s := S512x768) ![0, off] S512x64.size inb).emb (ix2 p d) = ix2 p (col h d) := by
  subst hoff
  funext a; apply Fin.ext; rw [Rect.emb_apply]
  match a with
  | ⟨0, _⟩ => simp [ix2]
  | ⟨1, _⟩ => simp [ix2, col]

/-- Each of the twelve 64-column pieces the run stored into the accumulator is the old band plus that head's
    contribution: one tile's step from what the accumulator held, read at the piece's place. -/
theorem bands_eq : ∀ pc ∈ kernelRun1_C.sl.HS0_12 (F := Ideal) c arg2 harg2 arg3 harg3 arg4 harg4 arg8 harg8 arg9 arg10 arg11 x0 x1 x2 xs0, ∀ x : pc.1.shape.Idx,
    pc.2 x = tileStep x0 x1 x2 xs0 (pc.1.emb x) := by
  unfold kernelRun1_C.sl.HS0_12
  intro pc hpc x
  simp only [List.mem_cons, List.not_mem_nil, or_false] at hpc
  rcases hpc with rfl | rfl | rfl | rfl | rfl | rfl | rfl | rfl | rfl | rfl | rfl | rfl
  · obtain ⟨p, d, rfl⟩ : ∃ (p : Fin 512) (d : Fin 64), x = ix2 p d := ⟨x 0, x 1, eq_ix2 x⟩
    rw [emb_band 704 _ 11 rfl p d, tileStep_col]
    dsimp only
    rw [Pay.pay98_apply]; simp only [r_2_eq, r_13_eq, v451_eq, v459_eq, tContrib_apply, tAttn_apply]
  · obtain ⟨p, d, rfl⟩ : ∃ (p : Fin 512) (d : Fin 64), x = ix2 p d := ⟨x 0, x 1, eq_ix2 x⟩
    rw [emb_band 640 _ 10 rfl p d, tileStep_col]
    dsimp only
    rw [Pay.pay97_apply]; simp only [r_2_eq, r_13_eq, v438_eq, v446_eq, tContrib_apply, tAttn_apply]
  · obtain ⟨p, d, rfl⟩ : ∃ (p : Fin 512) (d : Fin 64), x = ix2 p d := ⟨x 0, x 1, eq_ix2 x⟩
    rw [emb_band 576 _ 9 rfl p d, tileStep_col]
    dsimp only
    rw [Pay.pay96_apply]; simp only [r_16_eq, v433_eq]
  · obtain ⟨p, d, rfl⟩ : ∃ (p : Fin 512) (d : Fin 64), x = ix2 p d := ⟨x 0, x 1, eq_ix2 x⟩
    rw [emb_band 512 _ 8 rfl p d, tileStep_col]
    dsimp only
    rw [Pay.pay94_apply]; simp only [r_2_eq, r_13_eq, v412_eq, v420_eq, tContrib_apply, tAttn_apply]
  · obtain ⟨p, d, rfl⟩ : ∃ (p : Fin 512) (d : Fin 64), x = ix2 p d := ⟨x 0, x 1, eq_ix2 x⟩
    rw [emb_band 448 _ 7 rfl p d, tileStep_col]
    dsimp only
    rw [Pay.pay93_apply]; simp only [r_2_eq, r_13_eq, v399_eq, v407_eq, tContrib_apply, tAttn_apply]
  · obtain ⟨p, d, rfl⟩ : ∃ (p : Fin 512) (d : Fin 64), x = ix2 p d := ⟨x 0, x 1, eq_ix2 x⟩
    rw [emb_band 384 _ 6 rfl p d, tileStep_col]
    dsimp only
    rw [Pay.pay92_apply]; simp only [r_2_eq, r_13_eq, v386_eq, v394_eq, tContrib_apply, tAttn_apply]
  · obtain ⟨p, d, rfl⟩ : ∃ (p : Fin 512) (d : Fin 64), x = ix2 p d := ⟨x 0, x 1, eq_ix2 x⟩
    rw [emb_band 320 _ 5 rfl p d, tileStep_col]
    dsimp only
    rw [Pay.pay91_apply]; simp only [r_2_eq, r_13_eq, v373_eq, v381_eq, tContrib_apply, tAttn_apply]
  · obtain ⟨p, d, rfl⟩ : ∃ (p : Fin 512) (d : Fin 64), x = ix2 p d := ⟨x 0, x 1, eq_ix2 x⟩
    rw [emb_band 256 _ 4 rfl p d, tileStep_col]
    dsimp only
    rw [Pay.pay90_apply]; simp only [r_2_eq, r_15_eq, v368_eq, tContrib_apply]
  · obtain ⟨p, d, rfl⟩ : ∃ (p : Fin 512) (d : Fin 64), x = ix2 p d := ⟨x 0, x 1, eq_ix2 x⟩
    rw [emb_band 192 _ 3 rfl p d, tileStep_col]
    dsimp only
    rw [Pay.pay88_apply]; simp only [r_2_eq, r_13_eq, v347_eq, v355_eq, tContrib_apply, tAttn_apply]
  · obtain ⟨p, d, rfl⟩ : ∃ (p : Fin 512) (d : Fin 64), x = ix2 p d := ⟨x 0, x 1, eq_ix2 x⟩
    rw [emb_band 128 _ 2 rfl p d, tileStep_col]
    dsimp only
    rw [Pay.pay87_apply]; simp only [r_2_eq, r_13_eq, v334_eq, v342_eq, tContrib_apply, tAttn_apply]
  · obtain ⟨p, d, rfl⟩ : ∃ (p : Fin 512) (d : Fin 64), x = ix2 p d := ⟨x 0, x 1, eq_ix2 x⟩
    rw [emb_band 64 _ 1 rfl p d, tileStep_col]
    dsimp only
    rw [Pay.pay86_eq]; exact r_14_eq c arg2 harg2 arg3 harg3 arg4 harg4 arg8 harg8 arg9 arg10 arg11 x0 x1 x2 xs0 p d
  · obtain ⟨p, d, rfl⟩ : ∃ (p : Fin 512) (d : Fin 64), x = ix2 p d := ⟨x 0, x 1, eq_ix2 x⟩
    rw [emb_band 0 _ 0 rfl p d, tileStep_col]
    dsimp only
    rw [Pay.pay84_apply]; simp only [r_2_eq, v305_eq, T12_eq, v308_eq, acc0_eq, tContrib_apply, tAttn_apply, tInv_apply]
    exact congrArg (fun z => z + _) (acc0_eq arg8 harg8 xs0 _ p d)

/-- So the pieces together, at any index of the accumulator, are one tile's step. -/
theorem bands_canon (y : S512x768.Idx) :
    View.canon (kernelRun1_C.sl.HS0_12 (F := Ideal) c arg2 harg2 arg3 harg3 arg4 harg4 arg8 harg8 arg9 arg10 arg11 x0 x1 x2 xs0) y = tileStep x0 x1 x2 xs0 y :=
  View.canon_apply_of_pieces (tileStep x0 x1 x2 xs0) _ (bands_eq c arg2 harg2 arg3 harg3 arg4 harg4 arg8 harg8 arg9 arg10 arg11 x0 x1 x2 xs0) y
    (View.cover_of_tiledL (kernelRun1_C.sl.HS0_12 (F := Ideal) c arg2 harg2 arg3 harg3 arg4 harg4 arg8 harg8 arg9 arg10 arg11 x0 x1 x2 xs0) S512x64.size (by sl_kernel_rfl) y)

/-- What case C leaves in the accumulator is one tile's step from what it held. -/
theorem sout_eq (i : grid1.Coords) (harg5 : arg5.IsWhole) (harg6 : arg6.IsWhole) (harg7 : arg7.IsWhole) (harg9 : arg9.IsWhole) (harg10 : arg10.IsWhole) (harg11 : arg11.IsWhole)
    (hc0 : ¬cond1_0 i) (hc1 : cond1_1 i) (x3 : Vec Ideal S768x768 .bf16) (x4 : Vec Ideal S1x768 .f32) :
    sout1_C_0 (F := Ideal) c i arg2 harg2 arg3 harg3 arg4 harg4 arg5 harg5 arg6 harg6 arg7 harg7 arg8 harg8 arg9 harg9 arg10 harg10 arg11 harg11 hc0 hc1 x0 x1 x2 x3 x4 xs0 = tileStep x0 x1 x2 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 xs0)]
  unfold kernelRun1_C
  dsimp only
  exact funext (bands_canon c arg2 harg2 arg3 harg3 arg4 harg4 arg8 harg8 arg9 arg10 arg11 x0 x1 x2 xs0)

/-- The accumulator read back whole in the epilogue is that step, -/
theorem v467_eq : kernelRun1_C.sl.v467 (F := Ideal) c arg2 harg2 arg3 harg3 arg4 harg4 arg8 harg8 arg9 arg10 arg11 x0 x1 x2 xs0 = tileStep x0 x1 x2 xs0 := by
  unfold kernelRun1_C.sl.v467
  rw [View.readCov_eq_canon']
  funext j
  rw [bands_canon c arg2 harg2 arg3 harg3 arg4 harg4 arg8 harg8 arg9 arg10 arg11 x0 x1 x2 xs0]
  refine congrArg (tileStep x0 x1 x2 xs0) (funext fun a => Fin.ext ?_)
  match a with
  | ⟨0, _⟩ => simp
  | ⟨1, _⟩ => simp

/-- and what case C leaves in the result's buffer is its output projection: the one whole-block piece the run stored. -/
theorem out_eq (i : grid1.Coords) (harg5 : arg5.IsWhole) (harg6 : arg6.IsWhole) (harg7 : arg7.IsWhole) (harg9 : arg9.IsWhole) (harg10 : arg10.IsWhole) (harg11 : arg11.IsWhole)
    (hc0 : ¬cond1_0 i) (hc1 : cond1_1 i) (x3 : Vec Ideal S768x768 .bf16) (x4 : Vec Ideal S1x768 .f32) :
    out1_C_5 (F := Ideal) c i arg2 harg2 arg3 harg3 arg4 harg4 arg5 harg5 arg6 harg6 arg7 harg7 arg8 harg8 arg9 harg9 arg10 harg10 arg11 harg11 hc0 hc1 x0 x1 x2 x3 x4 xs0 = projOut (tileStep x0 x1 x2 xs0) x3 x4 := by
  unfold out1_C_5
  rw [View.read_writes_eq_canon _ _ _ (cover1_C_5 c i arg2 harg2 arg3 harg3 arg4 harg4 arg5 harg5 arg6 harg6 arg7 harg7 arg8 harg8 arg9 harg9 arg10 harg10 arg11 harg11 hc0 hc1 x0 x1 x2 x3 x4 xs0)]
  unfold kernelRun1_C
  dsimp only
  rw [View.canon_unit_zero hz2, Pay.pay99_eq, v467_eq c arg2 harg2 arg3 harg3 arg4 harg4 arg8 harg8 arg9 arg10 arg11 x0 x1 x2 xs0,
    ld_whole (S := S768x768) rfl arg5 harg5 x3 ![0, 0] hz2 _, ld_whole (S := S1x768) rfl arg6 harg6 x4 ![0, 0] hz2 _]

end Cert.KernelIdeal.R1CC

end
-- ==== Proof.lean ====
/-
  Self-attention with the softmax taken over the HEADS, as two tiled kernels, against the plain formula.

  The program first forms qkv = x·[Wq;Wk;Wv]ᵀ + [bq;bk;bv] block of rows by block of rows, then, for each block of 512
  output rows and each block of 256 key/value rows, the twelve heads' scores of the rows against the key rows, their
  maximum over the heads, the exponentials, their sum over the heads, and adds to an accumulator, head by head, the
  normalised and scaled weights against the value rows; after the last block of key/value rows the accumulator is
  projected by Woᵀ and shifted by bo. The reference computes the three projections, the scores for all row pairs at
  once, the softmax over the head axis, the weighted values and the output projection.

  On the extended reals both are one function `Cert.Attn.G` of the nine arguments: a sum over all 4096 key/value rows
  is the sum over the sixteen blocks of the sums inside each block (no finiteness needed), and a weight times the
  inverse of the heads' sum is the weight over that sum because, the inputs being finite, the sum is a real number at
  least 1. Changes of float format are the identity there.

  The frames: each kernel's body is run symbolically once per way its two tests on the block index can fall (first
  block, a middle block, last block); the accumulator is carried from one grid point to the next at the value the
  recursion over the points gives it; the one array the attention kernel reads through three windows is dealt to them
  in three shares and put together again when the kernel returns.
-/
import proofs.«178773_j13254269075465_2_alg».proof.Defs
import proofs.«178773_j13254269075465_2_alg».proof.Proof.Gen.Kernel
import proofs.«178773_j13254269075465_2_alg».proof.Proof.Gen.KernelIdeal
import proofs.«178773_j13254269075465_2_alg».proof.Proof.Gen.ReferenceIdeal
import proofs.«178773_j13254269075465_2_alg».proof.Proof.Gen.Pre_finite_inputs
import proofs.«178773_j13254269075465_2_alg».proof.Proof.K.Run
import proofs.«178773_j13254269075465_2_alg».proof.Proof.KI.Final
import proofs.«178773_j13254269075465_2_alg».proof.Proof.KI.Glue
import proofs.«178773_j13254269075465_2_alg».proof.Proof.KI.R1PiecesA
import proofs.«178773_j13254269075465_2_alg».proof.Proof.KI.R1PiecesB
import proofs.«178773_j13254269075465_2_alg».proof.Proof.KI.R1PiecesC
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m g _ => Cert.Kernel.Asm.frame (F := Bits) m g

/-- The same program read on the extended reals. -/
theorem frame_ki : Cert.frame_KernelIdeal := fun m g _ => Cert.KernelIdeal.Asm.frame (F := Ideal) m g

/-- The reference is a line of host operations: its run, with the result dropped. -/
theorem frame_ri : Cert.frame_ReferenceIdeal := fun m g _ =>
  (θ_run Cert.ReferenceIdeal.defs _ _).mono (fun _ h c => (h c).2) (Cert.ReferenceIdeal.Value.run (F := Ideal) m g)

/-- Nothing was rewritten between the program and its reading on the extended reals. -/
theorem preserves : Cert.preserves_Kernel_KernelIdeal := trivial

/-- At a first block of key/value rows the accumulator ends at one tile's step from zero, -/
theorem pieceA : Cert.KernelIdeal.R1V.PieceA := fun c i arg2 harg2 arg3 harg3 arg4 harg4 arg5 harg5 arg6 harg6 arg7 harg7 arg8 harg8 arg9 harg9 arg10 harg10 arg11 harg11 hc0 hc1 x0 x1 x2 x3 x4 =>
  Cert.KernelIdeal.R1CA.sout_eq (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (hc0 := hc0) (hc1 := hc1) (x0 := x0) (x1 := x1) (x2 := x2) (x3 := x3) (x4 := x4)

/-- at a middle block at one tile's step from what it held, -/
theorem pieceB : Cert.KernelIdeal.R1V.PieceB := fun c i arg2 harg2 arg3 harg3 arg4 harg4 arg5 harg5 arg6 harg6 arg7 harg7 arg8 harg8 arg9 harg9 arg10 harg10 arg11 harg11 hc0 hc1 x0 x1 x2 x3 x4 xs0 =>
  Cert.KernelIdeal.R1CB.sout_eq c arg2 harg2 arg3 harg3 arg4 harg4 arg5 arg6 arg7 arg8 harg8 arg9 arg10 arg11 x0 x1 x2 xs0 i harg5 harg6 harg7 harg9 harg10 harg11 hc0 hc1 x3 x4

/-- at the last block likewise, -/
theorem pieceC : Cert.KernelIdeal.R1V.PieceC := fun c i arg2 harg2 arg3 harg3 arg4 harg4 arg5 harg5 arg6 harg6 arg7 harg7 arg8 harg8 arg9 harg9 arg10 harg10 arg11 harg11 hc0 hc1 x0 x1 x2 x3 x4 xs0 =>
  Cert.KernelIdeal.R1CC.sout_eq (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (hc0 := hc0) (hc1 := hc1) (x0 := x0) (x1 := x1) (x2 := x2) (x3 := x3) (x4 := x4) (xs0 := xs0)

/-- and the result's block is that accumulator's output projection. -/
theorem pieceO : Cert.KernelIdeal.R1V.PieceO := fun c i arg2 harg2 arg3 harg3 arg4 harg4 arg5 harg5 arg6 harg6 arg7 harg7 arg8 harg8 arg9 harg9 arg10 harg10 arg11 harg11 hc0 hc1 x0 x1 x2 x3 x4 xs0 =>
  Cert.KernelIdeal.R1CC.out_eq (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (hc0 := hc0) (hc1 := hc1) (x0 := x0) (x1 := x1) (x2 := x2) (x3 := x3) (x4 := x4) (xs0 := xs0)

/-- From memories agreeing on the arguments both programs end at `Cert.Attn.G` of the arguments. -/
theorem algebraic : Cert.algebraic_KernelIdeal_ReferenceIdeal :=
  Cert.KernelIdeal.Top.algebraic_of pieceA pieceB pieceC pieceO
    Cert.KernelIdeal.Asm.entry_qkv Cert.KernelIdeal.Asm.entry_wo Cert.KernelIdeal.Asm.entry_bo

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
